-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  main_v8
-- ==== Kernel.lean ====
abbrev S32x1x512x512 : Shape := ⟨4, ![32, 1, 512, 512]⟩
abbrev S2x8x128 : Shape := ⟨3, ![2, 8, 128]⟩
abbrev S1x1x512x512 : Shape := ⟨4, ![1, 1, 512, 512]⟩
abbrev S1x8x128 : Shape := ⟨3, ![1, 8, 128]⟩
abbrev S8x128 : Shape := ⟨2, ![8, 128]⟩
abbrev S512x512 : Shape := ⟨2, ![512, 512]⟩
abbrev S511x512 : Shape := ⟨2, ![511, 512]⟩
abbrev S1x512 : Shape := ⟨2, ![1, 512]⟩
abbrev S512x511 : Shape := ⟨2, ![512, 511]⟩
abbrev S512x1 : Shape := ⟨2, ![512, 1]⟩
abbrev S1x512x512 : Shape := ⟨3, ![1, 512, 512]⟩
abbrev S1 : Shape := ⟨1, ![1]⟩
abbrev S1x1x1 : Shape := ⟨3, ![1, 1, 1]⟩
abbrev S5 : Shape := ⟨1, ![5]⟩
abbrev S123 : Shape := ⟨1, ![123]⟩
abbrev S128 : Shape := ⟨1, ![128]⟩
abbrev S1x128 : Shape := ⟨2, ![1, 128]⟩
abbrev S7x128 : Shape := ⟨2, ![7, 128]⟩
abbrev S_ : Shape := ⟨0, ![]⟩
abbrev S1x5 : Shape := ⟨2, ![1, 5]⟩

abbrev nBuf : Space → Nat
  | .hbm => 36
  | .vmem => 11
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S2x8x128, .f32⟩
  | .hbm, ⟨3, _⟩ => ⟨S_, .f32⟩
  | .hbm, ⟨4, _⟩ => ⟨S8x128, .f32⟩
  | .hbm, ⟨5, _⟩ => ⟨S1x5, .f32⟩
  | .hbm, ⟨6, _⟩ => ⟨S5, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x1x512x512, .f32⟩
  | .local _ .vmem, ⟨7, _⟩ => ⟨S1x1x512x512, .f32⟩
  | .local _ .vmem, ⟨8, _⟩ => ⟨S1x8x128, .f32⟩
  | .local _ .vmem, ⟨9, _⟩ => ⟨S1x8x128, .f32⟩
  | .local _ .vmem, ⟨10, _⟩ => ⟨S8x128, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v96 : BitVec 1 := Scalar.cmpi .eq arg1 c15_i32
  let v97 : BitVec 32 := Scalar.extui v96
  let c0_i32_39 : BitVec 32 := 0#32
  let v98 : BitVec 1 := Scalar.cmpi .ne v97 c0_i32_39
  v98

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.subi v1 c1_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  let c0_i32_2 : BitVec 32 := 0#32
  let c0_i32_3 : BitVec 32 := 0#32
  ![v4.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c0_i32 : BitVec 32 := 0#32
  let c31_i32 : BitVec 32 := 31#32
  let v3 : BitVec 32 := Scalar.maxsi c0_i32 v2
  let v4 : BitVec 32 := Scalar.minsi c31_i32 v3
  let c0_i32_0 : BitVec 32 := 0#32
  let c0_i32_1 : BitVec 32 := 0#32
  let c0_i32_2 : BitVec 32 := 0#32
  let c0_i32_3 : BitVec 32 := 0#32
  ![v4.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  slices_S512x512_o1_0_S511x512 : S512x512.Slices ![1, 0] S511x512
  slices_S512x512_o511_0_S1x512 : S512x512.Slices ![511, 0] S1x512
  concatenates_S511x512_S1x512_S512x512_d0 : Shape.Concatenates [S511x512, S1x512] S512x512 0
  slices_S512x512_o0_0_S1x512 : S512x512.Slices ![0, 0] S1x512
  slices_S512x512_o0_0_S511x512 : S512x512.Slices ![0, 0] S511x512
  concatenates_S1x512_S511x512_S512x512_d0 : Shape.Concatenates [S1x512, S511x512] S512x512 0
  slices_S512x512_o0_1_S512x511 : S512x512.Slices ![0, 1] S512x511
  slices_S512x512_o0_511_S512x1 : S512x512.Slices ![0, 511] S512x1
  concatenates_S512x511_S512x1_S512x512_d1 : Shape.Concatenates [S512x511, S512x1] S512x512 1
  slices_S512x512_o0_0_S512x1 : S512x512.Slices ![0, 0] S512x1
  slices_S512x512_o0_0_S512x511 : S512x512.Slices ![0, 0] S512x511
  concatenates_S512x1_S512x511_S512x512_d1 : Shape.Concatenates [S512x1, S512x511] S512x512 1
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  concatenates_S1_S1_S1_S1_S1_S5_d0 : Shape.Concatenates [S1, S1, S1, S1, S1] S5 0
  concatenates_S5_S123_S128_d0 : Shape.Concatenates [S5, S123] S128 0
  shapeCasts_S128_S1x128 : S128.ShapeCasts S1x128
  concatenates_S1x128_S7x128_S8x128_d0 : Shape.Concatenates [S1x128, S7x128] S8x128 0
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x128_S8x128_d0 : S2x8x128.ReducesTo [0] S8x128
  h_S_ : 0 < S_.numel
  slices_S8x128_S1x5_0_0 : S8x128.Slices ![0, 0] S1x5
  shapeCasts_S1x5_S5 : S1x5.ShapeCasts S5
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S32x1x512x512.size a
  hwx0_0 : ∀ i : grid0.Coords, EltTy.bits .f32 = 32 ∨ (Rect.block (s := S32x1x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S32x1x512x512.size a
  hwx0_1 : ∀ i : grid0.Coords, EltTy.bits .f32 = 32 ∨ (Rect.block (s := S32x1x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S32x1x512x512.size a
  hwx0_2 : ∀ i : grid0.Coords, EltTy.bits .f32 = 32 ∨ (Rect.block (s := S32x1x512x512) S1x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x512.size a ≤ S32x1x512x512.size a
  hwx0_3 : ∀ i : grid0.Coords, EltTy.bits .f32 = 32 ∨ (Rect.block (s := S32x1x512x512) S1x1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x1x512x512 : Shape := ⟨4, ![32, 1, 512, 512]⟩
abbrev S_ : Shape := ⟨0, ![]⟩
abbrev S32 : Shape := ⟨1, ![32]⟩
abbrev S32x1 : Shape := ⟨2, ![32, 1]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 350
  | .vmem => 0
  | .smem => 0
  | _ => 0

abbrev hbmTy0_0 (i : Nat) : BufTy := match i % 128 with
  | 0 => ⟨S32x1x512x512, .f32⟩
  | 1 => ⟨S32x1x512x512, .f32⟩
  | 2 => ⟨S32x1x512x512, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S32x1x512x512, .f32⟩
  | 21 => ⟨S32x1x512x512, .i1⟩
  | 22 => ⟨S_, .i1⟩
  | 23 => ⟨S32x1x512x512, .i1⟩
  | 24 => ⟨S32, .i32⟩
  | 25 => ⟨S_, .i32⟩
  | 26 => ⟨S32, .i32⟩
  | 27 => ⟨S32, .i32⟩
  | 28 => ⟨S_, .i32⟩
  | 29 => ⟨S_, .i32⟩
  | 30 => ⟨S_, .i32⟩
  | 31 => ⟨S32, .i32⟩
  | 32 => ⟨S32, .i32⟩
  | 33 => ⟨S_, .i32⟩
  | 34 => ⟨S32, .i32⟩
  | 35 => ⟨S32, .i32⟩
  | 36 => ⟨S_, .i32⟩
  | 37 => ⟨S32, .i32⟩
  | 38 => ⟨S32, .i1⟩
  | 39 => ⟨S_, .i32⟩
  | 40 => ⟨S32, .i32⟩
  | 41 => ⟨S32, .i32⟩
  | 42 => ⟨S32, .i32⟩
  | 43 => ⟨S32x1, .i32⟩
  | 44 => ⟨S1, .i32⟩
  | 45 => ⟨S_, .i32⟩
  | 46 => ⟨S32x1, .i32⟩
  | 47 => ⟨S32x1, .i1⟩
  | 48 => ⟨S1x1, .i32⟩
  | 49 => ⟨S32x1, .i32⟩
  | 50 => ⟨S32x1, .i1⟩
  | 51 => ⟨S32x1, .i1⟩
  | 52 => ⟨S_, .i1⟩
  | 53 => ⟨S32, .i1⟩
  | 54 => ⟨S32x1x512x512, .i1⟩
  | 55 => ⟨S32x1x512x512, .i1⟩
  | 56 => ⟨S_, .i1⟩
  | 57 => ⟨S32x1x512x512, .i1⟩
  | 58 => ⟨S32x1x512x512, .i1⟩
  | 59 => ⟨S32x1x512x512, .i1⟩
  | 60 => ⟨S32x1x512x512, .i1⟩
  | 61 => ⟨S32, .i32⟩
  | 62 => ⟨S_, .i32⟩
  | 63 => ⟨S32, .i32⟩
  | 64 => ⟨S32, .i32⟩
  | 65 => ⟨S_, .i32⟩
  | 66 => ⟨S_, .i32⟩
  | 67 => ⟨S_, .i32⟩
  | 68 => ⟨S32, .i32⟩
  | 69 => ⟨S32, .i32⟩
  | 70 => ⟨S_, .i32⟩
  | 71 => ⟨S32, .i32⟩
  | 72 => ⟨S32, .i32⟩
  | 73 => ⟨S_, .i32⟩
  | 74 => ⟨S32, .i32⟩
  | 75 => ⟨S32, .i1⟩
  | 76 => ⟨S_, .i32⟩
  | 77 => ⟨S32, .i32⟩
  | 78 => ⟨S32, .i32⟩
  | 79 => ⟨S32, .i32⟩
  | 80 => ⟨S32x1, .i32⟩
  | 81 => ⟨S1, .i32⟩
  | 82 => ⟨S_, .i32⟩
  | 83 => ⟨S32x1, .i32⟩
  | 84 => ⟨S32x1, .i1⟩
  | 85 => ⟨S1x1, .i32⟩
  | 86 => ⟨S32x1, .i32⟩
  | 87 => ⟨S32x1, .i1⟩
  | 88 => ⟨S32x1, .i1⟩
  | 89 => ⟨S_, .i1⟩
  | 90 => ⟨S32, .i1⟩
  | 91 => ⟨S32x1x512x512, .i1⟩
  | 92 => ⟨S32x1x512x512, .i1⟩
  | 93 => ⟨S_, .i1⟩
  | 94 => ⟨S32x1x512x512, .i1⟩
  | 95 => ⟨S32x1x512x512, .i1⟩
  | 96 => ⟨S32x1x512x512, .i1⟩
  | 97 => ⟨S32x1x512x512, .i1⟩
  | 98 => ⟨S1, .i32⟩
  | 99 => ⟨S_, .i32⟩
  | 100 => ⟨S1, .i32⟩
  | 101 => ⟨S1, .i32⟩
  | 102 => ⟨S_, .i32⟩
  | 103 => ⟨S_, .i32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S_, .i32⟩
  | 111 => ⟨S1, .i32⟩
  | 112 => ⟨S1, .i1⟩
  | 113 => ⟨S_, .i32⟩
  | 114 => ⟨S1, .i32⟩
  | 115 => ⟨S1, .i32⟩
  | 116 => ⟨S1, .i32⟩
  | 117 => ⟨S1x1, .i32⟩
  | 118 => ⟨S1, .i32⟩
  | 119 => ⟨S_, .i32⟩
  | 120 => ⟨S1x1, .i32⟩
  | 121 => ⟨S1x1, .i1⟩
  | 122 => ⟨S1x1, .i32⟩
  | 123 => ⟨S1x1, .i1⟩
  | 124 => ⟨S1x1, .i1⟩
  | 125 => ⟨S_, .i1⟩
  | 126 => ⟨S1, .i1⟩
  | 127 => ⟨S32x1x512x512, .i1⟩
  | _ => ⟨S32x1x512x512, .f32⟩

abbrev hbmTy0_1 (i : Nat) : BufTy := match i % 128 with
  | 0 => ⟨S32x1x512x512, .i1⟩
  | 1 => ⟨S_, .i1⟩
  | 2 => ⟨S32x1x512x512, .i1⟩
  | 3 => ⟨S32x1x512x512, .i1⟩
  | 4 => ⟨S32x1x512x512, .i1⟩
  | 5 => ⟨S32x1x512x512, .i1⟩
  | 6 => ⟨S1, .i32⟩
  | 7 => ⟨S_, .i32⟩
  | 8 => ⟨S1, .i32⟩
  | 9 => ⟨S1, .i32⟩
  | 10 => ⟨S_, .i32⟩
  | 11 => ⟨S_, .i32⟩
  | 12 => ⟨S_, .i32⟩
  | 13 => ⟨S1, .i32⟩
  | 14 => ⟨S1, .i32⟩
  | 15 => ⟨S_, .i32⟩
  | 16 => ⟨S1, .i32⟩
  | 17 => ⟨S1, .i32⟩
  | 18 => ⟨S_, .i32⟩
  | 19 => ⟨S1, .i32⟩
  | 20 => ⟨S1, .i1⟩
  | 21 => ⟨S_, .i32⟩
  | 22 => ⟨S1, .i32⟩
  | 23 => ⟨S1, .i32⟩
  | 24 => ⟨S1, .i32⟩
  | 25 => ⟨S1x1, .i32⟩
  | 26 => ⟨S1, .i32⟩
  | 27 => ⟨S_, .i32⟩
  | 28 => ⟨S1x1, .i32⟩
  | 29 => ⟨S1x1, .i1⟩
  | 30 => ⟨S1x1, .i32⟩
  | 31 => ⟨S1x1, .i1⟩
  | 32 => ⟨S1x1, .i1⟩
  | 33 => ⟨S_, .i1⟩
  | 34 => ⟨S1, .i1⟩
  | 35 => ⟨S32x1x512x512, .i1⟩
  | 36 => ⟨S32x1x512x512, .i1⟩
  | 37 => ⟨S_, .i1⟩
  | 38 => ⟨S32x1x512x512, .i1⟩
  | 39 => ⟨S32x1x512x512, .i1⟩
  | 40 => ⟨S32x1x512x512, .i1⟩
  | 41 => ⟨S32x1x512x512, .i1⟩
  | 42 => ⟨S512, .i32⟩
  | 43 => ⟨S_, .i32⟩
  | 44 => ⟨S512, .i32⟩
  | 45 => ⟨S512, .i32⟩
  | 46 => ⟨S_, .i32⟩
  | 47 => ⟨S_, .i32⟩
  | 48 => ⟨S_, .i32⟩
  | 49 => ⟨S512, .i32⟩
  | 50 => ⟨S512, .i32⟩
  | 51 => ⟨S_, .i32⟩
  | 52 => ⟨S512, .i32⟩
  | 53 => ⟨S512, .i32⟩
  | 54 => ⟨S_, .i32⟩
  | 55 => ⟨S512, .i32⟩
  | 56 => ⟨S512, .i1⟩
  | 57 => ⟨S_, .i32⟩
  | 58 => ⟨S512, .i32⟩
  | 59 => ⟨S512, .i32⟩
  | 60 => ⟨S512, .i32⟩
  | 61 => ⟨S512x1, .i32⟩
  | 62 => ⟨S1, .i32⟩
  | 63 => ⟨S_, .i32⟩
  | 64 => ⟨S512x1, .i32⟩
  | 65 => ⟨S512x1, .i1⟩
  | 66 => ⟨S1x1, .i32⟩
  | 67 => ⟨S512x1, .i32⟩
  | 68 => ⟨S512x1, .i1⟩
  | 69 => ⟨S512x1, .i1⟩
  | 70 => ⟨S_, .i1⟩
  | 71 => ⟨S512, .i1⟩
  | 72 => ⟨S32x1x512x512, .i1⟩
  | 73 => ⟨S32x1x512x512, .i1⟩
  | 74 => ⟨S_, .i1⟩
  | 75 => ⟨S32x1x512x512, .i1⟩
  | 76 => ⟨S32x1x512x512, .i1⟩
  | 77 => ⟨S32x1x512x512, .i1⟩
  | 78 => ⟨S32x1x512x512, .i1⟩
  | 79 => ⟨S512, .i32⟩
  | 80 => ⟨S_, .i32⟩
  | 81 => ⟨S512, .i32⟩
  | 82 => ⟨S512, .i32⟩
  | 83 => ⟨S_, .i32⟩
  | 84 => ⟨S_, .i32⟩
  | 85 => ⟨S_, .i32⟩
  | 86 => ⟨S512, .i32⟩
  | 87 => ⟨S512, .i32⟩
  | 88 => ⟨S_, .i32⟩
  | 89 => ⟨S512, .i32⟩
  | 90 => ⟨S512, .i32⟩
  | 91 => ⟨S_, .i32⟩
  | 92 => ⟨S512, .i32⟩
  | 93 => ⟨S512, .i1⟩
  | 94 => ⟨S_, .i32⟩
  | 95 => ⟨S512, .i32⟩
  | 96 => ⟨S512, .i32⟩
  | 97 => ⟨S512, .i32⟩
  | 98 => ⟨S512x1, .i32⟩
  | 99 => ⟨S1, .i32⟩
  | 100 => ⟨S_, .i32⟩
  | 101 => ⟨S512x1, .i32⟩
  | 102 => ⟨S512x1, .i1⟩
  | 103 => ⟨S1x1, .i32⟩
  | 104 => ⟨S512x1, .i32⟩
  | 105 => ⟨S512x1, .i1⟩
  | 106 => ⟨S512x1, .i1⟩
  | 107 => ⟨S_, .i1⟩
  | 108 => ⟨S512, .i1⟩
  | 109 => ⟨S32x1x512x512, .i1⟩
  | 110 => ⟨S32x1x512x512, .i1⟩
  | 111 => ⟨S_, .i1⟩
  | 112 => ⟨S32x1x512x512, .i1⟩
  | 113 => ⟨S32x1x512x512, .i1⟩
  | 114 => ⟨S32x1x512x512, .i1⟩
  | 115 => ⟨S32x1x512x512, .i1⟩
  | 116 => ⟨S512, .i32⟩
  | 117 => ⟨S_, .i32⟩
  | 118 => ⟨S512, .i32⟩
  | 119 => ⟨S512, .i32⟩
  | 120 => ⟨S_, .i32⟩
  | 121 => ⟨S_, .i32⟩
  | 122 => ⟨S_, .i32⟩
  | 123 => ⟨S512, .i32⟩
  | 124 => ⟨S512, .i32⟩
  | 125 => ⟨S_, .i32⟩
  | 126 => ⟨S512, .i32⟩
  | 127 => ⟨S512, .i32⟩
  | _ => ⟨S32x1x512x512, .f32⟩

abbrev hbmTy0_2 (i : Nat) : BufTy := match i % 128 with
  | 0 => ⟨S_, .i32⟩
  | 1 => ⟨S512, .i32⟩
  | 2 => ⟨S512, .i1⟩
  | 3 => ⟨S_, .i32⟩
  | 4 => ⟨S512, .i32⟩
  | 5 => ⟨S512, .i32⟩
  | 6 => ⟨S512, .i32⟩
  | 7 => ⟨S512x1, .i32⟩
  | 8 => ⟨S1, .i32⟩
  | 9 => ⟨S_, .i32⟩
  | 10 => ⟨S512x1, .i32⟩
  | 11 => ⟨S512x1, .i1⟩
  | 12 => ⟨S1x1, .i32⟩
  | 13 => ⟨S512x1, .i32⟩
  | 14 => ⟨S512x1, .i1⟩
  | 15 => ⟨S512x1, .i1⟩
  | 16 => ⟨S_, .i1⟩
  | 17 => ⟨S512, .i1⟩
  | 18 => ⟨S32x1x512x512, .i1⟩
  | 19 => ⟨S32x1x512x512, .i1⟩
  | 20 => ⟨S_, .i1⟩
  | 21 => ⟨S32x1x512x512, .i1⟩
  | 22 => ⟨S32x1x512x512, .i1⟩
  | 23 => ⟨S32x1x512x512, .i1⟩
  | 24 => ⟨S32x1x512x512, .i1⟩
  | 25 => ⟨S512, .i32⟩
  | 26 => ⟨S_, .i32⟩
  | 27 => ⟨S512, .i32⟩
  | 28 => ⟨S512, .i32⟩
  | 29 => ⟨S_, .i32⟩
  | 30 => ⟨S_, .i32⟩
  | 31 => ⟨S_, .i32⟩
  | 32 => ⟨S512, .i32⟩
  | 33 => ⟨S512, .i32⟩
  | 34 => ⟨S_, .i32⟩
  | 35 => ⟨S512, .i32⟩
  | 36 => ⟨S512, .i32⟩
  | 37 => ⟨S_, .i32⟩
  | 38 => ⟨S512, .i32⟩
  | 39 => ⟨S512, .i1⟩
  | 40 => ⟨S_, .i32⟩
  | 41 => ⟨S512, .i32⟩
  | 42 => ⟨S512, .i32⟩
  | 43 => ⟨S512, .i32⟩
  | 44 => ⟨S512x1, .i32⟩
  | 45 => ⟨S1, .i32⟩
  | 46 => ⟨S_, .i32⟩
  | 47 => ⟨S512x1, .i32⟩
  | 48 => ⟨S512x1, .i1⟩
  | 49 => ⟨S1x1, .i32⟩
  | 50 => ⟨S512x1, .i32⟩
  | 51 => ⟨S512x1, .i1⟩
  | 52 => ⟨S512x1, .i1⟩
  | 53 => ⟨S_, .i1⟩
  | 54 => ⟨S512, .i1⟩
  | 55 => ⟨S32x1x512x512, .i1⟩
  | 56 => ⟨S32x1x512x512, .i1⟩
  | 57 => ⟨S_, .i1⟩
  | 58 => ⟨S32x1x512x512, .i1⟩
  | 59 => ⟨S32x1x512x512, .i1⟩
  | 60 => ⟨S32x1x512x512, .i1⟩
  | 61 => ⟨S32x1x512x512, .i1⟩
  | 62 => ⟨S32x1x512x512, .i1⟩
  | 63 => ⟨S32x1x512x512, .f32⟩
  | 64 => ⟨S_, .f32⟩
  | 65 => ⟨S_, .f32⟩
  | 66 => ⟨S_, .f32⟩
  | 67 => ⟨S32x1x512x512, .f32⟩
  | 68 => ⟨S32x1x512x512, .f32⟩
  | 69 => ⟨S_, .f32⟩
  | 70 => ⟨S32x1x512x512, .f32⟩
  | 71 => ⟨S32x1x512x512, .f32⟩
  | 72 => ⟨S32x1x512x512, .f32⟩
  | 73 => ⟨S32x1x512x512, .f32⟩
  | 74 => ⟨S_, .f32⟩
  | 75 => ⟨S32x1x512x512, .f32⟩
  | 76 => ⟨S32x1x512x512, .f32⟩
  | 77 => ⟨S32x1x512x512, .f32⟩
  | 78 => ⟨S32x1x512x512, .f32⟩
  | 79 => ⟨S32x1x512x512, .f32⟩
  | 80 => ⟨S32x1x512x512, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | _ => ⟨S32x1x512x512, .f32⟩

abbrev hbmTy (i : Nat) : BufTy := match i / 128 with
  | 0 => hbmTy0_0 i
  | 1 => hbmTy0_1 i
  | 2 => hbmTy0_2 i
  | _ => ⟨S32x1x512x512, .f32⟩

abbrev bufTy : (tb : Table) → Fin (tcTables nBuf tb) → BufTy
  | .hbm, ⟨i, _⟩ => hbmTy i
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_cst_3 : Ref sig .tc := ⟨.hbm, 11, rfl⟩
abbrev main_v5 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_cst_5 : Ref sig .tc := ⟨.hbm, 17, rfl⟩
abbrev main_v9 : Ref sig .tc := ⟨.hbm, 18, rfl⟩
abbrev main_cst_6 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_7 : Ref sig .tc := ⟨.hbm, 25, rfl⟩
abbrev main_v14 : Ref sig .tc := ⟨.hbm, 26, rfl⟩
abbrev main_v15 : Ref sig .tc := ⟨.hbm, 27, rfl⟩
abbrev main_c_8 : Ref sig .tc := ⟨.hbm, 28, rfl⟩
abbrev main_c_9 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v16 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_c_4 : Ref sig .tc := ⟨.hbm, 56, rfl⟩
abbrev main_call1_v15 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_c_10 : Ref sig .tc := ⟨.hbm, 62, rfl⟩
abbrev main_v21 : Ref sig .tc := ⟨.hbm, 63, rfl⟩
abbrev main_v22 : Ref sig .tc := ⟨.hbm, 64, rfl⟩
abbrev main_c_11 : Ref sig .tc := ⟨.hbm, 65, rfl⟩
abbrev main_c_12 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v23 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_c_1 : Ref sig .tc := ⟨.hbm, 81, rfl⟩
abbrev main_call3_c_2 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_3 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_call3_c_4 : Ref sig .tc := ⟨.hbm, 93, rfl⟩
abbrev main_call3_v15 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_c_13 : Ref sig .tc := ⟨.hbm, 99, rfl⟩
abbrev main_v28 : Ref sig .tc := ⟨.hbm, 100, rfl⟩
abbrev main_v29 : Ref sig .tc := ⟨.hbm, 101, rfl⟩
abbrev main_c_14 : Ref sig .tc := ⟨.hbm, 102, rfl⟩
abbrev main_c_15 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_call4_v3 : Ref sig .tc := ⟨.hbm, 107, rfl⟩
abbrev main_call4_v4 : Ref sig .tc := ⟨.hbm, 108, rfl⟩
abbrev main_v30 : Ref sig .tc := ⟨.hbm, 109, rfl⟩
abbrev main_call5_c : Ref sig .tc := ⟨.hbm, 110, rfl⟩
abbrev main_call5_v0 : Ref sig .tc := ⟨.hbm, 111, rfl⟩
abbrev main_call5_v1 : Ref sig .tc := ⟨.hbm, 112, rfl⟩
abbrev main_call5_c_0 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_call5_v5 : Ref sig .tc := ⟨.hbm, 117, rfl⟩
abbrev main_call5_c_1 : Ref sig .tc := ⟨.hbm, 118, rfl⟩
abbrev main_call5_c_2 : Ref sig .tc := ⟨.hbm, 119, rfl⟩
abbrev main_call5_v6 : Ref sig .tc := ⟨.hbm, 120, rfl⟩
abbrev main_call5_v7 : Ref sig .tc := ⟨.hbm, 121, rfl⟩
abbrev main_call5_v8 : Ref sig .tc := ⟨.hbm, 122, rfl⟩
abbrev main_call5_v9 : Ref sig .tc := ⟨.hbm, 123, rfl⟩
abbrev main_call5_v10 : Ref sig .tc := ⟨.hbm, 124, rfl⟩
abbrev main_call5_c_3 : Ref sig .tc := ⟨.hbm, 125, rfl⟩
abbrev main_call5_v11 : Ref sig .tc := ⟨.hbm, 126, rfl⟩
abbrev main_call5_v12 : Ref sig .tc := ⟨.hbm, 127, rfl⟩
abbrev main_call5_v13 : Ref sig .tc := ⟨.hbm, 128, rfl⟩
abbrev main_call5_c_4 : Ref sig .tc := ⟨.hbm, 129, rfl⟩
abbrev main_call5_v14 : Ref sig .tc := ⟨.hbm, 130, rfl⟩
abbrev main_v31 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_c_16 : Ref sig .tc := ⟨.hbm, 135, rfl⟩
abbrev main_v35 : Ref sig .tc := ⟨.hbm, 136, rfl⟩
abbrev main_v36 : Ref sig .tc := ⟨.hbm, 137, rfl⟩
abbrev main_c_17 : Ref sig .tc := ⟨.hbm, 138, rfl⟩
abbrev main_c_18 : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_v37 : Ref sig .tc := ⟨.hbm, 145, rfl⟩
abbrev main_call7_c : Ref sig .tc := ⟨.hbm, 146, rfl⟩
abbrev main_call7_v0 : Ref sig .tc := ⟨.hbm, 147, rfl⟩
abbrev main_call7_v1 : Ref sig .tc := ⟨.hbm, 148, rfl⟩
abbrev main_call7_c_0 : Ref sig .tc := ⟨.hbm, 149, rfl⟩
abbrev main_call7_v2 : Ref sig .tc := ⟨.hbm, 150, rfl⟩
abbrev main_call7_v3 : Ref sig .tc := ⟨.hbm, 151, rfl⟩
abbrev main_call7_v4 : Ref sig .tc := ⟨.hbm, 152, rfl⟩
abbrev main_call7_v5 : Ref sig .tc := ⟨.hbm, 153, rfl⟩
abbrev main_call7_c_1 : Ref sig .tc := ⟨.hbm, 154, rfl⟩
abbrev main_call7_c_2 : Ref sig .tc := ⟨.hbm, 155, rfl⟩
abbrev main_call7_v6 : Ref sig .tc := ⟨.hbm, 156, rfl⟩
abbrev main_call7_v7 : Ref sig .tc := ⟨.hbm, 157, rfl⟩
abbrev main_call7_v8 : Ref sig .tc := ⟨.hbm, 158, rfl⟩
abbrev main_call7_v9 : Ref sig .tc := ⟨.hbm, 159, rfl⟩
abbrev main_call7_v10 : Ref sig .tc := ⟨.hbm, 160, rfl⟩
abbrev main_call7_c_3 : Ref sig .tc := ⟨.hbm, 161, rfl⟩
abbrev main_call7_v11 : Ref sig .tc := ⟨.hbm, 162, rfl⟩
abbrev main_call7_v12 : Ref sig .tc := ⟨.hbm, 163, rfl⟩
abbrev main_call7_v13 : Ref sig .tc := ⟨.hbm, 164, rfl⟩
abbrev main_call7_c_4 : Ref sig .tc := ⟨.hbm, 165, rfl⟩
abbrev main_call7_v14 : Ref sig .tc := ⟨.hbm, 166, rfl⟩
abbrev main_v38 : Ref sig .tc := ⟨.hbm, 167, rfl⟩
abbrev main_v39 : Ref sig .tc := ⟨.hbm, 168, rfl⟩
abbrev main_v40 : Ref sig .tc := ⟨.hbm, 169, rfl⟩
abbrev main_v41 : Ref sig .tc := ⟨.hbm, 170, rfl⟩
abbrev main_c_19 : Ref sig .tc := ⟨.hbm, 171, rfl⟩
abbrev main_v42 : Ref sig .tc := ⟨.hbm, 172, rfl⟩
abbrev main_v43 : Ref sig .tc := ⟨.hbm, 173, rfl⟩
abbrev main_c_20 : Ref sig .tc := ⟨.hbm, 174, rfl⟩
abbrev main_c_21 : Ref sig .tc := ⟨.hbm, 175, rfl⟩
abbrev main_call8_v0 : Ref sig .tc := ⟨.hbm, 176, rfl⟩
abbrev main_call8_v1 : Ref sig .tc := ⟨.hbm, 177, rfl⟩
abbrev main_call8_v2 : Ref sig .tc := ⟨.hbm, 178, rfl⟩
abbrev main_call8_v3 : Ref sig .tc := ⟨.hbm, 179, rfl⟩
abbrev main_call8_v4 : Ref sig .tc := ⟨.hbm, 180, rfl⟩
abbrev main_v44 : Ref sig .tc := ⟨.hbm, 181, rfl⟩
abbrev main_call9_c : Ref sig .tc := ⟨.hbm, 182, rfl⟩
abbrev main_call9_v0 : Ref sig .tc := ⟨.hbm, 183, rfl⟩
abbrev main_call9_v1 : Ref sig .tc := ⟨.hbm, 184, rfl⟩
abbrev main_call9_c_0 : Ref sig .tc := ⟨.hbm, 185, rfl⟩
abbrev main_call9_v2 : Ref sig .tc := ⟨.hbm, 186, rfl⟩
abbrev main_call9_v3 : Ref sig .tc := ⟨.hbm, 187, rfl⟩
abbrev main_call9_v4 : Ref sig .tc := ⟨.hbm, 188, rfl⟩
abbrev main_call9_v5 : Ref sig .tc := ⟨.hbm, 189, rfl⟩
abbrev main_call9_c_1 : Ref sig .tc := ⟨.hbm, 190, rfl⟩
abbrev main_call9_c_2 : Ref sig .tc := ⟨.hbm, 191, rfl⟩
abbrev main_call9_v6 : Ref sig .tc := ⟨.hbm, 192, rfl⟩
abbrev main_call9_v7 : Ref sig .tc := ⟨.hbm, 193, rfl⟩
abbrev main_call9_v8 : Ref sig .tc := ⟨.hbm, 194, rfl⟩
abbrev main_call9_v9 : Ref sig .tc := ⟨.hbm, 195, rfl⟩
abbrev main_call9_v10 : Ref sig .tc := ⟨.hbm, 196, rfl⟩
abbrev main_call9_v11 : Ref sig .tc := ⟨.hbm, 197, rfl⟩
abbrev main_call9_c_3 : Ref sig .tc := ⟨.hbm, 198, rfl⟩
abbrev main_call9_v12 : Ref sig .tc := ⟨.hbm, 199, rfl⟩
abbrev main_call9_v13 : Ref sig .tc := ⟨.hbm, 200, rfl⟩
abbrev main_call9_v14 : Ref sig .tc := ⟨.hbm, 201, rfl⟩
abbrev main_call9_c_4 : Ref sig .tc := ⟨.hbm, 202, rfl⟩
abbrev main_call9_v15 : Ref sig .tc := ⟨.hbm, 203, rfl⟩
abbrev main_v45 : Ref sig .tc := ⟨.hbm, 204, rfl⟩
abbrev main_v46 : Ref sig .tc := ⟨.hbm, 205, rfl⟩
abbrev main_v47 : Ref sig .tc := ⟨.hbm, 206, rfl⟩
abbrev main_v48 : Ref sig .tc := ⟨.hbm, 207, rfl⟩
abbrev main_c_22 : Ref sig .tc := ⟨.hbm, 208, rfl⟩
abbrev main_v49 : Ref sig .tc := ⟨.hbm, 209, rfl⟩
abbrev main_v50 : Ref sig .tc := ⟨.hbm, 210, rfl⟩
abbrev main_c_23 : Ref sig .tc := ⟨.hbm, 211, rfl⟩
abbrev main_c_24 : Ref sig .tc := ⟨.hbm, 212, rfl⟩
abbrev main_call10_v0 : Ref sig .tc := ⟨.hbm, 213, rfl⟩
abbrev main_call10_v1 : Ref sig .tc := ⟨.hbm, 214, rfl⟩
abbrev main_call10_v2 : Ref sig .tc := ⟨.hbm, 215, rfl⟩
abbrev main_call10_v3 : Ref sig .tc := ⟨.hbm, 216, rfl⟩
abbrev main_call10_v4 : Ref sig .tc := ⟨.hbm, 217, rfl⟩
abbrev main_v51 : Ref sig .tc := ⟨.hbm, 218, rfl⟩
abbrev main_call11_c : Ref sig .tc := ⟨.hbm, 219, rfl⟩
abbrev main_call11_v0 : Ref sig .tc := ⟨.hbm, 220, rfl⟩
abbrev main_call11_v1 : Ref sig .tc := ⟨.hbm, 221, rfl⟩
abbrev main_call11_c_0 : Ref sig .tc := ⟨.hbm, 222, rfl⟩
abbrev main_call11_v2 : Ref sig .tc := ⟨.hbm, 223, rfl⟩
abbrev main_call11_v3 : Ref sig .tc := ⟨.hbm, 224, rfl⟩
abbrev main_call11_v4 : Ref sig .tc := ⟨.hbm, 225, rfl⟩
abbrev main_call11_v5 : Ref sig .tc := ⟨.hbm, 226, rfl⟩
abbrev main_call11_c_1 : Ref sig .tc := ⟨.hbm, 227, rfl⟩
abbrev main_call11_c_2 : Ref sig .tc := ⟨.hbm, 228, rfl⟩
abbrev main_call11_v6 : Ref sig .tc := ⟨.hbm, 229, rfl⟩
abbrev main_call11_v7 : Ref sig .tc := ⟨.hbm, 230, rfl⟩
abbrev main_call11_v8 : Ref sig .tc := ⟨.hbm, 231, rfl⟩
abbrev main_call11_v9 : Ref sig .tc := ⟨.hbm, 232, rfl⟩
abbrev main_call11_v10 : Ref sig .tc := ⟨.hbm, 233, rfl⟩
abbrev main_call11_v11 : Ref sig .tc := ⟨.hbm, 234, rfl⟩
abbrev main_call11_c_3 : Ref sig .tc := ⟨.hbm, 235, rfl⟩
abbrev main_call11_v12 : Ref sig .tc := ⟨.hbm, 236, rfl⟩
abbrev main_call11_v13 : Ref sig .tc := ⟨.hbm, 237, rfl⟩
abbrev main_call11_v14 : Ref sig .tc := ⟨.hbm, 238, rfl⟩
abbrev main_call11_c_4 : Ref sig .tc := ⟨.hbm, 239, rfl⟩
abbrev main_call11_v15 : Ref sig .tc := ⟨.hbm, 240, rfl⟩
abbrev main_v52 : Ref sig .tc := ⟨.hbm, 241, rfl⟩
abbrev main_v53 : Ref sig .tc := ⟨.hbm, 242, rfl⟩
abbrev main_v54 : Ref sig .tc := ⟨.hbm, 243, rfl⟩
abbrev main_v55 : Ref sig .tc := ⟨.hbm, 244, rfl⟩
abbrev main_c_25 : Ref sig .tc := ⟨.hbm, 245, rfl⟩
abbrev main_v56 : Ref sig .tc := ⟨.hbm, 246, rfl⟩
abbrev main_v57 : Ref sig .tc := ⟨.hbm, 247, rfl⟩
abbrev main_c_26 : Ref sig .tc := ⟨.hbm, 248, rfl⟩
abbrev main_c_27 : Ref sig .tc := ⟨.hbm, 249, rfl⟩
abbrev main_call12_v0 : Ref sig .tc := ⟨.hbm, 250, rfl⟩
abbrev main_call12_v1 : Ref sig .tc := ⟨.hbm, 251, rfl⟩
abbrev main_call12_v2 : Ref sig .tc := ⟨.hbm, 252, rfl⟩
abbrev main_call12_v3 : Ref sig .tc := ⟨.hbm, 253, rfl⟩
abbrev main_call12_v4 : Ref sig .tc := ⟨.hbm, 254, rfl⟩
abbrev main_v58 : Ref sig .tc := ⟨.hbm, 255, rfl⟩
abbrev main_call13_c : Ref sig .tc := ⟨.hbm, 256, rfl⟩
abbrev main_call13_v0 : Ref sig .tc := ⟨.hbm, 257, rfl⟩
abbrev main_call13_v1 : Ref sig .tc := ⟨.hbm, 258, rfl⟩
abbrev main_call13_c_0 : Ref sig .tc := ⟨.hbm, 259, rfl⟩
abbrev main_call13_v2 : Ref sig .tc := ⟨.hbm, 260, rfl⟩
abbrev main_call13_v3 : Ref sig .tc := ⟨.hbm, 261, rfl⟩
abbrev main_call13_v4 : Ref sig .tc := ⟨.hbm, 262, rfl⟩
abbrev main_call13_v5 : Ref sig .tc := ⟨.hbm, 263, rfl⟩
abbrev main_call13_c_1 : Ref sig .tc := ⟨.hbm, 264, rfl⟩
abbrev main_call13_c_2 : Ref sig .tc := ⟨.hbm, 265, rfl⟩
abbrev main_call13_v6 : Ref sig .tc := ⟨.hbm, 266, rfl⟩
abbrev main_call13_v7 : Ref sig .tc := ⟨.hbm, 267, rfl⟩
abbrev main_call13_v8 : Ref sig .tc := ⟨.hbm, 268, rfl⟩
abbrev main_call13_v9 : Ref sig .tc := ⟨.hbm, 269, rfl⟩
abbrev main_call13_v10 : Ref sig .tc := ⟨.hbm, 270, rfl⟩
abbrev main_call13_v11 : Ref sig .tc := ⟨.hbm, 271, rfl⟩
abbrev main_call13_c_3 : Ref sig .tc := ⟨.hbm, 272, rfl⟩
abbrev main_call13_v12 : Ref sig .tc := ⟨.hbm, 273, rfl⟩
abbrev main_call13_v13 : Ref sig .tc := ⟨.hbm, 274, rfl⟩
abbrev main_call13_v14 : Ref sig .tc := ⟨.hbm, 275, rfl⟩
abbrev main_call13_c_4 : Ref sig .tc := ⟨.hbm, 276, rfl⟩
abbrev main_call13_v15 : Ref sig .tc := ⟨.hbm, 277, rfl⟩
abbrev main_v59 : Ref sig .tc := ⟨.hbm, 278, rfl⟩
abbrev main_v60 : Ref sig .tc := ⟨.hbm, 279, rfl⟩
abbrev main_v61 : Ref sig .tc := ⟨.hbm, 280, rfl⟩
abbrev main_v62 : Ref sig .tc := ⟨.hbm, 281, rfl⟩
abbrev main_c_28 : Ref sig .tc := ⟨.hbm, 282, rfl⟩
abbrev main_v63 : Ref sig .tc := ⟨.hbm, 283, rfl⟩
abbrev main_v64 : Ref sig .tc := ⟨.hbm, 284, rfl⟩
abbrev main_c_29 : Ref sig .tc := ⟨.hbm, 285, rfl⟩
abbrev main_c_30 : Ref sig .tc := ⟨.hbm, 286, rfl⟩
abbrev main_call14_v0 : Ref sig .tc := ⟨.hbm, 287, rfl⟩
abbrev main_call14_v1 : Ref sig .tc := ⟨.hbm, 288, rfl⟩
abbrev main_call14_v2 : Ref sig .tc := ⟨.hbm, 289, rfl⟩
abbrev main_call14_v3 : Ref sig .tc := ⟨.hbm, 290, rfl⟩
abbrev main_call14_v4 : Ref sig .tc := ⟨.hbm, 291, rfl⟩
abbrev main_v65 : Ref sig .tc := ⟨.hbm, 292, rfl⟩
abbrev main_call15_c : Ref sig .tc := ⟨.hbm, 293, rfl⟩
abbrev main_call15_v0 : Ref sig .tc := ⟨.hbm, 294, rfl⟩
abbrev main_call15_v1 : Ref sig .tc := ⟨.hbm, 295, rfl⟩
abbrev main_call15_c_0 : Ref sig .tc := ⟨.hbm, 296, rfl⟩
abbrev main_call15_v2 : Ref sig .tc := ⟨.hbm, 297, rfl⟩
abbrev main_call15_v3 : Ref sig .tc := ⟨.hbm, 298, rfl⟩
abbrev main_call15_v4 : Ref sig .tc := ⟨.hbm, 299, rfl⟩
abbrev main_call15_v5 : Ref sig .tc := ⟨.hbm, 300, rfl⟩
abbrev main_call15_c_1 : Ref sig .tc := ⟨.hbm, 301, rfl⟩
abbrev main_call15_c_2 : Ref sig .tc := ⟨.hbm, 302, rfl⟩
abbrev main_call15_v6 : Ref sig .tc := ⟨.hbm, 303, rfl⟩
abbrev main_call15_v7 : Ref sig .tc := ⟨.hbm, 304, rfl⟩
abbrev main_call15_v8 : Ref sig .tc := ⟨.hbm, 305, rfl⟩
abbrev main_call15_v9 : Ref sig .tc := ⟨.hbm, 306, rfl⟩
abbrev main_call15_v10 : Ref sig .tc := ⟨.hbm, 307, rfl⟩
abbrev main_call15_v11 : Ref sig .tc := ⟨.hbm, 308, rfl⟩
abbrev main_call15_c_3 : Ref sig .tc := ⟨.hbm, 309, rfl⟩
abbrev main_call15_v12 : Ref sig .tc := ⟨.hbm, 310, rfl⟩
abbrev main_call15_v13 : Ref sig .tc := ⟨.hbm, 311, rfl⟩
abbrev main_call15_v14 : Ref sig .tc := ⟨.hbm, 312, rfl⟩
abbrev main_call15_c_4 : Ref sig .tc := ⟨.hbm, 313, rfl⟩
abbrev main_call15_v15 : Ref sig .tc := ⟨.hbm, 314, rfl⟩
abbrev main_v66 : Ref sig .tc := ⟨.hbm, 315, rfl⟩
abbrev main_v67 : Ref sig .tc := ⟨.hbm, 316, rfl⟩
abbrev main_v68 : Ref sig .tc := ⟨.hbm, 317, rfl⟩
abbrev main_v69 : Ref sig .tc := ⟨.hbm, 318, rfl⟩
abbrev main_v70 : Ref sig .tc := ⟨.hbm, 319, rfl⟩
abbrev main_cst_31 : Ref sig .tc := ⟨.hbm, 320, rfl⟩
abbrev main_cst_32 : Ref sig .tc := ⟨.hbm, 321, rfl⟩
abbrev main_call16_v0 : Ref sig .tc := ⟨.hbm, 322, rfl⟩
abbrev main_call16_v1 : Ref sig .tc := ⟨.hbm, 323, rfl⟩
abbrev main_call16_v2 : Ref sig .tc := ⟨.hbm, 324, rfl⟩
abbrev main_call16_v3 : Ref sig .tc := ⟨.hbm, 325, rfl⟩
abbrev main_call16_v4 : Ref sig .tc := ⟨.hbm, 326, rfl⟩
abbrev main_v71 : Ref sig .tc := ⟨.hbm, 327, rfl⟩
abbrev main_v72 : Ref sig .tc := ⟨.hbm, 328, rfl⟩
abbrev main_v73 : Ref sig .tc := ⟨.hbm, 329, rfl⟩
abbrev main_cst_33 : Ref sig .tc := ⟨.hbm, 330, rfl⟩
abbrev main_v74 : Ref sig .tc := ⟨.hbm, 331, rfl⟩
abbrev main_v75 : Ref sig .tc := ⟨.hbm, 332, rfl⟩
abbrev main_v76 : Ref sig .tc := ⟨.hbm, 333, rfl⟩
abbrev main_v77 : Ref sig .tc := ⟨.hbm, 334, rfl⟩
abbrev main_v78 : Ref sig .tc := ⟨.hbm, 335, rfl⟩
abbrev main_v79 : Ref sig .tc := ⟨.hbm, 336, rfl⟩
abbrev main_cst_34 : Ref sig .tc := ⟨.hbm, 337, rfl⟩
abbrev main_v80 : Ref sig .tc := ⟨.hbm, 338, rfl⟩
abbrev main_cst_35 : Ref sig .tc := ⟨.hbm, 339, rfl⟩
abbrev main_v81 : Ref sig .tc := ⟨.hbm, 340, rfl⟩
abbrev main_v82 : Ref sig .tc := ⟨.hbm, 341, rfl⟩
abbrev main_cst_36 : Ref sig .tc := ⟨.hbm, 342, rfl⟩
abbrev main_v83 : Ref sig .tc := ⟨.hbm, 343, rfl⟩
abbrev main_cst_37 : Ref sig .tc := ⟨.hbm, 344, rfl⟩
abbrev main_v84 : Ref sig .tc := ⟨.hbm, 345, rfl⟩
abbrev main_cst_38 : Ref sig .tc := ⟨.hbm, 346, rfl⟩
abbrev main_v85 : Ref sig .tc := ⟨.hbm, 347, rfl⟩
abbrev main_v86 : Ref sig .tc := ⟨.hbm, 348, rfl⟩
abbrev main_v87 : Ref sig .tc := ⟨.hbm, 349, rfl⟩

abbrev nD : Nat := 1
abbrev τ : Topo := Topo.v7x

variable {F : FTy → Type} [FloatOps F]

class Facts₀ : Prop where
  reducesTo_S32x1x512x512_S_d0_1_2_3 : S32x1x512x512.ReducesTo [0, 1, 2, 3] S_
  h_S_ : 0 < S_.numel
  bcast_S_S32x1x512x512 : S_.BroadcastsInDim S32x1x512x512 (![] : Fin 0 → Fin S32x1x512x512.rank)
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  reducesTo_S32x1_S32_d1 : S32x1.ReducesTo [1] S32
  bcast_S32_S32x1x512x512_0 : S32.BroadcastsInDim S32x1x512x512 (![0] : Fin 1 → Fin S32x1x512x512.rank)
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  reducesTo_S1x1_S1_d1 : S1x1.ReducesTo [1] S1
  bcast_S1_S32x1x512x512_1 : S1.BroadcastsInDim S32x1x512x512 (![1] : Fin 1 → Fin S32x1x512x512.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1x1_S512x1_0_1 : S1x1.BroadcastsInDim S512x1 (![0, 1] : Fin 2 → Fin S512x1.rank)
  reducesTo_S512x1_S512_d1 : S512x1.ReducesTo [1] S512
  bcast_S512_S32x1x512x512_2 : S512.BroadcastsInDim S32x1x512x512 (![2] : Fin 1 → Fin S32x1x512x512.rank)
  bcast_S512_S32x1x512x512_3 : S512.BroadcastsInDim S32x1x512x512 (![3] : Fin 1 → Fin S32x1x512x512.rank)
  gather_S32x1x512x512_S32x1_S32x1x512x512_123_0_n_n_0_1_11512512_wf : GatherDims.WF S32x1x512x512 S32x1 S32x1x512x512 [1, 2, 3] [0] [] [0] [] 1 ![1, 1, 512, 512]
  gather_S32x1x512x512_S1x1_S32x1x512x512_023_1_n_n_1_1_321512512_wf : GatherDims.WF S32x1x512x512 S1x1 S32x1x512x512 [0, 2, 3] [1] [] [1] [] 1 ![32, 1, 512, 512]
  gather_S32x1x512x512_S512x1_S32x1x512x512_013_2_n_n_2_1_3211512_wf : GatherDims.WF S32x1x512x512 S512x1 S32x1x512x512 [0, 1, 3] [2] [] [2] [] 1 ![32, 1, 1, 512]
  gather_S32x1x512x512_S512x1_S32x1x512x512_012_3_n_n_3_1_3215121_wf : GatherDims.WF S32x1x512x512 S512x1 S32x1x512x512 [0, 1, 2] [3] [] [3] [] 1 ![32, 1, 512, 1]

variable [Facts₀]

def gather_S32x1x512x512_S32x1_S32x1x512x512_123_0_n_n_0_1_11512512 : GatherDims S32x1x512x512 S32x1 S32x1x512x512 where
  offsetDims := [1, 2, 3]
  collapsedSliceDims := [0]
  operandBatchingDims := []
  startIndicesBatchingDims := []
  startIndexMap := [0]
  indexVectorDim := 1
  sliceSizes := ![1, 1, 512, 512]
  wf := gather_S32x1x512x512_S32x1_S32x1x512x512_123_0_n_n_0_1_11512512_wf
def gather_S32x1x512x512_S1x1_S32x1x512x512_023_1_n_n_1_1_321512512 : GatherDims S32x1x512x512 S1x1 S32x1x512x512 where
  offsetDims := [0, 2, 3]
  collapsedSliceDims := [1]
  operandBatchingDims := []
  startIndicesBatchingDims := []
  startIndexMap := [1]
  indexVectorDim := 1
  sliceSizes := ![32, 1, 512, 512]
  wf := gather_S32x1x512x512_S1x1_S32x1x512x512_023_1_n_n_1_1_321512512_wf
def gather_S32x1x512x512_S512x1_S32x1x512x512_013_2_n_n_2_1_3211512 : GatherDims S32x1x512x512 S512x1 S32x1x512x512 where
  offsetDims := [0, 1, 3]
  collapsedSliceDims := [2]
  operandBatchingDims := []
  startIndicesBatchingDims := []
  startIndexMap := [2]
  indexVectorDim := 1
  sliceSizes := ![32, 1, 1, 512]
  wf := gather_S32x1x512x512_S512x1_S32x1x512x512_013_2_n_n_2_1_3211512_wf
def gather_S32x1x512x512_S512x1_S32x1x512x512_012_3_n_n_3_1_3215121 : GatherDims S32x1x512x512 S512x1 S32x1x512x512 where
  offsetDims := [0, 1, 2]
  collapsedSliceDims := [3]
  operandBatchingDims := []
  startIndicesBatchingDims := []
  startIndexMap := [3]
  indexVectorDim := 1
  sliceSizes := ![32, 1, 512, 1]
  wf := gather_S32x1x512x512_S512x1_S32x1x512x512_012_3_n_n_3_1_3215121_wf

class Facts : Prop extends Facts₀ where

variable [Facts]
-- ==== Proof.KStepBits.lean ====
/-
  One grid point's arithmetic as a function of the four input blocks and the running accumulator.

  The body reads the prediction block x0, the target block x1 and the target blocks of the previous and next
  batch entries x2, x3, forms the five per-block sums, lays them out as row 0, lanes 0..4 of an 8 x 128 tile of
  zeros, and adds the tile to the accumulator.  `step` is that new accumulator, `acc0` the zero tile the first
  point of a core starts from, `emit` the tile copied to the output block at a core's last point.
-/
import proofs.«111375_j65884798321056_2_alg».proof.Proof.Gen.Kernel.Skeleton

noncomputable section

namespace Cert.Kernel.KV

open Idealize.ShloMosaic Cert.Kernel Cert.Kernel.Gen

variable {F : FTy → Type} [FloatOps F]

/-- The accumulator after a point, from the point's four input blocks and the accumulator before it. -/
def step (x0 x1 x2 x3 : Vec F S1x1x512x512 .f32) (acc : Vec F S8x128 .f32) : FVec F S8x128 .f32 :=
  k0_pay1 (k0_pay12 (k0_pay5 x1)) (k0_pay13 (k0_pay4 x0) (k0_pay5 x1)) (k0_pay14 (k0_pay4 x0) (k0_pay5 x1))
    (k0_pay15 (k0_pay6 x1) (k0_pay7 x1) (k0_pay8 x1) (k0_pay9 x1) (k0_pay10 x1 x2 x3) (k0_pay11 (F := F)))
    (k0_pay16 (k0_pay4 x0)) acc

/-- The zero tile a core's first point stores before accumulating. -/
def acc0 : FVec F S8x128 .f32 := k0_pay3 (F := F)

/-- The output block a core's last point stores: the accumulator with a leading unit axis. -/
def emit (acc : Vec F S8x128 .f32) : FVec F S1x8x128 .f32 := k0_pay2 acc

end Cert.Kernel.KV

end
-- ==== Proof.FrRunsBits.lean ====
/-
  What the three runs of the kernel body share: the arrays as the region finds them, a window's block at a grid
  point, the body's two branch conditions decided over the 32 grid points (the first point of a core: position
  ≡ 0 mod 16; its last: ≡ 15 mod 16), where the output window is idle, and the staging and scratch memrefs.
-/
import proofs.«111375_j65884798321056_2_alg».proof.Proof.Gen.Kernel.Launch
import proofs.«111375_j65884798321056_2_alg».proof.Proof.Gen.Kernel.Skeleton
import proofs.«111375_j65884798321056_2_alg».proof.Proof.Gen.Kernel.Points
import proofs.«111375_j65884798321056_2_alg».proof.Proof.KStepBits
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the region is entered: the launch contents (no host operation precedes it). -/
abbrev V (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch: this is the core's first point. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second branch: this is the core's last point. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a core's last point the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a core's last point it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0_0 : Memref sig .tc .vmem S8x128 .f32 := Memref.whole cc0_scratch0
abbrev VS0_0 : View sig .tc .vmem S8x128 .f32 := scM0_0.view
/-- One staging buffer of the output window, through which its contents are stated. -/
abbrev VO0_4 : View sig .tc .vmem S1x8x128 .f32 := (Memref.whole cc0_stg4_0 : Memref sig .tc .vmem S1x8x128 .f32).view

/-- The scoped buffers no window stages are the scratch accumulator, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Fr

end
-- ==== Proof.FrRunABits.lean ====
/-
  The kernel body run at a core's first point (the accumulator is reset, then added to; the output block is not stored): on whole staging memrefs holding the four input blocks it terminates without a
  fault, leaves the inputs as they were and the buffers it stores into with the pieces listed (last store first).
-/
import proofs.«111375_j65884798321056_2_alg».proof.Proof.FrRunsBits

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 x1 x2 x3 : Vec F S1x1x512x512 .f32) :
    Σ' (L4 : List (View.Piece (Elt F) S1x8x128 .f32)), { LS0 : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__reduce_kernel i arg2 harg2 arg3 harg3 arg4 harg4 arg5 harg5 arg6 harg6 arg7 harg7) K } := by
  refine ⟨[], ?_, fun xi4 E K => ?run⟩
  case run =>
    simp only [cc0__reduce_kernel_eq_skeleton]; unfold cc0__reduce_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.FrRunBBits.lean ====
/-
  The kernel body run at a point that is neither a core's first nor its last (the accumulator is added to; the output block is not stored): on whole staging memrefs holding the four input blocks it terminates without a
  fault, leaves the inputs as they were and the buffers it stores into with the pieces listed (last store first).
-/
import proofs.«111375_j65884798321056_2_alg».proof.Proof.FrRunsBits

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 x1 x2 x3 : Vec F S1x1x512x512 .f32) (xs0 : Vec F S8x128 .f32) :
    Σ' (L4 : List (View.Piece (Elt F) S1x8x128 .f32)), { LS0 : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__reduce_kernel i arg2 harg2 arg3 harg3 arg4 harg4 arg5 harg5 arg6 harg6 arg7 harg7) K } := by
  refine ⟨[], ?_, fun xi4 E K => ?run⟩
  case run =>
    simp only [cc0__reduce_kernel_eq_skeleton]; unfold cc0__reduce_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Fr

end
-- ==== Proof.FrRunCBits.lean ====
/-
  The kernel body run at a core's last point (the accumulator is added to, then copied to the output block): on whole staging memrefs holding the four input blocks it terminates without a
  fault, leaves the inputs as they were and the buffers it stores into with the pieces listed (last store first).
-/
import proofs.«111375_j65884798321056_2_alg».proof.Proof.FrRunsBits

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 x1 x2 x3 : Vec F S1x1x512x512 .f32) (xs0 : Vec F S8x128 .f32) :
    Σ' (L4 : List (View.Piece (Elt F) S1x8x128 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, fun E K => ?run⟩
  case run =>
    simp only [cc0__reduce_kernel_eq_skeleton]; unfold cc0__reduce_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Fr

end
-- ==== Proof.FrDataBits.lean ====
/-
  What the accumulator and the output block hold after each grid point, the pipeline's proof data, and the body
  obligation at every point.

  After point n the scratch accumulator holds what the case the point is in leaves there, run on the point's four
  input blocks and, past a core's first point, on what the point before left; the output block's staging buffer
  is stored only at a core's last point.  The three runs are stated over pieces; read back over the whole buffer
  they are values, because each case's stores cover the buffer.
-/
import proofs.«111375_j65884798321056_2_alg».proof.Proof.FrRunABits
import proofs.«111375_j65884798321056_2_alg».proof.Proof.FrRunBBits
import proofs.«111375_j65884798321056_2_alg».proof.Proof.FrRunCBits

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's stores into the scratch accumulator cover it. -/
theorem scover0_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 x1 x2 x3 : Vec F S1x1x512x512 .f32) (y : S8x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S8x128.size (by sl_kernel_rfl) y

/-- What case A leaves in the scratch accumulator: its stores read back. -/
def sout0_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 x1 x2 x3 : Vec F S1x1x512x512 .f32) : Vec F S8x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B's stores into the scratch accumulator cover it. -/
theorem scover0_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 x1 x2 x3 : Vec F S1x1x512x512 .f32) (xs0 : Vec F S8x128 .f32) (y : S8x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S8x128.size (by sl_kernel_rfl) y

/-- What case B leaves in the scratch accumulator: its stores read back. -/
def sout0_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 x1 x2 x3 : Vec F S1x1x512x512 .f32) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's stores into the scratch accumulator cover it. -/
theorem scover0_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 x1 x2 x3 : Vec F S1x1x512x512 .f32) (xs0 : Vec F S8x128 .f32) (y : S8x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S8x128.size (by sl_kernel_rfl) y

/-- What case C leaves in the scratch accumulator: its stores read back. -/
def sout0_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 x1 x2 x3 : Vec F S1x1x512x512 .f32) (xs0 : Vec F S8x128 .f32) : Vec F S8x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- Case C's store into the output block covers it. -/
theorem cover0_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 x1 x2 x3 : Vec F S1x1x512x512 .f32) (xs0 : Vec F S8x128 .f32) (y : S1x8x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x8x128.size (by sl_kernel_rfl) y

/-- What case C leaves in the output block's staging buffer. -/
def out0_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 x1 x2 x3 : Vec F S1x1x512x512 .f32) (xs0 : Vec F S8x128 .f32) : Vec F S1x8x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The output block's staging buffer where no case stores into it: contents nothing consults. -/
def outIdle : Vec F S1x8x128 .f32 := VO0_4.read (Elt F) VO0_4.junk

/-! ## What the buffers hold after each point -/

/-- After the body at position n: the output block's staging buffer and the scratch accumulator. -/
def outsAt0 (c : Dev nD) : (n : ℕ) → n < cfg0.N → Vec F S1x8x128 .f32 × Vec F S8x128 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (outIdle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (outIdle, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (outIdle, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the scratch accumulator at anything; afterwards
    at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data on core c.  The three windows on the target array hold a half and two quarters of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right.left
    | ⟨3, _⟩ => fullShare.right.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the closed forms say which case the point is in; that case's run applies; the invariant
    hands it the accumulator at what the point before left (at anything at the very first point) and takes it back
    at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      ·
        rw [PhiS_castSucc m c t, PhiS_zero m c _ _ hz, scopedRest0_owns]
        iintro ⟨HS0, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      ·
        rw [PhiS_castSucc m c t, PhiS_pos m c _ _ hz]
        iintro ⟨HS0, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      by_cases hz : t.val = 0
      · exfalso; omega
      ·
        rw [PhiS_castSucc m c t, PhiS_pos m c _ _ hz]
        iintro ⟨HS0, Ho, ⟨%d0, H0⟩, ⟨%d1, H1⟩, ⟨%d2, H2⟩, ⟨%d3, H3⟩, ⟨%d4, H4⟩⟩
        iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0]
        · unfold owns; iexists _; isplitr
          swap; · iexact HS0
          ipureintro; exact View.read_writes_of_cover _ _ _ _ _ (scover0_C_0 c _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      by_cases hz : t.val = 0
      · exfalso; omega
      ·
        rw [PhiS_castSucc m c t, PhiS_pos m c _ _ hz]
        iintro ⟨HS0, Ho, ⟨%d0, H0⟩, ⟨%d1, H1⟩, ⟨%d2, H2⟩, ⟨%d3, H3⟩, ⟨%d4, H4⟩⟩
        iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0]
        · unfold owns; iexists _; isplitr
          swap; · iexact HS0
          ipureintro; exact View.read_writes_of_cover _ _ _ _ _ (scover0_B_0 c _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.FrLaunchBits.lean ====
/-
  The launch.  @main is the kernel region followed by 33 host operations.  The region is entered from the
  unscoped buffers at their launch contents; the target array, which three input windows read, is handed to them
  at a half and two quarters of its share and put together again at the region's exit, where the output array
  holds what the write-backs left; the host operations then run over the buffers so updated.
-/
import proofs.«111375_j65884798321056_2_alg».proof.Proof.FrDataBits

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, as the host operations' valuation. -/
abbrev V₀ (c : Dev nD) : Valuation τ sig (Elt F) := fun b => m (c, b)

/-- The output array after the region: what the pipeline's write-backs left. -/
abbrev outA (c : Dev nD) : Buf (Elt F) ((c : Thread nD τ).loc main_v0) := (dats m 0 c).arrAt 4 cfg0.N

/-- Core c's buffers at the region's exit: the output array written, every other buffer as launched. -/
def W₁ (c : Dev nD) : Valuation τ sig (Elt F) := Function.update (V₀ m c) (Proc.devRef .tc main_v0) (outA m c)

theorem W₁_v0 (c : Dev nD) : W₁ m c (Proc.devRef .tc main_v0) = outA m c := Function.update_self ..

theorem W₁_ne (c : Dev nD) (b : Ref sig .tc) (hb : b ≠ main_v0) : W₁ m c (Proc.devRef .tc b) = m ((c : Thread nD τ).loc b) :=
  Function.update_of_ne (fun e => hb (Proc.devRef_injective _ e)) ..

/-! ## The buffers behind the windows, one by one -/

/-- The three distinct buffers behind the five windows. -/
theorem arrBufs0_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v0) ↦{fullShare} Vv main_v0)) :=
  bigSep_eq_bigSepL_of_eq [main_arg0, main_arg1, main_v0] (by decide) (by decide) _

/-- The pipeline's arrays, window by window, each at its share. -/
theorem arrays0_eq (c : Dev nD) (Fv : (w : Fin cfg0.W) → Buf (Elt F) ((cfg0.win w).arr.view.loc (c : Thread nD τ))) :
    ((dats m 0 c).arrays Fv : sProp 𝕄)
      = iprop((((c : Thread nD τ).loc main_arg0) ↦{fullShare} Fv 0) ∗ (((c : Thread nD τ).loc main_arg1) ↦{fullShare.left} Fv 1)
          ∗ (((c : Thread nD τ).loc main_arg1) ↦{fullShare.right.left} Fv 2) ∗ (((c : Thread nD τ).loc main_arg1) ↦{fullShare.right.right} Fv 3)
          ∗ (((c : Thread nD τ).loc main_v0) ↦{fullShare} Fv 4)) := by
  unfold Dat.arrays
  rw [bigSep_W0]
  rw [(arr_whole0 0).set_eq_univ, (arr_whole0 1).set_eq_univ, (arr_whole0 4).set_eq_univ]
  rfl

/-- ENTRY: the target array's full share is split among its three windows. -/
theorem arrays_of_bufs (c : Dev nD) (Vv : (b : Ref sig .tc) → Buf (Elt F) ((c : Thread nD τ).loc b))
    (Fv : (w : Fin cfg0.W) → Buf (Elt F) ((cfg0.win w).arr.view.loc (c : Thread nD τ)))
    (h0 : Fv 0 = Vv main_arg0) (h1 : Fv 1 = Vv main_arg1) (h2 : Fv 2 = Vv main_arg1) (h3 : Fv 3 = Vv main_arg1) (h4 : Fv 4 = Vv main_v0) :
    (Pipeline.arrBufs (Ix := Unit) (Name := ℕ) (U := UR sig nD τ) (Lvl := ℕ) spec0 c Vv : sProp 𝕄) ⊢ (dats m 0 c).arrays Fv := by
  rw [arrBufs0_eq, arrays0_eq, h0, h1, h2, h3, h4]
  iintro ⟨H0, H1, H4⟩
  ihave H1' := (pointsTo_share (PosShare.mem_left_op_right fullShare)).1 $$ H1
  icases H1' with ⟨Hl, Hr⟩
  ihave Hr' := (pointsTo_share (PosShare.mem_left_op_right fullShare.right)).1 $$ Hr
  icases Hr' with ⟨Hrl, Hrr⟩
  isplitl [H0]; · iexact H0
  isplitl [Hl]; · iexact Hl
  isplitl [Hrl]; · iexact Hrl
  isplitl [Hrr]; · iexact Hrr
  iexact H4

/-- EXIT: the three shares of the target array, at one contents, are the array again. -/
theorem bufs_of_arrays (c : Dev nD) (Vv : (b : Ref sig .tc) → Buf (Elt F) ((c : Thread nD τ).loc b))
    (Fv : (w : Fin cfg0.W) → Buf (Elt F) ((cfg0.win w).arr.view.loc (c : Thread nD τ)))
    (h0 : Fv 0 = Vv main_arg0) (h1 : Fv 1 = Vv main_arg1) (h2 : Fv 2 = Vv main_arg1) (h3 : Fv 3 = Vv main_arg1) (h4 : Fv 4 = Vv main_v0) :
    ((dats m 0 c).arrays Fv : sProp 𝕄) ⊢ Pipeline.arrBufs (Ix := Unit) (Name := ℕ) (U := UR sig nD τ) (Lvl := ℕ) spec0 c Vv := by
  rw [arrBufs0_eq, arrays0_eq, h0, h1, h2, h3, h4]
  iintro ⟨H0, Hl, Hrl, Hrr, H4⟩
  isplitl [H0]; · iexact H0
  isplitr [H4]
  · iapply (pointsTo_share (PosShare.mem_left_op_right fullShare)).2
    isplitl [Hl]; · iexact Hl
    iapply (pointsTo_share (PosShare.mem_left_op_right fullShare.right)).2
    isplitl [Hrl]; · iexact Hrl
    iexact Hrr
  · iexact H4

end Cert.Kernel.Fr

end
-- ==== Proof.FrRunBits.lean ====
/-
  The run of @main: the region, then the 33 host operations, as two segments.  Every weakly fair execution
  terminates; at the end each unscoped buffer holds what the host operations leave from the buffers as the region
  left them.
-/
import proofs.«111375_j65884798321056_2_alg».proof.Proof.FrLaunchBits

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-- Every buffer at the end: the host operations run from the region's exit contents. -/
abbrev Wf (c : Dev nD) : Valuation τ sig (Elt F) := StableHlo.after hostOps1 (W₁ m c)

theorem hostOps1_fresh : (hostOps1 : List (HloOp τ sig (Elt F))).Forall fun op => op.fresh = ∅ := by
  simp only [List.Forall]; repeat' constructor

/-- THE HOST SEGMENT: the 33 operations over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W₁ m) R

/-- The buffers no window stages are untouched by the region. -/
theorem rest_congr (c : Dev nD) :
    (Pipeline.unscopedRest (Ix := Unit) (Name := ℕ) (U := UR sig nD τ) (Lvl := ℕ) spec0 c (fun b => W₁ m c (Proc.devRef .tc b)) : sProp 𝕄)
      = Pipeline.unscopedRest spec0 c (V m c) := by
  unfold Pipeline.unscopedRest
  refine bigSep_congr fun b hb => ?_
  dsimp only
  rw [W₁_ne m c b (fun e => (Finset.mem_sdiff.mp hb).2 (Finset.mem_image.mpr ⟨4, Finset.mem_univ _, e ▸ rfl⟩))]

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₀ m c) ∗ R c)
  post c := iprop(StableHlo.held (c : Thread nD τ) (Pipeline.ucRefs τ sig) (W₁ m c) ∗ R c)
  X _ := iprop(emp)
  Y _ := iprop(emp)
  Z c := Pipeline.unscopedRest spec0 c (V m c)
  hentry c := by
    rw [← Pipeline.unscopedBufs_held c (V₀ m c), Pipeline.unscopedBufs_split₀ cfgs 0 winFacts₀0.arr_unscoped c]
    iintro ⟨⟨⟨Ha, Hrest⟩, HO⟩, -, -⟩
    imodintro
    isplitl [Ha]
    · iapply (arrays_of_bufs m c (fun b => V₀ m c (Proc.devRef .tc b)) (fun w => (dats m 0 c).arrAt w 0) rfl rfl rfl rfl rfl)
      iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = PhiS m c 0 (Nat.zero_le _) from rfl, PhiS_zero m c 0 _ rfl]
    iintro ⟨-, -, Hr⟩
    iexact Hr
  hout c := by
    rw [Pipeline.ownSems0_none, show (dats m 0 c).Φ (Fin.last cfg0.N) = PhiS m c (Fin.last cfg0.N).val (Nat.le_of_lt_succ (Fin.last cfg0.N).isLt) from rfl,
      PhiS_pos m c _ _ (by rw [Fin.val_last]; have : cfg0.N = 32 := N_0; omega), scopedRest0_owns]
    iintro HS
    isplitr; · iempintro
    isplitr; · iempintro
    iexists _; iexact HS
  hexit c := by
    rw [← Pipeline.unscopedBufs_held c (W₁ m c), Pipeline.unscopedBufs_split₀ cfgs 0 winFacts₀0.arr_unscoped c, rest_congr]
    iintro ⟨Ha, HO, -, HZ⟩
    imodintro
    isplitr [HO]
    · isplitl [Ha]
      · iapply (bufs_of_arrays m c (fun b => W₁ m c (Proc.devRef .tc b)) (fun w => (dats m 0 c).arrAt w cfg0.N)
          (((dats m 0 c).arrAt_in 0 rfl _).trans (W₁_ne m c main_arg0 (by decide)).symm)
          (((dats m 0 c).arrAt_in 1 rfl _).trans (W₁_ne m c main_arg1 (by decide)).symm)
          (((dats m 0 c).arrAt_in 2 rfl _).trans (W₁_ne m c main_arg1 (by decide)).symm)
          (((dats m 0 c).arrAt_in 3 rfl _).trans (W₁_ne m c main_arg1 (by decide)).symm)
          (W₁_v0 m c).symm)
        iexact Ha
      iexact HZ
    · unfold Pipeline.Dat.owesAt Pipeline.owesWithin
      icases HO with ⟨%W, -, HO⟩; iexists W; iexact HO

/-- @main as the list of the two. -/
abbrev segs : List (Pipeline.Seg (pcfgs (F := F)) adm (dats m) () defs₀ 𝒱₀ L lv) := [.region (reg0 m), .host (seg1 m)]

set_option backward.isDefEq.respectTransparency.types false in
/-- From any memory with zero counters every weakly fair execution of @main terminates, and at the end every
    unscoped buffer holds what the host operations leave from the region's exit contents. -/
theorem run_main : θ_run defs (onTc (τ := τ) (main (F := F))) ⟨m, fun _ => 0, ρ⟩
    (fun r => ∀ c : Dev nD, ∀ b : Ref sig .tc, b.isScoped = false → r.2.mem ((c : Thread nD τ).loc b) = Wf m c (Proc.devRef .tc b)) :=
  Pipeline.θ_run_regions_kit (pcfgs (F := F)) adm (dats m) () cellOf_inj emb₁ defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Wf m c))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b : Ref sig .tc, b.isScoped = false → s.mem ((c : Thread nD τ).loc b) = Wf m c (Proc.devRef .tc b))
    (hfin := fun c s' => by
      rw [← Pipeline.unscopedBufs_held c (Wf m c)]
      unfold unscopedBufs
      iintro ⟨Hh, HSI⟩
      ihave Hr := (pointsTo_read_all (Finset.univ.filter fun b : Ref sig .tc => ¬ b.isScoped) (fun b => (c : Thread nD τ).loc b) (fun b => Wf m c (Proc.devRef .tc b)) s') $$ [Hh HSI]
      · isplitl [Hh] <;> iassumption
      icases Hr with ⟨%hr, HSI⟩
      imodintro
      isplitr; · ipureintro; exact fun b hb => hr b (Finset.mem_filter.mpr ⟨Finset.mem_univ _, by simp [hb]⟩)
      iexact HSI)
    (hQ := fun _ h => h)

end Cert.Kernel.Fr

end
-- ==== Proof.FrFrameBits.lean ====
/-
  The frame: no host operation after the region writes an argument array, and the region only reads them, so
  both end as launched.
-/
import proofs.«111375_j65884798321056_2_alg».proof.Proof.FrRunBits

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem keeps_arg0 : (hostOps1 : List (HloOp τ sig (Elt F))).Forall fun op => Proc.devRef .tc main_arg0 ∉ op.writes := by
  simp only [hostOps1, List.Forall]
  repeat' constructor
  all_goals (simp only [StableHlo.nullary_writes, StableHlo.unary_writes, StableHlo.binary_writes, StableHlo.reshape_writes, Finset.mem_singleton]; exact StableHlo.devRef_ne_of_ne (by decide))

theorem keeps_arg1 : (hostOps1 : List (HloOp τ sig (Elt F))).Forall fun op => Proc.devRef .tc main_arg1 ∉ op.writes := by
  simp only [hostOps1, List.Forall]
  repeat' constructor
  all_goals (simp only [StableHlo.nullary_writes, StableHlo.unary_writes, StableHlo.binary_writes, StableHlo.reshape_writes, Finset.mem_singleton]; exact StableHlo.devRef_ne_of_ne (by decide))

theorem Wf_arg0 (c : Dev nD) : Wf m c (Proc.devRef .tc main_arg0) = m ((c : Thread nD τ).loc main_arg0) :=
  (StableHlo.after_of_forall_not_mem (b := Proc.devRef .tc main_arg0) hostOps1 (W₁ m c) (fun op hop => (List.forall_iff_forall_mem.mp keeps_arg0) op hop)).trans
    (W₁_ne m c main_arg0 (by decide))

theorem Wf_arg1 (c : Dev nD) : Wf m c (Proc.devRef .tc main_arg1) = m ((c : Thread nD τ).loc main_arg1) :=
  (StableHlo.after_of_forall_not_mem (b := Proc.devRef .tc main_arg1) hostOps1 (W₁ m c) (fun op hop => (List.forall_iff_forall_mem.mp keeps_arg1) op hop)).trans
    (W₁_ne m c main_arg1 (by decide))

/-- Every weakly fair execution of @main terminates, nothing faulting, and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_arg0 rfl).trans (Wf_arg0 m c), (h c main_arg1 rfl).trans (Wf_arg1 m c)⟩) (run_main m ρ)

end Cert.Kernel.Fr

end
-- ==== Proof.KStepIdeal.lean ====
/-
  One grid point's arithmetic as a function of the four input blocks and the running accumulator.

  The body reads the prediction block x0, the target block x1 and the target blocks of the previous and next
  batch entries x2, x3, forms the five per-block sums, lays them out as row 0, lanes 0..4 of an 8 x 128 tile of
  zeros, and adds the tile to the accumulator.  `step` is that new accumulator, `acc0` the zero tile the first
  point of a core starts from, `emit` the tile copied to the output block at a core's last point.
-/
import proofs.«111375_j65884798321056_2_alg».proof.Proof.Gen.KernelIdeal.Skeleton

noncomputable section

namespace Cert.KernelIdeal.KV

open Idealize.ShloMosaic Cert.KernelIdeal Cert.KernelIdeal.Gen

variable {F : FTy → Type} [FloatOps F]

/-- The accumulator after a point, from the point's four input blocks and the accumulator before it. -/
def step (x0 x1 x2 x3 : Vec F S1x1x512x512 .f32) (acc : Vec F S8x128 .f32) : FVec F S8x128 .f32 :=
  k0_pay1 (k0_pay12 (k0_pay5 x1)) (k0_pay13 (k0_pay4 x0) (k0_pay5 x1)) (k0_pay14 (k0_pay4 x0) (k0_pay5 x1))
    (k0_pay15 (k0_pay6 x1) (k0_pay7 x1) (k0_pay8 x1) (k0_pay9 x1) (k0_pay10 x1 x2 x3) (k0_pay11 (F := F)))
    (k0_pay16 (k0_pay4 x0)) acc

/-- The zero tile a core's first point stores before accumulating. -/
def acc0 : FVec F S8x128 .f32 := k0_pay3 (F := F)

/-- The output block a core's last point stores: the accumulator with a leading unit axis. -/
def emit (acc : Vec F S8x128 .f32) : FVec F S1x8x128 .f32 := k0_pay2 acc

end Cert.KernelIdeal.KV

end
-- ==== Proof.FrRunsIdeal.lean ====
/-
  What the three runs of the kernel body share: the arrays as the region finds them, a window's block at a grid
  point, the body's two branch conditions decided over the 32 grid points (the first point of a core: position
  ≡ 0 mod 16; its last: ≡ 15 mod 16), where the output window is idle, and the staging and scratch memrefs.
-/
import proofs.«111375_j65884798321056_2_alg».proof.Proof.Gen.KernelIdeal.Launch
import proofs.«111375_j65884798321056_2_alg».proof.Proof.Gen.KernelIdeal.Skeleton
import proofs.«111375_j65884798321056_2_alg».proof.Proof.Gen.KernelIdeal.Points
import proofs.«111375_j65884798321056_2_alg».proof.Proof.KStepIdeal
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffer contents when the region is entered: the launch contents (no host operation precedes it). -/
abbrev V (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch: this is the core's first point. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The second branch: this is the core's last point. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from a core's last point the output window is idle and not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a core's last point it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1x1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)
/-- The scratch accumulator: a whole scoped buffer of the kernel's own. -/
abbrev scM0_0 : Memref sig .tc .vmem S8x128 .f32 := Memref.whole cc0_scratch0
abbrev VS0_0 : View sig .tc .vmem S8x128 .f32 := scM0_0.view
/-- One staging buffer of the output window, through which its contents are stated. -/
abbrev VO0_4 : View sig .tc .vmem S1x8x128 .f32 := (Memref.whole cc0_stg4_0 : Memref sig .tc .vmem S1x8x128 .f32).view

/-- The scoped buffers no window stages are the scratch accumulator, owned at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Fr

end
-- ==== Proof.FrRunAIdeal.lean ====
/-
  The kernel body run at a core's first point (the accumulator is reset, then added to; the output block is not stored): on whole staging memrefs holding the four input blocks it terminates without a
  fault, leaves the inputs as they were and the buffers it stores into with the pieces listed (last store first).
-/
import proofs.«111375_j65884798321056_2_alg».proof.Proof.FrRunsIdeal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 x1 x2 x3 : Vec F S1x1x512x512 .f32) :
    Σ' (L4 : List (View.Piece (Elt F) S1x8x128 .f32)), { LS0 : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__reduce_kernel i arg2 harg2 arg3 harg3 arg4 harg4 arg5 harg5 arg6 harg6 arg7 harg7) K } := by
  refine ⟨[], ?_, fun xi4 E K => ?run⟩
  case run =>
    simp only [cc0__reduce_kernel_eq_skeleton]; unfold cc0__reduce_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.FrRunBIdeal.lean ====
/-
  The kernel body run at a point that is neither a core's first nor its last (the accumulator is added to; the output block is not stored): on whole staging memrefs holding the four input blocks it terminates without a
  fault, leaves the inputs as they were and the buffers it stores into with the pieces listed (last store first).
-/
import proofs.«111375_j65884798321056_2_alg».proof.Proof.FrRunsIdeal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 x1 x2 x3 : Vec F S1x1x512x512 .f32) (xs0 : Vec F S8x128 .f32) :
    Σ' (L4 : List (View.Piece (Elt F) S1x8x128 .f32)), { LS0 : List (View.Piece (Elt F) S8x128 .f32) //
      ∀ (xi4 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__reduce_kernel i arg2 harg2 arg3 harg3 arg4 harg4 arg5 harg5 arg6 harg6 arg7 harg7) K } := by
  refine ⟨[], ?_, fun xi4 E K => ?run⟩
  case run =>
    simp only [cc0__reduce_kernel_eq_skeleton]; unfold cc0__reduce_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Fr

end
-- ==== Proof.FrRunCIdeal.lean ====
/-
  The kernel body run at a core's last point (the accumulator is added to, then copied to the output block): on whole staging memrefs holding the four input blocks it terminates without a
  fault, leaves the inputs as they were and the buffers it stores into with the pieces listed (last store first).
-/
import proofs.«111375_j65884798321056_2_alg».proof.Proof.FrRunsIdeal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 x1 x2 x3 : Vec F S1x1x512x512 .f32) (xs0 : Vec F S8x128 .f32) :
    Σ' (L4 : List (View.Piece (Elt F) S1x8x128 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__reduce_kernel i arg2 harg2 arg3 harg3 arg4 harg4 arg5 harg5 arg6 harg6 arg7 harg7) K } := by
  refine ⟨?_, ?_, fun E K => ?run⟩
  case run =>
    simp only [cc0__reduce_kernel_eq_skeleton]; unfold cc0__reduce_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Fr

end
-- ==== Proof.FrDataIdeal.lean ====
/-
  What the accumulator and the output block hold after each grid point, the pipeline's proof data, and the body
  obligation at every point.

  After point n the scratch accumulator holds what the case the point is in leaves there, run on the point's four
  input blocks and, past a core's first point, on what the point before left; the output block's staging buffer
  is stored only at a core's last point.  The three runs are stated over pieces; read back over the whole buffer
  they are values, because each case's stores cover the buffer.
-/
import proofs.«111375_j65884798321056_2_alg».proof.Proof.FrRunAIdeal
import proofs.«111375_j65884798321056_2_alg».proof.Proof.FrRunBIdeal
import proofs.«111375_j65884798321056_2_alg».proof.Proof.FrRunCIdeal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's stores into the scratch accumulator cover it. -/
theorem scover0_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 x1 x2 x3 : Vec F S1x1x512x512 .f32) (y : S8x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S8x128.size (by sl_kernel_rfl) y

/-- What case A leaves in the scratch accumulator: its stores read back. -/
def sout0_A_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 x1 x2 x3 : Vec F S1x1x512x512 .f32) : Vec F S8x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B's stores into the scratch accumulator cover it. -/
theorem scover0_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 x1 x2 x3 : Vec F S1x1x512x512 .f32) (xs0 : Vec F S8x128 .f32) (y : S8x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S8x128.size (by sl_kernel_rfl) y

/-- What case B leaves in the scratch accumulator: its stores read back. -/
def sout0_B_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 x1 x2 x3 : Vec F S1x1x512x512 .f32) (xs0 : Vec F S8x128 .f32) : Vec F S8x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's stores into the scratch accumulator cover it. -/
theorem scover0_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 x1 x2 x3 : Vec F S1x1x512x512 .f32) (xs0 : Vec F S8x128 .f32) (y : S8x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S8x128.size (by sl_kernel_rfl) y

/-- What case C leaves in the scratch accumulator: its stores read back. -/
def sout0_C_0 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 x1 x2 x3 : Vec F S1x1x512x512 .f32) (xs0 : Vec F S8x128 .f32) : Vec F S8x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- Case C's store into the output block covers it. -/
theorem cover0_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 x1 x2 x3 : Vec F S1x1x512x512 .f32) (xs0 : Vec F S8x128 .f32) (y : S1x8x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x8x128.size (by sl_kernel_rfl) y

/-- What case C leaves in the output block's staging buffer. -/
def out0_C_4 (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 x1 x2 x3 : Vec F S1x1x512x512 .f32) (xs0 : Vec F S8x128 .f32) : Vec F S1x8x128 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The output block's staging buffer where no case stores into it: contents nothing consults. -/
def outIdle : Vec F S1x8x128 .f32 := VO0_4.read (Elt F) VO0_4.junk

/-! ## What the buffers hold after each point -/

/-- After the body at position n: the output block's staging buffer and the scratch accumulator. -/
def outsAt0 (c : Dev nD) : (n : ℕ) → n < cfg0.N → Vec F S1x8x128 .f32 × Vec F S8x128 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (outIdle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (outIdle, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (outIdle, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the scratch accumulator at anything; afterwards
    at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data on core c.  The three windows on the target array hold a half and two quarters of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right.left
    | ⟨3, _⟩ => fullShare.right.right
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the closed forms say which case the point is in; that case's run applies; the invariant
    hands it the accumulator at what the point before left (at anything at the very first point) and takes it back
    at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      ·
        rw [PhiS_castSucc m c t, PhiS_zero m c _ _ hz, scopedRest0_owns]
        iintro ⟨HS0, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      ·
        rw [PhiS_castSucc m c t, PhiS_pos m c _ _ hz]
        iintro ⟨HS0, Ho, ⟨%d0, H0⟩, ⟨%d1, H1⟩, ⟨%d2, H2⟩, ⟨%d3, H3⟩, ⟨%d4, H4⟩⟩
        iapply ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      by_cases hz : t.val = 0
      · exfalso; omega
      ·
        rw [PhiS_castSucc m c t, PhiS_pos m c _ _ hz]
        iintro ⟨HS0, Ho, ⟨%d0, H0⟩, ⟨%d1, H1⟩, ⟨%d2, H2⟩, ⟨%d3, H3⟩, ⟨%d4, H4⟩⟩
        iapply ((kernelRun0_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0]
        · unfold owns; iexists _; isplitr
          swap; · iexact HS0
          ipureintro; exact View.read_writes_of_cover _ _ _ _ _ (scover0_C_0 c _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      by_cases hz : t.val = 0
      · exfalso; omega
      ·
        rw [PhiS_castSucc m c t, PhiS_pos m c _ _ hz]
        iintro ⟨HS0, Ho, ⟨%d0, H0⟩, ⟨%d1, H1⟩, ⟨%d2, H2⟩, ⟨%d3, H3⟩, ⟨%d4, H4⟩⟩
        iapply ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0]
        · unfold owns; iexists _; isplitr
          swap; · iexact HS0
          ipureintro; exact View.read_writes_of_cover _ _ _ _ _ (scover0_B_0 c _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.FrLaunchIdeal.lean ====
/-
  The launch.  @main is the kernel region followed by 33 host operations.  The region is entered from the
  unscoped buffers at their launch contents; the target array, which three input windows read, is handed to them
  at a half and two quarters of its share and put together again at the region's exit, where the output array
  holds what the write-backs left; the host operations then run over the buffers so updated.
-/
import proofs.«111375_j65884798321056_2_alg».proof.Proof.FrDataIdeal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, as the host operations' valuation. -/
abbrev V₀ (c : Dev nD) : Valuation τ sig (Elt F) := fun b => m (c, b)

/-- The output array after the region: what the pipeline's write-backs left. -/
abbrev outA (c : Dev nD) : Buf (Elt F) ((c : Thread nD τ).loc main_v0) := (dats m 0 c).arrAt 4 cfg0.N

/-- Core c's buffers at the region's exit: the output array written, every other buffer as launched. -/
def W₁ (c : Dev nD) : Valuation τ sig (Elt F) := Function.update (V₀ m c) (Proc.devRef .tc main_v0) (outA m c)

theorem W₁_v0 (c : Dev nD) : W₁ m c (Proc.devRef .tc main_v0) = outA m c := Function.update_self ..

theorem W₁_ne (c : Dev nD) (b : Ref sig .tc) (hb : b ≠ main_v0) : W₁ m c (Proc.devRef .tc b) = m ((c : Thread nD τ).loc b) :=
  Function.update_of_ne (fun e => hb (Proc.devRef_injective _ e)) ..

/-! ## The buffers behind the windows, one by one -/

/-- The three distinct buffers behind the five windows. -/
theorem arrBufs0_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v0) ↦{fullShare} Vv main_v0)) :=
  bigSep_eq_bigSepL_of_eq [main_arg0, main_arg1, main_v0] (by decide) (by decide) _

/-- The pipeline's arrays, window by window, each at its share. -/
theorem arrays0_eq (c : Dev nD) (Fv : (w : Fin cfg0.W) → Buf (Elt F) ((cfg0.win w).arr.view.loc (c : Thread nD τ))) :
    ((dats m 0 c).arrays Fv : sProp 𝕄)
      = iprop((((c : Thread nD τ).loc main_arg0) ↦{fullShare} Fv 0) ∗ (((c : Thread nD τ).loc main_arg1) ↦{fullShare.left} Fv 1)
          ∗ (((c : Thread nD τ).loc main_arg1) ↦{fullShare.right.left} Fv 2) ∗ (((c : Thread nD τ).loc main_arg1) ↦{fullShare.right.right} Fv 3)
          ∗ (((c : Thread nD τ).loc main_v0) ↦{fullShare} Fv 4)) := by
  unfold Dat.arrays
  rw [bigSep_W0]
  rw [(arr_whole0 0).set_eq_univ, (arr_whole0 1).set_eq_univ, (arr_whole0 4).set_eq_univ]
  rfl

/-- ENTRY: the target array's full share is split among its three windows. -/
theorem arrays_of_bufs (c : Dev nD) (Vv : (b : Ref sig .tc) → Buf (Elt F) ((c : Thread nD τ).loc b))
    (Fv : (w : Fin cfg0.W) → Buf (Elt F) ((cfg0.win w).arr.view.loc (c : Thread nD τ)))
    (h0 : Fv 0 = Vv main_arg0) (h1 : Fv 1 = Vv main_arg1) (h2 : Fv 2 = Vv main_arg1) (h3 : Fv 3 = Vv main_arg1) (h4 : Fv 4 = Vv main_v0) :
    (Pipeline.arrBufs (Ix := Unit) (Name := ℕ) (U := UR sig nD τ) (Lvl := ℕ) spec0 c Vv : sProp 𝕄) ⊢ (dats m 0 c).arrays Fv := by
  rw [arrBufs0_eq, arrays0_eq, h0, h1, h2, h3, h4]
  iintro ⟨H0, H1, H4⟩
  ihave H1' := (pointsTo_share (PosShare.mem_left_op_right fullShare)).1 $$ H1
  icases H1' with ⟨Hl, Hr⟩
  ihave Hr' := (pointsTo_share (PosShare.mem_left_op_right fullShare.right)).1 $$ Hr
  icases Hr' with ⟨Hrl, Hrr⟩
  isplitl [H0]; · iexact H0
  isplitl [Hl]; · iexact Hl
  isplitl [Hrl]; · iexact Hrl
  isplitl [Hrr]; · iexact Hrr
  iexact H4

/-- EXIT: the three shares of the target array, at one contents, are the array again. -/
theorem bufs_of_arrays (c : Dev nD) (Vv : (b : Ref sig .tc) → Buf (Elt F) ((c : Thread nD τ).loc b))
    (Fv : (w : Fin cfg0.W) → Buf (Elt F) ((cfg0.win w).arr.view.loc (c : Thread nD τ)))
    (h0 : Fv 0 = Vv main_arg0) (h1 : Fv 1 = Vv main_arg1) (h2 : Fv 2 = Vv main_arg1) (h3 : Fv 3 = Vv main_arg1) (h4 : Fv 4 = Vv main_v0) :
    ((dats m 0 c).arrays Fv : sProp 𝕄) ⊢ Pipeline.arrBufs (Ix := Unit) (Name := ℕ) (U := UR sig nD τ) (Lvl := ℕ) spec0 c Vv := by
  rw [arrBufs0_eq, arrays0_eq, h0, h1, h2, h3, h4]
  iintro ⟨H0, Hl, Hrl, Hrr, H4⟩
  isplitl [H0]; · iexact H0
  isplitr [H4]
  · iapply (pointsTo_share (PosShare.mem_left_op_right fullShare)).2
    isplitl [Hl]; · iexact Hl
    iapply (pointsTo_share (PosShare.mem_left_op_right fullShare.right)).2
    isplitl [Hrl]; · iexact Hrl
    iexact Hrr
  · iexact H4

end Cert.KernelIdeal.Fr

end
-- ==== Proof.FrRunIdeal.lean ====
/-
  The run of @main: the region, then the 33 host operations, as two segments.  Every weakly fair execution
  terminates; at the end each unscoped buffer holds what the host operations leave from the buffers as the region
  left them.
-/
import proofs.«111375_j65884798321056_2_alg».proof.Proof.FrLaunchIdeal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers: the core owes nothing. -/
abbrev R (c : Dev nD) : sProp 𝕄 := iprop(∃ W, owes (c : Thread nD τ) (0 : CellTallies nD τ sig Unit) W)

/-- Every buffer at the end: the host operations run from the region's exit contents. -/
abbrev Wf (c : Dev nD) : Valuation τ sig (Elt F) := StableHlo.after hostOps1 (W₁ m c)

theorem hostOps1_fresh : (hostOps1 : List (HloOp τ sig (Elt F))).Forall fun op => op.fresh = ∅ := by
  simp only [List.Forall]; repeat' constructor

/-- THE HOST SEGMENT: the 33 operations over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W₁ m) R

/-- The buffers no window stages are untouched by the region. -/
theorem rest_congr (c : Dev nD) :
    (Pipeline.unscopedRest (Ix := Unit) (Name := ℕ) (U := UR sig nD τ) (Lvl := ℕ) spec0 c (fun b => W₁ m c (Proc.devRef .tc b)) : sProp 𝕄)
      = Pipeline.unscopedRest spec0 c (V m c) := by
  unfold Pipeline.unscopedRest
  refine bigSep_congr fun b hb => ?_
  dsimp only
  rw [W₁_ne m c b (fun e => (Finset.mem_sdiff.mp hb).2 (Finset.mem_image.mpr ⟨4, Finset.mem_univ _, e ▸ rfl⟩))]

set_option backward.isDefEq.respectTransparency.types false in
/-- THE REGION. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₀ m c) ∗ R c)
  post c := iprop(StableHlo.held (c : Thread nD τ) (Pipeline.ucRefs τ sig) (W₁ m c) ∗ R c)
  X _ := iprop(emp)
  Y _ := iprop(emp)
  Z c := Pipeline.unscopedRest spec0 c (V m c)
  hentry c := by
    rw [← Pipeline.unscopedBufs_held c (V₀ m c), Pipeline.unscopedBufs_split₀ cfgs 0 winFacts₀0.arr_unscoped c]
    iintro ⟨⟨⟨Ha, Hrest⟩, HO⟩, -, -⟩
    imodintro
    isplitl [Ha]
    · iapply (arrays_of_bufs m c (fun b => V₀ m c (Proc.devRef .tc b)) (fun w => (dats m 0 c).arrAt w 0) rfl rfl rfl rfl rfl)
      iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = PhiS m c 0 (Nat.zero_le _) from rfl, PhiS_zero m c 0 _ rfl]
    iintro ⟨-, -, Hr⟩
    iexact Hr
  hout c := by
    rw [Pipeline.ownSems0_none, show (dats m 0 c).Φ (Fin.last cfg0.N) = PhiS m c (Fin.last cfg0.N).val (Nat.le_of_lt_succ (Fin.last cfg0.N).isLt) from rfl,
      PhiS_pos m c _ _ (by rw [Fin.val_last]; have : cfg0.N = 32 := N_0; omega), scopedRest0_owns]
    iintro HS
    isplitr; · iempintro
    isplitr; · iempintro
    iexists _; iexact HS
  hexit c := by
    rw [← Pipeline.unscopedBufs_held c (W₁ m c), Pipeline.unscopedBufs_split₀ cfgs 0 winFacts₀0.arr_unscoped c, rest_congr]
    iintro ⟨Ha, HO, -, HZ⟩
    imodintro
    isplitr [HO]
    · isplitl [Ha]
      · iapply (bufs_of_arrays m c (fun b => W₁ m c (Proc.devRef .tc b)) (fun w => (dats m 0 c).arrAt w cfg0.N)
          (((dats m 0 c).arrAt_in 0 rfl _).trans (W₁_ne m c main_arg0 (by decide)).symm)
          (((dats m 0 c).arrAt_in 1 rfl _).trans (W₁_ne m c main_arg1 (by decide)).symm)
          (((dats m 0 c).arrAt_in 2 rfl _).trans (W₁_ne m c main_arg1 (by decide)).symm)
          (((dats m 0 c).arrAt_in 3 rfl _).trans (W₁_ne m c main_arg1 (by decide)).symm)
          (W₁_v0 m c).symm)
        iexact Ha
      iexact HZ
    · unfold Pipeline.Dat.owesAt Pipeline.owesWithin
      icases HO with ⟨%W, -, HO⟩; iexists W; iexact HO

/-- @main as the list of the two. -/
abbrev segs : List (Pipeline.Seg (pcfgs (F := F)) adm (dats m) () defs₀ 𝒱₀ L lv) := [.region (reg0 m), .host (seg1 m)]

set_option backward.isDefEq.respectTransparency.types false in
/-- From any memory with zero counters every weakly fair execution of @main terminates, and at the end every
    unscoped buffer holds what the host operations leave from the region's exit contents. -/
theorem run_main : θ_run defs (onTc (τ := τ) (main (F := F))) ⟨m, fun _ => 0, ρ⟩
    (fun r => ∀ c : Dev nD, ∀ b : Ref sig .tc, b.isScoped = false → r.2.mem ((c : Thread nD τ).loc b) = Wf m c (Proc.devRef .tc b)) :=
  Pipeline.θ_run_regions_kit (pcfgs (F := F)) adm (dats m) () cellOf_inj emb₁ defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Wf m c))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b : Ref sig .tc, b.isScoped = false → s.mem ((c : Thread nD τ).loc b) = Wf m c (Proc.devRef .tc b))
    (hfin := fun c s' => by
      rw [← Pipeline.unscopedBufs_held c (Wf m c)]
      unfold unscopedBufs
      iintro ⟨Hh, HSI⟩
      ihave Hr := (pointsTo_read_all (Finset.univ.filter fun b : Ref sig .tc => ¬ b.isScoped) (fun b => (c : Thread nD τ).loc b) (fun b => Wf m c (Proc.devRef .tc b)) s') $$ [Hh HSI]
      · isplitl [Hh] <;> iassumption
      icases Hr with ⟨%hr, HSI⟩
      imodintro
      isplitr; · ipureintro; exact fun b hb => hr b (Finset.mem_filter.mpr ⟨Finset.mem_univ _, by simp [hb]⟩)
      iexact HSI)
    (hQ := fun _ h => h)

end Cert.KernelIdeal.Fr

end
-- ==== Proof.FrFrameIdeal.lean ====
/-
  The frame: no host operation after the region writes an argument array, and the region only reads them, so
  both end as launched.
-/
import proofs.«111375_j65884798321056_2_alg».proof.Proof.FrRunIdeal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem keeps_arg0 : (hostOps1 : List (HloOp τ sig (Elt F))).Forall fun op => Proc.devRef .tc main_arg0 ∉ op.writes := by
  simp only [hostOps1, List.Forall]
  repeat' constructor
  all_goals (simp only [StableHlo.nullary_writes, StableHlo.unary_writes, StableHlo.binary_writes, StableHlo.reshape_writes, Finset.mem_singleton]; exact StableHlo.devRef_ne_of_ne (by decide))

theorem keeps_arg1 : (hostOps1 : List (HloOp τ sig (Elt F))).Forall fun op => Proc.devRef .tc main_arg1 ∉ op.writes := by
  simp only [hostOps1, List.Forall]
  repeat' constructor
  all_goals (simp only [StableHlo.nullary_writes, StableHlo.unary_writes, StableHlo.binary_writes, StableHlo.reshape_writes, Finset.mem_singleton]; exact StableHlo.devRef_ne_of_ne (by decide))

theorem Wf_arg0 (c : Dev nD) : Wf m c (Proc.devRef .tc main_arg0) = m ((c : Thread nD τ).loc main_arg0) :=
  (StableHlo.after_of_forall_not_mem (b := Proc.devRef .tc main_arg0) hostOps1 (W₁ m c) (fun op hop => (List.forall_iff_forall_mem.mp keeps_arg0) op hop)).trans
    (W₁_ne m c main_arg0 (by decide))

theorem Wf_arg1 (c : Dev nD) : Wf m c (Proc.devRef .tc main_arg1) = m ((c : Thread nD τ).loc main_arg1) :=
  (StableHlo.after_of_forall_not_mem (b := Proc.devRef .tc main_arg1) hostOps1 (W₁ m c) (fun op hop => (List.forall_iff_forall_mem.mp keeps_arg1) op hop)).trans
    (W₁_ne m c main_arg1 (by decide))

/-- Every weakly fair execution of @main terminates, nothing faulting, and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_arg0 rfl).trans (Wf_arg0 m c), (h c main_arg1 rfl).trans (Wf_arg1 m c)⟩) (run_main m ρ)

end Cert.KernelIdeal.Fr

end
-- ==== Proof.KVTail.lean ====
/-
  The host arithmetic after the kernel, as one pure function of the kernel's [2,8,128] output.

  The two cores' tiles are added along axis 0; row 0, lanes 0..4 of the sum are the five global sums
  (Σ P, Σ T, Σ P·T, Σ bce, Σ bnd); the loss is
      (1 - (2·Σ P·T + s) / ((Σ P + Σ T) + s))  +  (10 · (-(Σ bce / n))) · (Σ bnd / n).
  `tail` is the composition of the host operations, in their order, and `after_tail` says that running
  them from any contents leaves `tail` of the output buffer's contents in the result buffer.
-/
import proofs.«111375_j65884798321056_2_alg».proof.Proof.Gen.KernelIdeal.Launch
import Idealize.ShloMosaic.Lib.StableHlo.Run
import Idealize.ShloMosaic.PureOps.Ideal

noncomputable section

namespace Cert.KernelIdeal.KV

open Idealize.ShloMosaic Idealize.ShloMosaic.StableHlo Cert.KernelIdeal Cert.KernelIdeal.Gen

/-- The five sums picked out of the two cores' tiles: the tiles added along axis 0, then row 0, lanes 0..4. -/
def five (out : FVec Ideal S2x8x128 .f32) : FVec Ideal S5 .f32 :=
  shapeCast S5
    (extractStridedSlice S1x5 ![0, 0]
      (Host.reduceAdd (F := Ideal) out (constant (F := Ideal) S_ .f32 0x00000000#32) Gen.reducesTo_S2x8x128_S8x128_d0 Gen.h_S_)
      Gen.slices_S8x128_S1x5_0_0)
    Gen.shapeCasts_S1x5_S5

/-- Lane `k` of the five sums as a rank-0 array. -/
def lane0 (v : FVec Ideal S5 .f32) : FVec Ideal S_ .f32 :=
  shapeCast S_ (extractStridedSlice S1 ![0] v Gen.slices_S5_S1_0) Gen.shapeCasts_S1_S_
def lane1 (v : FVec Ideal S5 .f32) : FVec Ideal S_ .f32 :=
  shapeCast S_ (extractStridedSlice S1 ![1] v Gen.slices_S5_S1_1) Gen.shapeCasts_S1_S_
def lane2 (v : FVec Ideal S5 .f32) : FVec Ideal S_ .f32 :=
  shapeCast S_ (extractStridedSlice S1 ![2] v Gen.slices_S5_S1_2) Gen.shapeCasts_S1_S_
def lane3 (v : FVec Ideal S5 .f32) : FVec Ideal S_ .f32 :=
  shapeCast S_ (extractStridedSlice S1 ![3] v Gen.slices_S5_S1_3) Gen.shapeCasts_S1_S_
def lane4 (v : FVec Ideal S5 .f32) : FVec Ideal S_ .f32 :=
  shapeCast S_ (extractStridedSlice S1 ![4] v Gen.slices_S5_S1_4) Gen.shapeCasts_S1_S_

/-- The loss from the five rank-0 sums, in the host's order of operations. -/
def finish (sP sT sPT sB sN : FVec Ideal S_ .f32) : FVec Ideal S_ .f32 :=
  addf
    (subf (constant (F := Ideal) S_ .f32 0x3F800000#32)
      (Host.divf (F := Ideal)
        (addf (mulf (constant (F := Ideal) S_ .f32 0x40000000#32) sPT) (constant (F := Ideal) S_ .f32 0x3727C5AC#32))
        (addf (addf sP sT) (constant (F := Ideal) S_ .f32 0x3727C5AC#32))))
    (mulf
      (mulf (constant (F := Ideal) S_ .f32 0x41200000#32)
        (Host.negf (F := Ideal) (Host.divf (F := Ideal) sB (constant (F := Ideal) S_ .f32 0x4B000000#32))))
      (Host.divf (F := Ideal) sN (constant (F := Ideal) S_ .f32 0x4B000000#32)))

/-- The host operations after the kernel, composed: the result buffer as a function of the kernel's output. -/
def tail (out : FVec Ideal S2x8x128 .f32) : FVec Ideal S_ .f32 :=
  finish (lane0 (five out)) (lane1 (five out)) (lane2 (five out)) (lane3 (five out)) (lane4 (five out))

/-- Running the host operations from any contents leaves `tail` of the kernel's output in the result buffer. -/
theorem after_tail (W : Valuation τ sig (Elt Ideal)) :
    StableHlo.after (Gen.hostOps1 (F := Ideal)) W (Proc.devRef .tc main_v25) = tail (W (Proc.devRef .tc main_v0)) := by
  after_results_simp
  rfl

end Cert.KernelIdeal.KV

end
-- ==== Proof.FrTailIdeal.lean ====
/-
  The idealized kernel's run with the result read through the host operations: the result buffer holds `tail` of the
  output array the region left, and the argument arrays end unchanged.
-/
import proofs.«111375_j65884798321056_2_alg».proof.Proof.FrFrameIdeal
import proofs.«111375_j65884798321056_2_alg».proof.Proof.KVTail

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_tail (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v25) = KV.tail ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c main_v25 rfl).trans ((KV.after_tail (W₁ m c)).trans (congrArg KV.tail (W₁_v0 m c))),
      (h c main_arg0 rfl).trans (Wf_arg0 m c), (h c main_arg1 rfl).trans (Wf_arg1 m c)⟩) (run_main m ρ)

end Cert.KernelIdeal.Fr

end
-- ==== Proof.FrVal1Ideal.lean ====
/-
  The three runs read back as values.  Each case's stores into the accumulator are one covering store of the
  point's arithmetic (after the zero tile at a core's first point), so the accumulator afterwards is `step` of the
  four input blocks and of what it held (the zero tile at a first point); the last point's store into the output
  block is `emit` of that.  Hence the accumulator after position n is the running fold `chain`.
-/
import proofs.«111375_j65884798321056_2_alg».proof.Proof.FrDataIdeal
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point that is neither first nor last: the accumulator becomes `step` of what it held. -/
theorem sout_B (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : ¬cond0_1 i)
    (x0 x1 x2 x3 : Vec F S1x1x512x512 .f32) (xs0 : Vec F S8x128 .f32) :
    sout0_B_0 c i arg2 harg2 arg3 harg3 arg4 harg4 arg5 harg5 arg6 harg6 arg7 harg7 hc0 hc1 x0 x1 x2 x3 xs0 = KV.step x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz2]
  simp only [View.readAt_eq_ld, harg2.read_unread, harg3.read_unread, harg4.read_unread, harg5.read_unread, harg7.read_unread,
    View.ld_unit_zero (S := S1x1x512x512) hz4, View.ld_unit_zero (S := S8x128) hz2]
  rfl

/-- A core's last point: the same for the accumulator. -/
theorem sout_C (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 x1 x2 x3 : Vec F S1x1x512x512 .f32) (xs0 : Vec F S8x128 .f32) :
    sout0_C_0 c i arg2 harg2 arg3 harg3 arg4 harg4 arg5 harg5 arg6 harg6 arg7 harg7 hc0 hc1 x0 x1 x2 x3 xs0 = KV.step x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg7.read_unread,
    View.ld_unit_zero (S := S1x1x512x512) hz4, View.ld_unit_zero (S := S8x128) hz2]
  rfl

/-- A core's last point: the output block's staging buffer takes the new accumulator. -/
theorem out_C (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : ¬cond0_0 i) (hc1 : cond0_1 i)
    (x0 x1 x2 x3 : Vec F S1x1x512x512 .f32) (xs0 : Vec F S8x128 .f32) :
    out0_C_4 c i arg2 harg2 arg3 harg3 arg4 harg4 arg5 harg5 arg6 harg6 arg7 harg7 hc0 hc1 x0 x1 x2 x3 xs0 = KV.emit (KV.step x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S8x128) _ hz2]
  simp only [View.readAt_eq_ld, harg2.read_unread, harg3.read_unread, harg4.read_unread, harg5.read_unread, harg7.read_unread,
    View.ld_unit_zero (S := S1x1x512x512) hz4, View.ld_unit_zero (S := S8x128) hz2]
  rfl

/-- A core's first point: the accumulator becomes `step` of the zero tile. -/
theorem sout_A (c : Dev nD) (i : grid0.Coords) (arg2 : Memref sig .tc .vmem S1x1x512x512 .f32) (harg2 : arg2.IsWhole) (arg3 : Memref sig .tc .vmem S1x1x512x512 .f32) (harg3 : arg3.IsWhole) (arg4 : Memref sig .tc .vmem S1x1x512x512 .f32) (harg4 : arg4.IsWhole) (arg5 : Memref sig .tc .vmem S1x1x512x512 .f32) (harg5 : arg5.IsWhole) (arg6 : Memref sig .tc .vmem S1x8x128 .f32) (harg6 : arg6.IsWhole) (arg7 : Memref sig .tc .vmem S8x128 .f32) (harg7 : arg7.IsWhole) (hc0 : cond0_0 i) (hc1 : ¬cond0_1 i)
    (x0 x1 x2 x3 : Vec F S1x1x512x512 .f32) :
    sout0_A_0 c i arg2 harg2 arg3 harg3 arg4 harg4 arg5 harg5 arg6 harg6 arg7 harg7 hc0 hc1 x0 x1 x2 x3 = KV.step x0 x1 x2 x3 (KV.acc0 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S8x128) hz2, View.readCov_unit_zero (S := S8x128) _ hz2]
  simp only [View.readAt_eq_ld, harg2.read_unread, harg3.read_unread, harg4.read_unread, harg5.read_unread,
    View.ld_unit_zero (S := S1x1x512x512) hz4, View.ld_unit_zero (S := S8x128) hz2]
  rfl

end Cert.KernelIdeal.Fr

end
-- ==== Proof.FrVal2Ideal.lean ====
/-
  The accumulator after position n as a fold: core k's first point (n ≡ 0 mod 16) starts from the zero tile, every
  other point steps from what the point before left; at a core's last point the output block takes `emit` of it.
-/
import proofs.«111375_j65884798321056_2_alg».proof.Proof.FrVal1Ideal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid point at position n (no wrap below 32). -/
def tOf (n : ℕ) : Fin cfg0.N := ⟨n % 32, lt_of_lt_of_eq (Nat.mod_lt _ (by decide)) N_0.symm⟩

theorem tOf_of_lt (n : ℕ) (h : n < cfg0.N) : tOf n = ⟨n, h⟩ := Fin.ext (Nat.mod_eq_of_lt (lt_of_lt_of_eq h N_0))

/-- One point's step on the point's four input blocks. -/
def stepAt (c : Dev nD) (t : Fin cfg0.N) (acc : Vec F S8x128 .f32) : Vec F S8x128 .f32 :=
  KV.step (iblk m c 0 t) (iblk m c 1 t) (iblk m c 2 t) (iblk m c 3 t) acc

/-- The accumulator after position n. -/
def chain (c : Dev nD) : ℕ → Vec F S8x128 .f32
  | 0 => stepAt m c (tOf 0) (KV.acc0 (F := F))
  | n + 1 => if (n + 1) % 16 = 0 then stepAt m c (tOf (n + 1)) (KV.acc0 (F := F)) else stepAt m c (tOf (n + 1)) (chain c n)

theorem chain_zero (c : Dev nD) : chain m c 0 = stepAt m c (tOf 0) (KV.acc0 (F := F)) := rfl
theorem chain_first (c : Dev nD) (n : ℕ) (h : (n + 1) % 16 = 0) : chain m c (n + 1) = stepAt m c (tOf (n + 1)) (KV.acc0 (F := F)) := if_pos h
theorem chain_succ (c : Dev nD) (n : ℕ) (h : ¬(n + 1) % 16 = 0) : chain m c (n + 1) = stepAt m c (tOf (n + 1)) (chain m c n) := if_neg h

/-- What the accumulator holds after position n is the fold. -/
theorem outsAt_eq (c : Dev nD) : ∀ (n : ℕ) (h : n < cfg0.N), (outsAt0 m c n h).2 = chain m c n
  | 0, h => by
    rw [outsAt0_A m c ⟨0, h⟩ rfl (show ¬(0 % 16 = 15) by decide)]; dsimp only
    rw [sout_A, chain_zero, tOf_of_lt 0 h]; rfl
  | n + 1, h => by
    have hN : cfg0.N = 32 := N_0
    by_cases h0 : (n + 1) % 16 = 0
    · have h1 : ¬(n + 1) % 16 = 15 := by omega
      rw [outsAt0_A m c ⟨n + 1, h⟩ h0 h1]; dsimp only
      rw [sout_A, chain_first m c n h0, tOf_of_lt _ h]; rfl
    · by_cases h1 : (n + 1) % 16 = 15
      · rw [outsAt0_C m c ⟨n + 1, h⟩ h0 h1]; dsimp only
        rw [sout_C, chain_succ m c n h0, tOf_of_lt _ h]
        show KV.step _ _ _ _ (outsAt0 m c n _).2 = _
        rw [outsAt_eq c n]; rfl
      · rw [outsAt0_B m c ⟨n + 1, h⟩ h0 h1]; dsimp only
        rw [sout_B, chain_succ m c n h0, tOf_of_lt _ h]
        show KV.step _ _ _ _ (outsAt0 m c n _).2 = _
        rw [outsAt_eq c n]; rfl

/-- At a core's last point the output block's staging buffer holds `emit` of the fold. -/
theorem outsAt_out (c : Dev nD) (t : Fin cfg0.N) (h1 : t.val % 16 = 15) :
    (outsAt0 m c t.val t.isLt).1 = KV.emit (chain m c t.val) := by
  have h0 : ¬t.val % 16 = 0 := by omega
  have hs := outsAt_eq m c t.val t.isLt
  rw [outsAt0_C m c t h0 h1] at hs ⊢
  dsimp only at hs ⊢
  rw [sout_C] at hs
  rw [out_C, hs]

/-- The proof data's contents for the output window after a core's last point. -/
theorem after4_last (c : Dev nD) (t : Fin cfg0.N) (h1 : t.val % 16 = 15) :
    (dats m 0 c).after 4 t = KV.emit (chain m c t.val) := by
  rw [after0_4, outsAt_out m c t h1]

end Cert.KernelIdeal.Fr

end
-- ==== Proof.Spec.lean ====
/-
  The function both programs compute, stated once over the two argument arrays read as extended reals.

  With P, T : [32,1,512,512] the loss is
      (1 - (2·Σ P·T + s) / ((Σ P + Σ T) + s))  +  (10 · (-(Σ bce / n))) · (Σ bnd / n),
  every sum over all indices of the arrays, where per element
      bce p t = t · log (clip p) + (1 - t) · log1p (-(clip p)),   clip p = min hi (max lo p),
  and bnd is 1 at a foreground element (t > 1/2) one of whose six clamped axis neighbours (batch, row, column; the
  channel axis has extent 1) is background (t ≤ 1/2), and 0 elsewhere.  The literals are kept as the binary words
  both programs print.
-/
import Idealize.ShloMosaic.PureOps.Ideal
import Idealize.ShloMosaic.Lib.ValueIdx

noncomputable section

namespace Cert.Spec

open Idealize.ShloMosaic Idealize.ShloMosaic.ValueIdx

/-- The arrays' shape. -/
abbrev A4 : Shape := ⟨4, ![32, 1, 512, 512]⟩
/-- The scalar result's shape. -/
abbrev A0 : Shape := ⟨0, ![]⟩

def half : EReal := Ideal.ofBits .f32 0x3F000000#32
def lo : EReal := Ideal.ofBits .f32 0x33D6BF95#32
def hi : EReal := Ideal.ofBits .f32 0x3F7FFFFE#32
def one : EReal := Ideal.ofBits .f32 0x3F800000#32
def zero : EReal := Ideal.ofBits .f32 0x00000000#32
def two : EReal := Ideal.ofBits .f32 0x40000000#32
def ten : EReal := Ideal.ofBits .f32 0x41200000#32
def smooth : EReal := Ideal.ofBits .f32 0x3727C5AC#32
def total : EReal := Ideal.ofBits .f32 0x4B000000#32

/-- The neighbour one step up an axis of extent n, clamped at the last position. -/
def up {n : Nat} (k : Fin n) : Fin n := ⟨min (k.val + 1) (n - 1), by have := k.isLt; omega⟩
/-- The neighbour one step down an axis, clamped at position 0 (truncated subtraction). -/
def dn {n : Nat} (k : Fin n) : Fin n := ⟨k.val - 1, by have := k.isLt; omega⟩

/-- The probability clamped away from 0 and 1. -/
def clipP (p : EReal) : EReal := min hi (max lo p)

/-- One element's cross-entropy term. -/
def bce (p t : EReal) : EReal := t * Ideal.log (clipP p) + (one - t) * Ideal.log1p (-(clipP p))

/-- Some clamped axis neighbour of (b, r, c) is background. -/
def hasBg (T : A4.Idx → EReal) (b : Fin 32) (r c : Fin 512) : Prop :=
  T (ix4 (up b) 0 r c) ≤ half ∨ T (ix4 (dn b) 0 r c) ≤ half ∨
  T (ix4 b 0 (up r) c) ≤ half ∨ T (ix4 b 0 (dn r) c) ≤ half ∨
  T (ix4 b 0 r (up c)) ≤ half ∨ T (ix4 b 0 r (dn c)) ≤ half

open Classical in
/-- The inner-boundary indicator at (b, r, c), as a number. -/
def bnd (T : A4.Idx → EReal) (b : Fin 32) (r c : Fin 512) : EReal :=
  if half < T (ix4 b 0 r c) ∧ hasBg T b r c then one else zero

/-- The five global sums. -/
def sumP (P : A4.Idx → EReal) : EReal := ∑ b : Fin 32, ∑ r : Fin 512, ∑ c : Fin 512, P (ix4 b 0 r c)
def sumPT (P T : A4.Idx → EReal) : EReal := ∑ b : Fin 32, ∑ r : Fin 512, ∑ c : Fin 512, P (ix4 b 0 r c) * T (ix4 b 0 r c)
def sumBce (P T : A4.Idx → EReal) : EReal := ∑ b : Fin 32, ∑ r : Fin 512, ∑ c : Fin 512, bce (P (ix4 b 0 r c)) (T (ix4 b 0 r c))
def sumBnd (T : A4.Idx → EReal) : EReal := ∑ b : Fin 32, ∑ r : Fin 512, ∑ c : Fin 512, bnd T b r c

/-- The loss from the five sums: the arithmetic both programs do on the host. -/
def combine (sP sT sPT sB sN : EReal) : EReal :=
  (one - Ideal.div (two * sPT + smooth) ((sP + sT) + smooth)) + (ten * (-(Ideal.div sB total))) * (Ideal.div sN total)

/-- The loss as a function of the two arrays. -/
def loss (P T : A4.Idx → EReal) : EReal :=
  combine (sumP P) (sumP T) (sumPT P T) (sumBce P T) (sumBnd T)

/-- The result buffer: a rank-0 array holding the loss. -/
def G (P T : FVec Ideal A4 .f32) : FVec Ideal A0 .f32 := fun _ => loss P T

end Cert.Spec

end
-- ==== Proof.KAcc.lean ====
/-
  The idealized kernel's output array as a function of the two argument arrays.

  Grid point (k, l) of the 2 x 16 grid works on batch entry b = 16 k + l: it is handed entry b of the predictions,
  entry b of the targets, and the targets' entries one step down and one step up the batch axis (clamped at the
  ends).  Core k's accumulator starts from the zero tile at l = 0, takes one `step` per point, and is copied to
  block k of the [2,8,128] output at l = 15.
-/
import proofs.«111375_j65884798321056_2_alg».proof.Proof.KStepIdeal
import proofs.«111375_j65884798321056_2_alg».proof.Proof.Spec
import Idealize.ShloMosaic.Lib.ValueIdx

noncomputable section

namespace Cert.KernelIdeal.KV

open Idealize.ShloMosaic Idealize.ShloMosaic.ValueIdx Cert.KernelIdeal Cert.KernelIdeal.Gen

/-- Batch entry `b` of an array, as the [1,1,512,512] block a window stages. -/
def blk (X : FVec Ideal S32x1x512x512 .f32) (b : Fin 32) : Vec Ideal S1x1x512x512 .f32 :=
  fun y => X (ix4 b (0 : Fin 1) (y 2 : Fin 512) (y 3 : Fin 512))

/-- The batch entry of core `k` at its local point `l` (no wrap for l < 16). -/
def batN (k : Fin 2) (l : Nat) : Fin 32 := ⟨(16 * k.val + l) % 32, Nat.mod_lt _ (by norm_num)⟩

/-- Core `k`'s accumulator after its local point `l`. -/
def accAt (P T : FVec Ideal S32x1x512x512 .f32) (k : Fin 2) : Nat → FVec Ideal S8x128 .f32
  | 0 => step (blk P (batN k 0)) (blk T (batN k 0)) (blk T (Cert.Spec.dn (batN k 0))) (blk T (Cert.Spec.up (batN k 0))) (acc0 (F := Ideal))
  | l + 1 => step (blk P (batN k (l + 1))) (blk T (batN k (l + 1))) (blk T (Cert.Spec.dn (batN k (l + 1)))) (blk T (Cert.Spec.up (batN k (l + 1)))) (accAt P T k l)

/-- The [2,8,128] output array: block `k` is core `k`'s accumulator after its sixteenth point. -/
def outArr (P T : FVec Ideal S32x1x512x512 .f32) : FVec Ideal S2x8x128 .f32 :=
  fun j => emit (accAt P T (j 0 : Fin 2) 15) (ix3 (0 : Fin 1) (j 1 : Fin 8) (j 2 : Fin 128))

end Cert.KernelIdeal.KV

end
-- ==== Proof.FrVal3Ideal.lean ====
/-
  The four input blocks of a grid point as batch entries of the argument arrays, and the running fold over a core's
  points as the accumulator recursion of the specification side.

  Point t of the 32 points is handed entry t of the predictions and of the targets, and the targets' entries one
  step down and one step up the batch axis, clamped at the ends: the windows' index maps, decided over the grid.
  Core k's points are positions 16 k … 16 k + 15; its fold restarts from the zero tile at position 16 k.
-/
import proofs.«111375_j65884798321056_2_alg».proof.Proof.FrVal2Ideal
import proofs.«111375_j65884798321056_2_alg».proof.Proof.KAcc
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

/-- The prediction array as core c finds it. -/
abbrev P (c : Dev nD) : FVec Ideal S32x1x512x512 .f32 := m ((c : Thread nD τ).loc main_arg0)
/-- The target array as core c finds it. -/
abbrev T (c : Dev nD) : FVec Ideal S32x1x512x512 .f32 := m ((c : Thread nD τ).loc main_arg1)

/-- The batch entry of grid point t. -/
def bt (t : Fin cfg0.N) : Fin 32 := ⟨t.val % 32, Nat.mod_lt _ (by decide)⟩

/-! ## The windows' index maps over the 32 points -/

theorem idx_facts0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)
theorem idx_facts1 : ∀ t : Fin cfg0.N, win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val ∧ win0_1.index t (1 : Fin 4) = 0
    ∧ win0_1.index t (2 : Fin 4) = 0 ∧ win0_1.index t (3 : Fin 4) = 0)
theorem idx_facts2 : ∀ t : Fin cfg0.N, win0_2.index t (0 : Fin 4) = t.val - 1 ∧ win0_2.index t (1 : Fin 4) = 0
    ∧ win0_2.index t (2 : Fin 4) = 0 ∧ win0_2.index t (3 : Fin 4) = 0 :=
  (by decide +kernel : ∀ t : Fin grid0.N, win0_2.index t (0 : Fin 4) = t.val - 1 ∧ win0_2.index t (1 : Fin 4) = 0
    ∧ win0_2.index t (2 : Fin 4) = 0 ∧ win0_2.index t (3 : Fin 4) = 0)
theorem idx_facts3 : ∀ t : Fin cfg0.N, win0_3.index t (0 : Fin 4) = min (t.val + 1) 31 ∧ win0_3.index t (1 : Fin 4) = 0
    ∧ win0_3.index t (2 : Fin 4) = 0 ∧ win0_3.index t (3 : Fin 4) = 0 :=
  (by decide +kernel : ∀ t : Fin grid0.N, win0_3.index t (0 : Fin 4) = min (t.val + 1) 31 ∧ win0_3.index t (1 : Fin 4) = 0
    ∧ win0_3.index t (2 : Fin 4) = 0 ∧ win0_3.index t (3 : Fin 4) = 0)

/-! ## The blocks -/

/-- Window 0's block at point t is the predictions' batch entry t. -/
theorem iblk0_eq (c : Dev nD) (t : Fin cfg0.N) :
    (iblk m c 0 t : Vec Ideal S1x1x512x512 .f32) = KV.blk (P m c) (bt t) := by
  obtain ⟨e0, e1, e2, e3⟩ := idx_facts0 t
  have hN : t.val < 32 := lt_of_lt_of_eq t.isLt (show cfg0.N = 32 from N_0)
  funext j
  unfold iblk KV.blk
  rw [View.read_apply]
  show V m c main_arg0 _ = P m c _
  unfold V P
  congr 1
  funext a
  apply Fin.ext
  have h0 : (j 0).val < 1 := (j 0).isLt
  match a with
  | ⟨0, _⟩ =>
    show win0_0.index t (0 : Fin 4) * 1 + 1 * (j 0).val = t.val % 32
    rw [e0]; omega
  | ⟨1, _⟩ =>
    show win0_0.index t (1 : Fin 4) * 1 + 1 * (j 1).val = 0
    have h1 : (j 1).val < 1 := (j 1).isLt
    rw [e1]; omega
  | ⟨2, _⟩ =>
    show win0_0.index t (2 : Fin 4) * 512 + 1 * (j 2).val = (j 2).val
    rw [e2]; omega
  | ⟨3, _⟩ =>
    show win0_0.index t (3 : Fin 4) * 512 + 1 * (j 3).val = (j 3).val
    rw [e3]; omega

/-- Window 1's block at point t is the targets' batch entry t. -/
theorem iblk1_eq (c : Dev nD) (t : Fin cfg0.N) :
    (iblk m c 1 t : Vec Ideal S1x1x512x512 .f32) = KV.blk (T m c) (bt t) := by
  obtain ⟨e0, e1, e2, e3⟩ := idx_facts1 t
  have hN : t.val < 32 := lt_of_lt_of_eq t.isLt (show cfg0.N = 32 from N_0)
  funext j
  unfold iblk KV.blk
  rw [View.read_apply]
  show V m c main_arg1 _ = T m c _
  unfold V T
  congr 1
  funext a
  apply Fin.ext
  have h0 : (j 0).val < 1 := (j 0).isLt
  match a with
  | ⟨0, _⟩ =>
    show win0_1.index t (0 : Fin 4) * 1 + 1 * (j 0).val = t.val % 32
    rw [e0]; omega
  | ⟨1, _⟩ =>
    show win0_1.index t (1 : Fin 4) * 1 + 1 * (j 1).val = 0
    have h1 : (j 1).val < 1 := (j 1).isLt
    rw [e1]; omega
  | ⟨2, _⟩ =>
    show win0_1.index t (2 : Fin 4) * 512 + 1 * (j 2).val = (j 2).val
    rw [e2]; omega
  | ⟨3, _⟩ =>
    show win0_1.index t (3 : Fin 4) * 512 + 1 * (j 3).val = (j 3).val
    rw [e3]; omega

/-- Window 2's block at point t is the targets' batch entry one step down, clamped at entry 0. -/
theorem iblk2_eq (c : Dev nD) (t : Fin cfg0.N) :
    (iblk m c 2 t : Vec Ideal S1x1x512x512 .f32) = KV.blk (T m c) (Cert.Spec.dn (bt t)) := by
  obtain ⟨e0, e1, e2, e3⟩ := idx_facts2 t
  have hN : t.val < 32 := lt_of_lt_of_eq t.isLt (show cfg0.N = 32 from N_0)
  funext j
  unfold iblk KV.blk
  rw [View.read_apply]
  show V m c main_arg1 _ = T m c _
  unfold V T
  congr 1
  funext a
  apply Fin.ext
  have h0 : (j 0).val < 1 := (j 0).isLt
  match a with
  | ⟨0, _⟩ =>
    show win0_2.index t (0 : Fin 4) * 1 + 1 * (j 0).val = t.val % 32 - 1
    rw [e0]; omega
  | ⟨1, _⟩ =>
    show win0_2.index t (1 : Fin 4) * 1 + 1 * (j 1).val = 0
    have h1 : (j 1).val < 1 := (j 1).isLt
    rw [e1]; omega
  | ⟨2, _⟩ =>
    show win0_2.index t (2 : Fin 4) * 512 + 1 * (j 2).val = (j 2).val
    rw [e2]; omega
  | ⟨3, _⟩ =>
    show win0_2.index t (3 : Fin 4) * 512 + 1 * (j 3).val = (j 3).val
    rw [e3]; omega

/-- Window 3's block at point t is the targets' batch entry one step up, clamped at entry 31. -/
theorem iblk3_eq (c : Dev nD) (t : Fin cfg0.N) :
    (iblk m c 3 t : Vec Ideal S1x1x512x512 .f32) = KV.blk (T m c) (Cert.Spec.up (bt t)) := by
  obtain ⟨e0, e1, e2, e3⟩ := idx_facts3 t
  have hN : t.val < 32 := lt_of_lt_of_eq t.isLt (show cfg0.N = 32 from N_0)
  funext j
  unfold iblk KV.blk
  rw [View.read_apply]
  show V m c main_arg1 _ = T m c _
  unfold V T
  congr 1
  funext a
  apply Fin.ext
  have h0 : (j 0).val < 1 := (j 0).isLt
  match a with
  | ⟨0, _⟩ =>
    show win0_3.index t (0 : Fin 4) * 1 + 1 * (j 0).val = min (t.val % 32 + 1) (32 - 1)
    rw [e0]; omega
  | ⟨1, _⟩ =>
    show win0_3.index t (1 : Fin 4) * 1 + 1 * (j 1).val = 0
    have h1 : (j 1).val < 1 := (j 1).isLt
    rw [e1]; omega
  | ⟨2, _⟩ =>
    show win0_3.index t (2 : Fin 4) * 512 + 1 * (j 2).val = (j 2).val
    rw [e2]; omega
  | ⟨3, _⟩ =>
    show win0_3.index t (3 : Fin 4) * 512 + 1 * (j 3).val = (j 3).val
    rw [e3]; omega

/-! ## The fold -/

/-- One point's step, over the four batch entries. -/
theorem stepAt_eq (c : Dev nD) (t : Fin cfg0.N) (acc : Vec Ideal S8x128 .f32) :
    stepAt m c t acc = KV.step (KV.blk (P m c) (bt t)) (KV.blk (T m c) (bt t)) (KV.blk (T m c) (Cert.Spec.dn (bt t)))
      (KV.blk (T m c) (Cert.Spec.up (bt t))) acc := by
  unfold stepAt
  rw [iblk0_eq, iblk1_eq, iblk2_eq, iblk3_eq]

/-- The batch entry of the point at position 16 k + l is core k's entry at its local point l. -/
theorem bt_tOf (k : Fin 2) (l : ℕ) : bt (tOf (16 * k.val + l)) = KV.batN k l := Fin.ext (Nat.mod_mod _ _)

/-- The running fold at position 16 k + l is core k's accumulator after its local point l. -/
theorem chain_eq_accAt (c : Dev nD) (k : Fin 2) (l : ℕ) (hl : l < 16) :
    chain m c (16 * k.val + l) = KV.accAt (P m c) (T m c) k l := by
  induction l with
  | zero =>
    have hk : k.val = 0 ∨ k.val = 1 := by have := k.isLt; omega
    rcases hk with hk | hk
    · rw [hk]
      show chain m c 0 = _
      rw [chain_zero, stepAt_eq]
      have e : bt (tOf 0) = KV.batN k 0 := by
        have := bt_tOf k 0; rw [hk] at this; exact this
      rw [e]; rfl
    · rw [hk]
      show chain m c (15 + 1) = _
      rw [chain_first m c 15 (by decide), stepAt_eq]
      have e : bt (tOf (15 + 1)) = KV.batN k 0 := by
        have := bt_tOf k 0; rw [hk] at this; exact this
      rw [e]; rfl
  | succ l ih =>
    show chain m c ((16 * k.val + l) + 1) = _
    rw [chain_succ m c (16 * k.val + l) (by omega), stepAt_eq, ih (by omega)]
    have e : bt (tOf (16 * k.val + l + 1)) = KV.batN k (l + 1) := bt_tOf k (l + 1)
    rw [e]; rfl

end Cert.KernelIdeal.Fr

end
-- ==== Proof.FrVal4Ideal.lean ====
/-
  From blocks to the array.  The output window is written back at a core's last point only, point 16 k + 15
  writing block k; what it writes is `emit` of the fold there, which is core k's accumulator after sixteen points
  of the two argument arrays.  The two blocks tile the [2,8,128] array, so the array the region leaves is
  `outArr` of the arguments.
-/
import proofs.«111375_j65884798321056_2_alg».proof.Proof.FrVal3Ideal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The output array read at an index of block k. -/
theorem outArr_at (Pv Tv : FVec Ideal S32x1x512x512 .f32) (i : S2x8x128.Idx) (k : Fin 2) (y : S1x8x128.Idx)
    (h0 : (i 0).val = k.val) (h1 : (i 1).val = (y 1).val) (h2 : (i 2).val = (y 2).val) :
    KV.outArr Pv Tv i = KV.emit (KV.accAt Pv Tv k 15) y := by
  have e0 : (i 0 : Fin 2) = k := Fin.ext h0
  have ey : ix3 (0 : Fin 1) (i 1 : Fin 8) (i 2 : Fin 128) = y := by
    funext a
    match a with
    | ⟨0, _⟩ => exact Fin.ext (by have h : (y 0 : Nat) < 1 := (y 0).isLt; show (0 : Nat) = (y 0 : Nat); omega)
    | ⟨1, _⟩ => exact Fin.ext h1
    | ⟨2, _⟩ => exact Fin.ext h2
  unfold KV.outArr
  rw [e0]
  exact congrArg (KV.emit (F := Ideal) (KV.accAt Pv Tv k 15)) ey

/-- The output window's block index and extents at every grid point. -/
theorem win4_facts : ∀ t : Fin cfg0.N, win0_4.index t 0 = t.val / 16 ∧ win0_4.index t 1 = 0 ∧ win0_4.index t 2 = 0
      ∧ win0_4.xsize (grid0.coords t) 0 = 1 ∧ win0_4.xsize (grid0.coords t) 1 = 8 ∧ win0_4.xsize (grid0.coords t) 2 = 128 :=
  (by decide +kernel : ∀ t : Fin grid0.N, win0_4.index t 0 = t.val / 16 ∧ win0_4.index t 1 = 0 ∧ win0_4.index t 2 = 0
      ∧ win0_4.xsize (grid0.coords t) 0 = 1 ∧ win0_4.xsize (grid0.coords t) 1 = 8 ∧ win0_4.xsize (grid0.coords t) 2 = 128)

/-- What a core's last point writes back is block k of the output array. -/
theorem flushed4_eq (c : Dev nD) (t : Fin cfg0.N) (hf : (cfg0.win 4).flush t = true) :
    (dats m 0 c).flushed 4 t = ((cfg0.win 4).blk t).view.read (Elt Ideal) (KV.outArr (P m c) (T m c)) := by
  have hN : cfg0.N = 32 := N_0
  have hlt : t.val < 32 := lt_of_lt_of_eq t.isLt hN
  have h15 : t.val % 16 = 15 := (flush0_4 t).mp hf
  obtain ⟨hi0, hi1, hi2, -, -, -⟩ := win4_facts t
  show (cfg0.win 4).cut (grid0.coords t) ((dats m 0 c).after 4 t) = _
  rw [after4_last m c t h15]
  have hk : t.val / 16 < 2 := by omega
  have hch : chain m c t.val = KV.accAt (P m c) (T m c) ⟨t.val / 16, hk⟩ 15 := by
    have := chain_eq_accAt m c ⟨t.val / 16, hk⟩ 15 (by decide)
    rw [show 16 * (⟨t.val / 16, hk⟩ : Fin 2).val + 15 = t.val from by show 16 * (t.val / 16) + 15 = t.val; omega] at this
    exact this
  rw [hch]
  funext y
  rw [View.read_apply]
  refine (outArr_at (P m c) (T m c) _ ⟨t.val / 16, hk⟩ y ?_ ?_ ?_).symm
  · show win0_4.index t 0 * 1 + 1 * (y 0).val = t.val / 16
    have h : (y 0 : Nat) < 1 := (y 0).isLt
    rw [hi0]; omega
  · show win0_4.index t 1 * 8 + 1 * (y 1).val = (y 1).val
    rw [hi1]; omega
  · show win0_4.index t 2 * 128 + 1 * (y 2).val = (y 2).val
    rw [hi2]; omega

/-- Membership in the output window's block at point t, coordinate by coordinate. -/
theorem mem_blk4 (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v0).slice (win0_4.rect t)).set ↔ _
  rw [View.set_slice_whole, Rect.mem_set_unit]
  exact Iff.rfl

/-- Every index of the output array lies in the block its core's last point writes back. -/
theorem cover4 (i : S2x8x128.Idx) : ∃ t : Fin cfg0.N, (cfg0.win 4).flush t = true ∧ i ∈ ((cfg0.win 4).blk t).view.set := by
  have hN : cfg0.N = 32 := N_0
  have h0 : (i 0 : Nat) < 2 := (i 0).isLt
  have h1 : (i 1 : Nat) < 8 := (i 1).isLt
  have h2 : (i 2 : Nat) < 128 := (i 2).isLt
  have hv : (tOf (16 * (i 0 : Nat) + 15)).val = 16 * (i 0 : Nat) + 15 := by
    show (16 * (i 0 : Nat) + 15) % 32 = _; omega
  obtain ⟨hi0, hi1, hi2, -, -, -⟩ := win4_facts (tOf (16 * (i 0 : Nat) + 15))
  refine ⟨tOf (16 * (i 0 : Nat) + 15), (flush0_4 _).mpr (by rw [hv]; omega), ?_⟩
  rw [mem_blk4]
  intro a
  match a with
  | ⟨0, _⟩ =>
    show win0_4.index (tOf (16 * (i 0 : Nat) + 15)) 0 * 1 ≤ (i 0 : Nat) ∧ (i 0 : Nat) < win0_4.index (tOf (16 * (i 0 : Nat) + 15)) 0 * 1 + 1
    rw [hi0, hv]; omega
  | ⟨1, _⟩ =>
    show win0_4.index (tOf (16 * (i 0 : Nat) + 15)) 1 * 8 ≤ (i 1 : Nat) ∧ (i 1 : Nat) < win0_4.index (tOf (16 * (i 0 : Nat) + 15)) 1 * 8 + 8
    rw [hi1]; omega
  | ⟨2, _⟩ =>
    show win0_4.index (tOf (16 * (i 0 : Nat) + 15)) 2 * 128 ≤ (i 2 : Nat) ∧ (i 2 : Nat) < win0_4.index (tOf (16 * (i 0 : Nat) + 15)) 2 * 128 + 128
    rw [hi2]; omega

/-- The output array after the region: block k is `emit` of core k's accumulator after its sixteen points. -/
theorem final4 (c : Dev nD) : (dats m 0 c).arrAt 4 cfg0.N = KV.outArr (P m c) (T m c) :=
  (dats m 0 c).arrAt_eq_of_cover 4 (KV.outArr (P m c) (T m c)) (flushed4_eq m c) cover4

end Cert.KernelIdeal.Fr

end
-- ==== Proof.KVStepTile.lean ====
/-
  The tile a grid point adds to its accumulator: five numbers in row 0, lanes 0..4, zero elsewhere.

  The kernel glues the five one-element vectors into a 5-vector, pads it with 123 zeros to a 128-vector, views
  that as one row, pads with seven zero rows to an 8 x 128 tile and adds the tile to the accumulator.
-/
import proofs.«111375_j65884798321056_2_alg».proof.Proof.Gen.KernelIdeal.Skeleton
import Idealize.ShloMosaic.PureOps.Ideal.Laws
import Idealize.ShloMosaic.Lib.ValueLayout

noncomputable section

namespace Cert.KernelIdeal.KV

open Idealize.ShloMosaic Idealize.ShloMosaic.ValueIdx Cert.KernelIdeal Cert.KernelIdeal.Gen

/-- Five numbers laid out in row 0, lanes 0..4 of an 8 x 128 tile of zeros. -/
def lay (s0 s1 s2 s3 s4 : EReal) (r : Fin 8) (k : Fin 128) : EReal :=
  if r.val = 0 then
    (if k.val = 0 then s0 else if k.val = 1 then s1 else if k.val = 2 then s2 else if k.val = 3 then s3
      else if k.val = 4 then s4 else 0)
  else 0

/-- Five one-element vectors glued along their axis: entry `n` is the `n`-th vector's element. -/
theorem cat5_apply (v0 v1 v2 v3 v4 : FVec Ideal S1 .f32) (h : Shape.Concatenates [S1, S1, S1, S1, S1] S5 0)
    (n : Nat) (hn : n < 5) (vn : FVec Ideal S1 .f32)
    (hv : [(⟨S1, v0⟩ : (s : Shape) × (s.Idx → EReal)), ⟨S1, v1⟩, ⟨S1, v2⟩, ⟨S1, v3⟩, ⟨S1, v4⟩][n]'(by simpa using hn) = ⟨S1, vn⟩) :
    concatenate S5 0 [⟨S1, v0⟩, ⟨S1, v1⟩, ⟨S1, v2⟩, ⟨S1, v3⟩, ⟨S1, v4⟩] h (ix1 (⟨n, hn⟩ : Fin 5)) = vn (ix1 (0 : Fin 1)) := by
  refine concatenate_apply_piece (t := S5) (0 : Fin 1)
    [(⟨S1, v0⟩ : (s : Shape) × (s.Idx → EReal)), ⟨S1, v1⟩, ⟨S1, v2⟩, ⟨S1, v3⟩, ⟨S1, v4⟩] h (ix1 (⟨n, hn⟩ : Fin 5)) n
    (by simpa using hn) S1 vn hv rfl n ?_ (ix1 (0 : Fin 1)) (fun b hb => ?_) ?_
  · match n, hn with
    | 0, _ => rfl
    | 1, _ => rfl
    | 2, _ => rfl
    | 3, _ => rfl
    | 4, _ => rfl
  · match b, hb with
    | ⟨0, _⟩, hb => exact absurd rfl hb
  · show n + 0 = n
    rfl

/-- The 5-vector padded with zeros to 128 lanes. -/
theorem pad128_apply (v : FVec Ideal S5 .f32) (h : Shape.Concatenates [S5, S123] S128 0) (k : Fin 128) :
    concatenate S128 0 [⟨S5, v⟩, ⟨S123, broadcast S123 (Scalar.ofBits (F := Ideal) .f32 0x00000000#32)⟩] h (ix1 k)
      = if hk : k.val < 5 then v (ix1 (⟨k.val, hk⟩ : Fin 5)) else 0 := by
  by_cases hk : k.val < 5
  · rw [dif_pos hk]
    refine concatenate_pair_apply_left (t := S128) (s₁ := S5) (s₂ := S123) (0 : Fin 1) _ _ h (ix1 k) rfl (ix1 (⟨k.val, hk⟩ : Fin 5)) (fun b => ?_)
    match b with
    | ⟨0, _⟩ => rfl
  · rw [dif_neg hk]
    refine (concatenate_pair_apply_right (t := S128) (s₁ := S5) (s₂ := S123) (0 : Fin 1) _ _ h (ix1 k) rfl rfl
      (ix1 (⟨k.val - 5, by have := k.isLt; omega⟩ : Fin 123)) (fun b hb => ?_) ?_).trans ?_
    · match b, hb with
      | ⟨0, _⟩, hb => exact absurd rfl hb
    · show k.val - 5 + 5 = k.val
      omega
    · exact Ideal.ofBits_zero_f32

/-- The 128-vector as row 0 of an 8 x 128 tile whose other rows are zero. -/
theorem pad8_apply (v : FVec Ideal S128 .f32) (h1 : S128.ShapeCasts S1x128) (h : Shape.Concatenates [S1x128, S7x128] S8x128 0)
    (r : Fin 8) (k : Fin 128) :
    concatenate S8x128 0 [⟨S1x128, shapeCast S1x128 v h1⟩,
        ⟨S7x128, broadcast S7x128 (Scalar.ofBits (F := Ideal) .f32 0x00000000#32)⟩] h (ix2 r k)
      = if r.val = 0 then v (ix1 k) else 0 := by
  by_cases hr : r.val = 0
  · rw [if_pos hr]
    refine (concatenate_pair_apply_left (t := S8x128) (s₁ := S1x128) (s₂ := S7x128) (0 : Fin 2) _ _ h (ix2 r k) rfl (ix2 (0 : Fin 1) k) (fun b => ?_)).trans ?_
    · match b with
      | ⟨0, _⟩ => exact hr.symm
      | ⟨1, _⟩ => rfl
    · exact shapeCast_a_1a_apply v h1 0 k
  · rw [if_neg hr]
    refine (concatenate_pair_apply_right (t := S8x128) (s₁ := S1x128) (s₂ := S7x128) (0 : Fin 2) _ _ h (ix2 r k) rfl rfl
      (ix2 (⟨r.val - 1, by have := r.isLt; omega⟩ : Fin 7) k) (fun b hb => ?_) ?_).trans ?_
    · match b, hb with
      | ⟨0, _⟩, hb => exact absurd rfl hb
      | ⟨1, _⟩, _ => rfl
    · show r.val - 1 + 1 = r.val
      omega
    · exact Ideal.ofBits_zero_f32

end Cert.KernelIdeal.KV

end
-- ==== Proof.KVStepShift.lean ====
/-
  The four clamped neighbour shifts of a 512 x 512 tile.

  The kernel builds each shifted tile by gluing two slices of the tile along one axis: rows 1..511 followed by
  row 511 again is the tile one step up the row axis, clamped at the last row; row 0 followed by rows 0..510 is
  the tile one step down, clamped at row 0; likewise for the columns.  Read at (r, c) each shifted tile is the
  tile at the clamped neighbour.
-/
import proofs.«111375_j65884798321056_2_alg».proof.Proof.Gen.KernelIdeal.Skeleton
import proofs.«111375_j65884798321056_2_alg».proof.Proof.Spec
import Idealize.ShloMosaic.Lib.ValueLayout

noncomputable section

namespace Cert.KernelIdeal.KV

open Idealize.ShloMosaic Idealize.ShloMosaic.ValueIdx Cert.KernelIdeal Cert.KernelIdeal.Gen

variable {α : Type}

/-- Row 0, then rows 0..510: the tile one step down the row axis. -/
theorem shift_dn_rows (v : S512x512.Idx → α) (h1 : S512x512.Slices ![0, 0] S1x512) (h2 : S512x512.Slices ![0, 0] S511x512)
    (hc : Shape.Concatenates [S1x512, S511x512] S512x512 0) (r c : Fin 512) :
    concatenate S512x512 0 [⟨S1x512, extractStridedSlice S1x512 ![0, 0] v h1⟩,
        ⟨S511x512, extractStridedSlice S511x512 ![0, 0] v h2⟩] hc (ix2 r c) = v (ix2 (Cert.Spec.dn r) c) := by
  by_cases hr0 : r.val = 0
  · refine (concatenate_pair_apply_left (t := S512x512) (s₁ := S1x512) (s₂ := S511x512) (0 : Fin 2) _ _ hc (ix2 r c) rfl (ix2 (⟨0, by omega⟩ : Fin 1) c) (fun b => ?_)).trans ?_
    · match b with
      | ⟨0, _⟩ => exact hr0.symm
      | ⟨1, _⟩ => rfl
    · refine slice2_axis0_apply 0 v h1 _ c (Cert.Spec.dn r) ?_
      show r.val - 1 = 0 + 0
      omega
  · refine (concatenate_pair_apply_right (t := S512x512) (s₁ := S1x512) (s₂ := S511x512) (0 : Fin 2) _ _ hc (ix2 r c) rfl rfl (ix2 (⟨r.val - 1, by have := r.isLt; omega⟩ : Fin 511) c)
      (fun b hb => ?_) ?_).trans ?_
    · match b, hb with
      | ⟨0, _⟩, hb => exact absurd rfl hb
      | ⟨1, _⟩, _ => rfl
    · show r.val - 1 + 1 = r.val
      omega
    · refine slice2_axis0_apply 0 v h2 _ c (Cert.Spec.dn r) ?_
      show r.val - 1 = 0 + (r.val - 1)
      omega

/-- Rows 1..511, then row 511: the tile one step up the row axis. -/
theorem shift_up_rows (v : S512x512.Idx → α) (h1 : S512x512.Slices ![1, 0] S511x512) (h2 : S512x512.Slices ![511, 0] S1x512)
    (hc : Shape.Concatenates [S511x512, S1x512] S512x512 0) (r c : Fin 512) :
    concatenate S512x512 0 [⟨S511x512, extractStridedSlice S511x512 ![1, 0] v h1⟩,
        ⟨S1x512, extractStridedSlice S1x512 ![511, 0] v h2⟩] hc (ix2 r c) = v (ix2 (Cert.Spec.up r) c) := by
  by_cases hr : r.val < 511
  · refine (concatenate_pair_apply_left (t := S512x512) (s₁ := S511x512) (s₂ := S1x512) (0 : Fin 2) _ _ hc (ix2 r c) rfl (ix2 (⟨r.val, hr⟩ : Fin 511) c) (fun b => ?_)).trans ?_
    · match b with
      | ⟨0, _⟩ => rfl
      | ⟨1, _⟩ => rfl
    · refine slice2_axis0_apply 1 v h1 _ c (Cert.Spec.up r) ?_
      show min (r.val + 1) (512 - 1) = 1 + r.val
      omega
  · refine (concatenate_pair_apply_right (t := S512x512) (s₁ := S511x512) (s₂ := S1x512) (0 : Fin 2) _ _ hc (ix2 r c) rfl rfl (ix2 (⟨0, by omega⟩ : Fin 1) c)
      (fun b hb => ?_) ?_).trans ?_
    · match b, hb with
      | ⟨0, _⟩, hb => exact absurd rfl hb
      | ⟨1, _⟩, _ => rfl
    · show 0 + 511 = r.val
      have := r.isLt; omega
    · refine slice2_axis0_apply 511 v h2 _ c (Cert.Spec.up r) ?_
      show min (r.val + 1) (512 - 1) = 511 + 0
      have := r.isLt; omega

/-- Columns 1..511, then column 511: the tile one step up the column axis. -/
theorem shift_up_cols (v : S512x512.Idx → α) (h1 : S512x512.Slices ![0, 1] S512x511) (h2 : S512x512.Slices ![0, 511] S512x1)
    (hc : Shape.Concatenates [S512x511, S512x1] S512x512 1) (r c : Fin 512) :
    concatenate S512x512 1 [⟨S512x511, extractStridedSlice S512x511 ![0, 1] v h1⟩,
        ⟨S512x1, extractStridedSlice S512x1 ![0, 511] v h2⟩] hc (ix2 r c) = v (ix2 r (Cert.Spec.up c)) := by
  by_cases hc' : c.val < 511
  · refine (concatenate_pair_apply_left (t := S512x512) (s₁ := S512x511) (s₂ := S512x1) (1 : Fin 2) _ _ hc (ix2 r c) rfl (ix2 r (⟨c.val, hc'⟩ : Fin 511)) (fun b => ?_)).trans ?_
    · match b with
      | ⟨0, _⟩ => rfl
      | ⟨1, _⟩ => rfl
    · refine slice2_axis1_apply 1 v h1 r _ (Cert.Spec.up c) ?_
      show min (c.val + 1) (512 - 1) = 1 + c.val
      omega
  · refine (concatenate_pair_apply_right (t := S512x512) (s₁ := S512x511) (s₂ := S512x1) (1 : Fin 2) _ _ hc (ix2 r c) rfl rfl (ix2 r (⟨0, by omega⟩ : Fin 1))
      (fun b hb => ?_) ?_).trans ?_
    · match b, hb with
      | ⟨0, _⟩, _ => rfl
      | ⟨1, _⟩, hb => exact absurd rfl hb
    · show 0 + 511 = c.val
      have := c.isLt; omega
    · refine slice2_axis1_apply 511 v h2 r _ (Cert.Spec.up c) ?_
      show min (c.val + 1) (512 - 1) = 511 + 0
      have := c.isLt; omega

/-- Column 0, then columns 0..510: the tile one step down the column axis. -/
theorem shift_dn_cols (v : S512x512.Idx → α) (h1 : S512x512.Slices ![0, 0] S512x1) (h2 : S512x512.Slices ![0, 0] S512x511)
    (hc : Shape.Concatenates [S512x1, S512x511] S512x512 1) (r c : Fin 512) :
    concatenate S512x512 1 [⟨S512x1, extractStridedSlice S512x1 ![0, 0] v h1⟩,
        ⟨S512x511, extractStridedSlice S512x511 ![0, 0] v h2⟩] hc (ix2 r c) = v (ix2 r (Cert.Spec.dn c)) := by
  by_cases hc0 : c.val = 0
  · refine (concatenate_pair_apply_left (t := S512x512) (s₁ := S512x1) (s₂ := S512x511) (1 : Fin 2) _ _ hc (ix2 r c) rfl (ix2 r (⟨0, by omega⟩ : Fin 1)) (fun b => ?_)).trans ?_
    · match b with
      | ⟨0, _⟩ => rfl
      | ⟨1, _⟩ => exact hc0.symm
    · refine slice2_axis1_apply 0 v h1 r _ (Cert.Spec.dn c) ?_
      show c.val - 1 = 0 + 0
      omega
  · refine (concatenate_pair_apply_right (t := S512x512) (s₁ := S512x1) (s₂ := S512x511) (1 : Fin 2) _ _ hc (ix2 r c) rfl rfl (ix2 r (⟨c.val - 1, by have := c.isLt; omega⟩ : Fin 511))
      (fun b hb => ?_) ?_).trans ?_
    · match b, hb with
      | ⟨0, _⟩, _ => rfl
      | ⟨1, _⟩, hb => exact absurd rfl hb
    · show c.val - 1 + 1 = c.val
      omega
    · refine slice2_axis1_apply 0 v h2 r _ (Cert.Spec.dn c) ?_
      show c.val - 1 = 0 + (c.val - 1)
      omega

end Cert.KernelIdeal.KV

end
-- ==== Proof.KVStepSum.lean ====
/-
  A full reduction of a 512 x 512 tile, as the kernel spells it, is the double sum of the tile's entries.

  The kernel views the tile as [1,512,512], reduces it with addition over axes 1 and 2 into a one-element
  vector, views that as [1,1,1] and extracts its one entry.  Every index of the one-element result collects
  every entry of the tile, so the value is the sum over all (r, c).
-/
import proofs.«111375_j65884798321056_2_alg».proof.Proof.Gen.KernelIdeal.Skeleton
import Idealize.ShloMosaic.PureOps.Ideal.Laws
import Idealize.ShloMosaic.Lib.ValueLayout

noncomputable section

namespace Cert.KernelIdeal.KV

open Idealize.ShloMosaic Idealize.ShloMosaic.ValueIdx Cert.KernelIdeal Cert.KernelIdeal.Gen

/-- The reduction chain of the kernel at an arbitrary tile: the sum of all its entries, rows outermost. -/
theorem total_sum (v : FVec Ideal S512x512 .f32) (h1 : S512x512.ShapeCasts S1x512x512)
    (hr : S1x512x512.Reduces [1, 2] S1) (hφ : FKind.Formats .f32)
    (hacc : (0x00000000#32 : BitVec FTy.f32.bits) = FKind.add.neutral .f32 hφ)
    (h2 : S1.ShapeCasts S1x1x1) (hp : ∀ a, (![0, 0, 0] : Fin 3 → Nat) a < S1x1x1.size a) :
    extractAt ![0, 0, 0]
        (shapeCast S1x1x1 (multiReduction .add [1, 2] S1 (shapeCast S1x512x512 v h1) 0x00000000#32 hr hφ hacc) h2) hp
      = ∑ r : Fin 512, ∑ c : Fin 512, v (ix2 r c) := by
  show shapeCast S1x1x1 _ h2 (fun a => ⟨(![0, 0, 0] : Fin 3 → Nat) a, hp a⟩) = _
  refine (shapeCast_apply _ h2 _ (ix1 (0 : Fin 1)) ?_).trans ?_
  · rw [Shape.rowMajor_val_one, Shape.rowMajor_val_three]; rfl
  refine (Ideal.multiReduction_add_total _ _ hr (fun b => ?_) hφ hacc _).trans ?_
  · match b with | ⟨0, _⟩ => rfl
  unfold shapeCast
  rw [Equiv.sum_comp (Shape.reshapeEquiv h1) v]
  exact sum_idx2 v

/-- The sum of a tile. -/
theorem pay12_eq (v : FVec Ideal S512x512 .f32) :
    k0_pay12 (F := Ideal) v = ∑ r : Fin 512, ∑ c : Fin 512, v (ix2 r c) :=
  total_sum v _ _ _ _ _ _

/-- The one-element vector the kernel lays into lane 0 is the tile's sum, broadcast. -/
theorem pay16_fn (v : FVec Ideal S512x512 .f32) :
    k0_pay16 (F := Ideal) v = broadcast S1 (k0_pay12 (F := Ideal) v) := rfl

/-- The sum of a tile, as the one-element vector the kernel lays into lane 0. -/
theorem pay16_eq (v : FVec Ideal S512x512 .f32) (i : S1.Idx) :
    k0_pay16 (F := Ideal) v i = ∑ r : Fin 512, ∑ c : Fin 512, v (ix2 r c) :=
  Eq.trans (congrFun (pay16_fn v) i) (Eq.trans (broadcast_apply (s := S1) (k0_pay12 (F := Ideal) v) i) (pay12_eq v))

/-- The sum of the entrywise product of two tiles. -/
theorem pay13_eq (p t : FVec Ideal S512x512 .f32) :
    k0_pay13 (F := Ideal) p t = ∑ r : Fin 512, ∑ c : Fin 512, p (ix2 r c) * t (ix2 r c) :=
  total_sum (mulf p t) _ _ _ _ _ _

end Cert.KernelIdeal.KV

end
-- ==== Proof.KVStepBnd.lean ====
/-
  The inner-boundary indicator, entry by entry.

  At (r, c) the kernel compares the target with 1/2 (foreground: strictly greater), compares the six clamped
  neighbours with 1/2 (background: at most 1/2) — the next and previous batch entries from their own blocks, the
  row and column neighbours from the shifted tiles —, ORs the six background bits, ANDs with the foreground bit
  and selects 1.0 or 0.0.  The extended reals are linearly ordered, so each bit is 1 exactly when its comparison
  holds, and the selected value is the indicator of "foreground with some background neighbour".
-/
import proofs.«111375_j65884798321056_2_alg».proof.Proof.KVStepShift
import proofs.«111375_j65884798321056_2_alg».proof.Proof.KVStepSum

noncomputable section

namespace Cert.KernelIdeal.KV

open Idealize.ShloMosaic Idealize.ShloMosaic.ValueIdx Cert.KernelIdeal Cert.KernelIdeal.Gen

/-- A [1,1,512,512] block viewed as a 512 x 512 tile: entry (r, c) is the block's entry (0, 0, r, c). -/
theorem tile_apply (x : Vec Ideal S1x1x512x512 .f32) (h : S1x1x512x512.ShapeCasts S512x512) (r c : Fin 512) :
    shapeCast S512x512 x h (ix2 r c) = x (ix4 (0 : Fin 1) (0 : Fin 1) r c) :=
  shapeCast_apply x h _ _ (by
    rw [Shape.rowMajor_val_four, Shape.rowMajor_val_two]
    show ((0 * 1 + 0) * 512 + r.val) * 512 + c.val = r.val * 512 + c.val
    omega)

theorem pay4_apply (x : Vec Ideal S1x1x512x512 .f32) (r c : Fin 512) :
    k0_pay4 (F := Ideal) x (ix2 r c) = x (ix4 (0 : Fin 1) (0 : Fin 1) r c) := tile_apply x _ r c

theorem pay5_apply (x : Vec Ideal S1x1x512x512 .f32) (r c : Fin 512) :
    k0_pay5 (F := Ideal) x (ix2 r c) = x (ix4 (0 : Fin 1) (0 : Fin 1) r c) := tile_apply x _ r c

/-- The tile one step down the rows. -/
theorem pay7_apply (x : Vec Ideal S1x1x512x512 .f32) (r c : Fin 512) :
    k0_pay7 (F := Ideal) x (ix2 r c) = k0_pay5 (F := Ideal) x (ix2 (Cert.Spec.dn r) c) :=
  shift_dn_rows (k0_pay5 (F := Ideal) x) Gen.slices_S512x512_o0_0_S1x512 Gen.slices_S512x512_o0_0_S511x512
    Gen.concatenates_S1x512_S511x512_S512x512_d0 r c

/-- The tile one step up the columns. -/
theorem pay8_apply (x : Vec Ideal S1x1x512x512 .f32) (r c : Fin 512) :
    k0_pay8 (F := Ideal) x (ix2 r c) = k0_pay5 (F := Ideal) x (ix2 r (Cert.Spec.up c)) :=
  shift_up_cols (k0_pay5 (F := Ideal) x) Gen.slices_S512x512_o0_1_S512x511 Gen.slices_S512x512_o0_511_S512x1
    Gen.concatenates_S512x511_S512x1_S512x512_d1 r c

/-- The tile one step down the columns. -/
theorem pay9_apply (x : Vec Ideal S1x1x512x512 .f32) (r c : Fin 512) :
    k0_pay9 (F := Ideal) x (ix2 r c) = k0_pay5 (F := Ideal) x (ix2 r (Cert.Spec.dn c)) :=
  shift_dn_cols (k0_pay5 (F := Ideal) x) Gen.slices_S512x512_o0_0_S512x1 Gen.slices_S512x512_o0_0_S512x511
    Gen.concatenates_S512x1_S512x511_S512x512_d1 r c

/-- The first three background bits ORed: next batch entry, previous batch entry, next row. -/
theorem pay10_apply (x1 x2 x3 : Vec Ideal S1x1x512x512 .f32) (r c : Fin 512) :
    k0_pay10 (F := Ideal) x1 x2 x3 (ix2 r c)
      = IntOp.ori (IntOp.ori (Ideal.cmp .ole (k0_pay5 (F := Ideal) x3 (ix2 r c)) Cert.Spec.half)
            (Ideal.cmp .ole (k0_pay5 (F := Ideal) x2 (ix2 r c)) Cert.Spec.half))
          (Ideal.cmp .ole (k0_pay5 (F := Ideal) x1 (ix2 (Cert.Spec.up r) c)) Cert.Spec.half) :=
  congrArg (fun z => IntOp.ori (IntOp.ori (Ideal.cmp .ole (k0_pay5 (F := Ideal) x3 (ix2 r c)) Cert.Spec.half)
      (Ideal.cmp .ole (k0_pay5 (F := Ideal) x2 (ix2 r c)) Cert.Spec.half)) (Ideal.cmp .ole z Cert.Spec.half))
    (shift_up_rows (k0_pay5 (F := Ideal) x1) Gen.slices_S512x512_o1_0_S511x512 Gen.slices_S512x512_o511_0_S1x512
      Gen.concatenates_S511x512_S1x512_S512x512_d0 r c)

/-- The selected value from the centre and its six neighbours, in the kernel's order of operations. -/
def ind (tt u d tu td tr tl : EReal) : EReal :=
  Scalar.select
    (IntOp.andi (Ideal.cmp .ogt tt Cert.Spec.half)
      (IntOp.ori (IntOp.ori (IntOp.ori
        (IntOp.ori (IntOp.ori (Ideal.cmp .ole u Cert.Spec.half) (Ideal.cmp .ole d Cert.Spec.half))
          (Ideal.cmp .ole tu Cert.Spec.half))
        (Ideal.cmp .ole td Cert.Spec.half)) (Ideal.cmp .ole tr Cert.Spec.half)) (Ideal.cmp .ole tl Cert.Spec.half)))
    Cert.Spec.one Cert.Spec.zero

theorem cmp_ole_eq_one (x y : EReal) : Ideal.cmp .ole x y = 1#1 ↔ x ≤ y := by
  unfold Ideal.cmp
  by_cases h : x ≤ y <;> simp [h]

theorem cmp_ogt_eq_one (x y : EReal) : Ideal.cmp .ogt x y = 1#1 ↔ y < x := by
  unfold Ideal.cmp
  by_cases h : y < x <;> simp [h]

/-- The selected value is the indicator of: centre above 1/2, and some neighbour at most 1/2. -/
theorem ind_eq_bnd (T : Cert.Spec.A4.Idx → EReal) (b : Fin 32) (r c : Fin 512) :
    ind (T (ix4 b 0 r c)) (T (ix4 (Cert.Spec.up b) 0 r c)) (T (ix4 (Cert.Spec.dn b) 0 r c))
        (T (ix4 b 0 (Cert.Spec.up r) c)) (T (ix4 b 0 (Cert.Spec.dn r) c))
        (T (ix4 b 0 r (Cert.Spec.up c))) (T (ix4 b 0 r (Cert.Spec.dn c)))
      = Cert.Spec.bnd T b r c := by
  have key : ∀ tt u d tu td tr tl : EReal,
      IntOp.andi (Ideal.cmp .ogt tt Cert.Spec.half)
        (IntOp.ori (IntOp.ori (IntOp.ori
          (IntOp.ori (IntOp.ori (Ideal.cmp .ole u Cert.Spec.half) (Ideal.cmp .ole d Cert.Spec.half))
            (Ideal.cmp .ole tu Cert.Spec.half))
          (Ideal.cmp .ole td Cert.Spec.half)) (Ideal.cmp .ole tr Cert.Spec.half)) (Ideal.cmp .ole tl Cert.Spec.half)) = 1#1
        ↔ (Cert.Spec.half < tt ∧ (u ≤ Cert.Spec.half ∨ d ≤ Cert.Spec.half ∨ tu ≤ Cert.Spec.half ∨ td ≤ Cert.Spec.half
            ∨ tr ≤ Cert.Spec.half ∨ tl ≤ Cert.Spec.half)) := by
    intro tt u d tu td tr tl
    simp only [IntOp.andi_eq_one, IntOp.ori_eq_one, cmp_ole_eq_one, cmp_ogt_eq_one, or_assoc]
  unfold ind Scalar.select Cert.Spec.bnd Cert.Spec.hasBg
  by_cases hP : Cert.Spec.half < T (ix4 b 0 r c) ∧
      (T (ix4 (Cert.Spec.up b) 0 r c) ≤ Cert.Spec.half ∨ T (ix4 (Cert.Spec.dn b) 0 r c) ≤ Cert.Spec.half ∨
        T (ix4 b 0 (Cert.Spec.up r) c) ≤ Cert.Spec.half ∨ T (ix4 b 0 (Cert.Spec.dn r) c) ≤ Cert.Spec.half ∨
        T (ix4 b 0 r (Cert.Spec.up c)) ≤ Cert.Spec.half ∨ T (ix4 b 0 r (Cert.Spec.dn c)) ≤ Cert.Spec.half)
  · exact (if_pos ((key _ _ _ _ _ _ _).mpr hP)).trans (if_pos hP).symm
  · exact (if_neg (mt (key _ _ _ _ _ _ _).mp hP)).trans (if_neg hP).symm

/-- The block's boundary count: the sum over (r, c) of the selected values. -/
theorem pay15_eq (x1 x2 x3 : Vec Ideal S1x1x512x512 .f32) :
    k0_pay15 (F := Ideal) (k0_pay6 x1) (k0_pay7 x1) (k0_pay8 x1) (k0_pay9 x1) (k0_pay10 x1 x2 x3) (k0_pay11 (F := Ideal))
      = ∑ r : Fin 512, ∑ c : Fin 512,
          ind (k0_pay5 (F := Ideal) x1 (ix2 r c)) (k0_pay5 (F := Ideal) x3 (ix2 r c)) (k0_pay5 (F := Ideal) x2 (ix2 r c))
            (k0_pay5 (F := Ideal) x1 (ix2 (Cert.Spec.up r) c)) (k0_pay5 (F := Ideal) x1 (ix2 (Cert.Spec.dn r) c))
            (k0_pay5 (F := Ideal) x1 (ix2 r (Cert.Spec.up c))) (k0_pay5 (F := Ideal) x1 (ix2 r (Cert.Spec.dn c))) := by
  refine (total_sum _ _ _ _ _ _ _).trans ?_
  refine Finset.sum_congr rfl fun r _ => Finset.sum_congr rfl fun c _ => ?_
  show Scalar.select
      (IntOp.andi (Ideal.cmp .ogt (k0_pay5 (F := Ideal) x1 (ix2 r c)) Cert.Spec.half)
        (IntOp.ori (IntOp.ori (IntOp.ori (k0_pay10 (F := Ideal) x1 x2 x3 (ix2 r c))
          (Ideal.cmp .ole (k0_pay7 (F := Ideal) x1 (ix2 r c)) Cert.Spec.half))
          (Ideal.cmp .ole (k0_pay8 (F := Ideal) x1 (ix2 r c)) Cert.Spec.half))
          (Ideal.cmp .ole (k0_pay9 (F := Ideal) x1 (ix2 r c)) Cert.Spec.half)))
      Cert.Spec.one Cert.Spec.zero = _
  rw [pay10_apply, pay7_apply, pay8_apply, pay9_apply]
  rfl

end Cert.KernelIdeal.KV

end
-- ==== Proof.KVStepBce.lean ====
/-
  The block's cross-entropy sum, entry by entry.

  At (r, c) the kernel clamps the prediction to [lo, hi], and forms  t · log q + (1 - t) · log1p (0 - q)  with q
  the clamped prediction; 0 - q is -q on the extended reals, so the entry is the specification's term.
-/
import proofs.«111375_j65884798321056_2_alg».proof.Proof.KVStepSum
import proofs.«111375_j65884798321056_2_alg».proof.Proof.Spec

noncomputable section

namespace Cert.KernelIdeal.KV

open Idealize.ShloMosaic Idealize.ShloMosaic.ValueIdx Cert.KernelIdeal Cert.KernelIdeal.Gen

/-- The sum over the tile of the per-entry cross-entropy terms. -/
theorem pay14_eq (p t : FVec Ideal S512x512 .f32) :
    k0_pay14 (F := Ideal) p t = ∑ r : Fin 512, ∑ c : Fin 512, Cert.Spec.bce (p (ix2 r c)) (t (ix2 r c)) := by
  refine (total_sum _ _ _ _ _ _ _).trans ?_
  refine Finset.sum_congr rfl fun r _ => Finset.sum_congr rfl fun c _ => ?_
  show t (ix2 r c) * Ideal.log (min Cert.Spec.hi (max Cert.Spec.lo (p (ix2 r c))))
      + (Cert.Spec.one - t (ix2 r c))
        * Ideal.log1p (Ideal.ofBits .f32 0x00000000#32 - min Cert.Spec.hi (max Cert.Spec.lo (p (ix2 r c)))) = _
  rw [Ideal.ofBits_zero_f32, zero_sub]
  rfl

end Cert.KernelIdeal.KV

end
-- ==== Proof.KVStep.lean ====
/-
  One grid point's arithmetic, read at an index of the accumulator.

  For batch entry b the point is handed entry b of the predictions and of the targets and the targets' entries one
  step down and up the batch axis.  It adds to its accumulator the tile whose row 0 holds, in lanes 0..4, the block
  sums  Σ P,  Σ T,  Σ P·T,  Σ bce,  Σ bnd  over the 512 x 512 entries of batch entry b, and zeros elsewhere.
-/
import proofs.«111375_j65884798321056_2_alg».proof.Proof.KAcc
import proofs.«111375_j65884798321056_2_alg».proof.Proof.KVStepTile
import proofs.«111375_j65884798321056_2_alg».proof.Proof.KVStepBnd
import proofs.«111375_j65884798321056_2_alg».proof.Proof.KVStepBce

noncomputable section

namespace Cert.KernelIdeal.KV

open Idealize.ShloMosaic Idealize.ShloMosaic.ValueIdx Cert.KernelIdeal Cert.KernelIdeal.Gen

/-- The five block sums of batch entry `b`. -/
def blkP (P : FVec Ideal S32x1x512x512 .f32) (b : Fin 32) : EReal := ∑ r : Fin 512, ∑ c : Fin 512, P (ix4 b 0 r c)
def blkPT (P T : FVec Ideal S32x1x512x512 .f32) (b : Fin 32) : EReal :=
  ∑ r : Fin 512, ∑ c : Fin 512, P (ix4 b 0 r c) * T (ix4 b 0 r c)
def blkBce (P T : FVec Ideal S32x1x512x512 .f32) (b : Fin 32) : EReal :=
  ∑ r : Fin 512, ∑ c : Fin 512, Cert.Spec.bce (P (ix4 b 0 r c)) (T (ix4 b 0 r c))
def blkBnd (T : FVec Ideal S32x1x512x512 .f32) (b : Fin 32) : EReal := ∑ r : Fin 512, ∑ c : Fin 512, Cert.Spec.bnd T b r c

/-- The tile batch entry `b` contributes: its five block sums in row 0, lanes 0..4. -/
def tile (P T : FVec Ideal S32x1x512x512 .f32) (b : Fin 32) (r : Fin 8) (k : Fin 128) : EReal :=
  lay (blkP P b) (blkP T b) (blkPT P T b) (blkBce P T b) (blkBnd T b) r k

/-- The accumulator update as a function of five numbers: the old entry plus the laid-out tile's entry. -/
theorem pay1_apply (a b c d : EReal) (e : FVec Ideal S1 .f32) (acc : Vec Ideal S8x128 .f32) (r : Fin 8) (k : Fin 128) :
    k0_pay1 (F := Ideal) a b c d e acc (ix2 r k) = acc (ix2 r k) + lay (e (ix1 (0 : Fin 1))) a b c d r k := by
  unfold k0_pay1
  rw [shapeCast_self]
  refine (addf_apply _ _ _).trans ?_
  refine congrArg (acc (ix2 r k) + ·) ?_
  refine (pad8_apply _ _ _ r k).trans ?_
  unfold lay
  by_cases hr : r.val = 0
  · rw [if_pos hr, if_pos hr]
    refine (pad128_apply _ _ k).trans ?_
    by_cases hk : k.val < 5
    · rw [dif_pos hk]
      have h5 : k.val = 0 ∨ k.val = 1 ∨ k.val = 2 ∨ k.val = 3 ∨ k.val = 4 := by omega
      rcases h5 with h | h | h | h | h
      · rw [show (⟨k.val, hk⟩ : Fin 5) = ⟨0, by decide⟩ from Fin.ext h, if_pos h]
        exact cat5_apply _ _ _ _ _ _ 0 (by decide) _ rfl
      · rw [show (⟨k.val, hk⟩ : Fin 5) = ⟨1, by decide⟩ from Fin.ext h, if_neg (by omega), if_pos h]
        exact cat5_apply _ _ _ _ _ _ 1 (by decide) _ rfl
      · rw [show (⟨k.val, hk⟩ : Fin 5) = ⟨2, by decide⟩ from Fin.ext h, if_neg (by omega), if_neg (by omega), if_pos h]
        exact cat5_apply _ _ _ _ _ _ 2 (by decide) _ rfl
      · rw [show (⟨k.val, hk⟩ : Fin 5) = ⟨3, by decide⟩ from Fin.ext h, if_neg (by omega), if_neg (by omega),
          if_neg (by omega), if_pos h]
        exact cat5_apply _ _ _ _ _ _ 3 (by decide) _ rfl
      · rw [show (⟨k.val, hk⟩ : Fin 5) = ⟨4, by decide⟩ from Fin.ext h, if_neg (by omega), if_neg (by omega),
          if_neg (by omega), if_neg (by omega), if_pos h]
        exact cat5_apply _ _ _ _ _ _ 4 (by decide) _ rfl
    · rw [dif_neg hk, if_neg (by omega), if_neg (by omega), if_neg (by omega), if_neg (by omega), if_neg (by omega)]
  · rw [if_neg hr, if_neg hr]

/-- Entry (r, c) of batch entry `b`'s block viewed as a tile. -/
theorem pay4_blk (X : FVec Ideal S32x1x512x512 .f32) (b : Fin 32) (r c : Fin 512) :
    k0_pay4 (F := Ideal) (blk X b) (ix2 r c) = X (ix4 b 0 r c) := pay4_apply (blk X b) r c
theorem pay5_blk (X : FVec Ideal S32x1x512x512 .f32) (b : Fin 32) (r c : Fin 512) :
    k0_pay5 (F := Ideal) (blk X b) (ix2 r c) = X (ix4 b 0 r c) := pay5_apply (blk X b) r c

/-- One point's arithmetic at an index: the accumulator's entry plus the point's tile. -/
theorem step_apply (P T : FVec Ideal S32x1x512x512 .f32) (b : Fin 32) (acc : Vec Ideal S8x128 .f32) (r : Fin 8) (k : Fin 128) :
    step (blk P b) (blk T b) (blk T (Cert.Spec.dn b)) (blk T (Cert.Spec.up b)) acc (ix2 r k)
      = acc (ix2 r k) + tile P T b r k := by
  unfold step
  rw [pay1_apply, pay16_eq, pay12_eq, pay13_eq, pay14_eq, pay15_eq]
  simp only [pay4_blk, pay5_blk, ind_eq_bnd]
  rfl

end Cert.KernelIdeal.KV

end
-- ==== Proof.KVOut.lean ====
/-
  The idealized kernel's value is the specification's loss.

  Core k's accumulator after its local point l holds, at each entry, the sum of the tiles of batch entries
  16 k + 0 .. 16 k + l (the first point starts from the zero tile).  The output array's block k is that accumulator
  after the sixteenth point.  The host adds the two blocks, reads row 0, lanes 0..4 — the five block sums added over
  all 32 batch entries, which are the five global sums, the order of the additions being immaterial on the extended
  reals (only commutativity and associativity are used) — and combines them exactly as the specification does.
-/
import proofs.«111375_j65884798321056_2_alg».proof.Proof.KVTail
import proofs.«111375_j65884798321056_2_alg».proof.Proof.KVStep

noncomputable section

namespace Cert.KernelIdeal.KV

open Idealize.ShloMosaic Idealize.ShloMosaic.ValueIdx Cert.KernelIdeal Cert.KernelIdeal.Gen

/-- The tile a core's first point starts from is zero. -/
theorem acc0_apply (i : S8x128.Idx) : acc0 (F := Ideal) i = 0 := by
  unfold acc0 k0_pay3
  rw [shapeCast_self]
  exact Ideal.ofBits_zero_f32

/-- Core `k`'s accumulator after local point `l`: the tiles of its first l + 1 batch entries, added. -/
theorem accAt_apply (P T : FVec Ideal S32x1x512x512 .f32) (k : Fin 2) (l : Nat) (r : Fin 8) (j : Fin 128) :
    accAt P T k l (ix2 r j) = ∑ l' ∈ Finset.range (l + 1), tile P T (batN k l') r j := by
  induction l with
  | zero =>
    show step (blk P (batN k 0)) (blk T (batN k 0)) (blk T (Cert.Spec.dn (batN k 0))) (blk T (Cert.Spec.up (batN k 0)))
      (acc0 (F := Ideal)) (ix2 r j) = _
    rw [step_apply, acc0_apply, zero_add, Finset.sum_range_one]
  | succ l ih =>
    show step (blk P (batN k (l + 1))) (blk T (batN k (l + 1))) (blk T (Cert.Spec.dn (batN k (l + 1))))
      (blk T (Cert.Spec.up (batN k (l + 1)))) (accAt P T k l) (ix2 r j) = _
    rw [step_apply, ih, Finset.sum_range_succ _ (l + 1)]

/-- The output array: block `k` holds the sum of core `k`'s sixteen tiles. -/
theorem outArr_apply (P T : FVec Ideal S32x1x512x512 .f32) (k : Fin 2) (r : Fin 8) (j : Fin 128) :
    outArr P T (ix3 k r j) = ∑ l ∈ Finset.range 16, tile P T (batN k l) r j :=
  (shapeCast_ab_1ab_apply (accAt P T k 15) Gen.shapeCasts_S8x128_S1x8x128 (0 : Fin 1) r j).trans (accAt_apply P T k 15 r j)

/-- Lane `n` of the host's five numbers: zero plus the two cores' blocks at row 0, lane `n`. -/
theorem five_apply (out : FVec Ideal S2x8x128 .f32) (n : Fin 5) :
    five out (ix1 n) = 0 + ∑ core : Fin 2, out (ix3 core (0 : Fin 8) (⟨n.val, by have := n.isLt; omega⟩ : Fin 128)) := by
  unfold five
  refine (shapeCast_1a_a_apply _ _ n).trans ?_
  refine (extractStridedSlice_apply _ _ _ _ (ix2 (0 : Fin 8) (⟨n.val, by have := n.isLt; omega⟩ : Fin 128)) (fun a => ?_)).trans ?_
  · match a with
    | ⟨0, _⟩ => rfl
    | ⟨1, _⟩ => exact (Nat.zero_add _).symm
  refine (Ideal.hostReduceAdd_single Gen.reducesTo_S2x8x128_S8x128_d0 (by decide : S2x8x128.Reduces [0] S8x128) out _ _).trans ?_
  refine congrArg₂ (· + ·) Ideal.ofBits_zero_f32 (Finset.sum_congr rfl fun core _ => congrArg out ?_)
  funext a
  match a with
  | ⟨0, _⟩ => rfl
  | ⟨1, _⟩ => rfl
  | ⟨2, _⟩ => rfl

/-- A rank-0 view of one lane of a 5-vector. -/
theorem lane_apply (n : Nat) (hn : n < 5) (v : FVec Ideal S5 .f32) (h : S5.Slices ![n] S1) (h' : S1.ShapeCasts S_) (i : S_.Idx) :
    shapeCast S_ (extractStridedSlice S1 ![n] v h) h' i = v (ix1 (⟨n, hn⟩ : Fin 5)) := by
  refine (shapeCast_apply _ h' i (ix1 (0 : Fin 1)) ?_).trans ?_
  · rw [Shape.rowMajor_val_one]
    exact (Shape.rowMajorPi_zero _ _).symm
  · refine extractStridedSlice_apply _ v h _ (ix1 (⟨n, hn⟩ : Fin 5)) (fun a => ?_)
    match a with
    | ⟨0, _⟩ => rfl

/-- The sum over the 32 batch entries, split into the two cores' sixteen points. -/
theorem sum_cores (F : Fin 32 → EReal) :
    0 + ∑ core : Fin 2, ∑ l ∈ Finset.range 16, F (batN core l) = ∑ b : Fin 32, F b := by
  have h0 : ∀ b : Fin 32, F b = F (batN 0 b.val) := fun b => congrArg F (Fin.ext (by
    show b.val = (16 * 0 + b.val) % 32
    have := b.isLt; omega))
  have h1 : ∀ l : Nat, batN 1 l = batN 0 (16 + l) := fun l => Fin.ext (by
    show (16 * 1 + l) % 32 = (16 * 0 + (16 + l)) % 32
    omega)
  rw [zero_add, Fin.sum_univ_two, Finset.sum_congr rfl fun b _ => h0 b,
    Fin.sum_univ_eq_sum_range (fun n => F (batN 0 n)) 32, show (32 : Nat) = 16 + 16 from rfl, Finset.sum_range_add]
  simp only [h1]

/-- The tile's row 0, lanes 0..4. -/
theorem tile_lane0 (P T : FVec Ideal S32x1x512x512 .f32) (b : Fin 32) : tile P T b 0 ⟨0, by decide⟩ = blkP P b := rfl
theorem tile_lane1 (P T : FVec Ideal S32x1x512x512 .f32) (b : Fin 32) : tile P T b 0 ⟨1, by decide⟩ = blkP T b := rfl
theorem tile_lane2 (P T : FVec Ideal S32x1x512x512 .f32) (b : Fin 32) : tile P T b 0 ⟨2, by decide⟩ = blkPT P T b := rfl
theorem tile_lane3 (P T : FVec Ideal S32x1x512x512 .f32) (b : Fin 32) : tile P T b 0 ⟨3, by decide⟩ = blkBce P T b := rfl
theorem tile_lane4 (P T : FVec Ideal S32x1x512x512 .f32) (b : Fin 32) : tile P T b 0 ⟨4, by decide⟩ = blkBnd T b := rfl

/-- Lane `n` of the host's five numbers, for the kernel's output: the tiles' lane `n` added over all batch entries. -/
theorem five_outArr (P T : FVec Ideal S32x1x512x512 .f32) (n : Fin 5) :
    five (outArr P T) (ix1 n) = ∑ b : Fin 32, tile P T b 0 (⟨n.val, by have := n.isLt; omega⟩ : Fin 128) := by
  rw [five_apply]
  simp only [outArr_apply]
  exact sum_cores fun b => tile P T b 0 (⟨n.val, by have := n.isLt; omega⟩ : Fin 128)

/-- The kernel's value: the host arithmetic applied to the kernel's output array is the specification's loss. -/
theorem tail_outArr (P T : FVec Ideal S32x1x512x512 .f32) : tail (outArr P T) = Cert.Spec.G P T := by
  funext i
  show Cert.Spec.combine (lane0 (five (outArr P T)) i) (lane1 (five (outArr P T)) i) (lane2 (five (outArr P T)) i)
    (lane3 (five (outArr P T)) i) (lane4 (five (outArr P T)) i) = Cert.Spec.loss P T
  unfold lane0 lane1 lane2 lane3 lane4
  rw [lane_apply 0 (by decide), lane_apply 1 (by decide), lane_apply 2 (by decide), lane_apply 3 (by decide),
    lane_apply 4 (by decide), five_outArr, five_outArr, five_outArr, five_outArr, five_outArr]
  simp only [tile_lane0, tile_lane1, tile_lane2, tile_lane3, tile_lane4]
  rfl

end Cert.KernelIdeal.KV

end
-- ==== Proof.RefOps0.lean ====
/- The reference program's straight line, window 0 of 3, as lists of host operations: one list per
  stretch of the program's own operations and one per call, the callee's operations written out over the
  buffers that call names (a clamp of an index vector is six operations, a gather along an axis with its
  bounds mask twenty-two or twenty-three, the select that wraps negative indices among them).
-/
import proofs.«111375_j65884798321056_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 28 operations: a stretch of the program's own operations. -/
abbrev opsM0 : List (HloOp τ sig (Elt F)) :=
  [ StableHlo.binary main_arg0 main_arg1 main_v0 (mulf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst (constant S_ .f32 0x00000000#32),
    StableHlo.binary main_v0 main_cst main_v1 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F)),
    StableHlo.nullary main_cst_0 (constant S_ .f32 0x40000000#32),
    StableHlo.binary main_cst_0 main_v1 main_v2 (mulf : (⟨S_, .f32⟩ : BufTy).Contents (Elt F) → (⟨S_, .f32⟩ : BufTy).Contents (Elt F) → (⟨S_, .f32⟩ : BufTy).Contents (Elt F)),
    StableHlo.nullary main_cst_1 (constant S_ .f32 0x3727C5AC#32),
    StableHlo.binary main_v2 main_cst_1 main_v3 (addf : (⟨S_, .f32⟩ : BufTy).Contents (Elt F) → (⟨S_, .f32⟩ : BufTy).Contents (Elt F) → (⟨S_, .f32⟩ : BufTy).Contents (Elt F)),
    StableHlo.nullary main_cst_2 (constant S_ .f32 0x00000000#32),
    StableHlo.binary main_arg0 main_cst_2 main_v4 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F)),
    StableHlo.nullary main_cst_3 (constant S_ .f32 0x00000000#32),
    StableHlo.binary main_arg1 main_cst_3 main_v5 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F)),
    StableHlo.binary main_v4 main_v5 main_v6 (addf : (⟨S_, .f32⟩ : BufTy).Contents (Elt F) → (⟨S_, .f32⟩ : BufTy).Contents (Elt F) → (⟨S_, .f32⟩ : BufTy).Contents (Elt F)),
    StableHlo.nullary main_cst_4 (constant S_ .f32 0x3727C5AC#32),
    StableHlo.binary main_v6 main_cst_4 main_v7 (addf : (⟨S_, .f32⟩ : BufTy).Contents (Elt F) → (⟨S_, .f32⟩ : BufTy).Contents (Elt F) → (⟨S_, .f32⟩ : BufTy).Contents (Elt F)),
    StableHlo.binary main_v3 main_v7 main_v8 (Host.divf : (⟨S_, .f32⟩ : BufTy).Contents (Elt F) → (⟨S_, .f32⟩ : BufTy).Contents (Elt F) → (⟨S_, .f32⟩ : BufTy).Contents (Elt F)),
    StableHlo.nullary main_cst_5 (constant S_ .f32 0x3F800000#32),
    StableHlo.binary main_cst_5 main_v8 main_v9 (subf : (⟨S_, .f32⟩ : BufTy).Contents (Elt F) → (⟨S_, .f32⟩ : BufTy).Contents (Elt F) → (⟨S_, .f32⟩ : BufTy).Contents (Elt F)),
    StableHlo.nullary main_cst_6 (constant S_ .f32 0x3F000000#32),
    StableHlo.unary main_cst_6 main_v10 (broadcastInDim S32x1x512x512 ![] bcast_S_S32x1x512x512 : (⟨S_, .f32⟩ : BufTy).Contents (Elt F) → (⟨S32x1x512x512, .f32⟩ : BufTy).Contents (Elt F)),
    StableHlo.binary main_arg1 main_v10 main_v11 (cmpf .ogt : (⟨S32x1x512x512, .f32⟩ : BufTy).Contents (Elt F) → (⟨S32x1x512x512, .f32⟩ : BufTy).Contents (Elt F) → (⟨S32x1x512x512, .i1⟩ : BufTy).Contents (Elt F)),
    StableHlo.nullary main_c (constantI S_ 1 0#1),
    StableHlo.unary main_c main_v12 (broadcastInDim S32x1x512x512 ![] bcast_S_S32x1x512x512 : (⟨S_, .i1⟩ : BufTy).Contents (Elt F) → (⟨S32x1x512x512, .i1⟩ : BufTy).Contents (Elt F)),
    StableHlo.nullary main_v13 (iotaInDim S32 32 0),
    StableHlo.nullary main_c_7 (constantI S_ 32 1#32),
    StableHlo.unary main_c_7 main_v14 (broadcastInDim S32 ![] bcast_S_S32 : (⟨S_, .i32⟩ : BufTy).Contents (Elt F) → (⟨S32, .i32⟩ : BufTy).Contents (Elt F)),
    StableHlo.binary main_v13 main_v14 main_v15 (addi : (⟨S32, .i32⟩ : BufTy).Contents (Elt F) → (⟨S32, .i32⟩ : BufTy).Contents (Elt F) → (⟨S32, .i32⟩ : BufTy).Contents (Elt F)),
    StableHlo.nullary main_c_8 (constantI S_ 32 0#32),
    StableHlo.nullary main_c_9 (constantI S_ 32 31#32) ]

/-- 6 operations: the operations of the call into record main_call0 (@clip). -/
abbrev opsCall0 : List (HloOp τ sig (Elt F)) :=
  [ StableHlo.TRef.unary (.of main_c_8 : StableHlo.TRef sig ⟨S_, .i32⟩) main_call0.v0 id,
    StableHlo.TRef.unary main_call0.v0 main_call0.v1 (broadcastInDim S32 ![] bcast_S_S32),
    StableHlo.TRef.binary main_call0.v1 (.of main_v15 : StableHlo.TRef sig ⟨S32, .i32⟩) main_call0.v2 maxsi,
    StableHlo.TRef.unary (.of main_c_9 : StableHlo.TRef sig ⟨S_, .i32⟩) main_call0.v3 id,
    StableHlo.TRef.unary main_call0.v3 main_call0.v4 (broadcastInDim S32 ![] bcast_S_S32),
    StableHlo.TRef.binary main_call0.v4 main_call0.v2 main_call0.v5 minsi ]

/-- 23 operations: the operations of the call into record main_call1 (@take). -/
abbrev opsCall1 : List (HloOp τ sig (Elt F)) :=
  [ StableHlo.TRef.nullary main_call1.c (constantI S_ 32 0#32),
    StableHlo.TRef.unary main_call1.c main_call1.v0 (broadcastInDim S32 ![] bcast_S_S32),
    StableHlo.TRef.binary (.of main_v16 : StableHlo.TRef sig ⟨S32, .i32⟩) main_call1.v0 main_call1.v1 (cmpi .slt),
    StableHlo.TRef.nullary main_call1.c_0 (constantI S_ 32 32#32),
    StableHlo.TRef.unary main_call1.c_0 main_call1.v2 (broadcastInDim S32 ![] bcast_S_S32),
    StableHlo.TRef.binary (.of main_v16 : StableHlo.TRef sig ⟨S32, .i32⟩) main_call1.v2 main_call1.v3 addi,
    StableHlo.TRef.ternary main_call1.v1 main_call1.v3 (.of main_v16 : StableHlo.TRef sig ⟨S32, .i32⟩) main_call1.call0.v0 select,
    StableHlo.TRef.unary main_call1.call0.v0 main_call1.v5 (broadcastInDim S32x1 ![0] bcast_S32_S32x1_0),
    StableHlo.TRef.nullary main_call1.c_1 (constantI S1 32 31#32),
    StableHlo.TRef.nullary main_call1.c_2 (constantI S_ 32 0#32),
    StableHlo.TRef.unary main_call1.c_2 main_call1.v6 (broadcastInDim S32x1 ![] bcast_S_S32x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S32x1 ![0, 1] bcast_S1x1_S32x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S32x1_S32_d1 h_S_),
    StableHlo.TRef.binary (.of main_v11 : StableHlo.TRef sig ⟨S32x1x512x512, .i1⟩) main_call1.v5 main_call1.v13 (fun x i => Host.gather gather_S32x1x512x512_S32x1_S32x1x512x512_123_0_n_n_0_1_11512512 x i),
    StableHlo.TRef.unary main_call1.v12 main_call1.v14 (broadcastInDim S32x1x512x512 ![0] bcast_S32_S32x1x512x512_0),
    StableHlo.TRef.nullary main_call1.c_4 (constantI S_ 1 1#1),
    StableHlo.TRef.unary main_call1.c_4 main_call1.v15 (broadcastInDim S32x1x512x512 ![] bcast_S_S32x1x512x512),
    StableHlo.TRef.ternary main_call1.v14 main_call1.v13 main_call1.v15 main_call1.v16 select ]

/-- 8 operations: a stretch of the program's own operations. -/
abbrev opsM1 : List (HloOp τ sig (Elt F)) :=
  [ StableHlo.unary main_v17 main_v18 (noti : (⟨S32x1x512x512, .i1⟩ : BufTy).Contents (Elt F) → (⟨S32x1x512x512, .i1⟩ : BufTy).Contents (Elt F)),
    StableHlo.binary main_v12 main_v18 main_v19 (ori : (⟨S32x1x512x512, .i1⟩ : BufTy).Contents (Elt F) → (⟨S32x1x512x512, .i1⟩ : BufTy).Contents (Elt F) → (⟨S32x1x512x512, .i1⟩ : BufTy).Contents (Elt F)),
    StableHlo.nullary main_v20 (iotaInDim S32 32 0),
    StableHlo.nullary main_c_10 (constantI S_ 32 4294967295#32),
    StableHlo.unary main_c_10 main_v21 (broadcastInDim S32 ![] bcast_S_S32 : (⟨S_, .i32⟩ : BufTy).Contents (Elt F) → (⟨S32, .i32⟩ : BufTy).Contents (Elt F)),
    StableHlo.binary main_v20 main_v21 main_v22 (addi : (⟨S32, .i32⟩ : BufTy).Contents (Elt F) → (⟨S32, .i32⟩ : BufTy).Contents (Elt F) → (⟨S32, .i32⟩ : BufTy).Contents (Elt F)),
    StableHlo.nullary main_c_11 (constantI S_ 32 0#32),
    StableHlo.nullary main_c_12 (constantI S_ 32 31#32) ]

/-- 6 operations: the operations of the call into record main_call2 (@clip). -/
abbrev opsCall2 : List (HloOp τ sig (Elt F)) :=
  [ StableHlo.TRef.unary (.of main_c_11 : StableHlo.TRef sig ⟨S_, .i32⟩) main_call2.v0 id,
    StableHlo.TRef.unary main_call2.v0 main_call2.v1 (broadcastInDim S32 ![] bcast_S_S32),
    StableHlo.TRef.binary main_call2.v1 (.of main_v22 : StableHlo.TRef sig ⟨S32, .i32⟩) main_call2.v2 maxsi,
    StableHlo.TRef.unary (.of main_c_12 : StableHlo.TRef sig ⟨S_, .i32⟩) main_call2.v3 id,
    StableHlo.TRef.unary main_call2.v3 main_call2.v4 (broadcastInDim S32 ![] bcast_S_S32),
    StableHlo.TRef.binary main_call2.v4 main_call2.v2 main_call2.v5 minsi ]

/-- 23 operations: the operations of the call into record main_call3 (@take). -/
abbrev opsCall3 : List (HloOp τ sig (Elt F)) :=
  [ StableHlo.TRef.nullary main_call3.c (constantI S_ 32 0#32),
    StableHlo.TRef.unary main_call3.c main_call3.v0 (broadcastInDim S32 ![] bcast_S_S32),
    StableHlo.TRef.binary (.of main_v23 : StableHlo.TRef sig ⟨S32, .i32⟩) main_call3.v0 main_call3.v1 (cmpi .slt),
    StableHlo.TRef.nullary main_call3.c_0 (constantI S_ 32 32#32),
    StableHlo.TRef.unary main_call3.c_0 main_call3.v2 (broadcastInDim S32 ![] bcast_S_S32),
    StableHlo.TRef.binary (.of main_v23 : StableHlo.TRef sig ⟨S32, .i32⟩) main_call3.v2 main_call3.v3 addi,
    StableHlo.TRef.ternary main_call3.v1 main_call3.v3 (.of main_v23 : StableHlo.TRef sig ⟨S32, .i32⟩) main_call3.call0.v0 select,
    StableHlo.TRef.unary main_call3.call0.v0 main_call3.v5 (broadcastInDim S32x1 ![0] bcast_S32_S32x1_0),
    StableHlo.TRef.nullary main_call3.c_1 (constantI S1 32 31#32),
    StableHlo.TRef.nullary main_call3.c_2 (constantI S_ 32 0#32),
    StableHlo.TRef.unary main_call3.c_2 main_call3.v6 (broadcastInDim S32x1 ![] bcast_S_S32x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S32x1 ![0, 1] bcast_S1x1_S32x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S32x1_S32_d1 h_S_),
    StableHlo.TRef.binary (.of main_v11 : StableHlo.TRef sig ⟨S32x1x512x512, .i1⟩) main_call3.v5 main_call3.v13 (fun x i => Host.gather gather_S32x1x512x512_S32x1_S32x1x512x512_123_0_n_n_0_1_11512512 x i),
    StableHlo.TRef.unary main_call3.v12 main_call3.v14 (broadcastInDim S32x1x512x512 ![0] bcast_S32_S32x1x512x512_0),
    StableHlo.TRef.nullary main_call3.c_4 (constantI S_ 1 1#1),
    StableHlo.TRef.unary main_call3.c_4 main_call3.v15 (broadcastInDim S32x1x512x512 ![] bcast_S_S32x1x512x512),
    StableHlo.TRef.ternary main_call3.v14 main_call3.v13 main_call3.v15 main_call3.v16 select ]

/-- 8 operations: a stretch of the program's own operations. -/
abbrev opsM2 : List (HloOp τ sig (Elt F)) :=
  [ StableHlo.unary main_v24 main_v25 (noti : (⟨S32x1x512x512, .i1⟩ : BufTy).Contents (Elt F) → (⟨S32x1x512x512, .i1⟩ : BufTy).Contents (Elt F)),
    StableHlo.binary main_v19 main_v25 main_v26 (ori : (⟨S32x1x512x512, .i1⟩ : BufTy).Contents (Elt F) → (⟨S32x1x512x512, .i1⟩ : BufTy).Contents (Elt F) → (⟨S32x1x512x512, .i1⟩ : BufTy).Contents (Elt F)),
    StableHlo.nullary main_v27 (iotaInDim S1 32 0),
    StableHlo.nullary main_c_13 (constantI S_ 32 1#32),
    StableHlo.unary main_c_13 main_v28 (broadcastInDim S1 ![] bcast_S_S1 : (⟨S_, .i32⟩ : BufTy).Contents (Elt F) → (⟨S1, .i32⟩ : BufTy).Contents (Elt F)),
    StableHlo.binary main_v27 main_v28 main_v29 (addi : (⟨S1, .i32⟩ : BufTy).Contents (Elt F) → (⟨S1, .i32⟩ : BufTy).Contents (Elt F) → (⟨S1, .i32⟩ : BufTy).Contents (Elt F)),
    StableHlo.nullary main_c_14 (constantI S_ 32 0#32),
    StableHlo.nullary main_c_15 (constantI S_ 32 0#32) ]

/-- 6 operations: the operations of the call into record main_call4 (@clip_0). -/
abbrev opsCall4 : List (HloOp τ sig (Elt F)) :=
  [ StableHlo.TRef.unary (.of main_c_14 : StableHlo.TRef sig ⟨S_, .i32⟩) main_call4.v0 id,
    StableHlo.TRef.unary main_call4.v0 main_call4.v1 (broadcastInDim S1 ![] bcast_S_S1),
    StableHlo.TRef.binary main_call4.v1 (.of main_v29 : StableHlo.TRef sig ⟨S1, .i32⟩) main_call4.v2 maxsi,
    StableHlo.TRef.unary (.of main_c_15 : StableHlo.TRef sig ⟨S_, .i32⟩) main_call4.v3 id,
    StableHlo.TRef.unary main_call4.v3 main_call4.v4 (broadcastInDim S1 ![] bcast_S_S1),
    StableHlo.TRef.binary main_call4.v4 main_call4.v2 main_call4.v5 minsi ]

/-- 22 operations: the operations of the call into record main_call5 (@take_1). -/
abbrev opsCall5 : List (HloOp τ sig (Elt F)) :=
  [ StableHlo.TRef.nullary main_call5.c (constantI S_ 32 0#32),
    StableHlo.TRef.unary main_call5.c main_call5.v0 (broadcastInDim S1 ![] bcast_S_S1),
    StableHlo.TRef.binary (.of main_v30 : StableHlo.TRef sig ⟨S1, .i32⟩) main_call5.v0 main_call5.v1 (cmpi .slt),
    StableHlo.TRef.nullary main_call5.c_0 (constantI S_ 32 1#32),
    StableHlo.TRef.unary main_call5.c_0 main_call5.v2 (broadcastInDim S1 ![] bcast_S_S1),
    StableHlo.TRef.binary (.of main_v30 : StableHlo.TRef sig ⟨S1, .i32⟩) main_call5.v2 main_call5.v3 addi,
    StableHlo.TRef.ternary main_call5.v1 main_call5.v3 (.of main_v30 : StableHlo.TRef sig ⟨S1, .i32⟩) main_call5.call0.v0 select,
    StableHlo.TRef.unary main_call5.call0.v0 main_call5.v5 (broadcastInDim S1x1 ![0] bcast_S1_S1x1_0),
    StableHlo.TRef.nullary main_call5.c_1 (constantI S1 32 0#32),
    StableHlo.TRef.nullary main_call5.c_2 (constantI S_ 32 0#32),
    StableHlo.TRef.unary main_call5.c_2 main_call5.v6 (broadcastInDim S1x1 ![] bcast_S_S1x1),
    StableHlo.TRef.binary main_call5.v5 main_call5.v6 main_call5.v7 (cmpi .sge),
    StableHlo.TRef.unary main_call5.c_1 main_call5.v8 (broadcastInDim S1x1 ![1] bcast_S1_S1x1_1),
    StableHlo.TRef.binary main_call5.v5 main_call5.v8 main_call5.v9 (cmpi .sle),
    StableHlo.TRef.binary main_call5.v7 main_call5.v9 main_call5.v10 andi,
    StableHlo.TRef.nullary main_call5.c_3 (constantI S_ 1 1#1),
    StableHlo.TRef.binary main_call5.v10 main_call5.c_3 main_call5.v11 (fun x v => Host.reduce IntOp.andi x v reducesTo_S1x1_S1_d1 h_S_),
    StableHlo.TRef.binary (.of main_v11 : StableHlo.TRef sig ⟨S32x1x512x512, .i1⟩) main_call5.v5 main_call5.v12 (fun x i => Host.gather gather_S32x1x512x512_S1x1_S32x1x512x512_023_1_n_n_1_1_321512512 x i),
    StableHlo.TRef.unary main_call5.v11 main_call5.v13 (broadcastInDim S32x1x512x512 ![1] bcast_S1_S32x1x512x512_1),
    StableHlo.TRef.nullary main_call5.c_4 (constantI S_ 1 1#1),
    StableHlo.TRef.unary main_call5.c_4 main_call5.v14 (broadcastInDim S32x1x512x512 ![] bcast_S_S32x1x512x512),
    StableHlo.TRef.ternary main_call5.v13 main_call5.v12 main_call5.v14 main_call5.v15 select ]

/-- 8 operations: a stretch of the program's own operations. -/
abbrev opsM3 : List (HloOp τ sig (Elt F)) :=
  [ StableHlo.unary main_v31 main_v32 (noti : (⟨S32x1x512x512, .i1⟩ : BufTy).Contents (Elt F) → (⟨S32x1x512x512, .i1⟩ : BufTy).Contents (Elt F)),
    StableHlo.binary main_v26 main_v32 main_v33 (ori : (⟨S32x1x512x512, .i1⟩ : BufTy).Contents (Elt F) → (⟨S32x1x512x512, .i1⟩ : BufTy).Contents (Elt F) → (⟨S32x1x512x512, .i1⟩ : BufTy).Contents (Elt F)),
    StableHlo.nullary main_v34 (iotaInDim S1 32 0),
    StableHlo.nullary main_c_16 (constantI S_ 32 4294967295#32),
    StableHlo.unary main_c_16 main_v35 (broadcastInDim S1 ![] bcast_S_S1 : (⟨S_, .i32⟩ : BufTy).Contents (Elt F) → (⟨S1, .i32⟩ : BufTy).Contents (Elt F)),
    StableHlo.binary main_v34 main_v35 main_v36 (addi : (⟨S1, .i32⟩ : BufTy).Contents (Elt F) → (⟨S1, .i32⟩ : BufTy).Contents (Elt F) → (⟨S1, .i32⟩ : BufTy).Contents (Elt F)),
    StableHlo.nullary main_c_17 (constantI S_ 32 0#32),
    StableHlo.nullary main_c_18 (constantI S_ 32 0#32) ]

/-- 6 operations: the operations of the call into record main_call6 (@clip_0). -/
abbrev opsCall6 : List (HloOp τ sig (Elt F)) :=
  [ StableHlo.TRef.unary (.of main_c_17 : StableHlo.TRef sig ⟨S_, .i32⟩) main_call6.v0 id,
    StableHlo.TRef.unary main_call6.v0 main_call6.v1 (broadcastInDim S1 ![] bcast_S_S1),
    StableHlo.TRef.binary main_call6.v1 (.of main_v36 : StableHlo.TRef sig ⟨S1, .i32⟩) main_call6.v2 maxsi,
    StableHlo.TRef.unary (.of main_c_18 : StableHlo.TRef sig ⟨S_, .i32⟩) main_call6.v3 id,
    StableHlo.TRef.unary main_call6.v3 main_call6.v4 (broadcastInDim S1 ![] bcast_S_S1),
    StableHlo.TRef.binary main_call6.v4 main_call6.v2 main_call6.v5 minsi ]

/-- 22 operations: the operations of the call into record main_call7 (@take_1). -/
abbrev opsCall7 : List (HloOp τ sig (Elt F)) :=
  [ StableHlo.TRef.nullary main_call7.c (constantI S_ 32 0#32),
    StableHlo.TRef.unary main_call7.c main_call7.v0 (broadcastInDim S1 ![] bcast_S_S1),
    StableHlo.TRef.binary (.of main_v37 : StableHlo.TRef sig ⟨S1, .i32⟩) main_call7.v0 main_call7.v1 (cmpi .slt),
    StableHlo.TRef.nullary main_call7.c_0 (constantI S_ 32 1#32),
    StableHlo.TRef.unary main_call7.c_0 main_call7.v2 (broadcastInDim S1 ![] bcast_S_S1),
    StableHlo.TRef.binary (.of main_v37 : StableHlo.TRef sig ⟨S1, .i32⟩) main_call7.v2 main_call7.v3 addi,
    StableHlo.TRef.ternary main_call7.v1 main_call7.v3 (.of main_v37 : StableHlo.TRef sig ⟨S1, .i32⟩) main_call7.call0.v0 select,
    StableHlo.TRef.unary main_call7.call0.v0 main_call7.v5 (broadcastInDim S1x1 ![0] bcast_S1_S1x1_0),
    StableHlo.TRef.nullary main_call7.c_1 (constantI S1 32 0#32),
    StableHlo.TRef.nullary main_call7.c_2 (constantI S_ 32 0#32),
    StableHlo.TRef.unary main_call7.c_2 main_call7.v6 (broadcastInDim S1x1 ![] bcast_S_S1x1),
    StableHlo.TRef.binary main_call7.v5 main_call7.v6 main_call7.v7 (cmpi .sge),
    StableHlo.TRef.unary main_call7.c_1 main_call7.v8 (broadcastInDim S1x1 ![1] bcast_S1_S1x1_1),
    StableHlo.TRef.binary main_call7.v5 main_call7.v8 main_call7.v9 (cmpi .sle),
    StableHlo.TRef.binary main_call7.v7 main_call7.v9 main_call7.v10 andi,
    StableHlo.TRef.nullary main_call7.c_3 (constantI S_ 1 1#1),
    StableHlo.TRef.binary main_call7.v10 main_call7.c_3 main_call7.v11 (fun x v => Host.reduce IntOp.andi x v reducesTo_S1x1_S1_d1 h_S_),
    StableHlo.TRef.binary (.of main_v11 : StableHlo.TRef sig ⟨S32x1x512x512, .i1⟩) main_call7.v5 main_call7.v12 (fun x i => Host.gather gather_S32x1x512x512_S1x1_S32x1x512x512_023_1_n_n_1_1_321512512 x i),
    StableHlo.TRef.unary main_call7.v11 main_call7.v13 (broadcastInDim S32x1x512x512 ![1] bcast_S1_S32x1x512x512_1),
    StableHlo.TRef.nullary main_call7.c_4 (constantI S_ 1 1#1),
    StableHlo.TRef.unary main_call7.c_4 main_call7.v14 (broadcastInDim S32x1x512x512 ![] bcast_S_S32x1x512x512),
    StableHlo.TRef.ternary main_call7.v13 main_call7.v12 main_call7.v14 main_call7.v15 select ]

/-- Window 0: its stretches and calls in program order. -/
abbrev ops_part0 : List (HloOp τ sig (Elt F)) :=
  opsM0 ++ (opsCall0 ++ (opsCall1 ++ (opsM1 ++ (opsCall2 ++ (opsCall3 ++ (opsM2 ++ (opsCall4 ++ (opsCall5 ++ (opsM3 ++ (opsCall6 ++ (opsCall7)))))))))))

end Cert.ReferenceIdeal.RefRun

end
-- ==== Proof.RefOps1.lean ====
/- The reference program's straight line, window 1 of 3, as lists of host operations: one list per
  stretch of the program's own operations and one per call, the callee's operations written out over the
  buffers that call names (a clamp of an index vector is six operations, a gather along an axis with its
  bounds mask twenty-two or twenty-three, the select that wraps negative indices among them).
-/
import proofs.«111375_j65884798321056_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 8 operations: a stretch of the program's own operations. -/
abbrev opsM4 : List (HloOp τ sig (Elt F)) :=
  [ StableHlo.unary main_v38 main_v39 (noti : (⟨S32x1x512x512, .i1⟩ : BufTy).Contents (Elt F) → (⟨S32x1x512x512, .i1⟩ : BufTy).Contents (Elt F)),
    StableHlo.binary main_v33 main_v39 main_v40 (ori : (⟨S32x1x512x512, .i1⟩ : BufTy).Contents (Elt F) → (⟨S32x1x512x512, .i1⟩ : BufTy).Contents (Elt F) → (⟨S32x1x512x512, .i1⟩ : BufTy).Contents (Elt F)),
    StableHlo.nullary main_v41 (iotaInDim S512 32 0),
    StableHlo.nullary main_c_19 (constantI S_ 32 1#32),
    StableHlo.unary main_c_19 main_v42 (broadcastInDim S512 ![] bcast_S_S512 : (⟨S_, .i32⟩ : BufTy).Contents (Elt F) → (⟨S512, .i32⟩ : BufTy).Contents (Elt F)),
    StableHlo.binary main_v41 main_v42 main_v43 (addi : (⟨S512, .i32⟩ : BufTy).Contents (Elt F) → (⟨S512, .i32⟩ : BufTy).Contents (Elt F) → (⟨S512, .i32⟩ : BufTy).Contents (Elt F)),
    StableHlo.nullary main_c_20 (constantI S_ 32 0#32),
    StableHlo.nullary main_c_21 (constantI S_ 32 511#32) ]

/-- 6 operations: the operations of the call into record main_call8 (@clip_3). -/
abbrev opsCall8 : List (HloOp τ sig (Elt F)) :=
  [ StableHlo.TRef.unary (.of main_c_20 : StableHlo.TRef sig ⟨S_, .i32⟩) main_call8.v0 id,
    StableHlo.TRef.unary main_call8.v0 main_call8.v1 (broadcastInDim S512 ![] bcast_S_S512),
    StableHlo.TRef.binary main_call8.v1 (.of main_v43 : StableHlo.TRef sig ⟨S512, .i32⟩) main_call8.v2 maxsi,
    StableHlo.TRef.unary (.of main_c_21 : StableHlo.TRef sig ⟨S_, .i32⟩) main_call8.v3 id,
    StableHlo.TRef.unary main_call8.v3 main_call8.v4 (broadcastInDim S512 ![] bcast_S_S512),
    StableHlo.TRef.binary main_call8.v4 main_call8.v2 main_call8.v5 minsi ]

/-- 23 operations: the operations of the call into record main_call9 (@take_4). -/
abbrev opsCall9 : List (HloOp τ sig (Elt F)) :=
  [ StableHlo.TRef.nullary main_call9.c (constantI S_ 32 0#32),
    StableHlo.TRef.unary main_call9.c main_call9.v0 (broadcastInDim S512 ![] bcast_S_S512),
    StableHlo.TRef.binary (.of main_v44 : StableHlo.TRef sig ⟨S512, .i32⟩) main_call9.v0 main_call9.v1 (cmpi .slt),
    StableHlo.TRef.nullary main_call9.c_0 (constantI S_ 32 512#32),
    StableHlo.TRef.unary main_call9.c_0 main_call9.v2 (broadcastInDim S512 ![] bcast_S_S512),
    StableHlo.TRef.binary (.of main_v44 : StableHlo.TRef sig ⟨S512, .i32⟩) main_call9.v2 main_call9.v3 addi,
    StableHlo.TRef.ternary main_call9.v1 main_call9.v3 (.of main_v44 : StableHlo.TRef sig ⟨S512, .i32⟩) main_call9.call0.v0 select,
    StableHlo.TRef.unary main_call9.call0.v0 main_call9.v5 (broadcastInDim S512x1 ![0] bcast_S512_S512x1_0),
    StableHlo.TRef.nullary main_call9.c_1 (constantI S1 32 511#32),
    StableHlo.TRef.nullary main_call9.c_2 (constantI S_ 32 0#32),
    StableHlo.TRef.unary main_call9.c_2 main_call9.v6 (broadcastInDim S512x1 ![] bcast_S_S512x1),
    StableHlo.TRef.binary main_call9.v5 main_call9.v6 main_call9.v7 (cmpi .sge),
    StableHlo.TRef.unary main_call9.c_1 main_call9.v8 (broadcastInDim S1x1 ![1] bcast_S1_S1x1_1),
    StableHlo.TRef.unary main_call9.v8 main_call9.v9 (broadcastInDim S512x1 ![0, 1] bcast_S1x1_S512x1_0_1),
    StableHlo.TRef.binary main_call9.v5 main_call9.v9 main_call9.v10 (cmpi .sle),
    StableHlo.TRef.binary main_call9.v7 main_call9.v10 main_call9.v11 andi,
    StableHlo.TRef.nullary main_call9.c_3 (constantI S_ 1 1#1),
    StableHlo.TRef.binary main_call9.v11 main_call9.c_3 main_call9.v12 (fun x v => Host.reduce IntOp.andi x v reducesTo_S512x1_S512_d1 h_S_),
    StableHlo.TRef.binary (.of main_v11 : StableHlo.TRef sig ⟨S32x1x512x512, .i1⟩) main_call9.v5 main_call9.v13 (fun x i => Host.gather gather_S32x1x512x512_S512x1_S32x1x512x512_013_2_n_n_2_1_3211512 x i),
    StableHlo.TRef.unary main_call9.v12 main_call9.v14 (broadcastInDim S32x1x512x512 ![2] bcast_S512_S32x1x512x512_2),
    StableHlo.TRef.nullary main_call9.c_4 (constantI S_ 1 1#1),
    StableHlo.TRef.unary main_call9.c_4 main_call9.v15 (broadcastInDim S32x1x512x512 ![] bcast_S_S32x1x512x512),
    StableHlo.TRef.ternary main_call9.v14 main_call9.v13 main_call9.v15 main_call9.v16 select ]

/-- 8 operations: a stretch of the program's own operations. -/
abbrev opsM5 : List (HloOp τ sig (Elt F)) :=
  [ StableHlo.unary main_v45 main_v46 (noti : (⟨S32x1x512x512, .i1⟩ : BufTy).Contents (Elt F) → (⟨S32x1x512x512, .i1⟩ : BufTy).Contents (Elt F)),
    StableHlo.binary main_v40 main_v46 main_v47 (ori : (⟨S32x1x512x512, .i1⟩ : BufTy).Contents (Elt F) → (⟨S32x1x512x512, .i1⟩ : BufTy).Contents (Elt F) → (⟨S32x1x512x512, .i1⟩ : BufTy).Contents (Elt F)),
    StableHlo.nullary main_v48 (iotaInDim S512 32 0),
    StableHlo.nullary main_c_22 (constantI S_ 32 4294967295#32),
    StableHlo.unary main_c_22 main_v49 (broadcastInDim S512 ![] bcast_S_S512 : (⟨S_, .i32⟩ : BufTy).Contents (Elt F) → (⟨S512, .i32⟩ : BufTy).Contents (Elt F)),
    StableHlo.binary main_v48 main_v49 main_v50 (addi : (⟨S512, .i32⟩ : BufTy).Contents (Elt F) → (⟨S512, .i32⟩ : BufTy).Contents (Elt F) → (⟨S512, .i32⟩ : BufTy).Contents (Elt F)),
    StableHlo.nullary main_c_23 (constantI S_ 32 0#32),
    StableHlo.nullary main_c_24 (constantI S_ 32 511#32) ]

/-- 6 operations: the operations of the call into record main_call10 (@clip_3). -/
abbrev opsCall10 : List (HloOp τ sig (Elt F)) :=
  [ StableHlo.TRef.unary (.of main_c_23 : StableHlo.TRef sig ⟨S_, .i32⟩) main_call10.v0 id,
    StableHlo.TRef.unary main_call10.v0 main_call10.v1 (broadcastInDim S512 ![] bcast_S_S512),
    StableHlo.TRef.binary main_call10.v1 (.of main_v50 : StableHlo.TRef sig ⟨S512, .i32⟩) main_call10.v2 maxsi,
    StableHlo.TRef.unary (.of main_c_24 : StableHlo.TRef sig ⟨S_, .i32⟩) main_call10.v3 id,
    StableHlo.TRef.unary main_call10.v3 main_call10.v4 (broadcastInDim S512 ![] bcast_S_S512),
    StableHlo.TRef.binary main_call10.v4 main_call10.v2 main_call10.v5 minsi ]

/-- 23 operations: the operations of the call into record main_call11 (@take_4). -/
abbrev opsCall11 : List (HloOp τ sig (Elt F)) :=
  [ StableHlo.TRef.nullary main_call11.c (constantI S_ 32 0#32),
    StableHlo.TRef.unary main_call11.c main_call11.v0 (broadcastInDim S512 ![] bcast_S_S512),
    StableHlo.TRef.binary (.of main_v51 : StableHlo.TRef sig ⟨S512, .i32⟩) main_call11.v0 main_call11.v1 (cmpi .slt),
    StableHlo.TRef.nullary main_call11.c_0 (constantI S_ 32 512#32),
    StableHlo.TRef.unary main_call11.c_0 main_call11.v2 (broadcastInDim S512 ![] bcast_S_S512),
    StableHlo.TRef.binary (.of main_v51 : StableHlo.TRef sig ⟨S512, .i32⟩) main_call11.v2 main_call11.v3 addi,
    StableHlo.TRef.ternary main_call11.v1 main_call11.v3 (.of main_v51 : StableHlo.TRef sig ⟨S512, .i32⟩) main_call11.call0.v0 select,
    StableHlo.TRef.unary main_call11.call0.v0 main_call11.v5 (broadcastInDim S512x1 ![0] bcast_S512_S512x1_0),
    StableHlo.TRef.nullary main_call11.c_1 (constantI S1 32 511#32),
    StableHlo.TRef.nullary main_call11.c_2 (constantI S_ 32 0#32),
    StableHlo.TRef.unary main_call11.c_2 main_call11.v6 (broadcastInDim S512x1 ![] bcast_S_S512x1),
    StableHlo.TRef.binary main_call11.v5 main_call11.v6 main_call11.v7 (cmpi .sge),
    StableHlo.TRef.unary main_call11.c_1 main_call11.v8 (broadcastInDim S1x1 ![1] bcast_S1_S1x1_1),
    StableHlo.TRef.unary main_call11.v8 main_call11.v9 (broadcastInDim S512x1 ![0, 1] bcast_S1x1_S512x1_0_1),
    StableHlo.TRef.binary main_call11.v5 main_call11.v9 main_call11.v10 (cmpi .sle),
    StableHlo.TRef.binary main_call11.v7 main_call11.v10 main_call11.v11 andi,
    StableHlo.TRef.nullary main_call11.c_3 (constantI S_ 1 1#1),
    StableHlo.TRef.binary main_call11.v11 main_call11.c_3 main_call11.v12 (fun x v => Host.reduce IntOp.andi x v reducesTo_S512x1_S512_d1 h_S_),
    StableHlo.TRef.binary (.of main_v11 : StableHlo.TRef sig ⟨S32x1x512x512, .i1⟩) main_call11.v5 main_call11.v13 (fun x i => Host.gather gather_S32x1x512x512_S512x1_S32x1x512x512_013_2_n_n_2_1_3211512 x i),
    StableHlo.TRef.unary main_call11.v12 main_call11.v14 (broadcastInDim S32x1x512x512 ![2] bcast_S512_S32x1x512x512_2),
    StableHlo.TRef.nullary main_call11.c_4 (constantI S_ 1 1#1),
    StableHlo.TRef.unary main_call11.c_4 main_call11.v15 (broadcastInDim S32x1x512x512 ![] bcast_S_S32x1x512x512),
    StableHlo.TRef.ternary main_call11.v14 main_call11.v13 main_call11.v15 main_call11.v16 select ]

/-- 8 operations: a stretch of the program's own operations. -/
abbrev opsM6 : List (HloOp τ sig (Elt F)) :=
  [ StableHlo.unary main_v52 main_v53 (noti : (⟨S32x1x512x512, .i1⟩ : BufTy).Contents (Elt F) → (⟨S32x1x512x512, .i1⟩ : BufTy).Contents (Elt F)),
    StableHlo.binary main_v47 main_v53 main_v54 (ori : (⟨S32x1x512x512, .i1⟩ : BufTy).Contents (Elt F) → (⟨S32x1x512x512, .i1⟩ : BufTy).Contents (Elt F) → (⟨S32x1x512x512, .i1⟩ : BufTy).Contents (Elt F)),
    StableHlo.nullary main_v55 (iotaInDim S512 32 0),
    StableHlo.nullary main_c_25 (constantI S_ 32 1#32),
    StableHlo.unary main_c_25 main_v56 (broadcastInDim S512 ![] bcast_S_S512 : (⟨S_, .i32⟩ : BufTy).Contents (Elt F) → (⟨S512, .i32⟩ : BufTy).Contents (Elt F)),
    StableHlo.binary main_v55 main_v56 main_v57 (addi : (⟨S512, .i32⟩ : BufTy).Contents (Elt F) → (⟨S512, .i32⟩ : BufTy).Contents (Elt F) → (⟨S512, .i32⟩ : BufTy).Contents (Elt F)),
    StableHlo.nullary main_c_26 (constantI S_ 32 0#32),
    StableHlo.nullary main_c_27 (constantI S_ 32 511#32) ]

/-- 6 operations: the operations of the call into record main_call12 (@clip_3). -/
abbrev opsCall12 : List (HloOp τ sig (Elt F)) :=
  [ StableHlo.TRef.unary (.of main_c_26 : StableHlo.TRef sig ⟨S_, .i32⟩) main_call12.v0 id,
    StableHlo.TRef.unary main_call12.v0 main_call12.v1 (broadcastInDim S512 ![] bcast_S_S512),
    StableHlo.TRef.binary main_call12.v1 (.of main_v57 : StableHlo.TRef sig ⟨S512, .i32⟩) main_call12.v2 maxsi,
    StableHlo.TRef.unary (.of main_c_27 : StableHlo.TRef sig ⟨S_, .i32⟩) main_call12.v3 id,
    StableHlo.TRef.unary main_call12.v3 main_call12.v4 (broadcastInDim S512 ![] bcast_S_S512),
    StableHlo.TRef.binary main_call12.v4 main_call12.v2 main_call12.v5 minsi ]

/-- 23 operations: the operations of the call into record main_call13 (@take_6). -/
abbrev opsCall13 : List (HloOp τ sig (Elt F)) :=
  [ StableHlo.TRef.nullary main_call13.c (constantI S_ 32 0#32),
    StableHlo.TRef.unary main_call13.c main_call13.v0 (broadcastInDim S512 ![] bcast_S_S512),
    StableHlo.TRef.binary (.of main_v58 : StableHlo.TRef sig ⟨S512, .i32⟩) main_call13.v0 main_call13.v1 (cmpi .slt),
    StableHlo.TRef.nullary main_call13.c_0 (constantI S_ 32 512#32),
    StableHlo.TRef.unary main_call13.c_0 main_call13.v2 (broadcastInDim S512 ![] bcast_S_S512),
    StableHlo.TRef.binary (.of main_v58 : StableHlo.TRef sig ⟨S512, .i32⟩) main_call13.v2 main_call13.v3 addi,
    StableHlo.TRef.ternary main_call13.v1 main_call13.v3 (.of main_v58 : StableHlo.TRef sig ⟨S512, .i32⟩) main_call13.call0.v0 select,
    StableHlo.TRef.unary main_call13.call0.v0 main_call13.v5 (broadcastInDim S512x1 ![0] bcast_S512_S512x1_0),
    StableHlo.TRef.nullary main_call13.c_1 (constantI S1 32 511#32),
    StableHlo.TRef.nullary main_call13.c_2 (constantI S_ 32 0#32),
    StableHlo.TRef.unary main_call13.c_2 main_call13.v6 (broadcastInDim S512x1 ![] bcast_S_S512x1),
    StableHlo.TRef.binary main_call13.v5 main_call13.v6 main_call13.v7 (cmpi .sge),
    StableHlo.TRef.unary main_call13.c_1 main_call13.v8 (broadcastInDim S1x1 ![1] bcast_S1_S1x1_1),
    StableHlo.TRef.unary main_call13.v8 main_call13.v9 (broadcastInDim S512x1 ![0, 1] bcast_S1x1_S512x1_0_1),
    StableHlo.TRef.binary main_call13.v5 main_call13.v9 main_call13.v10 (cmpi .sle),
    StableHlo.TRef.binary main_call13.v7 main_call13.v10 main_call13.v11 andi,
    StableHlo.TRef.nullary main_call13.c_3 (constantI S_ 1 1#1),
    StableHlo.TRef.binary main_call13.v11 main_call13.c_3 main_call13.v12 (fun x v => Host.reduce IntOp.andi x v reducesTo_S512x1_S512_d1 h_S_),
    StableHlo.TRef.binary (.of main_v11 : StableHlo.TRef sig ⟨S32x1x512x512, .i1⟩) main_call13.v5 main_call13.v13 (fun x i => Host.gather gather_S32x1x512x512_S512x1_S32x1x512x512_012_3_n_n_3_1_3215121 x i),
    StableHlo.TRef.unary main_call13.v12 main_call13.v14 (broadcastInDim S32x1x512x512 ![3] bcast_S512_S32x1x512x512_3),
    StableHlo.TRef.nullary main_call13.c_4 (constantI S_ 1 1#1),
    StableHlo.TRef.unary main_call13.c_4 main_call13.v15 (broadcastInDim S32x1x512x512 ![] bcast_S_S32x1x512x512),
    StableHlo.TRef.ternary main_call13.v14 main_call13.v13 main_call13.v15 main_call13.v16 select ]

/-- 8 operations: a stretch of the program's own operations. -/
abbrev opsM7 : List (HloOp τ sig (Elt F)) :=
  [ StableHlo.unary main_v59 main_v60 (noti : (⟨S32x1x512x512, .i1⟩ : BufTy).Contents (Elt F) → (⟨S32x1x512x512, .i1⟩ : BufTy).Contents (Elt F)),
    StableHlo.binary main_v54 main_v60 main_v61 (ori : (⟨S32x1x512x512, .i1⟩ : BufTy).Contents (Elt F) → (⟨S32x1x512x512, .i1⟩ : BufTy).Contents (Elt F) → (⟨S32x1x512x512, .i1⟩ : BufTy).Contents (Elt F)),
    StableHlo.nullary main_v62 (iotaInDim S512 32 0),
    StableHlo.nullary main_c_28 (constantI S_ 32 4294967295#32),
    StableHlo.unary main_c_28 main_v63 (broadcastInDim S512 ![] bcast_S_S512 : (⟨S_, .i32⟩ : BufTy).Contents (Elt F) → (⟨S512, .i32⟩ : BufTy).Contents (Elt F)),
    StableHlo.binary main_v62 main_v63 main_v64 (addi : (⟨S512, .i32⟩ : BufTy).Contents (Elt F) → (⟨S512, .i32⟩ : BufTy).Contents (Elt F) → (⟨S512, .i32⟩ : BufTy).Contents (Elt F)),
    StableHlo.nullary main_c_29 (constantI S_ 32 0#32),
    StableHlo.nullary main_c_30 (constantI S_ 32 511#32) ]

/-- 6 operations: the operations of the call into record main_call14 (@clip_3). -/
abbrev opsCall14 : List (HloOp τ sig (Elt F)) :=
  [ StableHlo.TRef.unary (.of main_c_29 : StableHlo.TRef sig ⟨S_, .i32⟩) main_call14.v0 id,
    StableHlo.TRef.unary main_call14.v0 main_call14.v1 (broadcastInDim S512 ![] bcast_S_S512),
    StableHlo.TRef.binary main_call14.v1 (.of main_v64 : StableHlo.TRef sig ⟨S512, .i32⟩) main_call14.v2 maxsi,
    StableHlo.TRef.unary (.of main_c_30 : StableHlo.TRef sig ⟨S_, .i32⟩) main_call14.v3 id,
    StableHlo.TRef.unary main_call14.v3 main_call14.v4 (broadcastInDim S512 ![] bcast_S_S512),
    StableHlo.TRef.binary main_call14.v4 main_call14.v2 main_call14.v5 minsi ]

/-- 23 operations: the operations of the call into record main_call15 (@take_6). -/
abbrev opsCall15 : List (HloOp τ sig (Elt F)) :=
  [ StableHlo.TRef.nullary main_call15.c (constantI S_ 32 0#32),
    StableHlo.TRef.unary main_call15.c main_call15.v0 (broadcastInDim S512 ![] bcast_S_S512),
    StableHlo.TRef.binary (.of main_v65 : StableHlo.TRef sig ⟨S512, .i32⟩) main_call15.v0 main_call15.v1 (cmpi .slt),
    StableHlo.TRef.nullary main_call15.c_0 (constantI S_ 32 512#32),
    StableHlo.TRef.unary main_call15.c_0 main_call15.v2 (broadcastInDim S512 ![] bcast_S_S512),
    StableHlo.TRef.binary (.of main_v65 : StableHlo.TRef sig ⟨S512, .i32⟩) main_call15.v2 main_call15.v3 addi,
    StableHlo.TRef.ternary main_call15.v1 main_call15.v3 (.of main_v65 : StableHlo.TRef sig ⟨S512, .i32⟩) main_call15.call0.v0 select,
    StableHlo.TRef.unary main_call15.call0.v0 main_call15.v5 (broadcastInDim S512x1 ![0] bcast_S512_S512x1_0),
    StableHlo.TRef.nullary main_call15.c_1 (constantI S1 32 511#32),
    StableHlo.TRef.nullary main_call15.c_2 (constantI S_ 32 0#32),
    StableHlo.TRef.unary main_call15.c_2 main_call15.v6 (broadcastInDim S512x1 ![] bcast_S_S512x1),
    StableHlo.TRef.binary main_call15.v5 main_call15.v6 main_call15.v7 (cmpi .sge),
    StableHlo.TRef.unary main_call15.c_1 main_call15.v8 (broadcastInDim S1x1 ![1] bcast_S1_S1x1_1),
    StableHlo.TRef.unary main_call15.v8 main_call15.v9 (broadcastInDim S512x1 ![0, 1] bcast_S1x1_S512x1_0_1),
    StableHlo.TRef.binary main_call15.v5 main_call15.v9 main_call15.v10 (cmpi .sle),
    StableHlo.TRef.binary main_call15.v7 main_call15.v10 main_call15.v11 andi,
    StableHlo.TRef.nullary main_call15.c_3 (constantI S_ 1 1#1),
    StableHlo.TRef.binary main_call15.v11 main_call15.c_3 main_call15.v12 (fun x v => Host.reduce IntOp.andi x v reducesTo_S512x1_S512_d1 h_S_),
    StableHlo.TRef.binary (.of main_v11 : StableHlo.TRef sig ⟨S32x1x512x512, .i1⟩) main_call15.v5 main_call15.v13 (fun x i => Host.gather gather_S32x1x512x512_S512x1_S32x1x512x512_012_3_n_n_3_1_3215121 x i),
    StableHlo.TRef.unary main_call15.v12 main_call15.v14 (broadcastInDim S32x1x512x512 ![3] bcast_S512_S32x1x512x512_3),
    StableHlo.TRef.nullary main_call15.c_4 (constantI S_ 1 1#1),
    StableHlo.TRef.unary main_call15.c_4 main_call15.v15 (broadcastInDim S32x1x512x512 ![] bcast_S_S32x1x512x512),
    StableHlo.TRef.ternary main_call15.v14 main_call15.v13 main_call15.v15 main_call15.v16 select ]

/-- 6 operations: a stretch of the program's own operations. -/
abbrev opsM8 : List (HloOp τ sig (Elt F)) :=
  [ StableHlo.unary main_v66 main_v67 (noti : (⟨S32x1x512x512, .i1⟩ : BufTy).Contents (Elt F) → (⟨S32x1x512x512, .i1⟩ : BufTy).Contents (Elt F)),
    StableHlo.binary main_v61 main_v67 main_v68 (ori : (⟨S32x1x512x512, .i1⟩ : BufTy).Contents (Elt F) → (⟨S32x1x512x512, .i1⟩ : BufTy).Contents (Elt F) → (⟨S32x1x512x512, .i1⟩ : BufTy).Contents (Elt F)),
    StableHlo.binary main_v11 main_v68 main_v69 (andi : (⟨S32x1x512x512, .i1⟩ : BufTy).Contents (Elt F) → (⟨S32x1x512x512, .i1⟩ : BufTy).Contents (Elt F) → (⟨S32x1x512x512, .i1⟩ : BufTy).Contents (Elt F)),
    StableHlo.unary main_v69 main_v70 (uitofp .f32 : (⟨S32x1x512x512, .i1⟩ : BufTy).Contents (Elt F) → (⟨S32x1x512x512, .f32⟩ : BufTy).Contents (Elt F)),
    StableHlo.nullary main_cst_31 (constant S_ .f32 0x33D6BF95#32),
    StableHlo.nullary main_cst_32 (constant S_ .f32 0x3F7FFFFE#32) ]

/-- 6 operations: the operations of the call into record main_call16 (@clip_7). -/
abbrev opsCall16 : List (HloOp τ sig (Elt F)) :=
  [ StableHlo.TRef.unary (.of main_cst_31 : StableHlo.TRef sig ⟨S_, .f32⟩) main_call16.v0 id,
    StableHlo.TRef.unary main_call16.v0 main_call16.v1 (broadcastInDim S32x1x512x512 ![] bcast_S_S32x1x512x512),
    StableHlo.TRef.binary main_call16.v1 (.of main_arg0 : StableHlo.TRef sig ⟨S32x1x512x512, .f32⟩) main_call16.v2 maximumf,
    StableHlo.TRef.unary (.of main_cst_32 : StableHlo.TRef sig ⟨S_, .f32⟩) main_call16.v3 id,
    StableHlo.TRef.unary main_call16.v3 main_call16.v4 (broadcastInDim S32x1x512x512 ![] bcast_S_S32x1x512x512),
    StableHlo.TRef.binary main_call16.v4 main_call16.v2 main_call16.v5 minimumf ]

/-- 13 operations: a stretch of the program's own operations. -/
abbrev opsM9 : List (HloOp τ sig (Elt F)) :=
  [ StableHlo.unary main_v71 main_v72 (Host.log : (⟨S32x1x512x512, .f32⟩ : BufTy).Contents (Elt F) → (⟨S32x1x512x512, .f32⟩ : BufTy).Contents (Elt F)),
    StableHlo.binary main_arg1 main_v72 main_v73 (mulf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_33 (constant S_ .f32 0x3F800000#32),
    StableHlo.unary main_cst_33 main_v74 (broadcastInDim S32x1x512x512 ![] bcast_S_S32x1x512x512 : (⟨S_, .f32⟩ : BufTy).Contents (Elt F) → (⟨S32x1x512x512, .f32⟩ : BufTy).Contents (Elt F)),
    StableHlo.binary main_v74 main_arg1 main_v75 (subf : (⟨S32x1x512x512, .f32⟩ : BufTy).Contents (Elt F) → (⟨S32x1x512x512, .f32⟩ : BufTy).Contents (Elt F) → (⟨S32x1x512x512, .f32⟩ : BufTy).Contents (Elt F)),
    StableHlo.unary main_v71 main_v76 (Host.negf : (⟨S32x1x512x512, .f32⟩ : BufTy).Contents (Elt F) → (⟨S32x1x512x512, .f32⟩ : BufTy).Contents (Elt F)),
    StableHlo.unary main_v76 main_v77 (Host.log1p : (⟨S32x1x512x512, .f32⟩ : BufTy).Contents (Elt F) → (⟨S32x1x512x512, .f32⟩ : BufTy).Contents (Elt F)),
    StableHlo.binary main_v75 main_v77 main_v78 (mulf : (⟨S32x1x512x512, .f32⟩ : BufTy).Contents (Elt F) → (⟨S32x1x512x512, .f32⟩ : BufTy).Contents (Elt F) → (⟨S32x1x512x512, .f32⟩ : BufTy).Contents (Elt F)),
    StableHlo.binary main_v73 main_v78 main_v79 (addf : (⟨S32x1x512x512, .f32⟩ : BufTy).Contents (Elt F) → (⟨S32x1x512x512, .f32⟩ : BufTy).Contents (Elt F) → (⟨S32x1x512x512, .f32⟩ : BufTy).Contents (Elt F)),
    StableHlo.nullary main_cst_34 (constant S_ .f32 0x00000000#32),
    StableHlo.binary main_v79 main_cst_34 main_v80 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F)),
    StableHlo.nullary main_cst_35 (constant S_ .f32 0x4B000000#32),
    StableHlo.binary main_v80 main_cst_35 main_v81 (Host.divf : (⟨S_, .f32⟩ : BufTy).Contents (Elt F) → (⟨S_, .f32⟩ : BufTy).Contents (Elt F) → (⟨S_, .f32⟩ : BufTy).Contents (Elt F)) ]

/-- Window 1: its stretches and calls in program order. -/
abbrev ops_part1 : List (HloOp τ sig (Elt F)) :=
  opsM4 ++ (opsCall8 ++ (opsCall9 ++ (opsM5 ++ (opsCall10 ++ (opsCall11 ++ (opsM6 ++ (opsCall12 ++ (opsCall13 ++ (opsM7 ++ (opsCall14 ++ (opsCall15 ++ (opsM8 ++ (opsCall16 ++ (opsM9))))))))))))))

end Cert.ReferenceIdeal.RefRun

end
-- ==== Proof.RefOps2.lean ====
/- The reference program's straight line, window 2 of 3, as lists of host operations: one list per
  stretch of the program's own operations and one per call, the callee's operations written out over the
  buffers that call names (a clamp of an index vector is six operations, a gather along an axis with its
  bounds mask twenty-two or twenty-three, the select that wraps negative indices among them).
-/
import proofs.«111375_j65884798321056_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 9 operations: a stretch of the program's own operations. -/
abbrev opsM10 : List (HloOp τ sig (Elt F)) :=
  [ StableHlo.unary main_v81 main_v82 (Host.negf : (⟨S_, .f32⟩ : BufTy).Contents (Elt F) → (⟨S_, .f32⟩ : BufTy).Contents (Elt F)),
    StableHlo.nullary main_cst_36 (constant S_ .f32 0x41200000#32),
    StableHlo.binary main_cst_36 main_v82 main_v83 (mulf : (⟨S_, .f32⟩ : BufTy).Contents (Elt F) → (⟨S_, .f32⟩ : BufTy).Contents (Elt F) → (⟨S_, .f32⟩ : BufTy).Contents (Elt F)),
    StableHlo.nullary main_cst_37 (constant S_ .f32 0x00000000#32),
    StableHlo.binary main_v70 main_cst_37 main_v84 ((fun x v => Host.reduceAdd x v reducesTo_S32x1x512x512_S_d0_1_2_3 h_S_) : (⟨S32x1x512x512, .f32⟩ : BufTy).Contents (Elt F) → (⟨S_, .f32⟩ : BufTy).Contents (Elt F) → (⟨S_, .f32⟩ : BufTy).Contents (Elt F)),
    StableHlo.nullary main_cst_38 (constant S_ .f32 0x4B000000#32),
    StableHlo.binary main_v84 main_cst_38 main_v85 (Host.divf : (⟨S_, .f32⟩ : BufTy).Contents (Elt F) → (⟨S_, .f32⟩ : BufTy).Contents (Elt F) → (⟨S_, .f32⟩ : BufTy).Contents (Elt F)),
    StableHlo.binary main_v83 main_v85 main_v86 (mulf : (⟨S_, .f32⟩ : BufTy).Contents (Elt F) → (⟨S_, .f32⟩ : BufTy).Contents (Elt F) → (⟨S_, .f32⟩ : BufTy).Contents (Elt F)),
    StableHlo.binary main_v9 main_v86 main_v87 (addf : (⟨S_, .f32⟩ : BufTy).Contents (Elt F) → (⟨S_, .f32⟩ : BufTy).Contents (Elt F) → (⟨S_, .f32⟩ : BufTy).Contents (Elt F)) ]

/-- Window 2: its stretches and calls in program order. -/
abbrev ops_part2 : List (HloOp τ sig (Elt F)) :=
  opsM10

end Cert.ReferenceIdeal.RefRun

end
-- ==== Proof.RefOps.lean ====
/- The reference program's whole straight line: its windows' operation lists in order.
-/
import proofs.«111375_j65884798321056_2_alg».proof.Proof.RefOps0
import proofs.«111375_j65884798321056_2_alg».proof.Proof.RefOps1
import proofs.«111375_j65884798321056_2_alg».proof.Proof.RefOps2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Every operation of the program, in order. -/
abbrev ops : List (HloOp τ sig (Elt F)) :=
  ops_part0 ++ (ops_part1 ++ (ops_part2))

end Cert.ReferenceIdeal.RefRun

end
-- ==== Proof.RefRunEq0.lean ====
/-
  The first window of the reference program is the straight line of its operation list: unfolding each call's
  body at its record and re-associating the sequencing gives the same chain of steps on both sides.
-/
import proofs.«111375_j65884798321056_2_alg».proof.Proof.RefOps0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Window 0 runs its operations in order. -/
theorem main_part0_eq (c : Dev nD) : main_part0 (F := F) c = seq ops_part0 := rfl

end Cert.ReferenceIdeal.RefRun

end
-- ==== Proof.RefRunEq1.lean ====
/-
  The second and third windows of the reference program are the straight lines of their operation lists.
-/
import proofs.«111375_j65884798321056_2_alg».proof.Proof.RefOps1
import proofs.«111375_j65884798321056_2_alg».proof.Proof.RefOps2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
/-- Window 1 runs its operations in order. -/
theorem main_part1_eq (c : Dev nD) : main_part1 (F := F) c = seq ops_part1 := rfl

set_option maxRecDepth 16384 in
/-- Window 2 runs its operations in order. -/
theorem main_part2_eq (c : Dev nD) : main_part2 (F := F) c = seq ops_part2 := rfl

end Cert.ReferenceIdeal.RefRun

end
-- ==== Proof.RefRunTac.lean ====
/-
  Two small tactics for literal lists of host operations: every operation touches only buffers of the TensorCore,
  and no operation leaves a buffer undetermined.
-/
import Idealize.ShloMosaic.Lib.StableHlo.Run

namespace Cert.ReferenceIdeal.RefRun

open Idealize.ShloMosaic.StableHlo

/-- Each operation of a literal list reads and writes TensorCore buffers only: the builders' own facts, one per entry. -/
macro "bufs_sub_tac" : tactic =>
  `(tactic| simp only [List.Forall, nullary_bufs_sub, unary_bufs_sub, binary_bufs_sub, ternary_bufs_sub, and_self])

/-- Each operation of a literal list determines all it writes: membership is split entry by entry, and each entry's
    set of undetermined buffers is empty by computation. -/
macro "fresh_tac" : tactic =>
  `(tactic| (intro _ h; (repeat (cases h with | head => rfl | tail _ h => ?_)); exact nomatch h))

end Cert.ReferenceIdeal.RefRun
-- ==== Proof.RefRunSide0.lean ====
/-
  Window 0 of the reference program, list by list: the operations touch TensorCore buffers only and determine
  everything they write; the window's list is the concatenation, so the facts join.
-/
import proofs.«111375_j65884798321056_2_alg».proof.Proof.RefOps0
import proofs.«111375_j65884798321056_2_alg».proof.Proof.RefRunTac

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem opsM0_sub : (opsM0 : List (HloOp τ sig (Elt F))).Forall fun op => op.bufs ⊆ tcRefs τ sig := by bufs_sub_tac
theorem opsM0_fresh : (opsM0 : List (HloOp τ sig (Elt F))).Forall fun op => op.fresh = ∅ :=
  List.forall_iff_forall_mem.mpr (by fresh_tac)

theorem opsCall0_sub : (opsCall0 : List (HloOp τ sig (Elt F))).Forall fun op => op.bufs ⊆ tcRefs τ sig := by bufs_sub_tac
theorem opsCall0_fresh : (opsCall0 : List (HloOp τ sig (Elt F))).Forall fun op => op.fresh = ∅ :=
  List.forall_iff_forall_mem.mpr (by fresh_tac)

theorem opsCall1_sub : (opsCall1 : List (HloOp τ sig (Elt F))).Forall fun op => op.bufs ⊆ tcRefs τ sig := by bufs_sub_tac
theorem opsCall1_fresh : (opsCall1 : List (HloOp τ sig (Elt F))).Forall fun op => op.fresh = ∅ :=
  List.forall_iff_forall_mem.mpr (by fresh_tac)

theorem opsM1_sub : (opsM1 : List (HloOp τ sig (Elt F))).Forall fun op => op.bufs ⊆ tcRefs τ sig := by bufs_sub_tac
theorem opsM1_fresh : (opsM1 : List (HloOp τ sig (Elt F))).Forall fun op => op.fresh = ∅ :=
  List.forall_iff_forall_mem.mpr (by fresh_tac)

theorem opsCall2_sub : (opsCall2 : List (HloOp τ sig (Elt F))).Forall fun op => op.bufs ⊆ tcRefs τ sig := by bufs_sub_tac
theorem opsCall2_fresh : (opsCall2 : List (HloOp τ sig (Elt F))).Forall fun op => op.fresh = ∅ :=
  List.forall_iff_forall_mem.mpr (by fresh_tac)

theorem opsCall3_sub : (opsCall3 : List (HloOp τ sig (Elt F))).Forall fun op => op.bufs ⊆ tcRefs τ sig := by bufs_sub_tac
theorem opsCall3_fresh : (opsCall3 : List (HloOp τ sig (Elt F))).Forall fun op => op.fresh = ∅ :=
  List.forall_iff_forall_mem.mpr (by fresh_tac)

theorem opsM2_sub : (opsM2 : List (HloOp τ sig (Elt F))).Forall fun op => op.bufs ⊆ tcRefs τ sig := by bufs_sub_tac
theorem opsM2_fresh : (opsM2 : List (HloOp τ sig (Elt F))).Forall fun op => op.fresh = ∅ :=
  List.forall_iff_forall_mem.mpr (by fresh_tac)

theorem opsCall4_sub : (opsCall4 : List (HloOp τ sig (Elt F))).Forall fun op => op.bufs ⊆ tcRefs τ sig := by bufs_sub_tac
theorem opsCall4_fresh : (opsCall4 : List (HloOp τ sig (Elt F))).Forall fun op => op.fresh = ∅ :=
  List.forall_iff_forall_mem.mpr (by fresh_tac)

theorem opsCall5_sub : (opsCall5 : List (HloOp τ sig (Elt F))).Forall fun op => op.bufs ⊆ tcRefs τ sig := by bufs_sub_tac
theorem opsCall5_fresh : (opsCall5 : List (HloOp τ sig (Elt F))).Forall fun op => op.fresh = ∅ :=
  List.forall_iff_forall_mem.mpr (by fresh_tac)

theorem opsM3_sub : (opsM3 : List (HloOp τ sig (Elt F))).Forall fun op => op.bufs ⊆ tcRefs τ sig := by bufs_sub_tac
theorem opsM3_fresh : (opsM3 : List (HloOp τ sig (Elt F))).Forall fun op => op.fresh = ∅ :=
  List.forall_iff_forall_mem.mpr (by fresh_tac)

theorem opsCall6_sub : (opsCall6 : List (HloOp τ sig (Elt F))).Forall fun op => op.bufs ⊆ tcRefs τ sig := by bufs_sub_tac
theorem opsCall6_fresh : (opsCall6 : List (HloOp τ sig (Elt F))).Forall fun op => op.fresh = ∅ :=
  List.forall_iff_forall_mem.mpr (by fresh_tac)

theorem opsCall7_sub : (opsCall7 : List (HloOp τ sig (Elt F))).Forall fun op => op.bufs ⊆ tcRefs τ sig := by bufs_sub_tac
theorem opsCall7_fresh : (opsCall7 : List (HloOp τ sig (Elt F))).Forall fun op => op.fresh = ∅ :=
  List.forall_iff_forall_mem.mpr (by fresh_tac)

/-- Window 0: every operation keeps to the TensorCore's buffers. -/
theorem ops_part0_sub : (ops_part0 : List (HloOp τ sig (Elt F))).Forall fun op => op.bufs ⊆ tcRefs τ sig :=
  List.forall_append.mpr ⟨opsM0_sub, List.forall_append.mpr ⟨opsCall0_sub, List.forall_append.mpr ⟨opsCall1_sub, List.forall_append.mpr ⟨opsM1_sub, List.forall_append.mpr ⟨opsCall2_sub, List.forall_append.mpr ⟨opsCall3_sub, List.forall_append.mpr ⟨opsM2_sub, List.forall_append.mpr ⟨opsCall4_sub, List.forall_append.mpr ⟨opsCall5_sub, List.forall_append.mpr ⟨opsM3_sub, List.forall_append.mpr ⟨opsCall6_sub, opsCall7_sub⟩⟩⟩⟩⟩⟩⟩⟩⟩⟩⟩

/-- Window 0: every operation determines what it writes. -/
theorem ops_part0_fresh : (ops_part0 : List (HloOp τ sig (Elt F))).Forall fun op => op.fresh = ∅ :=
  List.forall_append.mpr ⟨opsM0_fresh, List.forall_append.mpr ⟨opsCall0_fresh, List.forall_append.mpr ⟨opsCall1_fresh, List.forall_append.mpr ⟨opsM1_fresh, List.forall_append.mpr ⟨opsCall2_fresh, List.forall_append.mpr ⟨opsCall3_fresh, List.forall_append.mpr ⟨opsM2_fresh, List.forall_append.mpr ⟨opsCall4_fresh, List.forall_append.mpr ⟨opsCall5_fresh, List.forall_append.mpr ⟨opsM3_fresh, List.forall_append.mpr ⟨opsCall6_fresh, opsCall7_fresh⟩⟩⟩⟩⟩⟩⟩⟩⟩⟩⟩

end Cert.ReferenceIdeal.RefRun

end
-- ==== Proof.RefRunSide1.lean ====
/-
  Windows 1 and 2 of the reference program, list by list: the operations touch TensorCore buffers only and
  determine everything they write; each window's list is the concatenation, so the facts join.
-/
import proofs.«111375_j65884798321056_2_alg».proof.Proof.RefOps1
import proofs.«111375_j65884798321056_2_alg».proof.Proof.RefOps2
import proofs.«111375_j65884798321056_2_alg».proof.Proof.RefRunTac

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem opsM4_sub : (opsM4 : List (HloOp τ sig (Elt F))).Forall fun op => op.bufs ⊆ tcRefs τ sig := by bufs_sub_tac
theorem opsM4_fresh : (opsM4 : List (HloOp τ sig (Elt F))).Forall fun op => op.fresh = ∅ :=
  List.forall_iff_forall_mem.mpr (by fresh_tac)

theorem opsCall8_sub : (opsCall8 : List (HloOp τ sig (Elt F))).Forall fun op => op.bufs ⊆ tcRefs τ sig := by bufs_sub_tac
theorem opsCall8_fresh : (opsCall8 : List (HloOp τ sig (Elt F))).Forall fun op => op.fresh = ∅ :=
  List.forall_iff_forall_mem.mpr (by fresh_tac)

theorem opsCall9_sub : (opsCall9 : List (HloOp τ sig (Elt F))).Forall fun op => op.bufs ⊆ tcRefs τ sig := by bufs_sub_tac
theorem opsCall9_fresh : (opsCall9 : List (HloOp τ sig (Elt F))).Forall fun op => op.fresh = ∅ :=
  List.forall_iff_forall_mem.mpr (by fresh_tac)

theorem opsM5_sub : (opsM5 : List (HloOp τ sig (Elt F))).Forall fun op => op.bufs ⊆ tcRefs τ sig := by bufs_sub_tac
theorem opsM5_fresh : (opsM5 : List (HloOp τ sig (Elt F))).Forall fun op => op.fresh = ∅ :=
  List.forall_iff_forall_mem.mpr (by fresh_tac)

theorem opsCall10_sub : (opsCall10 : List (HloOp τ sig (Elt F))).Forall fun op => op.bufs ⊆ tcRefs τ sig := by bufs_sub_tac
theorem opsCall10_fresh : (opsCall10 : List (HloOp τ sig (Elt F))).Forall fun op => op.fresh = ∅ :=
  List.forall_iff_forall_mem.mpr (by fresh_tac)

theorem opsCall11_sub : (opsCall11 : List (HloOp τ sig (Elt F))).Forall fun op => op.bufs ⊆ tcRefs τ sig := by bufs_sub_tac
theorem opsCall11_fresh : (opsCall11 : List (HloOp τ sig (Elt F))).Forall fun op => op.fresh = ∅ :=
  List.forall_iff_forall_mem.mpr (by fresh_tac)

theorem opsM6_sub : (opsM6 : List (HloOp τ sig (Elt F))).Forall fun op => op.bufs ⊆ tcRefs τ sig := by bufs_sub_tac
theorem opsM6_fresh : (opsM6 : List (HloOp τ sig (Elt F))).Forall fun op => op.fresh = ∅ :=
  List.forall_iff_forall_mem.mpr (by fresh_tac)

theorem opsCall12_sub : (opsCall12 : List (HloOp τ sig (Elt F))).Forall fun op => op.bufs ⊆ tcRefs τ sig := by bufs_sub_tac
theorem opsCall12_fresh : (opsCall12 : List (HloOp τ sig (Elt F))).Forall fun op => op.fresh = ∅ :=
  List.forall_iff_forall_mem.mpr (by fresh_tac)

theorem opsCall13_sub : (opsCall13 : List (HloOp τ sig (Elt F))).Forall fun op => op.bufs ⊆ tcRefs τ sig := by bufs_sub_tac
theorem opsCall13_fresh : (opsCall13 : List (HloOp τ sig (Elt F))).Forall fun op => op.fresh = ∅ :=
  List.forall_iff_forall_mem.mpr (by fresh_tac)

theorem opsM7_sub : (opsM7 : List (HloOp τ sig (Elt F))).Forall fun op => op.bufs ⊆ tcRefs τ sig := by bufs_sub_tac
theorem opsM7_fresh : (opsM7 : List (HloOp τ sig (Elt F))).Forall fun op => op.fresh = ∅ :=
  List.forall_iff_forall_mem.mpr (by fresh_tac)

theorem opsCall14_sub : (opsCall14 : List (HloOp τ sig (Elt F))).Forall fun op => op.bufs ⊆ tcRefs τ sig := by bufs_sub_tac
theorem opsCall14_fresh : (opsCall14 : List (HloOp τ sig (Elt F))).Forall fun op => op.fresh = ∅ :=
  List.forall_iff_forall_mem.mpr (by fresh_tac)

theorem opsCall15_sub : (opsCall15 : List (HloOp τ sig (Elt F))).Forall fun op => op.bufs ⊆ tcRefs τ sig := by bufs_sub_tac
theorem opsCall15_fresh : (opsCall15 : List (HloOp τ sig (Elt F))).Forall fun op => op.fresh = ∅ :=
  List.forall_iff_forall_mem.mpr (by fresh_tac)

theorem opsM8_sub : (opsM8 : List (HloOp τ sig (Elt F))).Forall fun op => op.bufs ⊆ tcRefs τ sig := by bufs_sub_tac
theorem opsM8_fresh : (opsM8 : List (HloOp τ sig (Elt F))).Forall fun op => op.fresh = ∅ :=
  List.forall_iff_forall_mem.mpr (by fresh_tac)

theorem opsCall16_sub : (opsCall16 : List (HloOp τ sig (Elt F))).Forall fun op => op.bufs ⊆ tcRefs τ sig := by bufs_sub_tac
theorem opsCall16_fresh : (opsCall16 : List (HloOp τ sig (Elt F))).Forall fun op => op.fresh = ∅ :=
  List.forall_iff_forall_mem.mpr (by fresh_tac)

theorem opsM9_sub : (opsM9 : List (HloOp τ sig (Elt F))).Forall fun op => op.bufs ⊆ tcRefs τ sig := by bufs_sub_tac
theorem opsM9_fresh : (opsM9 : List (HloOp τ sig (Elt F))).Forall fun op => op.fresh = ∅ :=
  List.forall_iff_forall_mem.mpr (by fresh_tac)

/-- Window 1: every operation keeps to the TensorCore's buffers. -/
theorem ops_part1_sub : (ops_part1 : List (HloOp τ sig (Elt F))).Forall fun op => op.bufs ⊆ tcRefs τ sig :=
  List.forall_append.mpr ⟨opsM4_sub, List.forall_append.mpr ⟨opsCall8_sub, List.forall_append.mpr ⟨opsCall9_sub, List.forall_append.mpr ⟨opsM5_sub, List.forall_append.mpr ⟨opsCall10_sub, List.forall_append.mpr ⟨opsCall11_sub, List.forall_append.mpr ⟨opsM6_sub, List.forall_append.mpr ⟨opsCall12_sub, List.forall_append.mpr ⟨opsCall13_sub, List.forall_append.mpr ⟨opsM7_sub, List.forall_append.mpr ⟨opsCall14_sub, List.forall_append.mpr ⟨opsCall15_sub, List.forall_append.mpr ⟨opsM8_sub, List.forall_append.mpr ⟨opsCall16_sub, opsM9_sub⟩⟩⟩⟩⟩⟩⟩⟩⟩⟩⟩⟩⟩⟩

/-- Window 1: every operation determines what it writes. -/
theorem ops_part1_fresh : (ops_part1 : List (HloOp τ sig (Elt F))).Forall fun op => op.fresh = ∅ :=
  List.forall_append.mpr ⟨opsM4_fresh, List.forall_append.mpr ⟨opsCall8_fresh, List.forall_append.mpr ⟨opsCall9_fresh, List.forall_append.mpr ⟨opsM5_fresh, List.forall_append.mpr ⟨opsCall10_fresh, List.forall_append.mpr ⟨opsCall11_fresh, List.forall_append.mpr ⟨opsM6_fresh, List.forall_append.mpr ⟨opsCall12_fresh, List.forall_append.mpr ⟨opsCall13_fresh, List.forall_append.mpr ⟨opsM7_fresh, List.forall_append.mpr ⟨opsCall14_fresh, List.forall_append.mpr ⟨opsCall15_fresh, List.forall_append.mpr ⟨opsM8_fresh, List.forall_append.mpr ⟨opsCall16_fresh, opsM9_fresh⟩⟩⟩⟩⟩⟩⟩⟩⟩⟩⟩⟩⟩⟩

theorem opsM10_sub : (opsM10 : List (HloOp τ sig (Elt F))).Forall fun op => op.bufs ⊆ tcRefs τ sig := by bufs_sub_tac
theorem opsM10_fresh : (opsM10 : List (HloOp τ sig (Elt F))).Forall fun op => op.fresh = ∅ :=
  List.forall_iff_forall_mem.mpr (by fresh_tac)

/-- Window 2: every operation keeps to the TensorCore's buffers. -/
theorem ops_part2_sub : (ops_part2 : List (HloOp τ sig (Elt F))).Forall fun op => op.bufs ⊆ tcRefs τ sig :=
  opsM10_sub

/-- Window 2: every operation determines what it writes. -/
theorem ops_part2_fresh : (ops_part2 : List (HloOp τ sig (Elt F))).Forall fun op => op.fresh = ∅ :=
  opsM10_fresh

end Cert.ReferenceIdeal.RefRun

end
-- ==== Proof.RefRun.lean ====
/-
  The run of the reference program, read back as a fold of its operations.

  The program is three windows run in order and each window is the straight line of its operation list, so the
  whole program is the straight line of the concatenated list.  Nothing in the signature is scoped, every
  operation keeps to the TensorCore's buffers and determines what it writes; hence every weakly fair execution
  terminates, and in the final state each buffer holds the fold of the operations' results over the contents the
  program was started with.
-/
import proofs.«111375_j65884798321056_2_alg».proof.Proof.RefOps
import proofs.«111375_j65884798321056_2_alg».proof.Proof.RefRunEq0
import proofs.«111375_j65884798321056_2_alg».proof.Proof.RefRunEq1
import proofs.«111375_j65884798321056_2_alg».proof.Proof.RefRunSide0
import proofs.«111375_j65884798321056_2_alg».proof.Proof.RefRunSide1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program runs its operations in order. -/
theorem main_eq (c : Dev nD) : main (F := F) c = seq ops := by
  simp only [ops, seq_append, ← main_part0_eq c, ← main_part1_eq c, ← main_part2_eq c]
  rfl

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation of the program keeps to the TensorCore's buffers. -/
theorem ops_sub : (ops : List (HloOp τ sig (Elt F))).Forall fun op => op.bufs ⊆ tcRefs τ sig :=
  List.forall_append.mpr ⟨ops_part0_sub, List.forall_append.mpr ⟨ops_part1_sub, ops_part2_sub⟩⟩

/-- Every operation of the program determines what it writes. -/
theorem ops_fresh : ∀ op ∈ (ops : List (HloOp τ sig (Elt F))), op.fresh = ∅ :=
  List.forall_iff_forall_mem.mp
    (List.forall_append.mpr ⟨ops_part0_fresh, List.forall_append.mpr ⟨ops_part1_fresh, ops_part2_fresh⟩⟩)

/-- On every device, from any memory with zero counters: every weakly fair execution of the program terminates
    with each TensorCore buffer at the fold of the operations over the contents it started with. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefOpsW.lean ====
/- For each stretch and each call of the reference program: the list of buffers its operations write, in order
  (one per operation: the operation's result buffer).
-/
import proofs.«111375_j65884798321056_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers written by opsM0. -/
abbrev opsM0_W : List (Ref sig .tc) :=
  [main_v0, main_cst, main_v1, main_cst_0, main_v2, main_cst_1, main_v3, main_cst_2, main_v4, main_cst_3, main_v5, main_v6, main_cst_4, main_v7, main_v8, main_cst_5, main_v9, main_cst_6, main_v10, main_v11, main_c, main_v12, main_v13, main_c_7, main_v14, main_v15, main_c_8, main_c_9]

/-- The buffers written by opsCall0. -/
abbrev opsCall0_W : List (Ref sig .tc) :=
  [main_call0.v0.ref, main_call0.v1.ref, main_call0.v2.ref, main_call0.v3.ref, main_call0.v4.ref, main_call0.v5.ref]

/-- The buffers written by opsCall1. -/
abbrev opsCall1_W : List (Ref sig .tc) :=
  [main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.c_4.ref, main_call1.v15.ref, main_call1.v16.ref]

/-- The buffers written by opsM1. -/
abbrev opsM1_W : List (Ref sig .tc) :=
  [main_v18, main_v19, main_v20, main_c_10, main_v21, main_v22, main_c_11, main_c_12]

/-- The buffers written by opsCall2. -/
abbrev opsCall2_W : List (Ref sig .tc) :=
  [main_call2.v0.ref, main_call2.v1.ref, main_call2.v2.ref, main_call2.v3.ref, main_call2.v4.ref, main_call2.v5.ref]

/-- The buffers written by opsCall3. -/
abbrev opsCall3_W : List (Ref sig .tc) :=
  [main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.v14.ref, main_call3.c_4.ref, main_call3.v15.ref, main_call3.v16.ref]

/-- The buffers written by opsM2. -/
abbrev opsM2_W : List (Ref sig .tc) :=
  [main_v25, main_v26, main_v27, main_c_13, main_v28, main_v29, main_c_14, main_c_15]

/-- The buffers written by opsCall4. -/
abbrev opsCall4_W : List (Ref sig .tc) :=
  [main_call4.v0.ref, main_call4.v1.ref, main_call4.v2.ref, main_call4.v3.ref, main_call4.v4.ref, main_call4.v5.ref]

/-- The buffers written by opsCall5. -/
abbrev opsCall5_W : List (Ref sig .tc) :=
  [main_call5.c.ref, main_call5.v0.ref, main_call5.v1.ref, main_call5.c_0.ref, main_call5.v2.ref, main_call5.v3.ref, main_call5.call0.v0.ref, main_call5.v5.ref, main_call5.c_1.ref, main_call5.c_2.ref, main_call5.v6.ref, main_call5.v7.ref, main_call5.v8.ref, main_call5.v9.ref, main_call5.v10.ref, main_call5.c_3.ref, main_call5.v11.ref, main_call5.v12.ref, main_call5.v13.ref, main_call5.c_4.ref, main_call5.v14.ref, main_call5.v15.ref]

/-- The buffers written by opsM3. -/
abbrev opsM3_W : List (Ref sig .tc) :=
  [main_v32, main_v33, main_v34, main_c_16, main_v35, main_v36, main_c_17, main_c_18]

/-- The buffers written by opsCall6. -/
abbrev opsCall6_W : List (Ref sig .tc) :=
  [main_call6.v0.ref, main_call6.v1.ref, main_call6.v2.ref, main_call6.v3.ref, main_call6.v4.ref, main_call6.v5.ref]

/-- The buffers written by opsCall7. -/
abbrev opsCall7_W : List (Ref sig .tc) :=
  [main_call7.c.ref, main_call7.v0.ref, main_call7.v1.ref, main_call7.c_0.ref, main_call7.v2.ref, main_call7.v3.ref, main_call7.call0.v0.ref, main_call7.v5.ref, main_call7.c_1.ref, main_call7.c_2.ref, main_call7.v6.ref, main_call7.v7.ref, main_call7.v8.ref, main_call7.v9.ref, main_call7.v10.ref, main_call7.c_3.ref, main_call7.v11.ref, main_call7.v12.ref, main_call7.v13.ref, main_call7.c_4.ref, main_call7.v14.ref, main_call7.v15.ref]

/-- The buffers written by opsM4. -/
abbrev opsM4_W : List (Ref sig .tc) :=
  [main_v39, main_v40, main_v41, main_c_19, main_v42, main_v43, main_c_20, main_c_21]

/-- The buffers written by opsCall8. -/
abbrev opsCall8_W : List (Ref sig .tc) :=
  [main_call8.v0.ref, main_call8.v1.ref, main_call8.v2.ref, main_call8.v3.ref, main_call8.v4.ref, main_call8.v5.ref]

/-- The buffers written by opsCall9. -/
abbrev opsCall9_W : List (Ref sig .tc) :=
  [main_call9.c.ref, main_call9.v0.ref, main_call9.v1.ref, main_call9.c_0.ref, main_call9.v2.ref, main_call9.v3.ref, main_call9.call0.v0.ref, main_call9.v5.ref, main_call9.c_1.ref, main_call9.c_2.ref, main_call9.v6.ref, main_call9.v7.ref, main_call9.v8.ref, main_call9.v9.ref, main_call9.v10.ref, main_call9.v11.ref, main_call9.c_3.ref, main_call9.v12.ref, main_call9.v13.ref, main_call9.v14.ref, main_call9.c_4.ref, main_call9.v15.ref, main_call9.v16.ref]

/-- The buffers written by opsM5. -/
abbrev opsM5_W : List (Ref sig .tc) :=
  [main_v46, main_v47, main_v48, main_c_22, main_v49, main_v50, main_c_23, main_c_24]

/-- The buffers written by opsCall10. -/
abbrev opsCall10_W : List (Ref sig .tc) :=
  [main_call10.v0.ref, main_call10.v1.ref, main_call10.v2.ref, main_call10.v3.ref, main_call10.v4.ref, main_call10.v5.ref]

/-- The buffers written by opsCall11. -/
abbrev opsCall11_W : List (Ref sig .tc) :=
  [main_call11.c.ref, main_call11.v0.ref, main_call11.v1.ref, main_call11.c_0.ref, main_call11.v2.ref, main_call11.v3.ref, main_call11.call0.v0.ref, main_call11.v5.ref, main_call11.c_1.ref, main_call11.c_2.ref, main_call11.v6.ref, main_call11.v7.ref, main_call11.v8.ref, main_call11.v9.ref, main_call11.v10.ref, main_call11.v11.ref, main_call11.c_3.ref, main_call11.v12.ref, main_call11.v13.ref, main_call11.v14.ref, main_call11.c_4.ref, main_call11.v15.ref, main_call11.v16.ref]

/-- The buffers written by opsM6. -/
abbrev opsM6_W : List (Ref sig .tc) :=
  [main_v53, main_v54, main_v55, main_c_25, main_v56, main_v57, main_c_26, main_c_27]

/-- The buffers written by opsCall12. -/
abbrev opsCall12_W : List (Ref sig .tc) :=
  [main_call12.v0.ref, main_call12.v1.ref, main_call12.v2.ref, main_call12.v3.ref, main_call12.v4.ref, main_call12.v5.ref]

/-- The buffers written by opsCall13. -/
abbrev opsCall13_W : List (Ref sig .tc) :=
  [main_call13.c.ref, main_call13.v0.ref, main_call13.v1.ref, main_call13.c_0.ref, main_call13.v2.ref, main_call13.v3.ref, main_call13.call0.v0.ref, main_call13.v5.ref, main_call13.c_1.ref, main_call13.c_2.ref, main_call13.v6.ref, main_call13.v7.ref, main_call13.v8.ref, main_call13.v9.ref, main_call13.v10.ref, main_call13.v11.ref, main_call13.c_3.ref, main_call13.v12.ref, main_call13.v13.ref, main_call13.v14.ref, main_call13.c_4.ref, main_call13.v15.ref, main_call13.v16.ref]

/-- The buffers written by opsM7. -/
abbrev opsM7_W : List (Ref sig .tc) :=
  [main_v60, main_v61, main_v62, main_c_28, main_v63, main_v64, main_c_29, main_c_30]

/-- The buffers written by opsCall14. -/
abbrev opsCall14_W : List (Ref sig .tc) :=
  [main_call14.v0.ref, main_call14.v1.ref, main_call14.v2.ref, main_call14.v3.ref, main_call14.v4.ref, main_call14.v5.ref]

/-- The buffers written by opsCall15. -/
abbrev opsCall15_W : List (Ref sig .tc) :=
  [main_call15.c.ref, main_call15.v0.ref, main_call15.v1.ref, main_call15.c_0.ref, main_call15.v2.ref, main_call15.v3.ref, main_call15.call0.v0.ref, main_call15.v5.ref, main_call15.c_1.ref, main_call15.c_2.ref, main_call15.v6.ref, main_call15.v7.ref, main_call15.v8.ref, main_call15.v9.ref, main_call15.v10.ref, main_call15.v11.ref, main_call15.c_3.ref, main_call15.v12.ref, main_call15.v13.ref, main_call15.v14.ref, main_call15.c_4.ref, main_call15.v15.ref, main_call15.v16.ref]

/-- The buffers written by opsM8. -/
abbrev opsM8_W : List (Ref sig .tc) :=
  [main_v67, main_v68, main_v69, main_v70, main_cst_31, main_cst_32]

/-- The buffers written by opsCall16. -/
abbrev opsCall16_W : List (Ref sig .tc) :=
  [main_call16.v0.ref, main_call16.v1.ref, main_call16.v2.ref, main_call16.v3.ref, main_call16.v4.ref, main_call16.v5.ref]

/-- The buffers written by opsM9. -/
abbrev opsM9_W : List (Ref sig .tc) :=
  [main_v72, main_v73, main_cst_33, main_v74, main_v75, main_v76, main_v77, main_v78, main_v79, main_cst_34, main_v80, main_cst_35, main_v81]

/-- The buffers written by opsM10. -/
abbrev opsM10_W : List (Ref sig .tc) :=
  [main_v82, main_cst_36, main_v83, main_cst_37, main_v84, main_cst_38, main_v85, main_v86, main_v87]

end Cert.ReferenceIdeal.RefRun

end
-- ==== Proof.RefRunTacW.lean ====
/-
  A small tactic for literal lists of host operations: each operation writes only its own result buffer, and
  that buffer is in the list's table of written buffers.
-/
import Idealize.ShloMosaic.Lib.StableHlo.Run

namespace Cert.ReferenceIdeal.RefRun

open Idealize.ShloMosaic Idealize.ShloMosaic.StableHlo

/-- Each operation of a literal list writes one buffer (the builders' own facts); the device-side name of a
    reference determines the reference, so membership in the table's image is membership in the table, which is
    decided entry by entry (the conjunction is split first: one decision per operation). -/
macro "writes_tac" : tactic =>
  `(tactic| (simp only [List.Forall, nullary_writes, unary_writes, binary_writes, ternary_writes, Finset.singleton_subset_iff,
      List.mem_toFinset, List.mem_map_of_injective (Proc.devRef_injective _)]
             repeat' apply And.intro
             all_goals decide))

end Cert.ReferenceIdeal.RefRun
-- ==== Proof.RefRunKeep0.lean ====
/-
  Window 0 of the reference program, list by list: the contents after the list as a function of the contents
  before it, and the frame fact that a buffer outside the list's table of written buffers is left as it was.
-/
import proofs.«111375_j65884798321056_2_alg».proof.Proof.RefOps0
import proofs.«111375_j65884798321056_2_alg».proof.Proof.RefOpsW
import proofs.«111375_j65884798321056_2_alg».proof.Proof.RefRunTacW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers' contents after the list opsM0, from contents `V`. -/
def runM0 (V : Valuation τ sig (Elt F)) : Valuation τ sig (Elt F) := after opsM0 V
theorem opsM0_writes : (opsM0 : List (HloOp τ sig (Elt F))).Forall fun op => op.writes ⊆ (opsM0_W.map (Proc.devRef (τ := τ) .tc)).toFinset := by
  writes_tac
/-- A buffer the list does not write keeps its contents. -/
theorem runM0_keep (V : Valuation τ sig (Elt F)) (r : Ref sig .tc) (h : r ∉ opsM0_W) :
    runM0 V (no_index (Proc.devRef .tc r)) = V (Proc.devRef .tc r) :=
  after_of_writes_sub opsM0 V opsM0_writes h

/-- The buffers' contents after the list opsCall0, from contents `V`. -/
def runCall0 (V : Valuation τ sig (Elt F)) : Valuation τ sig (Elt F) := after opsCall0 V
theorem opsCall0_writes : (opsCall0 : List (HloOp τ sig (Elt F))).Forall fun op => op.writes ⊆ (opsCall0_W.map (Proc.devRef (τ := τ) .tc)).toFinset := by
  writes_tac
/-- A buffer the list does not write keeps its contents. -/
theorem runCall0_keep (V : Valuation τ sig (Elt F)) (r : Ref sig .tc) (h : r ∉ opsCall0_W) :
    runCall0 V (no_index (Proc.devRef .tc r)) = V (Proc.devRef .tc r) :=
  after_of_writes_sub opsCall0 V opsCall0_writes h

/-- The buffers' contents after the list opsCall1, from contents `V`. -/
def runCall1 (V : Valuation τ sig (Elt F)) : Valuation τ sig (Elt F) := after opsCall1 V
theorem opsCall1_writes : (opsCall1 : List (HloOp τ sig (Elt F))).Forall fun op => op.writes ⊆ (opsCall1_W.map (Proc.devRef (τ := τ) .tc)).toFinset := by
  writes_tac
/-- A buffer the list does not write keeps its contents. -/
theorem runCall1_keep (V : Valuation τ sig (Elt F)) (r : Ref sig .tc) (h : r ∉ opsCall1_W) :
    runCall1 V (no_index (Proc.devRef .tc r)) = V (Proc.devRef .tc r) :=
  after_of_writes_sub opsCall1 V opsCall1_writes h

/-- The buffers' contents after the list opsM1, from contents `V`. -/
def runM1 (V : Valuation τ sig (Elt F)) : Valuation τ sig (Elt F) := after opsM1 V
theorem opsM1_writes : (opsM1 : List (HloOp τ sig (Elt F))).Forall fun op => op.writes ⊆ (opsM1_W.map (Proc.devRef (τ := τ) .tc)).toFinset := by
  writes_tac
/-- A buffer the list does not write keeps its contents. -/
theorem runM1_keep (V : Valuation τ sig (Elt F)) (r : Ref sig .tc) (h : r ∉ opsM1_W) :
    runM1 V (no_index (Proc.devRef .tc r)) = V (Proc.devRef .tc r) :=
  after_of_writes_sub opsM1 V opsM1_writes h

/-- The buffers' contents after the list opsCall2, from contents `V`. -/
def runCall2 (V : Valuation τ sig (Elt F)) : Valuation τ sig (Elt F) := after opsCall2 V
theorem opsCall2_writes : (opsCall2 : List (HloOp τ sig (Elt F))).Forall fun op => op.writes ⊆ (opsCall2_W.map (Proc.devRef (τ := τ) .tc)).toFinset := by
  writes_tac
/-- A buffer the list does not write keeps its contents. -/
theorem runCall2_keep (V : Valuation τ sig (Elt F)) (r : Ref sig .tc) (h : r ∉ opsCall2_W) :
    runCall2 V (no_index (Proc.devRef .tc r)) = V (Proc.devRef .tc r) :=
  after_of_writes_sub opsCall2 V opsCall2_writes h

/-- The buffers' contents after the list opsCall3, from contents `V`. -/
def runCall3 (V : Valuation τ sig (Elt F)) : Valuation τ sig (Elt F) := after opsCall3 V
theorem opsCall3_writes : (opsCall3 : List (HloOp τ sig (Elt F))).Forall fun op => op.writes ⊆ (opsCall3_W.map (Proc.devRef (τ := τ) .tc)).toFinset := by
  writes_tac
/-- A buffer the list does not write keeps its contents. -/
theorem runCall3_keep (V : Valuation τ sig (Elt F)) (r : Ref sig .tc) (h : r ∉ opsCall3_W) :
    runCall3 V (no_index (Proc.devRef .tc r)) = V (Proc.devRef .tc r) :=
  after_of_writes_sub opsCall3 V opsCall3_writes h

/-- The buffers' contents after the list opsM2, from contents `V`. -/
def runM2 (V : Valuation τ sig (Elt F)) : Valuation τ sig (Elt F) := after opsM2 V
theorem opsM2_writes : (opsM2 : List (HloOp τ sig (Elt F))).Forall fun op => op.writes ⊆ (opsM2_W.map (Proc.devRef (τ := τ) .tc)).toFinset := by
  writes_tac
/-- A buffer the list does not write keeps its contents. -/
theorem runM2_keep (V : Valuation τ sig (Elt F)) (r : Ref sig .tc) (h : r ∉ opsM2_W) :
    runM2 V (no_index (Proc.devRef .tc r)) = V (Proc.devRef .tc r) :=
  after_of_writes_sub opsM2 V opsM2_writes h

/-- The buffers' contents after the list opsCall4, from contents `V`. -/
def runCall4 (V : Valuation τ sig (Elt F)) : Valuation τ sig (Elt F) := after opsCall4 V
theorem opsCall4_writes : (opsCall4 : List (HloOp τ sig (Elt F))).Forall fun op => op.writes ⊆ (opsCall4_W.map (Proc.devRef (τ := τ) .tc)).toFinset := by
  writes_tac
/-- A buffer the list does not write keeps its contents. -/
theorem runCall4_keep (V : Valuation τ sig (Elt F)) (r : Ref sig .tc) (h : r ∉ opsCall4_W) :
    runCall4 V (no_index (Proc.devRef .tc r)) = V (Proc.devRef .tc r) :=
  after_of_writes_sub opsCall4 V opsCall4_writes h

/-- The buffers' contents after the list opsCall5, from contents `V`. -/
def runCall5 (V : Valuation τ sig (Elt F)) : Valuation τ sig (Elt F) := after opsCall5 V
theorem opsCall5_writes : (opsCall5 : List (HloOp τ sig (Elt F))).Forall fun op => op.writes ⊆ (opsCall5_W.map (Proc.devRef (τ := τ) .tc)).toFinset := by
  writes_tac
/-- A buffer the list does not write keeps its contents. -/
theorem runCall5_keep (V : Valuation τ sig (Elt F)) (r : Ref sig .tc) (h : r ∉ opsCall5_W) :
    runCall5 V (no_index (Proc.devRef .tc r)) = V (Proc.devRef .tc r) :=
  after_of_writes_sub opsCall5 V opsCall5_writes h

/-- The buffers' contents after the list opsM3, from contents `V`. -/
def runM3 (V : Valuation τ sig (Elt F)) : Valuation τ sig (Elt F) := after opsM3 V
theorem opsM3_writes : (opsM3 : List (HloOp τ sig (Elt F))).Forall fun op => op.writes ⊆ (opsM3_W.map (Proc.devRef (τ := τ) .tc)).toFinset := by
  writes_tac
/-- A buffer the list does not write keeps its contents. -/
theorem runM3_keep (V : Valuation τ sig (Elt F)) (r : Ref sig .tc) (h : r ∉ opsM3_W) :
    runM3 V (no_index (Proc.devRef .tc r)) = V (Proc.devRef .tc r) :=
  after_of_writes_sub opsM3 V opsM3_writes h

/-- The buffers' contents after the list opsCall6, from contents `V`. -/
def runCall6 (V : Valuation τ sig (Elt F)) : Valuation τ sig (Elt F) := after opsCall6 V
theorem opsCall6_writes : (opsCall6 : List (HloOp τ sig (Elt F))).Forall fun op => op.writes ⊆ (opsCall6_W.map (Proc.devRef (τ := τ) .tc)).toFinset := by
  writes_tac
/-- A buffer the list does not write keeps its contents. -/
theorem runCall6_keep (V : Valuation τ sig (Elt F)) (r : Ref sig .tc) (h : r ∉ opsCall6_W) :
    runCall6 V (no_index (Proc.devRef .tc r)) = V (Proc.devRef .tc r) :=
  after_of_writes_sub opsCall6 V opsCall6_writes h

/-- The buffers' contents after the list opsCall7, from contents `V`. -/
def runCall7 (V : Valuation τ sig (Elt F)) : Valuation τ sig (Elt F) := after opsCall7 V
theorem opsCall7_writes : (opsCall7 : List (HloOp τ sig (Elt F))).Forall fun op => op.writes ⊆ (opsCall7_W.map (Proc.devRef (τ := τ) .tc)).toFinset := by
  writes_tac
/-- A buffer the list does not write keeps its contents. -/
theorem runCall7_keep (V : Valuation τ sig (Elt F)) (r : Ref sig .tc) (h : r ∉ opsCall7_W) :
    runCall7 V (no_index (Proc.devRef .tc r)) = V (Proc.devRef .tc r) :=
  after_of_writes_sub opsCall7 V opsCall7_writes h

end Cert.ReferenceIdeal.RefRun

end
-- ==== Proof.RefTerm.lean ====
/-
  The reference's result as one composed term of its two argument arrays.

  Each outlined function of the module is written once as a pure function from the contents of its arguments to
  the contents of its result, the operations composed exactly as the module applies them.  The stages of @main
  are then named after what they compute: the clamped neighbour positions along each axis, the foreground mask,
  the eight neighbour reads of the mask, the boundary indicator, the three plain sums, the cross-entropy sum, and
  the final combination.
-/
import proofs.«111375_j65884798321056_2_alg».proof.ReferenceIdeal

noncomputable section

namespace Cert.ReferenceIdeal.RefTerm

open Idealize.ShloMosaic Cert.ReferenceIdeal

variable {F : FTy → Type} [FloatOps F] [Facts]
open Facts₀ Facts

/-! ## The integer clamps: max with the low bound, then min with the high bound -/

/-- The clamp of a [32] vector of words between two scalar words. -/
def clip32 (x : IVec S32 32) (lo hi : IVec S_ 32) : IVec S32 32 :=
  minsi (broadcastInDim S32 ![] bcast_S_S32 (id hi)) (maxsi (broadcastInDim S32 ![] bcast_S_S32 (id lo)) x)

/-- The clamp of a [1] vector of words. -/
def clip1 (x : IVec S1 32) (lo hi : IVec S_ 32) : IVec S1 32 :=
  minsi (broadcastInDim S1 ![] bcast_S_S1 (id hi)) (maxsi (broadcastInDim S1 ![] bcast_S_S1 (id lo)) x)

/-- The clamp of a [512] vector of words. -/
def clip512 (x : IVec S512 32) (lo hi : IVec S_ 32) : IVec S512 32 :=
  minsi (broadcastInDim S512 ![] bcast_S_S512 (id hi)) (maxsi (broadcastInDim S512 ![] bcast_S_S512 (id lo)) x)

/-- The clamp of the float array between two scalars. -/
def clipF (x : FVec F S32x1x512x512 .f32) (lo hi : FVec F S_ .f32) : FVec F S32x1x512x512 .f32 :=
  minimumf (broadcastInDim S32x1x512x512 ![] bcast_S_S32x1x512x512 (id hi))
    (maximumf (broadcastInDim S32x1x512x512 ![] bcast_S_S32x1x512x512 (id lo)) x)

/-! ## The selects -/

def where32 (c : IVec S32 1) (a b : IVec S32 32) : IVec S32 32 := select c a b
def where1 (c : IVec S1 1) (a b : IVec S1 32) : IVec S1 32 := select c a b
def where512 (c : IVec S512 1) (a b : IVec S512 32) : IVec S512 32 := select c a b

/-! ## Reading a mask at given positions along one axis

Each take wraps a negative position by the axis's extent, lays the positions out as a column, tests that every
position is inside the axis, gathers the rows at the positions, and keeps the gathered value where the test
holds (the fill value is true). -/

/-- Axis 0 (extent 32): the positions after the wrap of negative ones. -/
def wrap32 (i : IVec S32 32) : IVec S32 32 :=
  where32 (cmpi .slt i (broadcastInDim S32 ![] bcast_S_S32 (constantI S_ 32 0#32)))
    (addi i (broadcastInDim S32 ![] bcast_S_S32 (constantI S_ 32 32#32))) i

/-- Axis 0: the positions as a [32,1] column. -/
def col32 (i : IVec S32 32) : IVec S32x1 32 := broadcastInDim S32x1 ![0] bcast_S32_S32x1_0 (wrap32 i)

/-- Axis 0: the in-range test 0 ≤ position ≤ 31, reduced over the column's unit axis. -/
def inRange32 (i : IVec S32 32) : IVec S32 1 :=
  Host.reduce IntOp.andi
    (andi (cmpi .sge (col32 i) (broadcastInDim S32x1 ![] bcast_S_S32x1 (constantI S_ 32 0#32)))
      (cmpi .sle (col32 i)
        (broadcastInDim S32x1 ![0, 1] bcast_S1x1_S32x1_0_1
          (broadcastInDim S1x1 ![1] bcast_S1_S1x1_1 (constantI S1 32 31#32)))))
    (constantI S_ 1 1#1) reducesTo_S32x1_S32_d1 h_S_

/-- The mask read at positions `i` along axis 0. -/
def take0 (x : IVec S32x1x512x512 1) (i : IVec S32 32) : IVec S32x1x512x512 1 :=
  select (broadcastInDim S32x1x512x512 ![0] bcast_S32_S32x1x512x512_0 (inRange32 i))
    (Host.gather gather_S32x1x512x512_S32x1_S32x1x512x512_123_0_n_n_0_1_11512512 x (col32 i))
    (broadcastInDim S32x1x512x512 ![] bcast_S_S32x1x512x512 (constantI S_ 1 1#1))

/-- Axis 1 (extent 1): the positions after the wrap. -/
def wrap1 (i : IVec S1 32) : IVec S1 32 :=
  where1 (cmpi .slt i (broadcastInDim S1 ![] bcast_S_S1 (constantI S_ 32 0#32)))
    (addi i (broadcastInDim S1 ![] bcast_S_S1 (constantI S_ 32 1#32))) i

/-- Axis 1: the positions as a [1,1] column. -/
def col1 (i : IVec S1 32) : IVec S1x1 32 := broadcastInDim S1x1 ![0] bcast_S1_S1x1_0 (wrap1 i)

/-- Axis 1: the in-range test 0 ≤ position ≤ 0. -/
def inRange1 (i : IVec S1 32) : IVec S1 1 :=
  Host.reduce IntOp.andi
    (andi (cmpi .sge (col1 i) (broadcastInDim S1x1 ![] bcast_S_S1x1 (constantI S_ 32 0#32)))
      (cmpi .sle (col1 i) (broadcastInDim S1x1 ![1] bcast_S1_S1x1_1 (constantI S1 32 0#32))))
    (constantI S_ 1 1#1) reducesTo_S1x1_S1_d1 h_S_

/-- The mask read at positions `i` along axis 1. -/
def take1 (x : IVec S32x1x512x512 1) (i : IVec S1 32) : IVec S32x1x512x512 1 :=
  select (broadcastInDim S32x1x512x512 ![1] bcast_S1_S32x1x512x512_1 (inRange1 i))
    (Host.gather gather_S32x1x512x512_S1x1_S32x1x512x512_023_1_n_n_1_1_321512512 x (col1 i))
    (broadcastInDim S32x1x512x512 ![] bcast_S_S32x1x512x512 (constantI S_ 1 1#1))

/-- Axes 2 and 3 (extent 512): the positions after the wrap. -/
def wrap512 (i : IVec S512 32) : IVec S512 32 :=
  where512 (cmpi .slt i (broadcastInDim S512 ![] bcast_S_S512 (constantI S_ 32 0#32)))
    (addi i (broadcastInDim S512 ![] bcast_S_S512 (constantI S_ 32 512#32))) i

/-- Axes 2 and 3: the positions as a [512,1] column. -/
def col512 (i : IVec S512 32) : IVec S512x1 32 := broadcastInDim S512x1 ![0] bcast_S512_S512x1_0 (wrap512 i)

/-- Axes 2 and 3: the in-range test 0 ≤ position ≤ 511. -/
def inRange512 (i : IVec S512 32) : IVec S512 1 :=
  Host.reduce IntOp.andi
    (andi (cmpi .sge (col512 i) (broadcastInDim S512x1 ![] bcast_S_S512x1 (constantI S_ 32 0#32)))
      (cmpi .sle (col512 i)
        (broadcastInDim S512x1 ![0, 1] bcast_S1x1_S512x1_0_1
          (broadcastInDim S1x1 ![1] bcast_S1_S1x1_1 (constantI S1 32 511#32)))))
    (constantI S_ 1 1#1) reducesTo_S512x1_S512_d1 h_S_

/-- The mask read at positions `i` along axis 2. -/
def take2 (x : IVec S32x1x512x512 1) (i : IVec S512 32) : IVec S32x1x512x512 1 :=
  select (broadcastInDim S32x1x512x512 ![2] bcast_S512_S32x1x512x512_2 (inRange512 i))
    (Host.gather gather_S32x1x512x512_S512x1_S32x1x512x512_013_2_n_n_2_1_3211512 x (col512 i))
    (broadcastInDim S32x1x512x512 ![] bcast_S_S32x1x512x512 (constantI S_ 1 1#1))

/-- The mask read at positions `i` along axis 3. -/
def take3 (x : IVec S32x1x512x512 1) (i : IVec S512 32) : IVec S32x1x512x512 1 :=
  select (broadcastInDim S32x1x512x512 ![3] bcast_S512_S32x1x512x512_3 (inRange512 i))
    (Host.gather gather_S32x1x512x512_S512x1_S32x1x512x512_012_3_n_n_3_1_3215121 x (col512 i))
    (broadcastInDim S32x1x512x512 ![] bcast_S_S32x1x512x512 (constantI S_ 1 1#1))

/-! ## The clamped neighbour positions: the axis's own positions plus or minus one, clamped to the axis -/

def up32 : IVec S32 32 :=
  clip32 (addi (iotaInDim S32 32 0) (broadcastInDim S32 ![] bcast_S_S32 (constantI S_ 32 1#32)))
    (constantI S_ 32 0#32) (constantI S_ 32 31#32)
def dn32 : IVec S32 32 :=
  clip32 (addi (iotaInDim S32 32 0) (broadcastInDim S32 ![] bcast_S_S32 (constantI S_ 32 4294967295#32)))
    (constantI S_ 32 0#32) (constantI S_ 32 31#32)
def up1 : IVec S1 32 :=
  clip1 (addi (iotaInDim S1 32 0) (broadcastInDim S1 ![] bcast_S_S1 (constantI S_ 32 1#32)))
    (constantI S_ 32 0#32) (constantI S_ 32 0#32)
def dn1 : IVec S1 32 :=
  clip1 (addi (iotaInDim S1 32 0) (broadcastInDim S1 ![] bcast_S_S1 (constantI S_ 32 4294967295#32)))
    (constantI S_ 32 0#32) (constantI S_ 32 0#32)
def up512 : IVec S512 32 :=
  clip512 (addi (iotaInDim S512 32 0) (broadcastInDim S512 ![] bcast_S_S512 (constantI S_ 32 1#32)))
    (constantI S_ 32 0#32) (constantI S_ 32 511#32)
def dn512 : IVec S512 32 :=
  clip512 (addi (iotaInDim S512 32 0) (broadcastInDim S512 ![] bcast_S_S512 (constantI S_ 32 4294967295#32)))
    (constantI S_ 32 0#32) (constantI S_ 32 511#32)

/-! ## The boundary indicator -/

/-- The foreground mask: target above one half. -/
def fg (T : FVec F S32x1x512x512 .f32) : IVec S32x1x512x512 1 :=
  cmpf .ogt T (broadcastInDim S32x1x512x512 ![] bcast_S_S32x1x512x512 (constant S_ .f32 0x3F000000#32))

/-- Some clamped neighbour along some axis is background: the eight complemented neighbour reads, joined by or
    from the all-false mask, in the order axis 0 up, down, axis 1 up, down, axis 2 up, down, axis 3 up, down. -/
def hasBg (T : FVec F S32x1x512x512 .f32) : IVec S32x1x512x512 1 :=
  ori (ori (ori (ori (ori (ori (ori (ori
    (broadcastInDim S32x1x512x512 ![] bcast_S_S32x1x512x512 (constantI S_ 1 0#1))
    (noti (take0 (fg T) up32))) (noti (take0 (fg T) dn32)))
    (noti (take1 (fg T) up1))) (noti (take1 (fg T) dn1)))
    (noti (take2 (fg T) up512))) (noti (take2 (fg T) dn512)))
    (noti (take3 (fg T) up512))) (noti (take3 (fg T) dn512))

/-- The inner-boundary mask as a float array: foreground elements with a background neighbour. -/
def bndF (T : FVec F S32x1x512x512 .f32) : FVec F S32x1x512x512 .f32 :=
  uitofp .f32 (andi (fg T) (hasBg T))

/-! ## The sums and the loss -/

/-- The sum of all elements of an array, from the zero word. -/
def sumAll (x : FVec F S32x1x512x512 .f32) : FVec F S_ .f32 :=
  Host.reduceAdd x (constant S_ .f32 0x00000000#32) reducesTo_S32x1x512x512_S_d0_1_2_3 h_S_

/-- The overlap term: one minus (twice the sum of products plus the smoothing word) over (the two sums plus the
    smoothing word). -/
def dice (P T : FVec F S32x1x512x512 .f32) : FVec F S_ .f32 :=
  subf (constant S_ .f32 0x3F800000#32)
    (Host.divf (addf (mulf (constant S_ .f32 0x40000000#32) (sumAll (mulf P T))) (constant S_ .f32 0x3727C5AC#32))
      (addf (addf (sumAll P) (sumAll T)) (constant S_ .f32 0x3727C5AC#32)))

/-- The prediction clamped away from 0 and 1. -/
def clipP (P : FVec F S32x1x512x512 .f32) : FVec F S32x1x512x512 .f32 :=
  clipF P (constant S_ .f32 0x33D6BF95#32) (constant S_ .f32 0x3F7FFFFE#32)

/-- The cross-entropy term of every element. -/
def bceEl (P T : FVec F S32x1x512x512 .f32) : FVec F S32x1x512x512 .f32 :=
  addf (mulf T (Host.log (clipP P)))
    (mulf (subf (broadcastInDim S32x1x512x512 ![] bcast_S_S32x1x512x512 (constant S_ .f32 0x3F800000#32)) T)
      (Host.log1p (Host.negf (clipP P))))

/-- Ten times the negated mean cross-entropy. -/
def wBce (P T : FVec F S32x1x512x512 .f32) : FVec F S_ .f32 :=
  mulf (constant S_ .f32 0x41200000#32)
    (Host.negf (Host.divf (sumAll (bceEl P T)) (constant S_ .f32 0x4B000000#32)))

/-- The mean of the boundary indicator. -/
def meanBnd (T : FVec F S32x1x512x512 .f32) : FVec F S_ .f32 :=
  Host.divf (sumAll (bndF T)) (constant S_ .f32 0x4B000000#32)

/-- The reference's result from its two arguments. -/
def term (P T : FVec F S32x1x512x512 .f32) : FVec F S_ .f32 :=
  addf (dice P T) (mulf (wBce P T) (meanBnd T))

end Cert.ReferenceIdeal.RefTerm

end
-- ==== Proof.RefRunVal0.lean ====
/-
  Window 0 of the reference program, list by list: what each list leaves in the buffers later lists read, as a
  pure function of the contents it finds.  A stretch of the program's own operations leaves the overlap term, the
  foreground mask, the running disjunction of complemented neighbour reads and the next position vector with its
  bounds; a clamp call leaves the clamped positions; a gather call leaves the mask read at those positions.
-/
import proofs.«111375_j65884798321056_2_alg».proof.Proof.RefRunKeep0
import proofs.«111375_j65884798321056_2_alg».proof.Proof.RefTerm

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- The overlap term of the two arguments. -/
theorem runM0_v9 (V : Valuation τ sig (Elt F)) :
    runM0 V (no_index (Proc.devRef .tc main_v9)) = dice (V (Proc.devRef .tc main_arg0)) (V (Proc.devRef .tc main_arg1)) := by
  unfold runM0
  simp only [opsM0]
  after_results_simp <;> rfl

/-- The foreground mask of the target. -/
theorem runM0_v11 (V : Valuation τ sig (Elt F)) :
    runM0 V (no_index (Proc.devRef .tc main_v11)) = fg (V (Proc.devRef .tc main_arg1)) := by
  unfold runM0
  simp only [opsM0]
  after_results_simp <;> rfl

/-- The all-false mask the disjunction starts from. -/
theorem runM0_v12 (V : Valuation τ sig (Elt F)) :
    runM0 V (no_index (Proc.devRef .tc main_v12)) = broadcastInDim S32x1x512x512 ![] bcast_S_S32x1x512x512 (constantI S_ 1 0#1) := by
  unfold runM0
  simp only [opsM0]
  after_results_simp <;> rfl

/-- Axis 0's positions plus one. -/
theorem runM0_v15 (V : Valuation τ sig (Elt F)) :
    runM0 V (no_index (Proc.devRef .tc main_v15)) = addi (iotaInDim S32 32 0) (broadcastInDim S32 ![] bcast_S_S32 (constantI S_ 32 1#32)) := by
  unfold runM0
  simp only [opsM0]
  after_results_simp <;> rfl

/-- The low bound. -/
theorem runM0_c_8 (V : Valuation τ sig (Elt F)) :
    runM0 V (no_index (Proc.devRef .tc main_c_8)) = constantI S_ 32 0#32 := by
  unfold runM0
  simp only [opsM0]
  after_results_simp <;> rfl

/-- The high bound of axis 0. -/
theorem runM0_c_9 (V : Valuation τ sig (Elt F)) :
    runM0 V (no_index (Proc.devRef .tc main_c_9)) = constantI S_ 32 31#32 := by
  unfold runM0
  simp only [opsM0]
  after_results_simp <;> rfl

/-- The clamp of the position vector between the two bounds. -/
theorem runCall0_v16 (V : Valuation τ sig (Elt F)) :
    runCall0 V (no_index (Proc.devRef .tc main_v16)) = clip32 (V (Proc.devRef .tc main_v15)) (V (Proc.devRef .tc main_c_8)) (V (Proc.devRef .tc main_c_9)) := by
  unfold runCall0
  simp only [opsCall0]
  after_results_simp <;> rfl

/-- The mask read at the positions along axis 0. -/
theorem runCall1_v17 (V : Valuation τ sig (Elt F)) :
    runCall1 V (no_index (Proc.devRef .tc main_v17)) = take0 (V (Proc.devRef .tc main_v11)) (V (Proc.devRef .tc main_v16)) := by
  unfold runCall1
  simp only [opsCall1]
  after_results_simp <;> rfl

/-- The disjunction extended by the complemented read. -/
theorem runM1_v19 (V : Valuation τ sig (Elt F)) :
    runM1 V (no_index (Proc.devRef .tc main_v19)) = ori (V (Proc.devRef .tc main_v12)) (noti (V (Proc.devRef .tc main_v17))) := by
  unfold runM1
  simp only [opsM1]
  after_results_simp <;> rfl

/-- Axis 0's positions minus one. -/
theorem runM1_v22 (V : Valuation τ sig (Elt F)) :
    runM1 V (no_index (Proc.devRef .tc main_v22)) = addi (iotaInDim S32 32 0) (broadcastInDim S32 ![] bcast_S_S32 (constantI S_ 32 4294967295#32)) := by
  unfold runM1
  simp only [opsM1]
  after_results_simp <;> rfl

/-- The low bound. -/
theorem runM1_c_11 (V : Valuation τ sig (Elt F)) :
    runM1 V (no_index (Proc.devRef .tc main_c_11)) = constantI S_ 32 0#32 := by
  unfold runM1
  simp only [opsM1]
  after_results_simp <;> rfl

/-- The high bound of axis 0. -/
theorem runM1_c_12 (V : Valuation τ sig (Elt F)) :
    runM1 V (no_index (Proc.devRef .tc main_c_12)) = constantI S_ 32 31#32 := by
  unfold runM1
  simp only [opsM1]
  after_results_simp <;> rfl

/-- The clamp of the position vector between the two bounds. -/
theorem runCall2_v23 (V : Valuation τ sig (Elt F)) :
    runCall2 V (no_index (Proc.devRef .tc main_v23)) = clip32 (V (Proc.devRef .tc main_v22)) (V (Proc.devRef .tc main_c_11)) (V (Proc.devRef .tc main_c_12)) := by
  unfold runCall2
  simp only [opsCall2]
  after_results_simp <;> rfl

/-- The mask read at the positions along axis 0. -/
theorem runCall3_v24 (V : Valuation τ sig (Elt F)) :
    runCall3 V (no_index (Proc.devRef .tc main_v24)) = take0 (V (Proc.devRef .tc main_v11)) (V (Proc.devRef .tc main_v23)) := by
  unfold runCall3
  simp only [opsCall3]
  after_results_simp <;> rfl

/-- The disjunction extended by the complemented read. -/
theorem runM2_v26 (V : Valuation τ sig (Elt F)) :
    runM2 V (no_index (Proc.devRef .tc main_v26)) = ori (V (Proc.devRef .tc main_v19)) (noti (V (Proc.devRef .tc main_v24))) := by
  unfold runM2
  simp only [opsM2]
  after_results_simp <;> rfl

/-- Axis 1's position plus one. -/
theorem runM2_v29 (V : Valuation τ sig (Elt F)) :
    runM2 V (no_index (Proc.devRef .tc main_v29)) = addi (iotaInDim S1 32 0) (broadcastInDim S1 ![] bcast_S_S1 (constantI S_ 32 1#32)) := by
  unfold runM2
  simp only [opsM2]
  after_results_simp <;> rfl

/-- The low bound. -/
theorem runM2_c_14 (V : Valuation τ sig (Elt F)) :
    runM2 V (no_index (Proc.devRef .tc main_c_14)) = constantI S_ 32 0#32 := by
  unfold runM2
  simp only [opsM2]
  after_results_simp <;> rfl

/-- The high bound of axis 1. -/
theorem runM2_c_15 (V : Valuation τ sig (Elt F)) :
    runM2 V (no_index (Proc.devRef .tc main_c_15)) = constantI S_ 32 0#32 := by
  unfold runM2
  simp only [opsM2]
  after_results_simp <;> rfl

/-- The clamp of the position vector between the two bounds. -/
theorem runCall4_v30 (V : Valuation τ sig (Elt F)) :
    runCall4 V (no_index (Proc.devRef .tc main_v30)) = clip1 (V (Proc.devRef .tc main_v29)) (V (Proc.devRef .tc main_c_14)) (V (Proc.devRef .tc main_c_15)) := by
  unfold runCall4
  simp only [opsCall4]
  after_results_simp <;> rfl

/-- The mask read at the positions along axis 1. -/
theorem runCall5_v31 (V : Valuation τ sig (Elt F)) :
    runCall5 V (no_index (Proc.devRef .tc main_v31)) = take1 (V (Proc.devRef .tc main_v11)) (V (Proc.devRef .tc main_v30)) := by
  unfold runCall5
  simp only [opsCall5]
  after_results_simp <;> rfl

/-- The disjunction extended by the complemented read. -/
theorem runM3_v33 (V : Valuation τ sig (Elt F)) :
    runM3 V (no_index (Proc.devRef .tc main_v33)) = ori (V (Proc.devRef .tc main_v26)) (noti (V (Proc.devRef .tc main_v31))) := by
  unfold runM3
  simp only [opsM3]
  after_results_simp <;> rfl

/-- Axis 1's position minus one. -/
theorem runM3_v36 (V : Valuation τ sig (Elt F)) :
    runM3 V (no_index (Proc.devRef .tc main_v36)) = addi (iotaInDim S1 32 0) (broadcastInDim S1 ![] bcast_S_S1 (constantI S_ 32 4294967295#32)) := by
  unfold runM3
  simp only [opsM3]
  after_results_simp <;> rfl

/-- The low bound. -/
theorem runM3_c_17 (V : Valuation τ sig (Elt F)) :
    runM3 V (no_index (Proc.devRef .tc main_c_17)) = constantI S_ 32 0#32 := by
  unfold runM3
  simp only [opsM3]
  after_results_simp <;> rfl

/-- The high bound of axis 1. -/
theorem runM3_c_18 (V : Valuation τ sig (Elt F)) :
    runM3 V (no_index (Proc.devRef .tc main_c_18)) = constantI S_ 32 0#32 := by
  unfold runM3
  simp only [opsM3]
  after_results_simp <;> rfl

/-- The clamp of the position vector between the two bounds. -/
theorem runCall6_v37 (V : Valuation τ sig (Elt F)) :
    runCall6 V (no_index (Proc.devRef .tc main_v37)) = clip1 (V (Proc.devRef .tc main_v36)) (V (Proc.devRef .tc main_c_17)) (V (Proc.devRef .tc main_c_18)) := by
  unfold runCall6
  simp only [opsCall6]
  after_results_simp <;> rfl

/-- The mask read at the positions along axis 1. -/
theorem runCall7_v38 (V : Valuation τ sig (Elt F)) :
    runCall7 V (no_index (Proc.devRef .tc main_v38)) = take1 (V (Proc.devRef .tc main_v11)) (V (Proc.devRef .tc main_v37)) := by
  unfold runCall7
  simp only [opsCall7]
  after_results_simp <;> rfl

end Cert.ReferenceIdeal.RefRun

end
-- ==== Proof.RefRunKeep1.lean ====
/-
  Windows 1 and 2 of the reference program, list by list: the contents after the list as a function of the
  contents before it, and the frame fact that a buffer outside the list's table of written buffers is left as it was.
-/
import proofs.«111375_j65884798321056_2_alg».proof.Proof.RefOps1
import proofs.«111375_j65884798321056_2_alg».proof.Proof.RefOps2
import proofs.«111375_j65884798321056_2_alg».proof.Proof.RefOpsW
import proofs.«111375_j65884798321056_2_alg».proof.Proof.RefRunTacW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers' contents after the list opsM4, from contents `V`. -/
def runM4 (V : Valuation τ sig (Elt F)) : Valuation τ sig (Elt F) := after opsM4 V
theorem opsM4_writes : (opsM4 : List (HloOp τ sig (Elt F))).Forall fun op => op.writes ⊆ (opsM4_W.map (Proc.devRef (τ := τ) .tc)).toFinset := by
  writes_tac
/-- A buffer the list does not write keeps its contents. -/
theorem runM4_keep (V : Valuation τ sig (Elt F)) (r : Ref sig .tc) (h : r ∉ opsM4_W) :
    runM4 V (no_index (Proc.devRef .tc r)) = V (Proc.devRef .tc r) :=
  after_of_writes_sub opsM4 V opsM4_writes h

/-- The buffers' contents after the list opsCall8, from contents `V`. -/
def runCall8 (V : Valuation τ sig (Elt F)) : Valuation τ sig (Elt F) := after opsCall8 V
theorem opsCall8_writes : (opsCall8 : List (HloOp τ sig (Elt F))).Forall fun op => op.writes ⊆ (opsCall8_W.map (Proc.devRef (τ := τ) .tc)).toFinset := by
  writes_tac
/-- A buffer the list does not write keeps its contents. -/
theorem runCall8_keep (V : Valuation τ sig (Elt F)) (r : Ref sig .tc) (h : r ∉ opsCall8_W) :
    runCall8 V (no_index (Proc.devRef .tc r)) = V (Proc.devRef .tc r) :=
  after_of_writes_sub opsCall8 V opsCall8_writes h

/-- The buffers' contents after the list opsCall9, from contents `V`. -/
def runCall9 (V : Valuation τ sig (Elt F)) : Valuation τ sig (Elt F) := after opsCall9 V
theorem opsCall9_writes : (opsCall9 : List (HloOp τ sig (Elt F))).Forall fun op => op.writes ⊆ (opsCall9_W.map (Proc.devRef (τ := τ) .tc)).toFinset := by
  writes_tac
/-- A buffer the list does not write keeps its contents. -/
theorem runCall9_keep (V : Valuation τ sig (Elt F)) (r : Ref sig .tc) (h : r ∉ opsCall9_W) :
    runCall9 V (no_index (Proc.devRef .tc r)) = V (Proc.devRef .tc r) :=
  after_of_writes_sub opsCall9 V opsCall9_writes h

/-- The buffers' contents after the list opsM5, from contents `V`. -/
def runM5 (V : Valuation τ sig (Elt F)) : Valuation τ sig (Elt F) := after opsM5 V
theorem opsM5_writes : (opsM5 : List (HloOp τ sig (Elt F))).Forall fun op => op.writes ⊆ (opsM5_W.map (Proc.devRef (τ := τ) .tc)).toFinset := by
  writes_tac
/-- A buffer the list does not write keeps its contents. -/
theorem runM5_keep (V : Valuation τ sig (Elt F)) (r : Ref sig .tc) (h : r ∉ opsM5_W) :
    runM5 V (no_index (Proc.devRef .tc r)) = V (Proc.devRef .tc r) :=
  after_of_writes_sub opsM5 V opsM5_writes h

/-- The buffers' contents after the list opsCall10, from contents `V`. -/
def runCall10 (V : Valuation τ sig (Elt F)) : Valuation τ sig (Elt F) := after opsCall10 V
theorem opsCall10_writes : (opsCall10 : List (HloOp τ sig (Elt F))).Forall fun op => op.writes ⊆ (opsCall10_W.map (Proc.devRef (τ := τ) .tc)).toFinset := by
  writes_tac
/-- A buffer the list does not write keeps its contents. -/
theorem runCall10_keep (V : Valuation τ sig (Elt F)) (r : Ref sig .tc) (h : r ∉ opsCall10_W) :
    runCall10 V (no_index (Proc.devRef .tc r)) = V (Proc.devRef .tc r) :=
  after_of_writes_sub opsCall10 V opsCall10_writes h

/-- The buffers' contents after the list opsCall11, from contents `V`. -/
def runCall11 (V : Valuation τ sig (Elt F)) : Valuation τ sig (Elt F) := after opsCall11 V
theorem opsCall11_writes : (opsCall11 : List (HloOp τ sig (Elt F))).Forall fun op => op.writes ⊆ (opsCall11_W.map (Proc.devRef (τ := τ) .tc)).toFinset := by
  writes_tac
/-- A buffer the list does not write keeps its contents. -/
theorem runCall11_keep (V : Valuation τ sig (Elt F)) (r : Ref sig .tc) (h : r ∉ opsCall11_W) :
    runCall11 V (no_index (Proc.devRef .tc r)) = V (Proc.devRef .tc r) :=
  after_of_writes_sub opsCall11 V opsCall11_writes h

/-- The buffers' contents after the list opsM6, from contents `V`. -/
def runM6 (V : Valuation τ sig (Elt F)) : Valuation τ sig (Elt F) := after opsM6 V
theorem opsM6_writes : (opsM6 : List (HloOp τ sig (Elt F))).Forall fun op => op.writes ⊆ (opsM6_W.map (Proc.devRef (τ := τ) .tc)).toFinset := by
  writes_tac
/-- A buffer the list does not write keeps its contents. -/
theorem runM6_keep (V : Valuation τ sig (Elt F)) (r : Ref sig .tc) (h : r ∉ opsM6_W) :
    runM6 V (no_index (Proc.devRef .tc r)) = V (Proc.devRef .tc r) :=
  after_of_writes_sub opsM6 V opsM6_writes h

/-- The buffers' contents after the list opsCall12, from contents `V`. -/
def runCall12 (V : Valuation τ sig (Elt F)) : Valuation τ sig (Elt F) := after opsCall12 V
theorem opsCall12_writes : (opsCall12 : List (HloOp τ sig (Elt F))).Forall fun op => op.writes ⊆ (opsCall12_W.map (Proc.devRef (τ := τ) .tc)).toFinset := by
  writes_tac
/-- A buffer the list does not write keeps its contents. -/
theorem runCall12_keep (V : Valuation τ sig (Elt F)) (r : Ref sig .tc) (h : r ∉ opsCall12_W) :
    runCall12 V (no_index (Proc.devRef .tc r)) = V (Proc.devRef .tc r) :=
  after_of_writes_sub opsCall12 V opsCall12_writes h

/-- The buffers' contents after the list opsCall13, from contents `V`. -/
def runCall13 (V : Valuation τ sig (Elt F)) : Valuation τ sig (Elt F) := after opsCall13 V
theorem opsCall13_writes : (opsCall13 : List (HloOp τ sig (Elt F))).Forall fun op => op.writes ⊆ (opsCall13_W.map (Proc.devRef (τ := τ) .tc)).toFinset := by
  writes_tac
/-- A buffer the list does not write keeps its contents. -/
theorem runCall13_keep (V : Valuation τ sig (Elt F)) (r : Ref sig .tc) (h : r ∉ opsCall13_W) :
    runCall13 V (no_index (Proc.devRef .tc r)) = V (Proc.devRef .tc r) :=
  after_of_writes_sub opsCall13 V opsCall13_writes h

/-- The buffers' contents after the list opsM7, from contents `V`. -/
def runM7 (V : Valuation τ sig (Elt F)) : Valuation τ sig (Elt F) := after opsM7 V
theorem opsM7_writes : (opsM7 : List (HloOp τ sig (Elt F))).Forall fun op => op.writes ⊆ (opsM7_W.map (Proc.devRef (τ := τ) .tc)).toFinset := by
  writes_tac
/-- A buffer the list does not write keeps its contents. -/
theorem runM7_keep (V : Valuation τ sig (Elt F)) (r : Ref sig .tc) (h : r ∉ opsM7_W) :
    runM7 V (no_index (Proc.devRef .tc r)) = V (Proc.devRef .tc r) :=
  after_of_writes_sub opsM7 V opsM7_writes h

/-- The buffers' contents after the list opsCall14, from contents `V`. -/
def runCall14 (V : Valuation τ sig (Elt F)) : Valuation τ sig (Elt F) := after opsCall14 V
theorem opsCall14_writes : (opsCall14 : List (HloOp τ sig (Elt F))).Forall fun op => op.writes ⊆ (opsCall14_W.map (Proc.devRef (τ := τ) .tc)).toFinset := by
  writes_tac
/-- A buffer the list does not write keeps its contents. -/
theorem runCall14_keep (V : Valuation τ sig (Elt F)) (r : Ref sig .tc) (h : r ∉ opsCall14_W) :
    runCall14 V (no_index (Proc.devRef .tc r)) = V (Proc.devRef .tc r) :=
  after_of_writes_sub opsCall14 V opsCall14_writes h

/-- The buffers' contents after the list opsCall15, from contents `V`. -/
def runCall15 (V : Valuation τ sig (Elt F)) : Valuation τ sig (Elt F) := after opsCall15 V
theorem opsCall15_writes : (opsCall15 : List (HloOp τ sig (Elt F))).Forall fun op => op.writes ⊆ (opsCall15_W.map (Proc.devRef (τ := τ) .tc)).toFinset := by
  writes_tac
/-- A buffer the list does not write keeps its contents. -/
theorem runCall15_keep (V : Valuation τ sig (Elt F)) (r : Ref sig .tc) (h : r ∉ opsCall15_W) :
    runCall15 V (no_index (Proc.devRef .tc r)) = V (Proc.devRef .tc r) :=
  after_of_writes_sub opsCall15 V opsCall15_writes h

/-- The buffers' contents after the list opsM8, from contents `V`. -/
def runM8 (V : Valuation τ sig (Elt F)) : Valuation τ sig (Elt F) := after opsM8 V
theorem opsM8_writes : (opsM8 : List (HloOp τ sig (Elt F))).Forall fun op => op.writes ⊆ (opsM8_W.map (Proc.devRef (τ := τ) .tc)).toFinset := by
  writes_tac
/-- A buffer the list does not write keeps its contents. -/
theorem runM8_keep (V : Valuation τ sig (Elt F)) (r : Ref sig .tc) (h : r ∉ opsM8_W) :
    runM8 V (no_index (Proc.devRef .tc r)) = V (Proc.devRef .tc r) :=
  after_of_writes_sub opsM8 V opsM8_writes h

/-- The buffers' contents after the list opsCall16, from contents `V`. -/
def runCall16 (V : Valuation τ sig (Elt F)) : Valuation τ sig (Elt F) := after opsCall16 V
theorem opsCall16_writes : (opsCall16 : List (HloOp τ sig (Elt F))).Forall fun op => op.writes ⊆ (opsCall16_W.map (Proc.devRef (τ := τ) .tc)).toFinset := by
  writes_tac
/-- A buffer the list does not write keeps its contents. -/
theorem runCall16_keep (V : Valuation τ sig (Elt F)) (r : Ref sig .tc) (h : r ∉ opsCall16_W) :
    runCall16 V (no_index (Proc.devRef .tc r)) = V (Proc.devRef .tc r) :=
  after_of_writes_sub opsCall16 V opsCall16_writes h

/-- The buffers' contents after the list opsM9, from contents `V`. -/
def runM9 (V : Valuation τ sig (Elt F)) : Valuation τ sig (Elt F) := after opsM9 V
theorem opsM9_writes : (opsM9 : List (HloOp τ sig (Elt F))).Forall fun op => op.writes ⊆ (opsM9_W.map (Proc.devRef (τ := τ) .tc)).toFinset := by
  writes_tac
/-- A buffer the list does not write keeps its contents. -/
theorem runM9_keep (V : Valuation τ sig (Elt F)) (r : Ref sig .tc) (h : r ∉ opsM9_W) :
    runM9 V (no_index (Proc.devRef .tc r)) = V (Proc.devRef .tc r) :=
  after_of_writes_sub opsM9 V opsM9_writes h

/-- The buffers' contents after the list opsM10, from contents `V`. -/
def runM10 (V : Valuation τ sig (Elt F)) : Valuation τ sig (Elt F) := after opsM10 V
theorem opsM10_writes : (opsM10 : List (HloOp τ sig (Elt F))).Forall fun op => op.writes ⊆ (opsM10_W.map (Proc.devRef (τ := τ) .tc)).toFinset := by
  writes_tac
/-- A buffer the list does not write keeps its contents. -/
theorem runM10_keep (V : Valuation τ sig (Elt F)) (r : Ref sig .tc) (h : r ∉ opsM10_W) :
    runM10 V (no_index (Proc.devRef .tc r)) = V (Proc.devRef .tc r) :=
  after_of_writes_sub opsM10 V opsM10_writes h

end Cert.ReferenceIdeal.RefRun

end
-- ==== Proof.RefRunVal1.lean ====
/-
  Windows 1 and 2 of the reference program, list by list: what each list leaves in the buffers later lists read, as
  a pure function of the contents it finds.  The stretches extend the disjunction of complemented neighbour reads
  along axes 2 and 3, form the boundary indicator, the clamped prediction's cross-entropy mean, and the final
  combination of the overlap term with the weighted cross-entropy times the indicator's mean.
-/
import proofs.«111375_j65884798321056_2_alg».proof.Proof.RefRunKeep1
import proofs.«111375_j65884798321056_2_alg».proof.Proof.RefTerm

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- The disjunction extended by the complemented read. -/
theorem runM4_v40 (V : Valuation τ sig (Elt F)) :
    runM4 V (no_index (Proc.devRef .tc main_v40)) = ori (V (Proc.devRef .tc main_v33)) (noti (V (Proc.devRef .tc main_v38))) := by
  unfold runM4
  simp only [opsM4]
  after_results_simp <;> rfl

/-- Axis 2's positions plus one. -/
theorem runM4_v43 (V : Valuation τ sig (Elt F)) :
    runM4 V (no_index (Proc.devRef .tc main_v43)) = addi (iotaInDim S512 32 0) (broadcastInDim S512 ![] bcast_S_S512 (constantI S_ 32 1#32)) := by
  unfold runM4
  simp only [opsM4]
  after_results_simp <;> rfl

/-- The low bound. -/
theorem runM4_c_20 (V : Valuation τ sig (Elt F)) :
    runM4 V (no_index (Proc.devRef .tc main_c_20)) = constantI S_ 32 0#32 := by
  unfold runM4
  simp only [opsM4]
  after_results_simp <;> rfl

/-- The high bound of axis 2. -/
theorem runM4_c_21 (V : Valuation τ sig (Elt F)) :
    runM4 V (no_index (Proc.devRef .tc main_c_21)) = constantI S_ 32 511#32 := by
  unfold runM4
  simp only [opsM4]
  after_results_simp <;> rfl

/-- The clamp of the position vector between the two bounds. -/
theorem runCall8_v44 (V : Valuation τ sig (Elt F)) :
    runCall8 V (no_index (Proc.devRef .tc main_v44)) = clip512 (V (Proc.devRef .tc main_v43)) (V (Proc.devRef .tc main_c_20)) (V (Proc.devRef .tc main_c_21)) := by
  unfold runCall8
  simp only [opsCall8]
  after_results_simp <;> rfl

/-- The mask read at the positions along axis 2. -/
theorem runCall9_v45 (V : Valuation τ sig (Elt F)) :
    runCall9 V (no_index (Proc.devRef .tc main_v45)) = take2 (V (Proc.devRef .tc main_v11)) (V (Proc.devRef .tc main_v44)) := by
  unfold runCall9
  simp only [opsCall9]
  after_results_simp <;> rfl

/-- The disjunction extended by the complemented read. -/
theorem runM5_v47 (V : Valuation τ sig (Elt F)) :
    runM5 V (no_index (Proc.devRef .tc main_v47)) = ori (V (Proc.devRef .tc main_v40)) (noti (V (Proc.devRef .tc main_v45))) := by
  unfold runM5
  simp only [opsM5]
  after_results_simp <;> rfl

/-- Axis 2's positions minus one. -/
theorem runM5_v50 (V : Valuation τ sig (Elt F)) :
    runM5 V (no_index (Proc.devRef .tc main_v50)) = addi (iotaInDim S512 32 0) (broadcastInDim S512 ![] bcast_S_S512 (constantI S_ 32 4294967295#32)) := by
  unfold runM5
  simp only [opsM5]
  after_results_simp <;> rfl

/-- The low bound. -/
theorem runM5_c_23 (V : Valuation τ sig (Elt F)) :
    runM5 V (no_index (Proc.devRef .tc main_c_23)) = constantI S_ 32 0#32 := by
  unfold runM5
  simp only [opsM5]
  after_results_simp <;> rfl

/-- The high bound of axis 2. -/
theorem runM5_c_24 (V : Valuation τ sig (Elt F)) :
    runM5 V (no_index (Proc.devRef .tc main_c_24)) = constantI S_ 32 511#32 := by
  unfold runM5
  simp only [opsM5]
  after_results_simp <;> rfl

/-- The clamp of the position vector between the two bounds. -/
theorem runCall10_v51 (V : Valuation τ sig (Elt F)) :
    runCall10 V (no_index (Proc.devRef .tc main_v51)) = clip512 (V (Proc.devRef .tc main_v50)) (V (Proc.devRef .tc main_c_23)) (V (Proc.devRef .tc main_c_24)) := by
  unfold runCall10
  simp only [opsCall10]
  after_results_simp <;> rfl

/-- The mask read at the positions along axis 2. -/
theorem runCall11_v52 (V : Valuation τ sig (Elt F)) :
    runCall11 V (no_index (Proc.devRef .tc main_v52)) = take2 (V (Proc.devRef .tc main_v11)) (V (Proc.devRef .tc main_v51)) := by
  unfold runCall11
  simp only [opsCall11]
  after_results_simp <;> rfl

/-- The disjunction extended by the complemented read. -/
theorem runM6_v54 (V : Valuation τ sig (Elt F)) :
    runM6 V (no_index (Proc.devRef .tc main_v54)) = ori (V (Proc.devRef .tc main_v47)) (noti (V (Proc.devRef .tc main_v52))) := by
  unfold runM6
  simp only [opsM6]
  after_results_simp <;> rfl

/-- Axis 3's positions plus one. -/
theorem runM6_v57 (V : Valuation τ sig (Elt F)) :
    runM6 V (no_index (Proc.devRef .tc main_v57)) = addi (iotaInDim S512 32 0) (broadcastInDim S512 ![] bcast_S_S512 (constantI S_ 32 1#32)) := by
  unfold runM6
  simp only [opsM6]
  after_results_simp <;> rfl

/-- The low bound. -/
theorem runM6_c_26 (V : Valuation τ sig (Elt F)) :
    runM6 V (no_index (Proc.devRef .tc main_c_26)) = constantI S_ 32 0#32 := by
  unfold runM6
  simp only [opsM6]
  after_results_simp <;> rfl

/-- The high bound of axis 3. -/
theorem runM6_c_27 (V : Valuation τ sig (Elt F)) :
    runM6 V (no_index (Proc.devRef .tc main_c_27)) = constantI S_ 32 511#32 := by
  unfold runM6
  simp only [opsM6]
  after_results_simp <;> rfl

/-- The clamp of the position vector between the two bounds. -/
theorem runCall12_v58 (V : Valuation τ sig (Elt F)) :
    runCall12 V (no_index (Proc.devRef .tc main_v58)) = clip512 (V (Proc.devRef .tc main_v57)) (V (Proc.devRef .tc main_c_26)) (V (Proc.devRef .tc main_c_27)) := by
  unfold runCall12
  simp only [opsCall12]
  after_results_simp <;> rfl

/-- The mask read at the positions along axis 3. -/
theorem runCall13_v59 (V : Valuation τ sig (Elt F)) :
    runCall13 V (no_index (Proc.devRef .tc main_v59)) = take3 (V (Proc.devRef .tc main_v11)) (V (Proc.devRef .tc main_v58)) := by
  unfold runCall13
  simp only [opsCall13]
  after_results_simp <;> rfl

/-- The disjunction extended by the complemented read. -/
theorem runM7_v61 (V : Valuation τ sig (Elt F)) :
    runM7 V (no_index (Proc.devRef .tc main_v61)) = ori (V (Proc.devRef .tc main_v54)) (noti (V (Proc.devRef .tc main_v59))) := by
  unfold runM7
  simp only [opsM7]
  after_results_simp <;> rfl

/-- Axis 3's positions minus one. -/
theorem runM7_v64 (V : Valuation τ sig (Elt F)) :
    runM7 V (no_index (Proc.devRef .tc main_v64)) = addi (iotaInDim S512 32 0) (broadcastInDim S512 ![] bcast_S_S512 (constantI S_ 32 4294967295#32)) := by
  unfold runM7
  simp only [opsM7]
  after_results_simp <;> rfl

/-- The low bound. -/
theorem runM7_c_29 (V : Valuation τ sig (Elt F)) :
    runM7 V (no_index (Proc.devRef .tc main_c_29)) = constantI S_ 32 0#32 := by
  unfold runM7
  simp only [opsM7]
  after_results_simp <;> rfl

/-- The high bound of axis 3. -/
theorem runM7_c_30 (V : Valuation τ sig (Elt F)) :
    runM7 V (no_index (Proc.devRef .tc main_c_30)) = constantI S_ 32 511#32 := by
  unfold runM7
  simp only [opsM7]
  after_results_simp <;> rfl

/-- The clamp of the position vector between the two bounds. -/
theorem runCall14_v65 (V : Valuation τ sig (Elt F)) :
    runCall14 V (no_index (Proc.devRef .tc main_v65)) = clip512 (V (Proc.devRef .tc main_v64)) (V (Proc.devRef .tc main_c_29)) (V (Proc.devRef .tc main_c_30)) := by
  unfold runCall14
  simp only [opsCall14]
  after_results_simp <;> rfl

/-- The mask read at the positions along axis 3. -/
theorem runCall15_v66 (V : Valuation τ sig (Elt F)) :
    runCall15 V (no_index (Proc.devRef .tc main_v66)) = take3 (V (Proc.devRef .tc main_v11)) (V (Proc.devRef .tc main_v65)) := by
  unfold runCall15
  simp only [opsCall15]
  after_results_simp <;> rfl

/-- The boundary indicator as a float array: foreground and the finished disjunction. -/
theorem runM8_v70 (V : Valuation τ sig (Elt F)) :
    runM8 V (no_index (Proc.devRef .tc main_v70)) = uitofp .f32 (andi (V (Proc.devRef .tc main_v11)) (ori (V (Proc.devRef .tc main_v61)) (noti (V (Proc.devRef .tc main_v66))))) := by
  unfold runM8
  simp only [opsM8]
  after_results_simp <;> rfl

/-- The low clamp word. -/
theorem runM8_cst_31 (V : Valuation τ sig (Elt F)) :
    runM8 V (no_index (Proc.devRef .tc main_cst_31)) = constant S_ .f32 0x33D6BF95#32 := by
  unfold runM8
  simp only [opsM8]
  after_results_simp <;> rfl

/-- The high clamp word. -/
theorem runM8_cst_32 (V : Valuation τ sig (Elt F)) :
    runM8 V (no_index (Proc.devRef .tc main_cst_32)) = constant S_ .f32 0x3F7FFFFE#32 := by
  unfold runM8
  simp only [opsM8]
  after_results_simp <;> rfl

/-- The prediction clamped between the two words. -/
theorem runCall16_v71 (V : Valuation τ sig (Elt F)) :
    runCall16 V (no_index (Proc.devRef .tc main_v71)) = clipF (V (Proc.devRef .tc main_arg0)) (V (Proc.devRef .tc main_cst_31)) (V (Proc.devRef .tc main_cst_32)) := by
  unfold runCall16
  simp only [opsCall16]
  after_results_simp <;> rfl

/-- The mean of the elements' cross-entropy terms over the clamped prediction. -/
theorem runM9_v81 (V : Valuation τ sig (Elt F)) :
    runM9 V (no_index (Proc.devRef .tc main_v81)) = Host.divf (sumAll (addf (mulf (V (Proc.devRef .tc main_arg1)) (Host.log (V (Proc.devRef .tc main_v71))))
        (mulf (subf (broadcastInDim S32x1x512x512 ![] bcast_S_S32x1x512x512 (constant S_ .f32 0x3F800000#32)) (V (Proc.devRef .tc main_arg1)))
          (Host.log1p (Host.negf (V (Proc.devRef .tc main_v71))))))) (constant S_ .f32 0x4B000000#32) := by
  unfold runM9
  simp only [opsM9]
  after_results_simp <;> rfl

/-- The result: the overlap term plus ten times the negated cross-entropy mean times the indicator's mean. -/
theorem runM10_v87 (V : Valuation τ sig (Elt F)) :
    runM10 V (no_index (Proc.devRef .tc main_v87)) = addf (V (Proc.devRef .tc main_v9)) (mulf (mulf (constant S_ .f32 0x41200000#32) (Host.negf (V (Proc.devRef .tc main_v81))))
        (Host.divf (sumAll (V (Proc.devRef .tc main_v70))) (constant S_ .f32 0x4B000000#32))) := by
  unfold runM10
  simp only [opsM10]
  after_results_simp <;> rfl

end Cert.ReferenceIdeal.RefRun

end
-- ==== Proof.RefRunMain.lean ====
/-
  The reference program's result as the composed term of its two arguments.

  The fold over the whole operation list is the lists' transformers composed in program order.  Reading the result
  buffer through that composition goes list by list from the last: the list that writes a buffer gives its value
  as a function of the contents before the list, and a buffer the list does not write is read from the contents
  before it.  What remains is the composed term with every stage spelled out, which is the named term unfolded.
-/
import proofs.«111375_j65884798321056_2_alg».proof.Proof.RefRun
import proofs.«111375_j65884798321056_2_alg».proof.Proof.RefRunVal0
import proofs.«111375_j65884798321056_2_alg».proof.Proof.RefRunVal1
import Idealize.ShloMosaic.Lib.Pipeline.Frame

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- The fold over the whole list: each list's transformer applied in program order. -/
theorem after_ops (V : Valuation τ sig (Elt F)) :
    after ops V = runM10 (runM9 (runCall16 (runM8 (runCall15 (runCall14 (runM7 (runCall13 (runCall12 (runM6 (runCall11 (runCall10 (runM5 (runCall9 (runCall8 (runM4 (runCall7 (runCall6 (runM3 (runCall5 (runCall4 (runM2 (runCall3 (runCall2 (runM1 (runCall1 (runCall0 (runM0 V))))))))))))))))))))))))))) := by
  simp only [ops, ops_part0, ops_part1, ops_part2, after_append]
  rfl

/-- The result buffer after the program holds the composed term of the two arguments' contents. -/
theorem after_v87 (V : Valuation τ sig (Elt F)) :
    after ops V (Proc.devRef .tc main_v87)
      = term (V (Proc.devRef .tc main_arg0)) (V (Proc.devRef .tc main_arg1)) := by
  rw [after_ops]
  simp (disch := decide) only [runM0_v9, runM0_v11, runM0_v12, runM0_v15, runM0_c_8, runM0_c_9, runCall0_v16, runCall1_v17,
    runM1_v19, runM1_v22, runM1_c_11, runM1_c_12, runCall2_v23, runCall3_v24, runM2_v26, runM2_v29,
    runM2_c_14, runM2_c_15, runCall4_v30, runCall5_v31, runM3_v33, runM3_v36, runM3_c_17, runM3_c_18,
    runCall6_v37, runCall7_v38, runM4_v40, runM4_v43, runM4_c_20, runM4_c_21, runCall8_v44, runCall9_v45,
    runM5_v47, runM5_v50, runM5_c_23, runM5_c_24, runCall10_v51, runCall11_v52, runM6_v54, runM6_v57,
    runM6_c_26, runM6_c_27, runCall12_v58, runCall13_v59, runM7_v61, runM7_v64, runM7_c_29, runM7_c_30,
    runCall14_v65, runCall15_v66, runM8_v70, runM8_cst_31, runM8_cst_32, runCall16_v71, runM9_v81,
    runM10_v87,
    runM0_keep, runCall0_keep, runCall1_keep, runM1_keep, runCall2_keep, runCall3_keep, runM2_keep,
    runCall4_keep, runCall5_keep, runM3_keep, runCall6_keep, runCall7_keep, runM4_keep, runCall8_keep,
    runCall9_keep, runM5_keep, runCall10_keep, runCall11_keep, runM6_keep, runCall12_keep,
    runCall13_keep, runM7_keep, runCall14_keep, runCall15_keep, runM8_keep, runCall16_keep, runM9_keep,
    runM10_keep]
  rfl

/-- No list writes the first argument. -/
theorem after_arg0 (V : Valuation τ sig (Elt F)) :
    after ops V (Proc.devRef .tc main_arg0) = V (Proc.devRef .tc main_arg0) := by
  rw [after_ops]
  simp (disch := decide) only [runM0_keep, runCall0_keep, runCall1_keep, runM1_keep, runCall2_keep, runCall3_keep, runM2_keep,
    runCall4_keep, runCall5_keep, runM3_keep, runCall6_keep, runCall7_keep, runM4_keep, runCall8_keep,
    runCall9_keep, runM5_keep, runCall10_keep, runCall11_keep, runM6_keep, runCall12_keep,
    runCall13_keep, runM7_keep, runCall14_keep, runCall15_keep, runM8_keep, runCall16_keep, runM9_keep,
    runM10_keep]

/-- No list writes the second argument. -/
theorem after_arg1 (V : Valuation τ sig (Elt F)) :
    after ops V (Proc.devRef .tc main_arg1) = V (Proc.devRef .tc main_arg1) := by
  rw [after_ops]
  simp (disch := decide) only [runM0_keep, runCall0_keep, runCall1_keep, runM1_keep, runCall2_keep, runCall3_keep, runM2_keep,
    runCall4_keep, runCall5_keep, runM3_keep, runCall6_keep, runCall7_keep, runM4_keep, runCall8_keep,
    runCall9_keep, runM5_keep, runCall10_keep, runCall11_keep, runM6_keep, runCall12_keep,
    runCall13_keep, runM7_keep, runCall14_keep, runCall15_keep, runM8_keep, runCall16_keep, runM9_keep,
    runM10_keep]

/-- On every device, from any memory with zero counters: every weakly fair execution of the reference program
    terminates with the result buffer at the composed term of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87)
          = term (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v87).trans (after_v87 (launchContents m c)),
      (h c main_arg0).trans (after_arg0 (launchContents m c)),
      (h c main_arg1).trans (after_arg1 (launchContents m c))⟩)
    (run_raw m ρ)

end Cert.ReferenceIdeal.RefRun

end
-- ==== Proof.RefReadSum.lean ====
/-
  The full sums.

  A sum of the [32,1,512,512] array over all four axes, from the zero word, is at its one result index the sum of
  every element; the index set is the product of the three non-unit coordinate ranges (the channel coordinate is
  always 0), so the sum is the nested sum over batch, row and column.
-/
import proofs.«111375_j65884798321056_2_alg».proof.Proof.RefTerm
import Idealize.ShloMosaic.Lib.ValueIdx
import Idealize.ShloMosaic.Lib.IdealHost
import Idealize.ShloMosaic.PureOps.Ideal.Laws

noncomputable section

namespace Cert.ReferenceIdeal.RefRead

open Idealize.ShloMosaic Idealize.ShloMosaic.ValueIdx Cert.ReferenceIdeal Cert.ReferenceIdeal.RefTerm
open Facts₀ Facts
open scoped BigOperators

/-- An index of the array is its batch, row and column coordinates. -/
def idxEquiv4 : S32x1x512x512.Idx ≃ Fin 32 × Fin 512 × Fin 512 where
  toFun i := (i 0, i 2, i 3)
  invFun p := ix4 p.1 (0 : Fin 1) p.2.1 p.2.2
  left_inv i := by
    funext e; refine Fin.ext ?_
    match e with
    | ⟨0, _⟩ => rfl
    | ⟨1, _⟩ => exact (Nat.lt_one_iff.mp (i 1).isLt).symm
    | ⟨2, _⟩ => rfl
    | ⟨3, _⟩ => rfl
  right_inv _ := rfl

/-- A sum over the array's indices is the nested sum over the three coordinates. -/
theorem sum_idx4 {M : Type*} [AddCommMonoid M] (f : S32x1x512x512.Idx → M) :
    ∑ i, f i = ∑ b : Fin 32, ∑ r : Fin 512, ∑ c : Fin 512, f (ix4 b (0 : Fin 1) r c) := by
  rw [← Equiv.sum_comp idxEquiv4.symm f]
  simp only [Fintype.sum_prod_type]
  rfl

variable [Facts]

/-- The reference's full sum at its one index, at the ideal values. -/
theorem sumAll_apply (x : FVec Ideal S32x1x512x512 .f32) (j : S_.Idx) :
    sumAll (F := Ideal) x j = ∑ b : Fin 32, ∑ r : Fin 512, ∑ c : Fin 512, x (ix4 b (0 : Fin 1) r c) := by
  unfold sumAll
  rw [hostReduceAdd_apply, Ideal.hostReduceAdd_total _ (fun b => b.elim0)]
  show Ideal.ofBits .f32 0x00000000#32 + _ = _
  rw [Ideal.ofBits_zero_f32, zero_add]
  exact sum_idx4 x

end Cert.ReferenceIdeal.RefRead

end
-- ==== Proof.RefReadIdx.lean ====
/-
  The neighbour positions as words.

  Along an axis of extent n the reference forms the positions 0 … n − 1 plus one (or minus one, as the word
  2^32 − 1), and clamps them between 0 and n − 1 by a signed maximum and a signed minimum.  Read at position k the
  result is the word of min (k + 1) (n − 1), or of k − 1 (truncated at 0): the clamped neighbour one step up or down.
-/
import proofs.«111375_j65884798321056_2_alg».proof.Proof.RefTerm
import proofs.«111375_j65884798321056_2_alg».proof.Proof.Spec
import Idealize.ShloMosaic.Lib.WordArith
import Idealize.ShloMosaic.Lib.ValueIdx

namespace Cert.ReferenceIdeal.RefRead

open Idealize.ShloMosaic Idealize.ShloMosaic.ValueIdx Cert.ReferenceIdeal Cert.ReferenceIdeal.RefTerm

/-! ## The clamp on words -/

/-- The signed clamp of a word between 0 and a bound below 2^31 is the word of its signed value, cut at 0 and at
    the bound. -/
theorem clamp_word (x : BitVec 32) (m : Nat) (hm : m < 2 ^ 31) :
    IntOp.minsi (BitVec.ofNat 32 m) (IntOp.maxsi 0#32 x) = BitVec.ofNat 32 (min m x.toInt.toNat) := by
  apply BitVec.eq_of_toNat_eq
  have h1 : (BitVec.ofNat 32 m).toNat = m := by rw [BitVec.toNat_ofNat]; omega
  have h2 : 2 * (IntOp.maxsi 0#32 x).toNat < 2 ^ 32 := WordArith.two_mul_toNat_maxsi_zero_lt x
  rw [WordArith.toNat_minsi_of_lt _ _ (by rw [h1]; exact hm) (by omega), h1, WordArith.toNat_maxsi_zero,
    BitVec.toNat_ofNat]
  have : min m x.toInt.toNat ≤ m := Nat.min_le_left _ _
  omega

/-- One step up from position k, clamped at the last position m. -/
theorem up_word (k m : Nat) (hk : k ≤ m) (hm : m + 1 < 2 ^ 31) :
    IntOp.minsi (BitVec.ofNat 32 m) (IntOp.maxsi 0#32 (IntOp.addi (BitVec.ofNat 32 k) 1#32))
      = BitVec.ofNat 32 (min (k + 1) m) := by
  rw [clamp_word _ _ (by omega)]
  have e : (IntOp.addi (BitVec.ofNat 32 k) 1#32).toInt = (k : Int) + 1 := by
    have hk' : (BitVec.ofNat 32 k).toInt = (k : Int) := WordArith.toInt_ofNat_small k (by omega)
    have h1 : (1#32 : BitVec 32).toInt = 1 := by rfl
    show (BitVec.ofNat 32 k + 1#32).toInt = _
    rw [WordArith.toInt_add_of_bounds _ _ (by rw [hk', h1]; omega) (by rw [hk', h1]; omega), hk', h1]
  rw [e]
  have e2 : min m ((k : Int) + 1).toNat = min (k + 1) m := by omega
  rw [e2]

/-- One step down from position k, clamped at position 0. -/
theorem dn_word (k m : Nat) (hk : k ≤ m) (hm : m < 2 ^ 31) :
    IntOp.minsi (BitVec.ofNat 32 m) (IntOp.maxsi 0#32 (IntOp.addi (BitVec.ofNat 32 k) 4294967295#32))
      = BitVec.ofNat 32 (k - 1) := by
  rw [clamp_word _ _ hm]
  have e : (IntOp.addi (BitVec.ofNat 32 k) 4294967295#32).toInt = (k : Int) - 1 := by
    have hk' : (BitVec.ofNat 32 k).toInt = (k : Int) := WordArith.toInt_ofNat_small k (by omega)
    have h1 : (4294967295#32 : BitVec 32).toInt = -1 := by rfl
    show (BitVec.ofNat 32 k + 4294967295#32).toInt = _
    rw [WordArith.toInt_add_of_bounds _ _ (by rw [hk', h1]; omega) (by rw [hk', h1]; omega), hk', h1]
    omega
  rw [e]
  have e2 : min m ((k : Int) - 1).toNat = k - 1 := by omega
  rw [e2]

/-! ## The six position vectors -/

variable [Facts]

theorem up32_apply (k : Fin 32) : up32 (ix1 k) = BitVec.ofNat 32 (Cert.Spec.up k).val := by
  show IntOp.minsi (BitVec.ofNat 32 31) (IntOp.maxsi 0#32 (IntOp.addi (BitVec.ofNat 32 k.val) 1#32)) = _
  rw [up_word k.val 31 (by omega) (by omega)]; rfl

theorem dn32_apply (k : Fin 32) : dn32 (ix1 k) = BitVec.ofNat 32 (Cert.Spec.dn k).val := by
  show IntOp.minsi (BitVec.ofNat 32 31) (IntOp.maxsi 0#32 (IntOp.addi (BitVec.ofNat 32 k.val) 4294967295#32)) = _
  rw [dn_word k.val 31 (by omega) (by omega)]; rfl

theorem up1_apply (k : Fin 1) : up1 (ix1 k) = BitVec.ofNat 32 (Cert.Spec.up k).val := by
  show IntOp.minsi (BitVec.ofNat 32 0) (IntOp.maxsi 0#32 (IntOp.addi (BitVec.ofNat 32 k.val) 1#32)) = _
  rw [up_word k.val 0 (by omega) (by omega)]; rfl

theorem dn1_apply (k : Fin 1) : dn1 (ix1 k) = BitVec.ofNat 32 (Cert.Spec.dn k).val := by
  show IntOp.minsi (BitVec.ofNat 32 0) (IntOp.maxsi 0#32 (IntOp.addi (BitVec.ofNat 32 k.val) 4294967295#32)) = _
  rw [dn_word k.val 0 (by omega) (by omega)]; rfl

theorem up512_apply (k : Fin 512) : up512 (ix1 k) = BitVec.ofNat 32 (Cert.Spec.up k).val := by
  show IntOp.minsi (BitVec.ofNat 32 511) (IntOp.maxsi 0#32 (IntOp.addi (BitVec.ofNat 32 k.val) 1#32)) = _
  rw [up_word k.val 511 (by omega) (by omega)]; rfl

theorem dn512_apply (k : Fin 512) : dn512 (ix1 k) = BitVec.ofNat 32 (Cert.Spec.dn k).val := by
  show IntOp.minsi (BitVec.ofNat 32 511) (IntOp.maxsi 0#32 (IntOp.addi (BitVec.ofNat 32 k.val) 4294967295#32)) = _
  rw [dn_word k.val 511 (by omega) (by omega)]; rfl

end Cert.ReferenceIdeal.RefRead
-- ==== Proof.RefReadGather.lean ====
/-
  The four gathers read at an index.

  Each take of the reference gathers, along one axis of the [32,1,512,512] mask, the slices at a column of start
  positions: the axis is collapsed and indexed, the other three axes are kept whole as the result's offset axes.
  The result at (b, z, r, c) is therefore the operand at the same coordinates, except on the gathered axis, where
  the coordinate is the start position of that row of the column, read signed and clamped into the axis.
-/
import proofs.«111375_j65884798321056_2_alg».proof.Proof.RefTerm
import Idealize.ShloMosaic.Lib.ValueIdx

namespace Cert.ReferenceIdeal.RefRead

open Idealize.ShloMosaic Idealize.ShloMosaic.ValueIdx Cert.ReferenceIdeal Cert.ReferenceIdeal.RefTerm

/-- A rank-4 index with the given coordinates is the index built from them. -/
theorem ix4_ext {n0 n1 n2 n3 : Nat} (x : (⟨4, ![n0, n1, n2, n3]⟩ : Shape).Idx) (a : Fin n0) (b : Fin n1) (c : Fin n2)
    (d : Fin n3) (h0 : (x 0 : ℕ) = a) (h1 : (x 1 : ℕ) = b) (h2 : (x 2 : ℕ) = c) (h3 : (x 3 : ℕ) = d) :
    x = ix4 a b c d := by
  funext e; refine Fin.ext ?_
  match e with
  | ⟨0, _⟩ => exact h0
  | ⟨1, _⟩ => exact h1
  | ⟨2, _⟩ => exact h2
  | ⟨3, _⟩ => exact h3

variable [Facts] {α : Type}

/-- The gather along axis 0 read at (b, z, r, c): the operand at the start index of row `b`, read signed and clamped
    into the axis, on axis 0, and at the result's own coordinates on the other axes. -/
theorem gather0_apply (x : S32x1x512x512.Idx → α) (idx : IVec S32x1 32) (b : Fin 32) (z : Fin 1) (r c : Fin 512) :
    Host.gather gather_S32x1x512x512_S32x1_S32x1x512x512_123_0_n_n_0_1_11512512 x idx (ix4 b z r c) = x (ix4 (⟨min (idx (ix2 b (0 : Fin 1))).toInt.toNat 31, by omega⟩ : Fin 32) z r c) := by
  unfold Host.gather
  refine congrArg x (ix4_ext _ _ _ _ _ ?_ ?_ ?_ ?_)
  · show (gather_S32x1x512x512_S32x1_S32x1x512x512_123_0_n_n_0_1_11512512).start (ix4 b z r c) idx 0 + (gather_S32x1x512x512_S32x1_S32x1x512x512_123_0_n_n_0_1_11512512).batchCoord (ix4 b z r c) 0
        + (gather_S32x1x512x512_S32x1_S32x1x512x512_123_0_n_n_0_1_11512512).offCoord (ix4 b z r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 4) ∈ (gather_S32x1x512x512_S32x1_S32x1x512x512_123_0_n_n_0_1_11512512).startIndexMap from List.mem_singleton.mpr rfl)]
    have hsi : (gather_S32x1x512x512_S32x1_S32x1x512x512_123_0_n_n_0_1_11512512).siIdx (ix4 b z r c) ⟨List.idxOf (0 : Fin 4) (gather_S32x1x512x512_S32x1_S32x1x512x512_123_0_n_n_0_1_11512512).startIndexMap,
        List.idxOf_lt_length_iff.2 (List.mem_singleton.mpr rfl)⟩ = ix2 b (0 : Fin 1) := by
      funext e; refine Fin.ext ?_
      match e with
      | ⟨0, _⟩ => rfl
      | ⟨1, _⟩ => rfl
    rw [hsi]
    rfl
  · show (gather_S32x1x512x512_S32x1_S32x1x512x512_123_0_n_n_0_1_11512512).start (ix4 b z r c) idx 1 + (gather_S32x1x512x512_S32x1_S32x1x512x512_123_0_n_n_0_1_11512512).batchCoord (ix4 b z r c) 1
        + (gather_S32x1x512x512_S32x1_S32x1x512x512_123_0_n_n_0_1_11512512).offCoord (ix4 b z r c) 1 = (z : ℕ)
    have hs : (gather_S32x1x512x512_S32x1_S32x1x512x512_123_0_n_n_0_1_11512512).start (ix4 b z r c) idx 1 = 0 := by
      unfold GatherDims.start
      rw [dif_neg (show (1 : Fin 4) ∉ (gather_S32x1x512x512_S32x1_S32x1x512x512_123_0_n_n_0_1_11512512).startIndexMap from
        (show (1 : Fin 4) ∉ ([0] : List (Fin 4)) from by decide))]
    have ho : (gather_S32x1x512x512_S32x1_S32x1x512x512_123_0_n_n_0_1_11512512).offCoord (ix4 b z r c) 1 = (z : ℕ) := by
      unfold GatherDims.offCoord
      rw [dif_pos ((GatherDims.mem_sKept _ _).mpr ⟨(show (1 : Fin 4) ∉ ([0] : List (Fin 4)) from by decide), List.not_mem_nil⟩)]
      rfl
    rw [hs, ho, GatherDims.batchCoord_eq_zero _ _ _ List.not_mem_nil]
    omega
  · show (gather_S32x1x512x512_S32x1_S32x1x512x512_123_0_n_n_0_1_11512512).start (ix4 b z r c) idx 2 + (gather_S32x1x512x512_S32x1_S32x1x512x512_123_0_n_n_0_1_11512512).batchCoord (ix4 b z r c) 2
        + (gather_S32x1x512x512_S32x1_S32x1x512x512_123_0_n_n_0_1_11512512).offCoord (ix4 b z r c) 2 = (r : ℕ)
    have hs : (gather_S32x1x512x512_S32x1_S32x1x512x512_123_0_n_n_0_1_11512512).start (ix4 b z r c) idx 2 = 0 := by
      unfold GatherDims.start
      rw [dif_neg (show (2 : Fin 4) ∉ (gather_S32x1x512x512_S32x1_S32x1x512x512_123_0_n_n_0_1_11512512).startIndexMap from
        (show (2 : Fin 4) ∉ ([0] : List (Fin 4)) from by decide))]
    have ho : (gather_S32x1x512x512_S32x1_S32x1x512x512_123_0_n_n_0_1_11512512).offCoord (ix4 b z r c) 2 = (r : ℕ) := by
      unfold GatherDims.offCoord
      rw [dif_pos ((GatherDims.mem_sKept _ _).mpr ⟨(show (2 : Fin 4) ∉ ([0] : List (Fin 4)) from by decide), List.not_mem_nil⟩)]
      rfl
    rw [hs, ho, GatherDims.batchCoord_eq_zero _ _ _ List.not_mem_nil]
    omega
  · show (gather_S32x1x512x512_S32x1_S32x1x512x512_123_0_n_n_0_1_11512512).start (ix4 b z r c) idx 3 + (gather_S32x1x512x512_S32x1_S32x1x512x512_123_0_n_n_0_1_11512512).batchCoord (ix4 b z r c) 3
        + (gather_S32x1x512x512_S32x1_S32x1x512x512_123_0_n_n_0_1_11512512).offCoord (ix4 b z r c) 3 = (c : ℕ)
    have hs : (gather_S32x1x512x512_S32x1_S32x1x512x512_123_0_n_n_0_1_11512512).start (ix4 b z r c) idx 3 = 0 := by
      unfold GatherDims.start
      rw [dif_neg (show (3 : Fin 4) ∉ (gather_S32x1x512x512_S32x1_S32x1x512x512_123_0_n_n_0_1_11512512).startIndexMap from
        (show (3 : Fin 4) ∉ ([0] : List (Fin 4)) from by decide))]
    have ho : (gather_S32x1x512x512_S32x1_S32x1x512x512_123_0_n_n_0_1_11512512).offCoord (ix4 b z r c) 3 = (c : ℕ) := by
      unfold GatherDims.offCoord
      rw [dif_pos ((GatherDims.mem_sKept _ _).mpr ⟨(show (3 : Fin 4) ∉ ([0] : List (Fin 4)) from by decide), List.not_mem_nil⟩)]
      rfl
    rw [hs, ho, GatherDims.batchCoord_eq_zero _ _ _ List.not_mem_nil]
    omega

/-- The gather along axis 1 read at (b, z, r, c): the operand at the start index of row `z`, read signed and clamped
    into the axis, on axis 1, and at the result's own coordinates on the other axes. -/
theorem gather1_apply (x : S32x1x512x512.Idx → α) (idx : IVec S1x1 32) (b : Fin 32) (z : Fin 1) (r c : Fin 512) :
    Host.gather gather_S32x1x512x512_S1x1_S32x1x512x512_023_1_n_n_1_1_321512512 x idx (ix4 b z r c) = x (ix4 b (⟨min (idx (ix2 z (0 : Fin 1))).toInt.toNat 0, by omega⟩ : Fin 1) r c) := by
  unfold Host.gather
  refine congrArg x (ix4_ext _ _ _ _ _ ?_ ?_ ?_ ?_)
  · show (gather_S32x1x512x512_S1x1_S32x1x512x512_023_1_n_n_1_1_321512512).start (ix4 b z r c) idx 0 + (gather_S32x1x512x512_S1x1_S32x1x512x512_023_1_n_n_1_1_321512512).batchCoord (ix4 b z r c) 0
        + (gather_S32x1x512x512_S1x1_S32x1x512x512_023_1_n_n_1_1_321512512).offCoord (ix4 b z r c) 0 = (b : ℕ)
    have hs : (gather_S32x1x512x512_S1x1_S32x1x512x512_023_1_n_n_1_1_321512512).start (ix4 b z r c) idx 0 = 0 := by
      unfold GatherDims.start
      rw [dif_neg (show (0 : Fin 4) ∉ (gather_S32x1x512x512_S1x1_S32x1x512x512_023_1_n_n_1_1_321512512).startIndexMap from
        (show (0 : Fin 4) ∉ ([1] : List (Fin 4)) from by decide))]
    have ho : (gather_S32x1x512x512_S1x1_S32x1x512x512_023_1_n_n_1_1_321512512).offCoord (ix4 b z r c) 0 = (b : ℕ) := by
      unfold GatherDims.offCoord
      rw [dif_pos ((GatherDims.mem_sKept _ _).mpr ⟨(show (0 : Fin 4) ∉ ([1] : List (Fin 4)) from by decide), List.not_mem_nil⟩)]
      rfl
    rw [hs, ho, GatherDims.batchCoord_eq_zero _ _ _ List.not_mem_nil]
    omega
  · show (gather_S32x1x512x512_S1x1_S32x1x512x512_023_1_n_n_1_1_321512512).start (ix4 b z r c) idx 1 + (gather_S32x1x512x512_S1x1_S32x1x512x512_023_1_n_n_1_1_321512512).batchCoord (ix4 b z r c) 1
        + (gather_S32x1x512x512_S1x1_S32x1x512x512_023_1_n_n_1_1_321512512).offCoord (ix4 b z r c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 4) ∈ (gather_S32x1x512x512_S1x1_S32x1x512x512_023_1_n_n_1_1_321512512).startIndexMap from List.mem_singleton.mpr rfl)]
    have hsi : (gather_S32x1x512x512_S1x1_S32x1x512x512_023_1_n_n_1_1_321512512).siIdx (ix4 b z r c) ⟨List.idxOf (1 : Fin 4) (gather_S32x1x512x512_S1x1_S32x1x512x512_023_1_n_n_1_1_321512512).startIndexMap,
        List.idxOf_lt_length_iff.2 (List.mem_singleton.mpr rfl)⟩ = ix2 z (0 : Fin 1) := by
      funext e; refine Fin.ext ?_
      match e with
      | ⟨0, _⟩ => rfl
      | ⟨1, _⟩ => rfl
    rw [hsi]
    rfl
  · show (gather_S32x1x512x512_S1x1_S32x1x512x512_023_1_n_n_1_1_321512512).start (ix4 b z r c) idx 2 + (gather_S32x1x512x512_S1x1_S32x1x512x512_023_1_n_n_1_1_321512512).batchCoord (ix4 b z r c) 2
        + (gather_S32x1x512x512_S1x1_S32x1x512x512_023_1_n_n_1_1_321512512).offCoord (ix4 b z r c) 2 = (r : ℕ)
    have hs : (gather_S32x1x512x512_S1x1_S32x1x512x512_023_1_n_n_1_1_321512512).start (ix4 b z r c) idx 2 = 0 := by
      unfold GatherDims.start
      rw [dif_neg (show (2 : Fin 4) ∉ (gather_S32x1x512x512_S1x1_S32x1x512x512_023_1_n_n_1_1_321512512).startIndexMap from
        (show (2 : Fin 4) ∉ ([1] : List (Fin 4)) from by decide))]
    have ho : (gather_S32x1x512x512_S1x1_S32x1x512x512_023_1_n_n_1_1_321512512).offCoord (ix4 b z r c) 2 = (r : ℕ) := by
      unfold GatherDims.offCoord
      rw [dif_pos ((GatherDims.mem_sKept _ _).mpr ⟨(show (2 : Fin 4) ∉ ([1] : List (Fin 4)) from by decide), List.not_mem_nil⟩)]
      rfl
    rw [hs, ho, GatherDims.batchCoord_eq_zero _ _ _ List.not_mem_nil]
    omega
  · show (gather_S32x1x512x512_S1x1_S32x1x512x512_023_1_n_n_1_1_321512512).start (ix4 b z r c) idx 3 + (gather_S32x1x512x512_S1x1_S32x1x512x512_023_1_n_n_1_1_321512512).batchCoord (ix4 b z r c) 3
        + (gather_S32x1x512x512_S1x1_S32x1x512x512_023_1_n_n_1_1_321512512).offCoord (ix4 b z r c) 3 = (c : ℕ)
    have hs : (gather_S32x1x512x512_S1x1_S32x1x512x512_023_1_n_n_1_1_321512512).start (ix4 b z r c) idx 3 = 0 := by
      unfold GatherDims.start
      rw [dif_neg (show (3 : Fin 4) ∉ (gather_S32x1x512x512_S1x1_S32x1x512x512_023_1_n_n_1_1_321512512).startIndexMap from
        (show (3 : Fin 4) ∉ ([1] : List (Fin 4)) from by decide))]
    have ho : (gather_S32x1x512x512_S1x1_S32x1x512x512_023_1_n_n_1_1_321512512).offCoord (ix4 b z r c) 3 = (c : ℕ) := by
      unfold GatherDims.offCoord
      rw [dif_pos ((GatherDims.mem_sKept _ _).mpr ⟨(show (3 : Fin 4) ∉ ([1] : List (Fin 4)) from by decide), List.not_mem_nil⟩)]
      rfl
    rw [hs, ho, GatherDims.batchCoord_eq_zero _ _ _ List.not_mem_nil]
    omega

/-- The gather along axis 2 read at (b, z, r, c): the operand at the start index of row `r`, read signed and clamped
    into the axis, on axis 2, and at the result's own coordinates on the other axes. -/
theorem gather2_apply (x : S32x1x512x512.Idx → α) (idx : IVec S512x1 32) (b : Fin 32) (z : Fin 1) (r c : Fin 512) :
    Host.gather gather_S32x1x512x512_S512x1_S32x1x512x512_013_2_n_n_2_1_3211512 x idx (ix4 b z r c) = x (ix4 b z (⟨min (idx (ix2 r (0 : Fin 1))).toInt.toNat 511, by omega⟩ : Fin 512) c) := by
  unfold Host.gather
  refine congrArg x (ix4_ext _ _ _ _ _ ?_ ?_ ?_ ?_)
  · show (gather_S32x1x512x512_S512x1_S32x1x512x512_013_2_n_n_2_1_3211512).start (ix4 b z r c) idx 0 + (gather_S32x1x512x512_S512x1_S32x1x512x512_013_2_n_n_2_1_3211512).batchCoord (ix4 b z r c) 0
        + (gather_S32x1x512x512_S512x1_S32x1x512x512_013_2_n_n_2_1_3211512).offCoord (ix4 b z r c) 0 = (b : ℕ)
    have hs : (gather_S32x1x512x512_S512x1_S32x1x512x512_013_2_n_n_2_1_3211512).start (ix4 b z r c) idx 0 = 0 := by
      unfold GatherDims.start
      rw [dif_neg (show (0 : Fin 4) ∉ (gather_S32x1x512x512_S512x1_S32x1x512x512_013_2_n_n_2_1_3211512).startIndexMap from
        (show (0 : Fin 4) ∉ ([2] : List (Fin 4)) from by decide))]
    have ho : (gather_S32x1x512x512_S512x1_S32x1x512x512_013_2_n_n_2_1_3211512).offCoord (ix4 b z r c) 0 = (b : ℕ) := by
      unfold GatherDims.offCoord
      rw [dif_pos ((GatherDims.mem_sKept _ _).mpr ⟨(show (0 : Fin 4) ∉ ([2] : List (Fin 4)) from by decide), List.not_mem_nil⟩)]
      rfl
    rw [hs, ho, GatherDims.batchCoord_eq_zero _ _ _ List.not_mem_nil]
    omega
  · show (gather_S32x1x512x512_S512x1_S32x1x512x512_013_2_n_n_2_1_3211512).start (ix4 b z r c) idx 1 + (gather_S32x1x512x512_S512x1_S32x1x512x512_013_2_n_n_2_1_3211512).batchCoord (ix4 b z r c) 1
        + (gather_S32x1x512x512_S512x1_S32x1x512x512_013_2_n_n_2_1_3211512).offCoord (ix4 b z r c) 1 = (z : ℕ)
    have hs : (gather_S32x1x512x512_S512x1_S32x1x512x512_013_2_n_n_2_1_3211512).start (ix4 b z r c) idx 1 = 0 := by
      unfold GatherDims.start
      rw [dif_neg (show (1 : Fin 4) ∉ (gather_S32x1x512x512_S512x1_S32x1x512x512_013_2_n_n_2_1_3211512).startIndexMap from
        (show (1 : Fin 4) ∉ ([2] : List (Fin 4)) from by decide))]
    have ho : (gather_S32x1x512x512_S512x1_S32x1x512x512_013_2_n_n_2_1_3211512).offCoord (ix4 b z r c) 1 = (z : ℕ) := by
      unfold GatherDims.offCoord
      rw [dif_pos ((GatherDims.mem_sKept _ _).mpr ⟨(show (1 : Fin 4) ∉ ([2] : List (Fin 4)) from by decide), List.not_mem_nil⟩)]
      rfl
    rw [hs, ho, GatherDims.batchCoord_eq_zero _ _ _ List.not_mem_nil]
    omega
  · show (gather_S32x1x512x512_S512x1_S32x1x512x512_013_2_n_n_2_1_3211512).start (ix4 b z r c) idx 2 + (gather_S32x1x512x512_S512x1_S32x1x512x512_013_2_n_n_2_1_3211512).batchCoord (ix4 b z r c) 2
        + (gather_S32x1x512x512_S512x1_S32x1x512x512_013_2_n_n_2_1_3211512).offCoord (ix4 b z r c) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 4) ∈ (gather_S32x1x512x512_S512x1_S32x1x512x512_013_2_n_n_2_1_3211512).startIndexMap from List.mem_singleton.mpr rfl)]
    have hsi : (gather_S32x1x512x512_S512x1_S32x1x512x512_013_2_n_n_2_1_3211512).siIdx (ix4 b z r c) ⟨List.idxOf (2 : Fin 4) (gather_S32x1x512x512_S512x1_S32x1x512x512_013_2_n_n_2_1_3211512).startIndexMap,
        List.idxOf_lt_length_iff.2 (List.mem_singleton.mpr rfl)⟩ = ix2 r (0 : Fin 1) := by
      funext e; refine Fin.ext ?_
      match e with
      | ⟨0, _⟩ => rfl
      | ⟨1, _⟩ => rfl
    rw [hsi]
    rfl
  · show (gather_S32x1x512x512_S512x1_S32x1x512x512_013_2_n_n_2_1_3211512).start (ix4 b z r c) idx 3 + (gather_S32x1x512x512_S512x1_S32x1x512x512_013_2_n_n_2_1_3211512).batchCoord (ix4 b z r c) 3
        + (gather_S32x1x512x512_S512x1_S32x1x512x512_013_2_n_n_2_1_3211512).offCoord (ix4 b z r c) 3 = (c : ℕ)
    have hs : (gather_S32x1x512x512_S512x1_S32x1x512x512_013_2_n_n_2_1_3211512).start (ix4 b z r c) idx 3 = 0 := by
      unfold GatherDims.start
      rw [dif_neg (show (3 : Fin 4) ∉ (gather_S32x1x512x512_S512x1_S32x1x512x512_013_2_n_n_2_1_3211512).startIndexMap from
        (show (3 : Fin 4) ∉ ([2] : List (Fin 4)) from by decide))]
    have ho : (gather_S32x1x512x512_S512x1_S32x1x512x512_013_2_n_n_2_1_3211512).offCoord (ix4 b z r c) 3 = (c : ℕ) := by
      unfold GatherDims.offCoord
      rw [dif_pos ((GatherDims.mem_sKept _ _).mpr ⟨(show (3 : Fin 4) ∉ ([2] : List (Fin 4)) from by decide), List.not_mem_nil⟩)]
      rfl
    rw [hs, ho, GatherDims.batchCoord_eq_zero _ _ _ List.not_mem_nil]
    omega

/-- The gather along axis 3 read at (b, z, r, c): the operand at the start index of row `c`, read signed and clamped
    into the axis, on axis 3, and at the result's own coordinates on the other axes. -/
theorem gather3_apply (x : S32x1x512x512.Idx → α) (idx : IVec S512x1 32) (b : Fin 32) (z : Fin 1) (r c : Fin 512) :
    Host.gather gather_S32x1x512x512_S512x1_S32x1x512x512_012_3_n_n_3_1_3215121 x idx (ix4 b z r c) = x (ix4 b z r (⟨min (idx (ix2 c (0 : Fin 1))).toInt.toNat 511, by omega⟩ : Fin 512)) := by
  unfold Host.gather
  refine congrArg x (ix4_ext _ _ _ _ _ ?_ ?_ ?_ ?_)
  · show (gather_S32x1x512x512_S512x1_S32x1x512x512_012_3_n_n_3_1_3215121).start (ix4 b z r c) idx 0 + (gather_S32x1x512x512_S512x1_S32x1x512x512_012_3_n_n_3_1_3215121).batchCoord (ix4 b z r c) 0
        + (gather_S32x1x512x512_S512x1_S32x1x512x512_012_3_n_n_3_1_3215121).offCoord (ix4 b z r c) 0 = (b : ℕ)
    have hs : (gather_S32x1x512x512_S512x1_S32x1x512x512_012_3_n_n_3_1_3215121).start (ix4 b z r c) idx 0 = 0 := by
      unfold GatherDims.start
      rw [dif_neg (show (0 : Fin 4) ∉ (gather_S32x1x512x512_S512x1_S32x1x512x512_012_3_n_n_3_1_3215121).startIndexMap from
        (show (0 : Fin 4) ∉ ([3] : List (Fin 4)) from by decide))]
    have ho : (gather_S32x1x512x512_S512x1_S32x1x512x512_012_3_n_n_3_1_3215121).offCoord (ix4 b z r c) 0 = (b : ℕ) := by
      unfold GatherDims.offCoord
      rw [dif_pos ((GatherDims.mem_sKept _ _).mpr ⟨(show (0 : Fin 4) ∉ ([3] : List (Fin 4)) from by decide), List.not_mem_nil⟩)]
      rfl
    rw [hs, ho, GatherDims.batchCoord_eq_zero _ _ _ List.not_mem_nil]
    omega
  · show (gather_S32x1x512x512_S512x1_S32x1x512x512_012_3_n_n_3_1_3215121).start (ix4 b z r c) idx 1 + (gather_S32x1x512x512_S512x1_S32x1x512x512_012_3_n_n_3_1_3215121).batchCoord (ix4 b z r c) 1
        + (gather_S32x1x512x512_S512x1_S32x1x512x512_012_3_n_n_3_1_3215121).offCoord (ix4 b z r c) 1 = (z : ℕ)
    have hs : (gather_S32x1x512x512_S512x1_S32x1x512x512_012_3_n_n_3_1_3215121).start (ix4 b z r c) idx 1 = 0 := by
      unfold GatherDims.start
      rw [dif_neg (show (1 : Fin 4) ∉ (gather_S32x1x512x512_S512x1_S32x1x512x512_012_3_n_n_3_1_3215121).startIndexMap from
        (show (1 : Fin 4) ∉ ([3] : List (Fin 4)) from by decide))]
    have ho : (gather_S32x1x512x512_S512x1_S32x1x512x512_012_3_n_n_3_1_3215121).offCoord (ix4 b z r c) 1 = (z : ℕ) := by
      unfold GatherDims.offCoord
      rw [dif_pos ((GatherDims.mem_sKept _ _).mpr ⟨(show (1 : Fin 4) ∉ ([3] : List (Fin 4)) from by decide), List.not_mem_nil⟩)]
      rfl
    rw [hs, ho, GatherDims.batchCoord_eq_zero _ _ _ List.not_mem_nil]
    omega
  · show (gather_S32x1x512x512_S512x1_S32x1x512x512_012_3_n_n_3_1_3215121).start (ix4 b z r c) idx 2 + (gather_S32x1x512x512_S512x1_S32x1x512x512_012_3_n_n_3_1_3215121).batchCoord (ix4 b z r c) 2
        + (gather_S32x1x512x512_S512x1_S32x1x512x512_012_3_n_n_3_1_3215121).offCoord (ix4 b z r c) 2 = (r : ℕ)
    have hs : (gather_S32x1x512x512_S512x1_S32x1x512x512_012_3_n_n_3_1_3215121).start (ix4 b z r c) idx 2 = 0 := by
      unfold GatherDims.start
      rw [dif_neg (show (2 : Fin 4) ∉ (gather_S32x1x512x512_S512x1_S32x1x512x512_012_3_n_n_3_1_3215121).startIndexMap from
        (show (2 : Fin 4) ∉ ([3] : List (Fin 4)) from by decide))]
    have ho : (gather_S32x1x512x512_S512x1_S32x1x512x512_012_3_n_n_3_1_3215121).offCoord (ix4 b z r c) 2 = (r : ℕ) := by
      unfold GatherDims.offCoord
      rw [dif_pos ((GatherDims.mem_sKept _ _).mpr ⟨(show (2 : Fin 4) ∉ ([3] : List (Fin 4)) from by decide), List.not_mem_nil⟩)]
      rfl
    rw [hs, ho, GatherDims.batchCoord_eq_zero _ _ _ List.not_mem_nil]
    omega
  · show (gather_S32x1x512x512_S512x1_S32x1x512x512_012_3_n_n_3_1_3215121).start (ix4 b z r c) idx 3 + (gather_S32x1x512x512_S512x1_S32x1x512x512_012_3_n_n_3_1_3215121).batchCoord (ix4 b z r c) 3
        + (gather_S32x1x512x512_S512x1_S32x1x512x512_012_3_n_n_3_1_3215121).offCoord (ix4 b z r c) 3 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (3 : Fin 4) ∈ (gather_S32x1x512x512_S512x1_S32x1x512x512_012_3_n_n_3_1_3215121).startIndexMap from List.mem_singleton.mpr rfl)]
    have hsi : (gather_S32x1x512x512_S512x1_S32x1x512x512_012_3_n_n_3_1_3215121).siIdx (ix4 b z r c) ⟨List.idxOf (3 : Fin 4) (gather_S32x1x512x512_S512x1_S32x1x512x512_012_3_n_n_3_1_3215121).startIndexMap,
        List.idxOf_lt_length_iff.2 (List.mem_singleton.mpr rfl)⟩ = ix2 c (0 : Fin 1) := by
      funext e; refine Fin.ext ?_
      match e with
      | ⟨0, _⟩ => rfl
      | ⟨1, _⟩ => rfl
    rw [hsi]
    rfl

end Cert.ReferenceIdeal.RefRead
-- ==== Proof.LibIdx.lean ====
/-
  Indices of arrays of small rank, written by coordinates: an index whose coordinates are given numbers is the index
  built from them.  Used to identify an index computed by a window's block map, or by a contraction's operand map, with
  the index a specification names.
-/
import Idealize.ShloMosaic.Lib.ValueIdx

namespace Cert.Proof.LibIdx

open Idealize.ShloMosaic Idealize.ShloMosaic.ValueIdx

/-- A rank-1 index with the given coordinate is the index built from it. -/
theorem ix1_ext {n0 : Nat} (x : (⟨1, ![n0]⟩ : Shape).Idx) (a : Fin n0) (h0 : (x 0 : ℕ) = a) : x = ix1 a := by
  have e0 : x 0 = a := Fin.ext h0
  exact (eq_ix1 x).trans (by rw [e0]; rfl)

/-- A rank-2 index with the given coordinates is the index built from them. -/
theorem ix2_ext {n0 n1 : Nat} (x : (⟨2, ![n0, n1]⟩ : Shape).Idx) (a : Fin n0) (b : Fin n1)
    (h0 : (x 0 : ℕ) = a) (h1 : (x 1 : ℕ) = b) : x = ix2 a b := by
  have e0 : x 0 = a := Fin.ext h0
  have e1 : x 1 = b := Fin.ext h1
  exact (eq_ix2 x).trans (by rw [e0, e1]; rfl)

/-- A rank-3 index with the given coordinates is the index built from them. -/
theorem ix3_ext {n0 n1 n2 : Nat} (x : (⟨3, ![n0, n1, n2]⟩ : Shape).Idx) (a : Fin n0) (b : Fin n1) (c : Fin n2)
    (h0 : (x 0 : ℕ) = a) (h1 : (x 1 : ℕ) = b) (h2 : (x 2 : ℕ) = c) : x = ix3 a b c := by
  have e0 : x 0 = a := Fin.ext h0
  have e1 : x 1 = b := Fin.ext h1
  have e2 : x 2 = c := Fin.ext h2
  exact (eq_ix3 x).trans (by rw [e0, e1, e2]; rfl)

end Cert.Proof.LibIdx
-- ==== Proof.LibTake.lean ====
/-
  Reading a table lookup along the first axis — `jnp.take(table, positions, axis = 0)` with the default handling of
  positions outside the table — one piece at a time, for any table `[N, D]` and any positions `[R, C]`:

  * a position below 2^31, held as a 32-bit word, read back as a signed integer, and its comparisons with 0 and
    with a bound;
  * a conjunction over an axis (`stablehlo.reduce` by `and` from 1) of words that are all 1 is 1;
  * the gather of one row per position: result entry (r, c, d) is the table's entry (row, d), where row is the
    start index at (r, c, 0) read signed and clamped into 0 … N − 1.
-/
import Idealize.ShloMosaic.Lib.ValueIdx
import Idealize.ShloMosaic.Lib.ReduceAll
import proofs.«111375_j65884798321056_2_alg».proof.Proof.LibIdx

namespace Cert.Proof.LibTake

open Idealize.ShloMosaic Idealize.ShloMosaic.ValueIdx Cert.Proof.LibIdx

/-! ## A small natural number as a 32-bit word, read signed -/

/-- A number below 2^31, as a 32-bit word, reads back signed as itself. -/
theorem toInt_ofNat_small (n : Nat) (h : n < 2147483648) : (BitVec.ofNat 32 n).toInt = (n : Int) := by
  rw [BitVec.toInt_eq_toNat_cond, BitVec.toNat_ofNat]
  have e : n % 2 ^ 32 = n := Nat.mod_eq_of_lt (by omega)
  rw [e]
  split <;> omega

/-- … and so its signed value as a natural number is itself. -/
theorem toInt_toNat_ofNat_small (n : Nat) (h : n < 2147483648) : (BitVec.ofNat 32 n).toInt.toNat = n := by
  rw [toInt_ofNat_small n h]; rfl

/-- It is not negative … -/
theorem cmpi_slt_zero (n : Nat) (h : n < 2147483648) : IntOp.cmpi .slt (BitVec.ofNat 32 n) 0#32 = 0#1 := by
  have e : (BitVec.ofNat 32 n).slt 0#32 = false := by
    rw [BitVec.slt, toInt_ofNat_small n h, decide_eq_false_iff_not]
    show ¬ ((n : Int) < 0)
    omega
  show BitVec.ofBool ((BitVec.ofNat 32 n).slt 0#32) = 0#1
  rw [e]; rfl

/-- … that is, it is at least 0 … -/
theorem cmpi_sge_zero (n : Nat) (h : n < 2147483648) : IntOp.cmpi .sge (BitVec.ofNat 32 n) 0#32 = 1#1 := by
  have e : (0#32 : BitVec 32).sle (BitVec.ofNat 32 n) = true := by
    rw [BitVec.sle, toInt_ofNat_small n h, decide_eq_true_iff]
    show (0 : Int) ≤ (n : Int)
    omega
  show BitVec.ofBool ((0#32 : BitVec 32).sle (BitVec.ofNat 32 n)) = 1#1
  rw [e]; rfl

/-- … and it is at most any bound `k` below 2^31 that it does not exceed. -/
theorem cmpi_sle_bound (n k : Nat) (hk : k < 2147483648) (h : n ≤ k) :
    IntOp.cmpi .sle (BitVec.ofNat 32 n) (BitVec.ofNat 32 k) = 1#1 := by
  have e : (BitVec.ofNat 32 n).sle (BitVec.ofNat 32 k) = true := by
    rw [BitVec.sle, toInt_ofNat_small n (by omega), toInt_ofNat_small k hk, decide_eq_true_iff]
    omega
  show BitVec.ofBool ((BitVec.ofNat 32 n).sle (BitVec.ofNat 32 k)) = 1#1
  rw [e]; rfl

/-! ## A conjunction of ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]
    exact foldl_andi_ones f hf l

/-- A `stablehlo.reduce` by `and`, from an initial value 1, of an array whose entries are all 1 is 1 at every index,
    whatever axes it reduces. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-! ## One table row per position -/

section TakeRows
variable {α : Type}

/-- The dimension numbers of `table[positions]` for a table `[N, D]`, start indices `[R, C, 1]` and a result
    `[R, C, D]`: the row axis collapsed and indexed, the feature axis kept whole as the result's last axis. -/
abbrev takeRowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The start-indices index `[r, c, 0]` under result index `(r, c, d)`. -/
abbrev startIdx {R C D : Nat} (y : (⟨3, ![R, C, D]⟩ : Shape).Idx) : (⟨3, ![R, C, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- THE ROW GATHER READ AT `(r, c, d)`: the table at (row, d), the row being the start index at `[r, c, 0]` read signed
    and clamped into `[0, N − 1]`. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (y : (⟨3, ![R, C, D]⟩ : Shape).Idx) :
    Host.gather (takeRowsDims N D R C wf) x idx y
      = x (ix2 (⟨min (idx (startIdx y)).toInt.toNat (N - 1), by omega⟩ : Fin N) (⟨(y 2).val, (y 2).isLt⟩ : Fin D)) := by
  unfold Host.gather
  refine congrArg x (ix2_ext _ _ _ ?_ ?_)
  · show (takeRowsDims N D R C wf).start y idx 0 + (takeRowsDims N D R C wf).batchCoord y 0
        + (takeRowsDims N D R C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRowsDims N D R C wf).startIndexMap from List.mem_singleton.mpr rfl)]
    have hsi : (takeRowsDims N D R C wf).siIdx y ⟨List.idxOf (0 : Fin 2) (takeRowsDims N D R C wf).startIndexMap,
        List.idxOf_lt_length_iff.2 (List.mem_singleton.mpr rfl)⟩ = startIdx y := by
      funext b; refine Fin.ext ?_
      match b with
      | ⟨0, _⟩ => rfl
      | ⟨1, _⟩ => rfl
      | ⟨2, _⟩ => rfl
    rw [hsi]
    rfl
  · show (takeRowsDims N D R C wf).start y idx 1 + (takeRowsDims N D R C wf).batchCoord y 1
        + (takeRowsDims N D R C wf).offCoord y 1 = (y 2).val
    have hs : (takeRowsDims N D R C wf).start y idx 1 = 0 := by
      unfold GatherDims.start
      rw [dif_neg (show (1 : Fin 2) ∉ ([0] : List (Fin 2)) from by decide)]
    have ho : (takeRowsDims N D R C wf).offCoord y 1 = (y 2).val := by
      unfold GatherDims.offCoord
      rw [dif_pos ((GatherDims.mem_sKept _ _).mpr ⟨(show (1 : Fin 2) ∉ ([0] : List (Fin 2)) from by decide), List.not_mem_nil⟩)]
      rfl
    rw [hs, ho, GatherDims.batchCoord_eq_zero _ _ _ List.not_mem_nil]
    omega

end TakeRows

end Cert.Proof.LibTake
-- ==== Proof.LibIdxPair.lean ====
/-
  The two-column array of start indices that `x[arange(R), t]` builds, read at an index.

  The program makes each of the two index columns by broadcasting a vector `[R]` to a column `[R, 1]`, joins the two
  columns along axis 1 into `[R, 2]`, and before that "wraps" each vector: an entry below zero has the axis's extent added
  (a negative index counts from the axis's end). Read at row `r`: column 0 of the joined array is the first vector's entry `r`, column 1 the
  second's; a broadcast scalar reads its one value; and the wrap leaves a non-negative entry as it is, so the wrapped
  `arange` at `r` is the word of `r`, which read back as a signed integer is `r` (for `r` below `2³¹`).
-/
import Idealize.ShloMosaic.Lib.ValueIdx
import Idealize.ShloMosaic.Lib.Pipeline.Value

noncomputable section

namespace Cert.LibIdxPair

open Idealize.ShloMosaic Idealize.ShloMosaic.ValueIdx

variable {α : Type}

/-- Column 0 of two joined columns is the first column. -/
theorem concat_col0 {R : Nat} (a b : (⟨2, ![R, 1]⟩ : Shape).Idx → α)
    (hc : Shape.Concatenates [(⟨2, ![R, 1]⟩ : Shape), (⟨2, ![R, 1]⟩ : Shape)] (⟨2, ![R, 2]⟩ : Shape) 1) (r : Fin R) :
    concatenate (⟨2, ![R, 2]⟩ : Shape) 1 [⟨(⟨2, ![R, 1]⟩ : Shape), a⟩, ⟨(⟨2, ![R, 1]⟩ : Shape), b⟩] hc (ix2 r (0 : Fin 2))
      = a (ix2 r (0 : Fin 1)) := by
  refine concatenate_pair_apply_left 1 a b hc (ix2 r (0 : Fin 2)) rfl (ix2 r (0 : Fin 1)) ?_
  intro c
  match c with
  | ⟨0, _⟩ => rfl
  | ⟨1, _⟩ => rfl

/-- Column 1 of two joined columns is the second column. -/
theorem concat_col1 {R : Nat} (a b : (⟨2, ![R, 1]⟩ : Shape).Idx → α)
    (hc : Shape.Concatenates [(⟨2, ![R, 1]⟩ : Shape), (⟨2, ![R, 1]⟩ : Shape)] (⟨2, ![R, 2]⟩ : Shape) 1) (r : Fin R) :
    concatenate (⟨2, ![R, 2]⟩ : Shape) 1 [⟨(⟨2, ![R, 1]⟩ : Shape), a⟩, ⟨(⟨2, ![R, 1]⟩ : Shape), b⟩] hc (ix2 r (1 : Fin 2))
      = b (ix2 r (0 : Fin 1)) := by
  refine concatenate_pair_apply_right 1 a b hc (ix2 r (1 : Fin 2)) rfl rfl (ix2 r (0 : Fin 1)) ?_ ?_
  · intro c hne
    match c with
    | ⟨0, _⟩ => rfl
    | ⟨1, _⟩ => exact absurd rfl hne
  · rfl

/-- A vector broadcast to a column reads its entry of the row. -/
theorem bcast_col_apply {R : Nat} (hb : (⟨1, ![R]⟩ : Shape).BroadcastsInDim (⟨2, ![R, 1]⟩ : Shape) ![0])
    (v : (⟨1, ![R]⟩ : Shape).Idx → α) (r : Fin R) :
    broadcastInDim (⟨2, ![R, 1]⟩ : Shape) ![0] hb v (ix2 r (0 : Fin 1)) = v (ix1 r) := by
  refine broadcastInDim_apply _ hb v _ (ix1 r) fun a => ?_
  match a with
  | ⟨0, _⟩ =>
    show r.val = if R = 1 then 0 else r.val
    have := r.isLt
    split <;> omega

/-- A scalar broadcast to a vector reads its one value. -/
theorem bcast_scalar_apply {R : Nat} (hb : (⟨0, ![]⟩ : Shape).BroadcastsInDim (⟨1, ![R]⟩ : Shape) ![])
    (v : (⟨0, ![]⟩ : Shape).Idx → α) (i : (⟨1, ![R]⟩ : Shape).Idx) :
    broadcastInDim (⟨1, ![R]⟩ : Shape) ![] hb v i = v ix0 :=
  broadcastInDim_apply _ hb v i ix0 (fun a => a.elim0)

/-- The word of a natural below `2³¹`, read signed, is that natural. -/
theorem toInt_ofNat_of_lt (r : Nat) (hr : r < 2 ^ 31) : (BitVec.ofNat 32 r).toInt = (r : Int) := by
  rw [BitVec.toInt_eq_toNat_cond, BitVec.toNat_ofNat]
  split <;> omega

/-- … and clamped below at zero and read as a natural it is still that natural. -/
theorem toInt_toNat_ofNat_of_lt (r : Nat) (hr : r < 2 ^ 31) : (BitVec.ofNat 32 r).toInt.toNat = r := by
  rw [toInt_ofNat_of_lt r hr]; rfl

/-- A word that is not negative is not below zero. -/
theorem cmpi_slt_zero_of_nonneg (x : BitVec 32) (h : 0 ≤ x.toInt) : IntOp.cmpi .slt x 0#32 = 0#1 := by
  have e : x.slt 0#32 = false := by
    rw [BitVec.slt, BitVec.toInt_zero]
    exact decide_eq_false (by omega)
  show BitVec.ofBool (x.slt 0#32) = 0#1
  rw [e]; rfl

/-- The wrap of a non-negative index is the index. -/
theorem wrap_of_nonneg (x n : BitVec 32) (h : 0 ≤ x.toInt) :
    Scalar.select (IntOp.cmpi .slt x 0#32) (IntOp.addi x n) x = x := by
  rw [cmpi_slt_zero_of_nonneg x h, select_zero]

/-- The wrapped `arange` at `r` is the word of `r`. -/
theorem wrap_ofNat (r : Nat) (hr : r < 2 ^ 31) (n : BitVec 32) :
    Scalar.select (IntOp.cmpi .slt (BitVec.ofNat 32 r) 0#32) (IntOp.addi (BitVec.ofNat 32 r) n) (BitVec.ofNat 32 r)
      = BitVec.ofNat 32 r :=
  wrap_of_nonneg _ n (by rw [toInt_ofNat_of_lt r hr]; omega)

end Cert.LibIdxPair

end
-- ==== Proof.LibBroadcastRead.lean ====
/-
  Host broadcasts read at coordinates, and sums over small index sets as sums over rows.

  A scalar broadcast to any shape reads the scalar everywhere; an `[a]` vector broadcast along a new unit axis to an
  `[a, 1]` column reads, at `(i, u)`, the vector at `i`; an `[a, 1]` column broadcast to `[a, b]` reads, at `(i, j)`,
  the column at `(i, 0)`. A sum over the indices of an `[n]` vector, or of an `[n, 1]` column, is the sum over its `n` rows.
-/
import Idealize.ShloMosaic.Lib.Pipeline.Value
import Idealize.ShloMosaic.Lib.ValueIdx

namespace Cert.LibBroadcastRead

open Idealize.ShloMosaic Idealize.ShloMosaic.ValueIdx

variable {α : Type}

/-- A rank-0 value broadcast to any shape reads, at every index, the value. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

/-- An `[a]` vector broadcast to an `[a, 1]` column along axis 0 reads, at `(i, u)`, the vector at `i`. -/
theorem bcast_column_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column broadcast to `[a, b]` along both axes reads, at `(i, j)`, the column at `(i, 0)`. -/
theorem bcast_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A sum over the indices of an `[n]` vector is the sum over its entries. -/
theorem sum_vector {M : Type*} [AddCommMonoid M] {n : ℕ} (f : (⟨1, ![n]⟩ : Shape).Idx → M) :
    ∑ i, f i = ∑ r : Fin n, f (ix1 r) :=
  Fintype.sum_equiv ⟨fun i => i 0, fun r => ix1 r, fun i => (eq_ix1 i).symm, fun _ => rfl⟩ f (fun r => f (ix1 r))
    fun i => congrArg f (eq_ix1 i)

/-- A sum over the indices of an `[n, 1]` column is the sum over its rows. -/
theorem sum_column {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

end Cert.LibBroadcastRead
-- ==== Proof.RefReadTake.lean ====
/-
  The takes read at an index.

  When every position handed to a take is the word of a number inside the axis, the wrap of negative positions
  leaves it alone, the in-range test is 1 everywhere, the clamp inside the gather does nothing, and the select
  against the test returns the gathered value: the take at (b, 0, r, c) is the mask at the same coordinates with
  the taken axis's coordinate replaced by the position of that row.
-/
import proofs.«111375_j65884798321056_2_alg».proof.Proof.RefTerm
import proofs.«111375_j65884798321056_2_alg».proof.Proof.RefReadGather
import proofs.«111375_j65884798321056_2_alg».proof.Proof.LibTake
import proofs.«111375_j65884798321056_2_alg».proof.Proof.LibIdxPair
import proofs.«111375_j65884798321056_2_alg».proof.Proof.LibBroadcastRead

namespace Cert.ReferenceIdeal.RefRead

open Idealize.ShloMosaic Idealize.ShloMosaic.ValueIdx Cert.ReferenceIdeal Cert.ReferenceIdeal.RefTerm
open Facts₀ Facts

variable [Facts]

/-- Positions that are words of numbers inside the axis pass the wrap unchanged and reach the column as they are. -/
theorem col32_apply (i : IVec S32 32) (f : Fin 32 → Fin 32) (hi : ∀ k, i (ix1 k) = BitVec.ofNat 32 (f k).val)
    (k : Fin 32) (u : Fin 1) : col32 i (ix2 k u) = BitVec.ofNat 32 (f k).val := by
  unfold col32
  rw [Cert.LibBroadcastRead.bcast_column_apply]
  show Scalar.select (IntOp.cmpi .slt (i (ix1 k)) 0#32) (IntOp.addi (i (ix1 k)) 32#32) (i (ix1 k)) = _
  have := (f k).isLt
  rw [hi k]
  exact Cert.LibIdxPair.wrap_ofNat _ (by omega) _

/-- … and every one of them passes the in-range test. -/
theorem inRange32_apply (i : IVec S32 32) (f : Fin 32 → Fin 32) (hi : ∀ k, i (ix1 k) = BitVec.ofNat 32 (f k).val)
    (t : S32.Idx) : inRange32 i t = 1#1 := by
  unfold inRange32
  refine Cert.Proof.LibTake.reduce_andi_ones _ _ _ _ (fun j => ?_) rfl t
  obtain ⟨k, u, rfl⟩ : ∃ (k : Fin 32) (u : Fin 1), j = ix2 k u := ⟨j 0, j 1, eq_ix2 j⟩
  show IntOp.andi (IntOp.cmpi .sge (col32 i (ix2 k u)) 0#32) (IntOp.cmpi .sle (col32 i (ix2 k u)) 31#32) = 1#1
  have := (f k).isLt
  rw [col32_apply i f hi k u, Cert.Proof.LibTake.cmpi_sge_zero _ (by omega),
    Cert.Proof.LibTake.cmpi_sle_bound _ 31 (by omega) (by omega)]
  rfl

/-- Positions that are words of numbers inside the axis pass the wrap unchanged and reach the column as they are. -/
theorem col1_apply (i : IVec S1 32) (f : Fin 1 → Fin 1) (hi : ∀ k, i (ix1 k) = BitVec.ofNat 32 (f k).val)
    (k : Fin 1) (u : Fin 1) : col1 i (ix2 k u) = BitVec.ofNat 32 (f k).val := by
  unfold col1
  rw [Cert.LibBroadcastRead.bcast_column_apply]
  show Scalar.select (IntOp.cmpi .slt (i (ix1 k)) 0#32) (IntOp.addi (i (ix1 k)) 1#32) (i (ix1 k)) = _
  have := (f k).isLt
  rw [hi k]
  exact Cert.LibIdxPair.wrap_ofNat _ (by omega) _

/-- … and every one of them passes the in-range test. -/
theorem inRange1_apply (i : IVec S1 32) (f : Fin 1 → Fin 1) (hi : ∀ k, i (ix1 k) = BitVec.ofNat 32 (f k).val)
    (t : S1.Idx) : inRange1 i t = 1#1 := by
  unfold inRange1
  refine Cert.Proof.LibTake.reduce_andi_ones _ _ _ _ (fun j => ?_) rfl t
  obtain ⟨k, u, rfl⟩ : ∃ (k : Fin 1) (u : Fin 1), j = ix2 k u := ⟨j 0, j 1, eq_ix2 j⟩
  show IntOp.andi (IntOp.cmpi .sge (col1 i (ix2 k u)) 0#32) (IntOp.cmpi .sle (col1 i (ix2 k u)) 0#32) = 1#1
  have := (f k).isLt
  rw [col1_apply i f hi k u, Cert.Proof.LibTake.cmpi_sge_zero _ (by omega),
    Cert.Proof.LibTake.cmpi_sle_bound _ 0 (by omega) (by omega)]
  rfl

/-- Positions that are words of numbers inside the axis pass the wrap unchanged and reach the column as they are. -/
theorem col512_apply (i : IVec S512 32) (f : Fin 512 → Fin 512) (hi : ∀ k, i (ix1 k) = BitVec.ofNat 32 (f k).val)
    (k : Fin 512) (u : Fin 1) : col512 i (ix2 k u) = BitVec.ofNat 32 (f k).val := by
  unfold col512
  rw [Cert.LibBroadcastRead.bcast_column_apply]
  show Scalar.select (IntOp.cmpi .slt (i (ix1 k)) 0#32) (IntOp.addi (i (ix1 k)) 512#32) (i (ix1 k)) = _
  have := (f k).isLt
  rw [hi k]
  exact Cert.LibIdxPair.wrap_ofNat _ (by omega) _

/-- … and every one of them passes the in-range test. -/
theorem inRange512_apply (i : IVec S512 32) (f : Fin 512 → Fin 512) (hi : ∀ k, i (ix1 k) = BitVec.ofNat 32 (f k).val)
    (t : S512.Idx) : inRange512 i t = 1#1 := by
  unfold inRange512
  refine Cert.Proof.LibTake.reduce_andi_ones _ _ _ _ (fun j => ?_) rfl t
  obtain ⟨k, u, rfl⟩ : ∃ (k : Fin 512) (u : Fin 1), j = ix2 k u := ⟨j 0, j 1, eq_ix2 j⟩
  show IntOp.andi (IntOp.cmpi .sge (col512 i (ix2 k u)) 0#32) (IntOp.cmpi .sle (col512 i (ix2 k u)) 511#32) = 1#1
  have := (f k).isLt
  rw [col512_apply i f hi k u, Cert.Proof.LibTake.cmpi_sge_zero _ (by omega),
    Cert.Proof.LibTake.cmpi_sle_bound _ 511 (by omega) (by omega)]
  rfl

/-- The take along axis 0 at positions inside the axis: the mask at the position's row, the other coordinates kept. -/
theorem take0_apply (x : IVec S32x1x512x512 1) (i : IVec S32 32) (f : Fin 32 → Fin 32)
    (hi : ∀ k, i (ix1 k) = BitVec.ofNat 32 (f k).val) (b : Fin 32) (r c : Fin 512) :
    take0 x i (ix4 b (0 : Fin 1) r c) = x (ix4 (f b) (0 : Fin 1) r c) := by
  have hm : broadcastInDim S32x1x512x512 ![0] bcast_S32_S32x1x512x512_0 (inRange32 i) (ix4 b (0 : Fin 1) r c) = 1#1 :=
    inRange32_apply i f hi _
  unfold take0
  rw [select_apply, hm, select_one, gather0_apply]
  refine congrArg x (ix4_ext _ _ _ _ _ ?_ rfl rfl rfl)
  show min (col32 i (ix2 b (0 : Fin 1))).toInt.toNat 31 = (f b).val
  have := (f b).isLt
  rw [col32_apply i f hi b 0, Cert.Proof.LibTake.toInt_toNat_ofNat_small _ (by omega)]
  omega

/-- The take along axis 1 at positions inside the axis: the mask at the position's row, the other coordinates kept. -/
theorem take1_apply (x : IVec S32x1x512x512 1) (i : IVec S1 32) (f : Fin 1 → Fin 1)
    (hi : ∀ k, i (ix1 k) = BitVec.ofNat 32 (f k).val) (b : Fin 32) (r c : Fin 512) :
    take1 x i (ix4 b (0 : Fin 1) r c) = x (ix4 b (0 : Fin 1) r c) := by
  have hm : broadcastInDim S32x1x512x512 ![1] bcast_S1_S32x1x512x512_1 (inRange1 i) (ix4 b (0 : Fin 1) r c) = 1#1 :=
    inRange1_apply i f hi _
  unfold take1
  rw [select_apply, hm, select_one, gather1_apply]
  refine congrArg x (ix4_ext _ _ _ _ _ rfl ?_ rfl rfl)
  show min (col1 i (ix2 (0 : Fin 1) (0 : Fin 1))).toInt.toNat 0 = 0
  have := (f (0 : Fin 1)).isLt
  rw [col1_apply i f hi (0 : Fin 1) 0, Cert.Proof.LibTake.toInt_toNat_ofNat_small _ (by omega)]
  omega

/-- The take along axis 2 at positions inside the axis: the mask at the position's row, the other coordinates kept. -/
theorem take2_apply (x : IVec S32x1x512x512 1) (i : IVec S512 32) (f : Fin 512 → Fin 512)
    (hi : ∀ k, i (ix1 k) = BitVec.ofNat 32 (f k).val) (b : Fin 32) (r c : Fin 512) :
    take2 x i (ix4 b (0 : Fin 1) r c) = x (ix4 b (0 : Fin 1) (f r) c) := by
  have hm : broadcastInDim S32x1x512x512 ![2] bcast_S512_S32x1x512x512_2 (inRange512 i) (ix4 b (0 : Fin 1) r c) = 1#1 :=
    inRange512_apply i f hi _
  unfold take2
  rw [select_apply, hm, select_one, gather2_apply]
  refine congrArg x (ix4_ext _ _ _ _ _ rfl rfl ?_ rfl)
  show min (col512 i (ix2 r (0 : Fin 1))).toInt.toNat 511 = (f r).val
  have := (f r).isLt
  rw [col512_apply i f hi r 0, Cert.Proof.LibTake.toInt_toNat_ofNat_small _ (by omega)]
  omega

/-- The take along axis 3 at positions inside the axis: the mask at the position's row, the other coordinates kept. -/
theorem take3_apply (x : IVec S32x1x512x512 1) (i : IVec S512 32) (f : Fin 512 → Fin 512)
    (hi : ∀ k, i (ix1 k) = BitVec.ofNat 32 (f k).val) (b : Fin 32) (r c : Fin 512) :
    take3 x i (ix4 b (0 : Fin 1) r c) = x (ix4 b (0 : Fin 1) r (f c)) := by
  have hm : broadcastInDim S32x1x512x512 ![3] bcast_S512_S32x1x512x512_3 (inRange512 i) (ix4 b (0 : Fin 1) r c) = 1#1 :=
    inRange512_apply i f hi _
  unfold take3
  rw [select_apply, hm, select_one, gather3_apply]
  refine congrArg x (ix4_ext _ _ _ _ _ rfl rfl rfl ?_)
  show min (col512 i (ix2 c (0 : Fin 1))).toInt.toNat 511 = (f c).val
  have := (f c).isLt
  rw [col512_apply i f hi c 0, Cert.Proof.LibTake.toInt_toNat_ofNat_small _ (by omega)]
  omega

end Cert.ReferenceIdeal.RefRead
-- ==== Proof.RefReadBnd.lean ====
/-
  The boundary indicator read at an index.

  The foreground bit of an element is "target above one half".  Each of the eight takes reads that bit at a clamped
  neighbour: one step up or down the batch, the row or the column axis — and, along the channel axis of extent 1,
  at the element itself.  Complemented and joined by or, then met with the element's own bit, the two channel terms
  "the element is background" contribute nothing, and what is left is: the element is foreground and one of its six
  neighbours is background.  As a float the bit is 1 or 0.
-/
import proofs.«111375_j65884798321056_2_alg».proof.Proof.RefTerm
import proofs.«111375_j65884798321056_2_alg».proof.Proof.RefReadIdx
import proofs.«111375_j65884798321056_2_alg».proof.Proof.RefReadTake
import proofs.«111375_j65884798321056_2_alg».proof.Proof.Spec
import Idealize.ShloMosaic.PureOps.Ideal.Laws

namespace Cert.ReferenceIdeal.RefRead

open Idealize.ShloMosaic Idealize.ShloMosaic.ValueIdx Cert.ReferenceIdeal Cert.ReferenceIdeal.RefTerm
open Facts₀ Facts

/-! ## Bits -/

/-- The join of the eight complemented neighbour bits, met with the element's bit `a`: the two terms that complement
    `a` itself drop out. -/
theorem bits_join (a b1 b2 b3 b4 b5 b6 : Bool) :
    IntOp.andi (BitVec.ofBool a)
      (IntOp.ori (IntOp.ori (IntOp.ori (IntOp.ori (IntOp.ori (IntOp.ori (IntOp.ori (IntOp.ori 0#1
        (~~~BitVec.ofBool b1)) (~~~BitVec.ofBool b2)) (~~~BitVec.ofBool a)) (~~~BitVec.ofBool a))
        (~~~BitVec.ofBool b3)) (~~~BitVec.ofBool b4)) (~~~BitVec.ofBool b5)) (~~~BitVec.ofBool b6))
      = BitVec.ofBool (a && (!b1 || !b2 || !b3 || !b4 || !b5 || !b6)) := by
  revert a b1 b2 b3 b4 b5 b6; decide

/-- A bit as an unsigned number, as an extended real: 1 or 0. -/
theorem ofBool_cast (q : Bool) : (((BitVec.ofBool q).toNat : ℝ) : EReal) = if q = true then 1 else 0 := by
  cases q <;> simp

/-- The word of 1.0 is the extended real 1. -/
theorem ofBits_one_f32 : Ideal.ofBits .f32 0x3F800000#32 = 1 := by
  simp [Ideal.ofBits, Ideal.ieee]
  rw [← EReal.coe_mul, ← EReal.coe_one]
  congr 1
  norm_num

/-! ## The stages -/

variable [Facts]

/-- The foreground bit of an element. -/
theorem fg_apply (T : FVec Ideal S32x1x512x512 .f32) (j : S32x1x512x512.Idx) :
    fg (F := Ideal) T j = BitVec.ofBool (decide (Cert.Spec.half < T j)) := rfl

/-- The join of the complemented neighbour reads at (b, 0, r, c), each take read at its clamped neighbour. -/
theorem hasBg_apply (T : FVec Ideal S32x1x512x512 .f32) (b : Fin 32) (r c : Fin 512) :
    hasBg (F := Ideal) T (ix4 b (0 : Fin 1) r c)
      = IntOp.ori (IntOp.ori (IntOp.ori (IntOp.ori (IntOp.ori (IntOp.ori (IntOp.ori (IntOp.ori 0#1
          (~~~fg (F := Ideal) T (ix4 (Cert.Spec.up b) (0 : Fin 1) r c)))
          (~~~fg (F := Ideal) T (ix4 (Cert.Spec.dn b) (0 : Fin 1) r c)))
          (~~~fg (F := Ideal) T (ix4 b (0 : Fin 1) r c)))
          (~~~fg (F := Ideal) T (ix4 b (0 : Fin 1) r c)))
          (~~~fg (F := Ideal) T (ix4 b (0 : Fin 1) (Cert.Spec.up r) c)))
          (~~~fg (F := Ideal) T (ix4 b (0 : Fin 1) (Cert.Spec.dn r) c)))
          (~~~fg (F := Ideal) T (ix4 b (0 : Fin 1) r (Cert.Spec.up c))))
          (~~~fg (F := Ideal) T (ix4 b (0 : Fin 1) r (Cert.Spec.dn c))) := by
  show IntOp.ori (IntOp.ori (IntOp.ori (IntOp.ori (IntOp.ori (IntOp.ori (IntOp.ori (IntOp.ori 0#1
          (~~~take0 (fg (F := Ideal) T) up32 (ix4 b (0 : Fin 1) r c)))
          (~~~take0 (fg (F := Ideal) T) dn32 (ix4 b (0 : Fin 1) r c)))
          (~~~take1 (fg (F := Ideal) T) up1 (ix4 b (0 : Fin 1) r c)))
          (~~~take1 (fg (F := Ideal) T) dn1 (ix4 b (0 : Fin 1) r c)))
          (~~~take2 (fg (F := Ideal) T) up512 (ix4 b (0 : Fin 1) r c)))
          (~~~take2 (fg (F := Ideal) T) dn512 (ix4 b (0 : Fin 1) r c)))
          (~~~take3 (fg (F := Ideal) T) up512 (ix4 b (0 : Fin 1) r c)))
          (~~~take3 (fg (F := Ideal) T) dn512 (ix4 b (0 : Fin 1) r c)) = _
  rw [take0_apply _ up32 Cert.Spec.up up32_apply, take0_apply _ dn32 Cert.Spec.dn dn32_apply,
    take1_apply _ up1 Cert.Spec.up up1_apply, take1_apply _ dn1 Cert.Spec.dn dn1_apply,
    take2_apply _ up512 Cert.Spec.up up512_apply, take2_apply _ dn512 Cert.Spec.dn dn512_apply,
    take3_apply _ up512 Cert.Spec.up up512_apply, take3_apply _ dn512 Cert.Spec.dn dn512_apply]

/-- The reference's boundary indicator at (b, 0, r, c) is the specification's. -/
theorem bndF_apply (T : FVec Ideal S32x1x512x512 .f32) (b : Fin 32) (r c : Fin 512) :
    bndF (F := Ideal) T (ix4 b (0 : Fin 1) r c) = Cert.Spec.bnd T b r c := by
  have e : bndF (F := Ideal) T (ix4 b (0 : Fin 1) r c)
      = (((IntOp.andi (fg (F := Ideal) T (ix4 b (0 : Fin 1) r c)) (hasBg (F := Ideal) T (ix4 b (0 : Fin 1) r c))).toNat : ℝ)
          : EReal) := rfl
  rw [e, hasBg_apply]
  simp only [fg_apply]
  rw [bits_join, ofBool_cast]
  unfold Cert.Spec.bnd
  have hq : ((decide (Cert.Spec.half < T (ix4 b (0 : Fin 1) r c))
        && (!decide (Cert.Spec.half < T (ix4 (Cert.Spec.up b) (0 : Fin 1) r c))
          || !decide (Cert.Spec.half < T (ix4 (Cert.Spec.dn b) (0 : Fin 1) r c))
          || !decide (Cert.Spec.half < T (ix4 b (0 : Fin 1) (Cert.Spec.up r) c))
          || !decide (Cert.Spec.half < T (ix4 b (0 : Fin 1) (Cert.Spec.dn r) c))
          || !decide (Cert.Spec.half < T (ix4 b (0 : Fin 1) r (Cert.Spec.up c)))
          || !decide (Cert.Spec.half < T (ix4 b (0 : Fin 1) r (Cert.Spec.dn c))))) = true)
      ↔ (Cert.Spec.half < T (ix4 b (0 : Fin 1) r c) ∧ Cert.Spec.hasBg T b r c) := by
    unfold Cert.Spec.hasBg
    simp only [Bool.and_eq_true, Bool.or_eq_true, Bool.not_eq_true', decide_eq_true_eq, decide_eq_false_iff_not,
      not_lt, or_assoc]
  by_cases hP : Cert.Spec.half < T (ix4 b (0 : Fin 1) r c) ∧ Cert.Spec.hasBg T b r c
  · rw [if_pos hP, if_pos (hq.mpr hP)]
    exact ofBits_one_f32.symm
  · rw [if_neg hP, if_neg (fun h => hP (hq.mp h))]
    exact Ideal.ofBits_zero_f32.symm

end Cert.ReferenceIdeal.RefRead
-- ==== Proof.RefValue.lean ====
/-
  The reference's composed term is the common function.

  Read at its one index, the term is the arithmetic of the specification's `combine` on four full sums of the
  argument arrays and one of the boundary indicator; each full sum is the nested sum over batch, row and column,
  the cross-entropy term is pointwise the specification's, and the boundary indicator is pointwise the
  specification's.
-/
import proofs.«111375_j65884798321056_2_alg».proof.Proof.RefTerm
import proofs.«111375_j65884798321056_2_alg».proof.Proof.RefReadSum
import proofs.«111375_j65884798321056_2_alg».proof.Proof.RefReadBnd
import proofs.«111375_j65884798321056_2_alg».proof.Proof.Spec

namespace Cert.ReferenceIdeal.RefValue

open Idealize.ShloMosaic Idealize.ShloMosaic.ValueIdx Cert.ReferenceIdeal Cert.ReferenceIdeal.RefTerm
  Cert.ReferenceIdeal.RefRead
open Facts₀ Facts

variable [Facts]

/-- The cross-entropy term of an element is the specification's, of that element's prediction and target. -/
theorem bceEl_apply (P T : FVec Ideal S32x1x512x512 .f32) (i : S32x1x512x512.Idx) :
    bceEl (F := Ideal) P T i = Cert.Spec.bce (P i) (T i) := rfl

/-- The reference's result, as a function of its two arguments at the ideal values, is the specification. -/
theorem term_eq (P T : FVec Ideal S32x1x512x512 .f32) : term (F := Ideal) P T = Cert.Spec.G P T := by
  funext j
  show (Ideal.ofBits .f32 0x3F800000#32
        - Ideal.div
            (Ideal.ofBits .f32 0x40000000#32 * sumAll (F := Ideal) (mulf P T) j + Ideal.ofBits .f32 0x3727C5AC#32)
            ((sumAll (F := Ideal) P j + sumAll (F := Ideal) T j) + Ideal.ofBits .f32 0x3727C5AC#32))
      + (Ideal.ofBits .f32 0x41200000#32
          * -(Ideal.div (sumAll (F := Ideal) (bceEl (F := Ideal) P T) j) (Ideal.ofBits .f32 0x4B000000#32)))
        * Ideal.div (sumAll (F := Ideal) (bndF (F := Ideal) T) j) (Ideal.ofBits .f32 0x4B000000#32) = _
  simp only [sumAll_apply, bndF_apply]
  rfl

end Cert.ReferenceIdeal.RefValue
-- ==== Proof.lean ====
/-
  The certificate's proof: a boundary-aware dice loss computed by a grid kernel against its jnp reference.

  Both programs compute, from predictions P and targets T of shape [32,1,512,512] read as extended reals,
      (1 - (2·Σ P·T + s) / ((Σ P + Σ T) + s))  +  (10 · (-(Σ bce / n))) · (Σ bnd / n)
  (Cert.Spec.G).  The kernel forms the five sums per batch entry on a 2 x 16 grid — the boundary mask from the
  entry's own rows and columns shifted by one with the edge repeated and from the neighbouring batch entries, staged
  through two more windows on the target array —, accumulates them in a scratch tile per core, writes the tile to
  one block per core and lets the host add the two blocks and finish the arithmetic.  The reference takes the sums
  over whole arrays, its shifts being gathers at clamped positions.  Over the extended reals a sum does not depend
  on its grouping, so the two agree; no finiteness of the inputs is used.

  The three frames: each program terminates without a fault and leaves its arguments as launched — the kernel's by
  running the body at each of the three kinds of grid point (a core's first, a middle one, its last) and launching
  the region with the target array shared out among its three windows; the reference's from its run.
-/
import proofs.«111375_j65884798321056_2_alg».proof.Defs
import proofs.«111375_j65884798321056_2_alg».proof.Proof.Gen.Pre_finite_inputs
import proofs.«111375_j65884798321056_2_alg».proof.Proof.FrFrameBits
import proofs.«111375_j65884798321056_2_alg».proof.Proof.FrTailIdeal
import proofs.«111375_j65884798321056_2_alg».proof.Proof.FrVal4Ideal
import proofs.«111375_j65884798321056_2_alg».proof.Proof.KVOut
import proofs.«111375_j65884798321056_2_alg».proof.Proof.RefRunMain
import proofs.«111375_j65884798321056_2_alg».proof.Proof.RefValue
import Idealize.ShloMosaic.Adequacy
import Idealize.ShloMosaic.Init

noncomputable section

namespace Cert.Proof

open Idealize.ShloMosaic Idealize.ShloMosaic.TcCoe Idealize.SL.Sem

/-- The idealized kernel's run: the result buffer holds the common function of the argument arrays. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v25)
        = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run (Cert.KernelIdeal.defs (F := Ideal)) _ _).mono (fun r h c =>
    ⟨(h c).1.trans ((congrArg Cert.KernelIdeal.KV.tail (Cert.KernelIdeal.Fr.final4 m c)).trans (Cert.KernelIdeal.KV.tail_outArr _ _)), (h c).2⟩)
    (Cert.KernelIdeal.Fr.run_tail m ρ)

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run (Cert.ReferenceIdeal.defs (F := Ideal)) _ _).mono (fun _ h c => (h c).2) (Cert.ReferenceIdeal.RefRun.run (F := Ideal) m ρ)

/-- Both idealized programs, run from memories agreeing on the arguments, end with the common function's value. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    kernel_run m ρ, ?_⟩
  refine (θ_run (Cert.ReferenceIdeal.defs (F := Ideal)) _ _).mono (fun _ h c => ⟨(h c).1.trans ?_, (h c).2⟩)
    (Cert.ReferenceIdeal.RefRun.run (F := Ideal) m' ρ')
  rw [Cert.ReferenceIdeal.RefValue.term_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
